-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x4096 : Shape := ⟨3, ![4, 256, 4096]⟩
abbrev S256x256 : Shape := ⟨2, ![256, 256]⟩
abbrev S256 : Shape := ⟨1, ![256]⟩
abbrev S_ : Shape := ⟨0, ![]⟩

class Facts : Prop where
  bcast_S_S4x256x4096 : S_.BroadcastsInDim S4x256x4096 (![] : Fin 0 → Fin S4x256x4096.rank)
  reducesTo_S4x256x4096_S_d0_1_2 : S4x256x4096.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S4x256x4096 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S4x256x4096 .f32 := Host.absf main_arg0
  let main_cst : FVec F S_ .f32 := constant S_ .f32 0x7F800000#32
  let main_v1 : FVec F S4x256x4096 .f32 := broadcastInDim S4x256x4096 ![] bcast_S_S4x256x4096 main_cst
  let main_v2 : IVec S4x256x4096 1 := cmpf .olt main_v0 main_v1
  let main_c : IVec S_ 1 := constantI S_ 1 1#1
  let main_v3 : IVec S_ 1 := (fun x v => Host.reduce IntOp.andi x v reducesTo_S4x256x4096_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S4x256x4096 : Shape := ⟨3, ![4, 256, 4096]⟩
abbrev S256x256 : Shape := ⟨2, ![256, 256]⟩
abbrev S256 : Shape := ⟨1, ![256]⟩
abbrev S256x1 : Shape := ⟨2, ![256, 1]⟩
abbrev S1x256x512 : Shape := ⟨3, ![1, 256, 512]⟩
abbrev S256x512 : Shape := ⟨2, ![256, 512]⟩
abbrev S4x1x4096 : Shape := ⟨3, ![4, 1, 4096]⟩
abbrev S1x1x512 : Shape := ⟨3, ![1, 1, 512]⟩
abbrev S1x512 : Shape := ⟨2, ![1, 512]⟩
abbrev S512x512 : Shape := ⟨2, ![512, 512]⟩
abbrev S512 : Shape := ⟨1, ![512]⟩
abbrev S4x4096x4096 : Shape := ⟨3, ![4, 4096, 4096]⟩
abbrev S1x256x1024 : Shape := ⟨3, ![1, 256, 1024]⟩
abbrev S1x1024x512 : Shape := ⟨3, ![1, 1024, 512]⟩
abbrev S256x1024 : Shape := ⟨2, ![256, 1024]⟩
abbrev S1024x512 : Shape := ⟨2, ![1024, 512]⟩

abbrev nBuf : Space → Nat
  | .hbm => 17
  | .vmem => 39
  | .smem => 0
  | _ => 0

abbrev bufTy : (tb : Table) → Fin (tcTables nBuf tb) → BufTy
  | .hbm, ⟨0, _⟩ => ⟨S4x256x4096, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S256x1, .f32⟩
  | .hbm, ⟨10, _⟩ => ⟨S4x256x4096, .bf16⟩
  | .hbm, ⟨11, _⟩ => ⟨S4x256x4096, .bf16⟩
  | .hbm, ⟨12, _⟩ => ⟨S4x256x4096, .bf16⟩
  | .hbm, ⟨13, _⟩ => ⟨S4x1x4096, .f32⟩
  | .hbm, ⟨14, _⟩ => ⟨S4x1x4096, .f32⟩
  | .hbm, ⟨15, _⟩ => ⟨S4x256x4096, .f32⟩
  | .hbm, ⟨16, _⟩ => ⟨S4x4096x4096, .f32⟩
  | .local _ .vmem, ⟨0, _⟩ => ⟨S1x256x512, .f32⟩
  | .local _ .vmem, ⟨1, _⟩ => ⟨S1x256x512, .f32⟩
  | .local _ .vmem, ⟨2, _⟩ => ⟨S256x256, .f32⟩
  | .local _ .vmem, ⟨3, _⟩ => ⟨S256x1, .f32⟩
  | .local _ .vmem, ⟨4, _⟩ => ⟨S256x256, .f32⟩
  | .local _ .vmem, ⟨5, _⟩ => ⟨S256x1, .f32⟩
  | .local _ .vmem, ⟨6, _⟩ => ⟨S256x256, .f32⟩
  | .local _ .vmem, ⟨7, _⟩ => ⟨S256x1, .f32⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S1x512, .f32⟩
  | .local _ .vmem, ⟨23, _⟩ => ⟨S1x512, .f32⟩
  | .local _ .vmem, ⟨24, _⟩ => ⟨S1x256x1024, .bf16⟩
  | .local _ .vmem, ⟨25, _⟩ => ⟨S1x256x1024, .bf16⟩
  | .local _ .vmem, ⟨26, _⟩ => ⟨S1x256x512, .bf16⟩
  | .local _ .vmem, ⟨27, _⟩ => ⟨S1x256x512, .bf16⟩
  | .local _ .vmem, ⟨28, _⟩ => ⟨S1x256x512, .bf16⟩
  | .local _ .vmem, ⟨29, _⟩ => ⟨S1x256x512, .bf16⟩
  | .local _ .vmem, ⟨30, _⟩ => ⟨S1x1x512, .f32⟩
  | .local _ .vmem, ⟨31, _⟩ => ⟨S1x1x512, .f32⟩
  | .local _ .vmem, ⟨32, _⟩ => ⟨S1x1x512, .f32⟩
  | .local _ .vmem, ⟨33, _⟩ => ⟨S1x1x512, .f32⟩
  | .local _ .vmem, ⟨34, _⟩ => ⟨S1x256x1024, .f32⟩
  | .local _ .vmem, ⟨35, _⟩ => ⟨S1x256x1024, .f32⟩
  | .local _ .vmem, ⟨36, _⟩ => ⟨S1x1024x512, .f32⟩
  | .local _ .vmem, ⟨37, _⟩ => ⟨S1x1024x512, .f32⟩
  | .local _ .vmem, ⟨38, _⟩ => ⟨S256x1024, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4_0 : Ref sig .tc := ⟨.hbm, 13, rfl⟩
abbrev main_v4_1 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![4, 8, 8], ![false, false, false]⟩

def k1_cond3 (i : grid1.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 4, 8], ![false, false, false]⟩

def k2_cond4 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_4 : BitVec 32 := 0#32
  let v15 : BitVec 1 := Scalar.cmpi .ne v14 c0_i32_4
  v15

def k2_cond2 (i : grid2.Coords) : BitVec 1 :=
  let arg2 : BitVec 32 := BitVec.ofNat 32 (i 2).val
  let c512_i32 : BitVec 32 := 512#32
  let v3 : BitVec 32 := Scalar.muli arg2 c512_i32
  let arg1 : BitVec 32 := BitVec.ofNat 32 (i 1).val
  let c1024_i32 : BitVec 32 := 1024#32
  let v4 : BitVec 32 := Scalar.muli arg1 c1024_i32
  let c1024_i32_1 : BitVec 32 := 1024#32
  let v5 : BitVec 32 := Scalar.addi v4 c1024_i32_1
  let c1_i32 : BitVec 32 := 1#32
  let v6 : BitVec 32 := Scalar.subi v5 c1_i32
  let v7 : BitVec 1 := Scalar.cmpi .sle v3 v6
  let v8 : BitVec 32 := Scalar.extui v7
  let c0_i32_2 : BitVec 32 := 0#32
  let v9 : BitVec 1 := Scalar.cmpi .ne v8 c0_i32_2
  v9

def k2_cond3 (i : grid2.Coords) : BitVec 1 :=
  let arg2 : BitVec 32 := BitVec.ofNat 32 (i 2).val
  let c512_i32 : BitVec 32 := 512#32
  let v3 : BitVec 32 := Scalar.muli arg2 c512_i32
  let arg1 : BitVec 32 := BitVec.ofNat 32 (i 1).val
  let c1024_i32 : BitVec 32 := 1024#32
  let v4 : BitVec 32 := Scalar.muli arg1 c1024_i32
  let c1024_i32_1 : BitVec 32 := 1024#32
  let v5 : BitVec 32 := Scalar.addi v4 c1024_i32_1
  let c1_i32 : BitVec 32 := 1#32
  let v6 : BitVec 32 := Scalar.subi v5 c1_i32
  let v7 : BitVec 1 := Scalar.cmpi .sle v3 v6
  let v_true : BitVec 1 := 1#1
  let v10 : BitVec 1 := Scalar.xori v7 v_true
  let v11 : BitVec 32 := Scalar.extui v10
  let c0_i32_3 : BitVec 32 := 0#32
  let v12 : BitVec 1 := Scalar.cmpi .ne v11 c0_i32_3
  v12

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.minsi arg2 v2
  let c0_i32 : BitVec 32 := 0#32
  let c0_i32_1 : BitVec 32 := 0#32
  ![arg0.toNat, c0_i32.toNat, v3.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.minsi arg2 v2
  let c0_i32 : BitVec 32 := 0#32
  let c0_i32_1 : BitVec 32 := 0#32
  ![arg0.toNat, c0_i32.toNat, v3.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x256x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x256x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S1x1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, true]

abbrev stage2_5 : Fin 2 → Memref sig .tc .vmem S1x256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S1x1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, true]

class Facts₀ : Prop where
  shapeCasts_S256_S256x1 : S256.ShapeCasts S256x1
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x512 : S256x1.Broadcasts S256x512
  shapeCasts_S256x512_S1x256x512 : S256x512.ShapeCasts S1x256x512
  packedbf16_S1x256x512_S1x256x512_0_0_0 : (Rect.unit (s := S1x256x512) ![0, 0, 0] S1x256x512.size inb_S1x256x512_S1x256x512_0_0_0).PackedRows (EltTy.packing .bf16)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S512x512_d0_w32 : S512x512.Iotas .tc 32 [0]
  iota_S512x512_d1_w32 : S512x512.Iotas .tc 32 [1]
  reduces_S512x512_S512 : S512x512.Reduces [0] S512
  shapeCasts_S512_S1x512 : S512.ShapeCasts S1x512
  broadcasts_S1x512_S512x512 : S1x512.Broadcasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  iota_S1024x512_d0_w32 : S1024x512.Iotas .tc 32 [0]
  iota_S1024x512_d1_w32 : S1024x512.Iotas .tc 32 [1]
  broadcasts_S1x512_S1024x512 : S1x512.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  shapeCasts_S256x1024_S1x256x1024 : S256x1024.ShapeCasts S1x256x1024
  dot_S256x256_S256x512_S256x512_1_0_0_1_n_n_wf : DotDims.WF S256x256 S256x512 S256x512 [1] [0] [0] [1] [] []
  dot_S256x512_S256x512_S512x512_0_0_1_1_n_n_wf : DotDims.WF S256x512 S256x512 S512x512 [0] [0] [1] [1] [] []
  dot_S256x1024_S256x512_S1024x512_0_0_1_1_n_n_wf : DotDims.WF S256x1024 S256x512 S1024x512 [0] [0] [1] [1] [] []
  dot_S256x512_S1024x512_S256x1024_1_1_0_0_n_n_wf : DotDims.WF S256x512 S1024x512 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x256x4096.size a
  hwx0_0 : ∀ i : grid0.Coords, EltTy.bits .f32 = 32 ∨ (Rect.block (s := S4x256x4096) S1x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x512.size a ≤ S4x256x4096.size a
  hwx0_7 : ∀ i : grid0.Coords, EltTy.bits .bf16 = 32 ∨ (Rect.block (s := S4x256x4096) S1x256x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x512.size a ≤ S4x256x4096.size a
  hwx0_8 : ∀ i : grid0.Coords, EltTy.bits .bf16 = 32 ∨ (Rect.block (s := S4x256x4096) S1x256x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x512.size a ≤ S4x256x4096.size a
  hwx0_9 : ∀ i : grid0.Coords, EltTy.bits .bf16 = 32 ∨ (Rect.block (s := S4x256x4096) S1x256x512.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S4x256x4096.size a
  hwx1_0 : ∀ i : grid1.Coords, EltTy.bits .bf16 = 32 ∨ (Rect.block (s := S4x256x4096) S1x256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x512.size a ≤ S4x256x4096.size a
  hwx1_1 : ∀ i : grid1.Coords, EltTy.bits .bf16 = 32 ∨ (Rect.block (s := S4x256x4096) S1x256x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S4x1x4096.size a
  hwx1_2 : ∀ i : grid1.Coords, EltTy.bits .f32 = 32 ∨ (Rect.block (s := S4x1x4096) S1x1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S4x1x4096.size a
  hwx1_3 : ∀ i : grid1.Coords, EltTy.bits .f32 = 32 ∨ (Rect.block (s := S4x1x4096) S1x1x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x1024.size a ≤ S4x256x4096.size a
  hwx2_0 : ∀ i : grid2.Coords, EltTy.bits .bf16 = 32 ∨ (Rect.block (s := S4x256x4096) S1x256x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x512.size a ≤ S4x256x4096.size a
  hwx2_1 : ∀ i : grid2.Coords, EltTy.bits .bf16 = 32 ∨ (Rect.block (s := S4x256x4096) S1x256x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x512.size a ≤ S4x256x4096.size a
  hwx2_2 : ∀ i : grid2.Coords, EltTy.bits .bf16 = 32 ∨ (Rect.block (s := S4x256x4096) S1x256x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x512.size a ≤ S4x1x4096.size a
  hwx2_3 : ∀ i : grid2.Coords, EltTy.bits .f32 = 32 ∨ (Rect.block (s := S4x1x4096) S1x1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x512.size a ≤ S4x1x4096.size a
  hwx2_4 : ∀ i : grid2.Coords, EltTy.bits .f32 = 32 ∨ (Rect.block (s := S4x1x4096) S1x1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x256x1024.size a ≤ S4x256x4096.size a
  hwx2_5 : ∀ i : grid2.Coords, EltTy.bits .f32 = 32 ∨ (Rect.block (s := S4x256x4096) S1x256x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024x512.size a ≤ S4x4096x4096.size a
  hwx2_6 : ∀ i : grid2.Coords, EltTy.bits .f32 = 32 ∨ (Rect.block (s := S4x4096x4096) S1x1024x512.size (cc2_transform_6 i) (hinb2_6 i)).WholeWords (EltTy.packing .f32)

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S256x512_S512x512_0_0_1_1_n_n : DotDims S256x512 S256x512 S512x512 where
  lhsContracting := [0]
  rhsContracting := [0]
  lhsNonContracting := [1]
  rhsNonContracting := [1]
  lhsBatch := []
  rhsBatch := []
  wf := dot_S256x512_S256x512_S512x512_0_0_1_1_n_n_wf
def dot_S256x1024_S256x512_S1024x512_0_0_1_1_n_n : DotDims S256x1024 S256x512 S1024x512 where
  lhsContracting := [0]
  rhsContracting := [0]
  lhsNonContracting := [1]
  rhsNonContracting := [1]
  lhsBatch := []
  rhsBatch := []
  wf := dot_S256x1024_S256x512_S1024x512_0_0_1_1_n_n_wf
def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1x256x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1x256x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S1x256x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v3_0) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S1x1x512.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_1) S1x1x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond3 i == 1#1) | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v3_0) S1x256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_1) S1x256x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_2) S1x256x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4_0) S1x1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4_1) S1x1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v5_0) S1x256x1024.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v5_1) S1x1024x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond4 i == 1#1) | 6 => fun i => !(k2_cond2 i == 1#1) && !(k2_cond3 i == 1#1) | ⟨_ + 7, h⟩ => absurd h (Nat.not_lt.2 (Nat.le_add_left _ _))

class Facts : Prop extends Facts₀ where

variable [Facts]
-- ==== ReferenceIdeal.lean ====
abbrev S4x256x4096 : Shape := ⟨3, ![4, 256, 4096]⟩
abbrev S256x256 : Shape := ⟨2, ![256, 256]⟩
abbrev S256 : Shape := ⟨1, ![256]⟩
abbrev S4x4096x256 : Shape := ⟨3, ![4, 4096, 256]⟩
abbrev S1x1x256 : Shape := ⟨3, ![1, 1, 256]⟩
abbrev S4x4096x4096 : Shape := ⟨3, ![4, 4096, 4096]⟩
abbrev S_ : Shape := ⟨0, ![]⟩
abbrev S4096x4096 : Shape := ⟨2, ![4096, 4096]⟩
abbrev S1x4096x4096 : Shape := ⟨3, ![1, 4096, 4096]⟩
abbrev S4x4096 : Shape := ⟨2, ![4, 4096]⟩
abbrev S4x1x4096 : Shape := ⟨3, ![4, 1, 4096]⟩

abbrev nBuf : Space → Nat
  | .hbm => 57
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S4x4096x256, .f32⟩
  | .hbm, ⟨8, _⟩ => ⟨S4x4096x256, .f32⟩
  | .hbm, ⟨9, _⟩ => ⟨S1x1x256, .f32⟩
  | .hbm, ⟨10, _⟩ => ⟨S4x4096x256, .f32⟩
  | .hbm, ⟨11, _⟩ => ⟨S4x4096x256, .f32⟩
  | .hbm, ⟨12, _⟩ => ⟨S4x4096x256, .f32⟩
  | .hbm, ⟨13, _⟩ => ⟨S1x1x256, .f32⟩
  | .hbm, ⟨14, _⟩ => ⟨S4x4096x256, .f32⟩
  | .hbm, ⟨15, _⟩ => ⟨S4x4096x256, .f32⟩
  | .hbm, ⟨16, _⟩ => ⟨S4x4096x256, .f32⟩
  | .hbm, ⟨17, _⟩ => ⟨S1x1x256, .f32⟩
  | .hbm, ⟨18, _⟩ => ⟨S4x4096x256, .f32⟩
  | .hbm, ⟨19, _⟩ => ⟨S4x4096x256, .f32⟩
  | .hbm, ⟨20, _⟩ => ⟨S4x4096x4096, .f32⟩
  | .hbm, ⟨21, _⟩ => ⟨S_, .i1⟩
  | .hbm, ⟨22, _⟩ => ⟨S4096x4096, .i1⟩
  | .hbm, ⟨23, _⟩ => ⟨S4096x4096, .i32⟩
  | .hbm, ⟨24, _⟩ => ⟨S_, .i32⟩
  | .hbm, ⟨25, _⟩ => ⟨S4096x4096, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .i1⟩
  | .hbm, ⟨30, _⟩ => ⟨S4096x4096, .i1⟩
  | .hbm, ⟨31, _⟩ => ⟨S4096x4096, .i1⟩
  | .hbm, ⟨32, _⟩ => ⟨S1x4096x4096, .i1⟩
  | .hbm, ⟨33, _⟩ => ⟨S_, .f32⟩
  | .hbm, ⟨34, _⟩ => ⟨S_, .f32⟩
  | .hbm, ⟨35, _⟩ => ⟨S4x4096x4096, .i1⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S4x4096, .f32⟩
  | .hbm, ⟨43, _⟩ => ⟨S_, .f32⟩
  | .hbm, ⟨44, _⟩ => ⟨S4x4096, .f32⟩
  | .hbm, ⟨45, _⟩ => ⟨S4x4096, .f32⟩
  | .hbm, ⟨46, _⟩ => ⟨S4x1x4096, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S_, .f32⟩
  | .hbm, ⟨51, _⟩ => ⟨S4x4096, .f32⟩
  | .hbm, ⟨52, _⟩ => ⟨S4x1x4096, .f32⟩
  | .hbm, ⟨53, _⟩ => ⟨S4x4096x4096, .f32⟩
  | .hbm, ⟨54, _⟩ => ⟨S4x4096x4096, .f32⟩
  | .hbm, ⟨55, _⟩ => ⟨S4x4096x256, .f32⟩
  | .hbm, ⟨56, _⟩ => ⟨S4x256x4096, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_0 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]

class Facts₀ : Prop where
  transposes_S4x256x4096_S4x4096x256_0_2_1 : S4x256x4096.Transposes [0, 2, 1] S4x4096x256
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  transposes_S4x4096x256_S4x256x4096_0_2_1 : S4x4096x256.Transposes [0, 2, 1] S4x256x4096
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.HostSide.lean ====
/-
  The two conjuncts of the claim that do not touch a kernel region.

  * The reference is a straight line of host operations, so its run is read back whole: every weakly fair
    execution ends with each result at the operations' composed term and the arguments as launched. Dropping
    the two results from that statement is the reference's frame.
  * The idealized kernel differs from the printed one at two sites only, both the same scalar: the causal
    mask's fill value, a large negative number in the source, is read as minus infinity. The table of named
    constants gives the name "neg_big" the value ⊥, which is what each of the two ledger entries states.
-/
import proofs.«130694_j5669356831785_2_alg».proof.Defs
import proofs.«130694_j5669356831785_2_alg».proof.Proof.Gen.ReferenceIdeal
import proofs.«130694_j5669356831785_2_alg».proof.Proof.Gen.ReferenceIdeal.Run
import proofs.«130694_j5669356831785_2_alg».proof.Proof.Gen.Pre_finite_inputs

noncomputable section

namespace Cert.Proof.HostSide

open Idealize.ShloMosaic Idealize.ShloMosaic.TcCoe Idealize.SL.Sem

/-- The reference runs to the end without a fault and leaves its seven arguments as it found them. -/
theorem frame_reference
    [hReferenceIdeal : Cert.ReferenceIdeal.Facts] [hPre : Cert.Pre_finite_inputs.Facts] :
    Cert.frame_ReferenceIdeal := fun m ρ _ =>
  (θ_run Cert.ReferenceIdeal.defs _ _).mono (fun _ h c => (h c).2.2)
    (Cert.ReferenceIdeal.Value.run (F := Ideal) m ρ)

/-- The mask fill is minus infinity at the ideal instance, at both sites where the kernel uses it
    (the column statistics pass and the output pass). -/
theorem fill_is_bot : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

end Cert.Proof.HostSide

end
-- ==== Proof.Spec.lean ====
/-
  The mathematics of the certified program, with no program in sight: single-head causal attention whose softmax runs
  over the QUERY axis. From an input x : [4, 256, 4096] (batch, channel, time), three weight matrices [256, 256] and
  three bias vectors [256]:

    q[b,t,k]  = (∑ c, x[b,c,t] · Wq[k,c]) + bq[k]          (likewise kk with Wk, bk and v with Wv, bv)
    sc[b,t,s] = (if s ≤ t then ∑ k, q[b,t,k] · kk[b,s,k] else -∞) / 16
    M[b,s]    = the greatest of sc[b,t,s] over t             (a column's maximum)
    e[b,t,s]  = exp (sc[b,t,s] - M[b,s])
    Z[b,s]    = ∑ t, e[b,t,s]                                (a column's sum)
    w[b,t,s]  = e[b,t,s] / Z[b,s]
    out[b,j,t] = ∑ s, w[b,t,s] · v[b,s,j]

  on the extended reals: -∞ is the bottom element, exp (-∞) = 0, and the quotient is the ideal values' division. The
  two results are `out` : [4, 256, 4096] and `weights` = w : [4, 4096, 4096]. Every function below takes its
  coordinates as numbers below the literal extents 4, 256 and 4096.
-/
import Idealize.ShloMosaic.PureOps.Ideal
import Idealize.ShloMosaic.Lib.ValueIdx

noncomputable section

open scoped BigOperators

namespace Cert.Spec

open Idealize.ShloMosaic Idealize.ShloMosaic.ValueIdx

/-- The input's shape: batch × channel × time. -/
abbrev SX : Shape := ⟨3, ![4, 256, 4096]⟩
/-- A weight matrix's shape: output feature × channel. -/
abbrev SW : Shape := ⟨2, ![256, 256]⟩
/-- A bias vector's shape. -/
abbrev SB : Shape := ⟨1, ![256]⟩
/-- The attention weights' shape: batch × query × key. -/
abbrev SA : Shape := ⟨3, ![4, 4096, 4096]⟩

/-- The two float constants of the mathematics, as the words that denote them: -∞ and 16. -/
abbrev negInf : EReal := Ideal.ofBits .f32 0xFF800000#32
abbrev sixteen : EReal := Ideal.ofBits .f32 0x41800000#32

/-- The word of -∞ denotes the bottom element. -/
theorem negInf_eq : negInf = ⊥ := by simp [negInf, Ideal.ofBits, Ideal.ieee]
/-- The word of 16.0 denotes the real number 16. -/
theorem sixteen_eq : sixteen = ((16 : ℝ) : EReal) := by
  simp [sixteen, Ideal.ofBits, Ideal.ieee]
  rw [← EReal.coe_mul]
  norm_num

/-- A linear projection of the input at (batch b, time t, feature k): the row of `W` against the channels of `x` at
    time t, plus the bias. -/
def proj (x : SX.Idx → EReal) (W : SW.Idx → EReal) (bias : SB.Idx → EReal) (b : Fin 4) (t : Fin 4096) (k : Fin 256) : EReal :=
  (∑ c : Fin 256, x (ix3 b c t) * W (ix2 k c)) + bias (ix1 k)

section
variable (x : SX.Idx → EReal) (Wq : SW.Idx → EReal) (bq : SB.Idx → EReal) (Wk : SW.Idx → EReal) (bk : SB.Idx → EReal)
  (Wv : SW.Idx → EReal) (bv : SB.Idx → EReal)

/-- Queries, keys and values. -/
def q (b : Fin 4) (t : Fin 4096) (k : Fin 256) : EReal := proj x Wq bq b t k
def kk (b : Fin 4) (s : Fin 4096) (k : Fin 256) : EReal := proj x Wk bk b s k
def v (b : Fin 4) (s : Fin 4096) (j : Fin 256) : EReal := proj x Wv bv b s j

/-- The raw score of query t against key s. -/
def dot (b : Fin 4) (t s : Fin 4096) : EReal := ∑ k : Fin 256, q x Wq bq b t k * kk x Wk bk b s k

/-- The masked, scaled score: a key later than the query is masked with -∞; the scale is division by 16. -/
def sc (b : Fin 4) (t s : Fin 4096) : EReal :=
  Ideal.div (if s ≤ t then dot x Wq bq Wk bk b t s else negInf) sixteen

/-- A column's maximum: over all queries t, for a fixed key s. -/
def colMax (b : Fin 4) (s : Fin 4096) : EReal := Finset.univ.sup fun t : Fin 4096 => sc x Wq bq Wk bk b t s

/-- The exponential of a score below its column's maximum. -/
def e (b : Fin 4) (t s : Fin 4096) : EReal := Ideal.exp (sc x Wq bq Wk bk b t s - colMax x Wq bq Wk bk b s)

/-- A column's sum of exponentials. -/
def colSum (b : Fin 4) (s : Fin 4096) : EReal := ∑ t : Fin 4096, e x Wq bq Wk bk b t s

/-- The attention weight of query t on key s: the softmax over the QUERY axis. -/
def weightsAt (b : Fin 4) (t s : Fin 4096) : EReal := Ideal.div (e x Wq bq Wk bk b t s) (colSum x Wq bq Wk bk b s)

/-- The output at (batch b, feature j, time t). -/
def outAt (b : Fin 4) (j : Fin 256) (t : Fin 4096) : EReal :=
  ∑ s : Fin 4096, weightsAt x Wq bq Wk bk b t s * v x Wv bv b s j

/-- The second result as an array: the weights, [4, 4096, 4096]. -/
def weights : SA.Idx → EReal := fun i =>
  weightsAt x Wq bq Wk bk ⟨(i 0).val, (i 0).isLt⟩ ⟨(i 1).val, (i 1).isLt⟩ ⟨(i 2).val, (i 2).isLt⟩

/-- The first result as an array: the output, [4, 256, 4096]. -/
def out : SX.Idx → EReal := fun i =>
  outAt x Wq bq Wk bk Wv bv ⟨(i 0).val, (i 0).isLt⟩ ⟨(i 1).val, (i 1).isLt⟩ ⟨(i 2).val, (i 2).isLt⟩

theorem weights_ix3 (b : Fin 4) (t s : Fin 4096) :
    weights x Wq bq Wk bk (ix3 b t s) = weightsAt x Wq bq Wk bk b t s := rfl
theorem out_ix3 (b : Fin 4) (j : Fin 256) (t : Fin 4096) :
    out x Wq bq Wk bk Wv bv (ix3 b j t) = outAt x Wq bq Wk bk Wv bv b j t := rfl

end

end Cert.Spec

end
-- ==== Proof.RefIsSpec.lean ====
/-
  The reference program computes the specification. Each stage of the reference, read at an index, is the
  specification's function of the same name at that index's coordinates: the three projections (a transpose, a
  contraction over the channels, a broadcast bias), the raw scores (a contraction over the features), the causal mask
  (two iotas compared: the entry is masked exactly when the key's position exceeds the query's), the scale (division
  by 16), the column maximum (a fold of `max` from -∞ over the query axis, then one more `max` with -∞), the
  exponentials, the column sums (from 0), the quotient, and the final contraction over the keys followed by a transpose.
-/
import proofs.«130694_j5669356831785_2_alg».proof.Proof.Gen.ReferenceIdeal.Run
import proofs.«130694_j5669356831785_2_alg».proof.Proof.Gen.ReferenceIdeal.Read
import proofs.«130694_j5669356831785_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The causal mask -/

/-- A position below 4096, as a 32-bit word read signed, is itself. -/
theorem toInt_pos (n : Nat) (h : n < 4096) : (BitVec.ofNat 32 n).toInt = (n : Int) := by
  rw [BitVec.toInt_eq_toNat_of_lt (by rw [BitVec.toNat_ofNat]; omega), BitVec.toNat_ofNat]
  congr 1
  omega

/-- The comparison "query position + 0 ≥ key position" on the iotas' words is the comparison of the positions. -/
theorem ge_bit (t s : Fin 4096) :
    IntOp.cmpi .sge (IntOp.addi (BitVec.ofNat 32 t.val) 0#32) (BitVec.ofNat 32 s.val) = if s ≤ t then 1#1 else 0#1 := by
  unfold IntOp.cmpi IntOp.addi
  simp only [BitVec.add_zero, BitVec.sle, toInt_pos _ t.isLt, toInt_pos _ s.isLt]
  by_cases h : s ≤ t
  · have : (s.val : Int) ≤ t.val := by exact_mod_cast h
    simp [h, this]
  · have : ¬ (s.val : Int) ≤ t.val := by
      intro h'; exact h (by exact_mod_cast h')
    simp [h, this]

/-- The mask selects the first value exactly where the key is later than the query: the inner select turns "≥" into
    "not masked", the outer one picks between the masking value and the score. -/
theorem masked_select {α : Type} (t s : Fin 4096) (A B : α) :
    Scalar.select (Scalar.select (IntOp.cmpi .sge (IntOp.addi (BitVec.ofNat 32 t.val) 0#32) (BitVec.ofNat 32 s.val)) (0#1 : BitVec 1) 1#1) A B
      = if s ≤ t then B else A := by
  rw [ge_bit]
  by_cases h : s ≤ t
  · rw [if_pos h, if_pos h, select_one, select_zero]
  · rw [if_neg h, if_neg h, select_zero, select_one]

/-! ## The stages -/

section
variable (x0 : (⟨S4x256x4096, .f32⟩ : BufTy).Contents (Elt Ideal)) (x1 : (⟨S256x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal))

/-- The queries: the transposed input contracted with the weight rows, plus the bias along the feature axis. -/
theorem queries_eq (i : S4x4096x256.Idx) :
    val_main_v4 (F := Ideal) x0 x1 x2 i
      = Spec.proj x0 x1 x2 ⟨(i 0).val, (i 0).isLt⟩ ⟨(i 1).val, (i 1).isLt⟩ ⟨(i 2).val, (i 2).isLt⟩ := by
  rw [val_main_v4_apply, val_main_v1_apply, val_main_v3_apply, val_main_v2_apply]
  simp only [val_main_v0_apply, Ideal.addf_def]
  unfold Spec.proj
  refine congrArg₂ (· + ·) (Finset.sum_congr rfl fun k _ => congrArg₂ (· * ·) (congrArg x0 ?_) (congrArg x1 ?_)) (congrArg x2 ?_)
  · funext a; match a with | ⟨0, _⟩ => rfl | ⟨1, _⟩ => rfl | ⟨2, _⟩ => rfl
  · funext a; match a with | ⟨0, _⟩ => rfl | ⟨1, _⟩ => rfl
  · funext a; match a with | ⟨0, _⟩ => rfl

/-- The keys, likewise. -/
theorem keys_eq (i : S4x4096x256.Idx) :
    val_main_v8 (F := Ideal) x0 x3 x4 i
      = Spec.proj x0 x3 x4 ⟨(i 0).val, (i 0).isLt⟩ ⟨(i 1).val, (i 1).isLt⟩ ⟨(i 2).val, (i 2).isLt⟩ := by
  rw [val_main_v8_apply, val_main_v5_apply, val_main_v7_apply, val_main_v6_apply]
  simp only [val_main_v0_apply, Ideal.addf_def]
  unfold Spec.proj
  refine congrArg₂ (· + ·) (Finset.sum_congr rfl fun k _ => congrArg₂ (· * ·) (congrArg x0 ?_) (congrArg x3 ?_)) (congrArg x4 ?_)
  · funext a; match a with | ⟨0, _⟩ => rfl | ⟨1, _⟩ => rfl | ⟨2, _⟩ => rfl
  · funext a; match a with | ⟨0, _⟩ => rfl | ⟨1, _⟩ => rfl
  · funext a; match a with | ⟨0, _⟩ => rfl

/-- The values, likewise. -/
theorem values_eq (i : S4x4096x256.Idx) :
    val_main_v12 (F := Ideal) x0 x5 x6 i
      = Spec.proj x0 x5 x6 ⟨(i 0).val, (i 0).isLt⟩ ⟨(i 1).val, (i 1).isLt⟩ ⟨(i 2).val, (i 2).isLt⟩ := by
  rw [val_main_v12_apply, val_main_v9_apply, val_main_v11_apply, val_main_v10_apply]
  simp only [val_main_v0_apply, Ideal.addf_def]
  unfold Spec.proj
  refine congrArg₂ (· + ·) (Finset.sum_congr rfl fun k _ => congrArg₂ (· * ·) (congrArg x0 ?_) (congrArg x5 ?_)) (congrArg x6 ?_)
  · funext a; match a with | ⟨0, _⟩ => rfl | ⟨1, _⟩ => rfl | ⟨2, _⟩ => rfl
  · funext a; match a with | ⟨0, _⟩ => rfl | ⟨1, _⟩ => rfl
  · funext a; match a with | ⟨0, _⟩ => rfl

/-- The raw scores: queries against keys, contracted over the features. -/
theorem dot_eq (i : S4x4096x4096.Idx) :
    val_main_v13 (F := Ideal) x0 x1 x2 x3 x4 i
      = Spec.dot x0 x1 x2 x3 x4 ⟨(i 0).val, (i 0).isLt⟩ ⟨(i 1).val, (i 1).isLt⟩ ⟨(i 2).val, (i 2).isLt⟩ := by
  rw [val_main_v13_apply]
  unfold Spec.dot Spec.q Spec.kk
  refine Finset.sum_congr rfl fun k _ => ?_
  rw [queries_eq, keys_eq]

/-- The masked and scaled scores. -/
theorem sc_eq (i : S4x4096x4096.Idx) :
    val_main_v19 (F := Ideal) x0 x1 x2 x3 x4 i
      = Spec.sc x0 x1 x2 x3 x4 ⟨(i 0).val, (i 0).isLt⟩ ⟨(i 1).val, (i 1).isLt⟩ ⟨(i 2).val, (i 2).isLt⟩ := by
  rw [val_main_v19_apply, val_main_v17_apply, val_main_v18_apply, val_main_cst_0_apply, val_main_call1_v1_apply,
    val_main_v16_apply, val_main_v15_apply, val_main_call0_v4_apply, val_main_call0_v2_apply, val_main_call0_v0_apply,
    val_main_call0_v1_apply, val_main_call0_c_apply, val_main_call0_v3_apply, val_main_call0_v5_apply,
    val_main_call0_c_0_apply, val_main_v14_apply, val_main_c_apply, val_main_call1_v2_apply, val_main_call1_v0_apply,
    val_main_cst_apply, dot_eq]
  refine (congrArg (fun z => FloatOps.hostDivf z _)
    (masked_select ⟨(i 1).val, (i 1).isLt⟩ ⟨(i 2).val, (i 2).isLt⟩ _ _)).trans ?_
  rfl

/-- Row `k` put back into a (batch, key) index is (batch, k, key). -/
theorem lift_query (h : S4x4096x4096.Reduces [1] S4x4096) (j : S4x4096.Idx) (k : Fin (S4x4096x4096.size 1)) :
    h.lift j k = idx_main_v27 j ⟨k.val, k.isLt⟩ := by
  funext c; apply Fin.ext
  fin_cases c <;> rfl

/-- A fold of `max` from the bottom element is the supremum. -/
theorem fold_max_bot {ι : Type} (s : Finset ι) (f : ι → EReal) : s.fold max ⊥ f = s.sup f := by
  classical
  induction s using Finset.induction_on with
  | empty => simp
  | insert a s ha ih => rw [Finset.fold_insert ha, Finset.sup_insert, ih]

/-- The column maximum. -/
theorem colMax_eq (j : S4x4096.Idx) :
    val_main_v22 (F := Ideal) x0 x1 x2 x3 x4 j
      = Spec.colMax x0 x1 x2 x3 x4 ⟨(j 0).val, (j 0).isLt⟩ ⟨(j 1).val, (j 1).isLt⟩ := by
  have h : S4x4096x4096.Reduces [1] S4x4096 := by decide
  rw [val_main_v22_apply, val_main_v21_apply, val_main_cst_2_apply]
  unfold val_main_v20
  rw [Host.reduce_eq_fold_single FloatOps.maximumf _ _ reducesTo_S4x4096x4096_S4x4096_d1 h h_S_ j, val_main_cst_1_apply]
  have hf : (val_main_v19 (F := Ideal) x0 x1 x2 x3 x4 ∘ h.lift j)
      = fun t : Fin 4096 => Spec.sc x0 x1 x2 x3 x4 ⟨(j 0).val, (j 0).isLt⟩ t ⟨(j 1).val, (j 1).isLt⟩ :=
    funext fun k => by
      show val_main_v19 (F := Ideal) x0 x1 x2 x3 x4 (h.lift j k) = _
      rw [lift_query, sc_eq]
      rfl
  rw [hf]
  simp only [Ideal.ofBits_def, Ideal.maximumf_def]
  show max Spec.negInf (Finset.fold max Spec.negInf _ _) = _
  rw [Spec.negInf_eq]
  exact (max_eq_right bot_le).trans (fold_max_bot _ _)

/-- The exponentials. -/
theorem e_eq (i : S4x4096x4096.Idx) :
    val_main_v26 (F := Ideal) x0 x1 x2 x3 x4 i
      = Spec.e x0 x1 x2 x3 x4 ⟨(i 0).val, (i 0).isLt⟩ ⟨(i 1).val, (i 1).isLt⟩ ⟨(i 2).val, (i 2).isLt⟩ := by
  rw [val_main_v26_apply, val_main_v25_apply, val_main_v24_apply, val_main_v23_apply, sc_eq, colMax_eq]
  simp only [Ideal.hostUnary_exp_def, Ideal.subf_def]
  rfl

/-- The column sums. -/
theorem colSum_eq (j : S4x4096.Idx) :
    val_main_v27 (F := Ideal) x0 x1 x2 x3 x4 j
      = Spec.colSum x0 x1 x2 x3 x4 ⟨(j 0).val, (j 0).isLt⟩ ⟨(j 1).val, (j 1).isLt⟩ := by
  rw [val_main_v27_apply, val_main_cst_3_apply]
  simp only [Ideal.ofBits_def, Ideal.ofBits_zero_f32, zero_add]
  unfold Spec.colSum
  refine Finset.sum_congr rfl fun k _ => ?_
  rw [e_eq]

/-- The weights. -/
theorem weightsAt_eq (i : S4x4096x4096.Idx) :
    val_main_v30 (F := Ideal) x0 x1 x2 x3 x4 i
      = Spec.weightsAt x0 x1 x2 x3 x4 ⟨(i 0).val, (i 0).isLt⟩ ⟨(i 1).val, (i 1).isLt⟩ ⟨(i 2).val, (i 2).isLt⟩ := by
  rw [val_main_v30_apply, val_main_v29_apply, val_main_v28_apply, e_eq, colSum_eq]
  simp only [Ideal.hostDivf_def]
  rfl

/-- The output. -/
theorem outAt_eq (i : S4x256x4096.Idx) :
    val_main_v32 (F := Ideal) x0 x1 x2 x3 x4 x5 x6 i
      = Spec.outAt x0 x1 x2 x3 x4 x5 x6 ⟨(i 0).val, (i 0).isLt⟩ ⟨(i 1).val, (i 1).isLt⟩ ⟨(i 2).val, (i 2).isLt⟩ := by
  rw [val_main_v32_apply, val_main_v31_apply]
  unfold Spec.outAt Spec.v
  refine Finset.sum_congr rfl fun k _ => ?_
  rw [weightsAt_eq, values_eq]

end

/-! ## The two results -/

/-- The reference run's second result is the specification's weights of the argument buffers. -/
theorem res_out1_eq (m : (ℓ : Loc nD τ sig) → Buf (Elt Ideal) ℓ) (c : Dev nD) :
    Cert.ReferenceIdeal.Value.res_out1 (F := Ideal) m c
      = Spec.weights (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  show Cert.ReferenceIdeal.Value.res_main_v30 m c = _
  rw [val_main_v30_eq]
  funext i
  exact weightsAt_eq _ _ _ _ _ i

/-- The reference run's first result is the specification's output of the argument buffers. -/
theorem res_out0_eq (m : (ℓ : Loc nD τ sig) → Buf (Elt Ideal) ℓ) (c : Dev nD) :
    Cert.ReferenceIdeal.Value.res_out0 (F := Ideal) m c
      = Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  show Cert.ReferenceIdeal.Value.res_main_v32 m c = _
  rw [val_main_v32_eq]
  funext i
  exact outAt_eq _ _ _ _ _ _ _ i

end Cert.ReferenceIdeal.RefValue

end
-- ==== Proof.K.Region0.lean ====
/-
  The projection region (the first of the three kernel launches): its grid is 4 batches by 8 column tiles, and
  at a point (b, j) the body reads the tile x[b, :, 512 j .. 512 j + 511] and the three weight matrices and bias
  columns whole, and writes the same tile of each of q, k, v. No point reads what another wrote and nothing is
  kept between points, so what each output tile holds after a point is a function of that point's input blocks
  alone. This module states that function as the pieces the body's stores leave (found by running the body once,
  symbolically, on arbitrary staging buffers) and packages it as the region's per-point proof data.
-/
import proofs.«130694_j5669356831785_2_alg».proof.Proof.Gen.Kernel.Launch
import proofs.«130694_j5669356831785_2_alg».proof.Proof.Gen.Kernel.Skeleton
import proofs.«130694_j5669356831785_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` that grid point `t` works on, read out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the point's block whether or not the pipeline fetched it
    there: when it did not, the block index has not moved since the last fetch. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds the point's block whether or not the pipeline fetched it
    there: when it did not, the block index has not moved since the last fetch. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current staging buffer holds the point's block whether or not the pipeline fetched it
    there: when it did not, the block index has not moved since the last fetch. -/
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's current staging buffer holds the point's block whether or not the pipeline fetched it
    there: when it did not, the block index has not moved since the last fetch. -/
theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's current staging buffer holds the point's block whether or not the pipeline fetched it
    there: when it did not, the block index has not moved since the last fetch. -/
theorem found0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- Input window 5's current staging buffer holds the point's block whether or not the pipeline fetched it
    there: when it did not, the block index has not moved since the last fetch. -/
theorem found0_5 {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-- Input window 6's current staging buffer holds the point's block whether or not the pipeline fetched it
    there: when it did not, the block index has not moved since the last fetch. -/
theorem found0_6 {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)

/-! ## The staging memrefs at a point -/

abbrev ms0_0 (t : Fin cfg0.N) : Memref sig .tc .vmem S1x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x512 .bf16 := win0_9.stage (cfg0.slots t 9)
abbrev hs0_9 (t : Fin cfg0.N) : (ms0_9 t).IsWhole := hstage0_9 ((cfg0.slots t 9).cast nbuf0_9)
/-- A staging buffer of output window 7, through which its contents are read back (any of its buffers would do). -/
abbrev VO0_7 : View sig .tc .vmem S1x256x512 .bf16 := (Memref.whole cc0_stg7_0 : Memref sig .tc .vmem S1x256x512 .bf16).view
/-- A staging buffer of output window 8, through which its contents are read back (any of its buffers would do). -/
abbrev VO0_8 : View sig .tc .vmem S1x256x512 .bf16 := (Memref.whole cc0_stg8_0 : Memref sig .tc .vmem S1x256x512 .bf16).view
/-- A staging buffer of output window 9, through which its contents are read back (any of its buffers would do). -/
abbrev VO0_9 : View sig .tc .vmem S1x256x512 .bf16 := (Memref.whole cc0_stg9_0 : Memref sig .tc .vmem S1x256x512 .bf16).view

/-! ## The body, run once on arbitrary whole staging buffers -/

set_option maxHeartbeats 4000000 in
/-- The pieces the body's stores leave in the three output buffers (last store first), together with the proof that from
    the seven input buffers at contents `x·` and the output buffers at anything the body runs to its end, without a
    fault, leaving the inputs as they were and each output with exactly those pieces written. The pieces are not
    written down here: the symbolic run determines them when it hands each buffer to the continuation. -/
noncomputable def pieces0 (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) :
    Σ' (L7 : List (View.Piece (Elt F) S1x256x512 .bf16)) (L8 : List (View.Piece (Elt F) S1x256x512 .bf16)), { L9 : List (View.Piece (Elt F) S1x256x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__qkv_kernel_eq_skeleton]; unfold cc0__qkv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

/-- The stores into output 7 tile its block, so every index of the block is written. -/
theorem cover0_7 (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) (y : S1x256x512.Idx) :
    ∃ pc ∈ (pieces0 c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (pieces0 c i arg2 harg2 arg3 harg3 arg4 harg4 arg5 harg5 arg6 harg6 arg7 harg7 arg8 harg8 arg9 harg9 arg10 harg10 arg11 harg11 x0 x1 x2 x3 x4 x5 x6).1 S1x256x512.size (by sl_kernel_rfl) y

/-- What the body leaves in output 7's staging buffer: its pieces read back. -/
def out0_7 (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) : Vec F S1x256x512 .bf16 :=
  VO0_7.read (Elt F) (VO0_7.writes (Elt F) VO0_7.junk (pieces0 c i arg2 harg2 arg3 harg3 arg4 harg4 arg5 harg5 arg6 harg6 arg7 harg7 arg8 harg8 arg9 harg9 arg10 harg10 arg11 harg11 x0 x1 x2 x3 x4 x5 x6).1)

/-- The stores into output 8 tile its block, so every index of the block is written. -/
theorem cover0_8 (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) (y : S1x256x512.Idx) :
    ∃ pc ∈ (pieces0 c i arg2 harg2 arg3 harg3 arg4 harg4 arg5 harg5 arg6 harg6 arg7 harg7 arg8 harg8 arg9 harg9 arg10 harg10 arg11 harg11 x0 x1 x2 x3 x4 x5 x6).2.1, y ∈ pc.1.set :=
  View.cover_of_tiledL (pieces0 c i arg2 harg2 arg3 harg3 arg4 harg4 arg5 harg5 arg6 harg6 arg7 harg7 arg8 harg8 arg9 harg9 arg10 harg10 arg11 harg11 x0 x1 x2 x3 x4 x5 x6).2.1 S1x256x512.size (by sl_kernel_rfl) y

/-- What the body leaves in output 8's staging buffer: its pieces read back. -/
def out0_8 (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) : Vec F S1x256x512 .bf16 :=
  VO0_8.read (Elt F) (VO0_8.writes (Elt F) VO0_8.junk (pieces0 c i arg2 harg2 arg3 harg3 arg4 harg4 arg5 harg5 arg6 harg6 arg7 harg7 arg8 harg8 arg9 harg9 arg10 harg10 arg11 harg11 x0 x1 x2 x3 x4 x5 x6).2.1)

/-- The stores into output 9 tile its block, so every index of the block is written. -/
theorem cover0_9 (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) (y : S1x256x512.Idx) :
    ∃ pc ∈ (pieces0 c i arg2 harg2 arg3 harg3 arg4 harg4 arg5 harg5 arg6 harg6 arg7 harg7 arg8 harg8 arg9 harg9 arg10 harg10 arg11 harg11 x0 x1 x2 x3 x4 x5 x6).2.2.1, y ∈ pc.1.set :=
  View.cover_of_tiledL (pieces0 c i arg2 harg2 arg3 harg3 arg4 harg4 arg5 harg5 arg6 harg6 arg7 harg7 arg8 harg8 arg9 harg9 arg10 harg10 arg11 harg11 x0 x1 x2 x3 x4 x5 x6).2.2.1 S1x256x512.size (by sl_kernel_rfl) y

/-- What the body leaves in output 9's staging buffer: its pieces read back. -/
def out0_9 (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) : Vec F S1x256x512 .bf16 :=
  VO0_9.read (Elt F) (VO0_9.writes (Elt F) VO0_9.junk (pieces0 c i arg2 harg2 arg3 harg3 arg4 harg4 arg5 harg5 arg6 harg6 arg7 harg7 arg8 harg8 arg9 harg9 arg10 harg10 arg11 harg11 x0 x1 x2 x3 x4 x5 x6).2.2.1)

/-! ## The region's proof data -/

/-- Per core: the windows' arrays as the region finds them; after the body at point `t` each input buffer still at its
    block and each output buffer at what the body's stores leave of the point's input blocks; between points only the
    scoped buffers no window stages and the generator register, untouched; nothing owed; whole shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 V c 0 t) (blk0 V c 1 t) (blk0 V c 2 t) (blk0 V c 3 t) (blk0 V c 4 t) (blk0 V c 5 t) (blk0 V c 6 t)
    | ⟨8, _⟩ => out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 V c 0 t) (blk0 V c 1 t) (blk0 V c 2 t) (blk0 V c 3 t) (blk0 V c 4 t) (blk0 V c 5 t) (blk0 V c 6 t)
    | ⟨9, _⟩ => out0_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 V c 0 t) (blk0 V c 1 t) (blk0 V c 2 t) (blk0 V c 3 t) (blk0 V c 4 t) (blk0 V c 5 t) (blk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 V c 0 t) (blk0 V c 1 t) (blk0 V c 2 t) (blk0 V c 3 t) (blk0 V c 4 t) (blk0 V c 5 t) (blk0 V c 6 t) := by dsimp only [dat0]
theorem after0_8 (c : Dev nD) (t : Fin cfg0.N) : (dat0 V c).after 8 t = out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 V c 0 t) (blk0 V c 1 t) (blk0 V c 2 t) (blk0 V c 3 t) (blk0 V c 4 t) (blk0 V c 5 t) (blk0 V c 6 t) := by dsimp only [dat0]
theorem after0_9 (c : Dev nD) (t : Fin cfg0.N) : (dat0 V c).after 9 t = out0_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 V c 0 t) (blk0 V c 1 t) (blk0 V c 2 t) (blk0 V c 3 t) (blk0 V c 4 t) (blk0 V c 5 t) (blk0 V c 6 t) := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d
theorem before0_2 (c : Dev nD) (t : Fin cfg0.N) (d) : (dat0 V c).before 2 t d = blk0 V c 2 t :=
  found0_2 V (dat0 V c) (A_eq0 V c 2) (after0_2 V c) t d
theorem before0_3 (c : Dev nD) (t : Fin cfg0.N) (d) : (dat0 V c).before 3 t d = blk0 V c 3 t :=
  found0_3 V (dat0 V c) (A_eq0 V c 3) (after0_3 V c) t d
theorem before0_4 (c : Dev nD) (t : Fin cfg0.N) (d) : (dat0 V c).before 4 t d = blk0 V c 4 t :=
  found0_4 V (dat0 V c) (A_eq0 V c 4) (after0_4 V c) t d
theorem before0_5 (c : Dev nD) (t : Fin cfg0.N) (d) : (dat0 V c).before 5 t d = blk0 V c 5 t :=
  found0_5 V (dat0 V c) (A_eq0 V c 5) (after0_5 V c) t d
theorem before0_6 (c : Dev nD) (t : Fin cfg0.N) (d) : (dat0 V c).before 6 t d = blk0 V c 6 t :=
  found0_6 V (dat0 V c) (A_eq0 V c 6) (after0_6 V c) t d

/-! ## The obligation at a point -/

/-- What the pipeline hands the body at point `t`, -/
def handed0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it takes back. -/
def returned0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 4000000 in
/-- At any point the inputs' buffers hold their blocks, so the run above applies; the invariant and what the core owes
    pass through unread, and each output buffer comes back at its pieces read back (they cover the block). -/
theorem point0 (c : Dev nD) (t : Fin cfg0.N) :
    handed0 V c t ⊢ wp frame (wpE (defs₀ (F := F)) Variants.none c none) Set.univ (bodyAt0 t) (fun _ => returned0 V c t) := by
  unfold handed0 returned0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  unfold out0_7 out0_8 out0_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((pieces0 c (grid0.coords t) _ _ _ _ _ _ _ _ _ _ _ _ _ _ _ _ _ _ _ _ (blk0 V c 0 t) (blk0 V c 1 t) (blk0 V c 2 t) (blk0 V c 3 t) (blk0 V c 4 t) (blk0 V c 5 t) (blk0 V c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_7 c _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_8 c _ _ _ _ _ _ _ _ _ _ _ _ _ _ _ _ _ _ _ _ _ _ _ _ _ _ _ _)
  unfold owns; iexists _; isplitr
  swap; · iexact H9
  ipureintro; exact View.read_writes_of_cover _ _ _ _ _ (cover0_9 c _ _ _ _ _ _ _ _ _ _ _ _ _ _ _ _ _ _ _ _ _ _ _ _ _ _ _ _)

/-- The region's obligation to the pipeline, at every point. -/
theorem obligation0 (c : Dev nD) : BodyObligation (dat0 (F := F) V c) (defs₀ (F := F)) Variants.none () Set.univ := fun t => by
  rw [bigSep_W0, bigSep_W0]
  exact point0 V c t

end Cert.Kernel.Frames

end
-- ==== Proof.K.Region1.lean ====
/-
  The column-statistics region (the second kernel launch): its grid is 4 batches by 8 key tiles by 8 query tiles,
  the query tile running fastest. For a fixed batch and key tile s the body walks the query tiles t = 0..7 keeping
  two rows of 512 numbers in scratch — the running maximum and the running sum of exponentials of each key column —:
  it resets them at t = 0, updates them at every t ≥ s (tiles with t < s lie wholly above the diagonal and are
  skipped), and at t = 7 copies them to the two outputs, whose blocks the pipeline writes back only there. So there
  are five ways through the body, according to which of the three conditions hold, and what the scratch rows hold
  after a point is defined by recursion on the point. This module finds each way's stores by running it once
  symbolically, folds them over the grid, and packages the result as the region's per-point proof data.
-/
import proofs.«130694_j5669356831785_2_alg».proof.Proof.K.Region0

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` that grid point `t` works on, read out of the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the point's block whether or not the pipeline fetched it there: when it
    did not, the block index has not moved since the last fetch (an index map that repeats an index costs no fetch). -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds the point's block whether or not the pipeline fetched it there: when it
    did not, the block index has not moved since the last fetch (an index map that repeats an index costs no fetch). -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The body's conditions, decided over the grid -/

/-- Condition 0 of the body (the query tile is the first), as the body computes it from the grid coordinates. -/
abbrev cond1_0 (i : grid1.Coords) : Prop := (Scalar.cmpi .ne (Scalar.extui (Scalar.cmpi .eq (BitVec.ofNat 32 (i 2).val) 0#32)) 0#32) = 1#1
/-- Where it holds, in closed form over the point's number. -/
theorem hcond1_0 : ∀ t : Fin cfg1.N, cond1_0 (grid1.coords t) ↔ t.val % 8 = 0 :=
  (by decide +kernel : ∀ t : Fin grid1.N, cond1_0 (grid1.coords t) ↔ t.val % 8 = 0)

/-- Condition 1 of the body (the query tile is not before the key tile), as the body computes it from the grid coordinates. -/
abbrev cond1_1 (i : grid1.Coords) : Prop := (Scalar.cmpi .ne (Scalar.extui (Scalar.cmpi .sge (BitVec.ofNat 32 (i 2).val) (BitVec.ofNat 32 (i 1).val))) 0#32) = 1#1
/-- Where it holds, in closed form over the point's number. -/
theorem hcond1_1 : ∀ t : Fin cfg1.N, cond1_1 (grid1.coords t) ↔ (t.val / 8) % 8 ≤ t.val % 8 :=
  (by decide +kernel : ∀ t : Fin grid1.N, cond1_1 (grid1.coords t) ↔ (t.val / 8) % 8 ≤ t.val % 8)

/-- Condition 2 of the body (the query tile is the last), as the body computes it from the grid coordinates. -/
abbrev cond1_2 (i : grid1.Coords) : Prop := k1_cond3 i = 1#1
/-- Where it holds, in closed form over the point's number. -/
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Output 2 is stored only where condition 2 holds; elsewhere the body leaves its buffer alone and the pipeline does not write it back. -/
theorem idle1_2 : ∀ t : Fin cfg1.N, ¬cond1_2 (grid1.coords t) → cfg1.idle 2 (grid1.coords t) = true := by decide +kernel
theorem noFlush1_2 : ∀ t : Fin cfg1.N, ¬cond1_2 (grid1.coords t) → (cfg1.win 2).flush t = false := by decide +kernel
theorem live1_2 : ∀ t : Fin cfg1.N, cond1_2 (grid1.coords t) → cfg1.idle 2 (grid1.coords t) = false := by decide +kernel
/-- Output 3 is stored only where condition 2 holds; elsewhere the body leaves its buffer alone and the pipeline does not write it back. -/
theorem idle1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
theorem live1_3 : ∀ t : Fin cfg1.N, cond1_2 (grid1.coords t) → cfg1.idle 3 (grid1.coords t) = false := by decide +kernel

/-! ## The staging memrefs at a point, and the scratch -/

abbrev ms1_0 (t : Fin cfg1.N) : Memref sig .tc .vmem S1x256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev VO1_2 : View sig .tc .vmem S1x1x512 .f32 := (Memref.whole cc1_stg2_0 : Memref sig .tc .vmem S1x1x512 .f32).view
abbrev VO1_3 : View sig .tc .vmem S1x1x512 .f32 := (Memref.whole cc1_stg3_0 : Memref sig .tc .vmem S1x1x512 .f32).view
abbrev scM1_0 : Memref sig .tc .vmem S1x512 .f32 := Memref.whole cc1_scratch0
abbrev VS1_0 : View sig .tc .vmem S1x512 .f32 := scM1_0.view
abbrev scM1_1 : Memref sig .tc .vmem S1x512 .f32 := Memref.whole cc1_scratch1
abbrev VS1_1 : View sig .tc .vmem S1x512 .f32 := scM1_1.view

/-- The scoped buffers that are neither a staging buffer of this region nor its scratch: never touched here. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- What the pipeline hands the body between points when nothing is said about the scratch: each scratch buffer at some
    contents, the other scoped buffers, and the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

/-! ## The body, run once per way through it, on arbitrary whole buffers -/

set_option maxHeartbeats 4000000 in
/-- The way through the body where condition 0 holds, condition 1 holds, condition 2 fails: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces1_A (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : cond1_1 i) (hc2 : ¬cond1_2 i)
    (x0 : Vec F S1x256x512 .bf16) (x1 : Vec F S1x256x512 .bf16) :
    Σ' (LS0 : List (View.Piece (Elt F) S1x512 .f32)), { LS1 : List (View.Piece (Elt F) S1x512 .f32) //
      ∀ (xi2 : Vec F S1x1x512 .f32) (xi3 : Vec F S1x1x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__stats_kernel i arg3 harg3 arg4 harg4 arg5 harg5 arg6 harg6 arg7 harg7 arg8 harg8) K } := by
  refine ⟨?_, ?_, fun xi2 xi3 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%dS0, %fS0, -, HS0⟩, ⟨%dS1, %fS1, -, HS1⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

/-- In this way through the body the stores into scratch 0 tile it, so every index is written. -/
theorem scover1_A_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : cond1_1 i) (hc2 : ¬cond1_2 i)
    (x0 : Vec F S1x256x512 .bf16) (x1 : Vec F S1x256x512 .bf16) (y : S1x512.Idx) :
    ∃ pc ∈ (pieces1_A c i arg3 harg3 arg4 harg4 arg5 harg5 arg6 harg6 arg7 harg7 arg8 harg8 hc0 hc1 hc2 x0 x1).1, y ∈ pc.1.set :=
  View.cover_of_tiledL (pieces1_A c i arg3 harg3 arg4 harg4 arg5 harg5 arg6 harg6 arg7 harg7 arg8 harg8 hc0 hc1 hc2 x0 x1).1 S1x512.size (by sl_kernel_rfl) y

/-- What this way through the body leaves there: its pieces read back. -/
def sout1_A_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : cond1_1 i) (hc2 : ¬cond1_2 i)
    (x0 : Vec F S1x256x512 .bf16) (x1 : Vec F S1x256x512 .bf16) : Vec F S1x512 .f32 :=
  VS1_0.read (Elt F) (VS1_0.writes (Elt F) VS1_0.junk (pieces1_A c i arg3 harg3 arg4 harg4 arg5 harg5 arg6 harg6 arg7 harg7 arg8 harg8 hc0 hc1 hc2 x0 x1).1)

/-- In this way through the body the stores into scratch 1 tile it, so every index is written. -/
theorem scover1_A_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : cond1_1 i) (hc2 : ¬cond1_2 i)
    (x0 : Vec F S1x256x512 .bf16) (x1 : Vec F S1x256x512 .bf16) (y : S1x512.Idx) :
    ∃ pc ∈ (pieces1_A c i arg3 harg3 arg4 harg4 arg5 harg5 arg6 harg6 arg7 harg7 arg8 harg8 hc0 hc1 hc2 x0 x1).2.1, y ∈ pc.1.set :=
  View.cover_of_tiledL (pieces1_A c i arg3 harg3 arg4 harg4 arg5 harg5 arg6 harg6 arg7 harg7 arg8 harg8 hc0 hc1 hc2 x0 x1).2.1 S1x512.size (by sl_kernel_rfl) y

/-- What this way through the body leaves there: its pieces read back. -/
def sout1_A_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : cond1_1 i) (hc2 : ¬cond1_2 i)
    (x0 : Vec F S1x256x512 .bf16) (x1 : Vec F S1x256x512 .bf16) : Vec F S1x512 .f32 :=
  VS1_1.read (Elt F) (VS1_1.writes (Elt F) VS1_1.junk (pieces1_A c i arg3 harg3 arg4 harg4 arg5 harg5 arg6 harg6 arg7 harg7 arg8 harg8 hc0 hc1 hc2 x0 x1).2.1)

set_option maxHeartbeats 4000000 in
/-- The way through the body where condition 0 holds, condition 1 fails, condition 2 fails: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces1_B (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : ¬cond1_1 i) (hc2 : ¬cond1_2 i)
    (x0 : Vec F S1x256x512 .bf16) (x1 : Vec F S1x256x512 .bf16) :
    Σ' (LS0 : List (View.Piece (Elt F) S1x512 .f32)), { LS1 : List (View.Piece (Elt F) S1x512 .f32) //
      ∀ (xi2 : Vec F S1x1x512 .f32) (xi3 : Vec F S1x1x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__stats_kernel i arg3 harg3 arg4 harg4 arg5 harg5 arg6 harg6 arg7 harg7 arg8 harg8) K } := by
  refine ⟨?_, ?_, fun xi2 xi3 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%dS0, %fS0, -, HS0⟩, ⟨%dS1, %fS1, -, HS1⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

/-- In this way through the body the stores into scratch 0 tile it, so every index is written. -/
theorem scover1_B_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : ¬cond1_1 i) (hc2 : ¬cond1_2 i)
    (x0 : Vec F S1x256x512 .bf16) (x1 : Vec F S1x256x512 .bf16) (y : S1x512.Idx) :
    ∃ pc ∈ (pieces1_B c i arg3 harg3 arg4 harg4 arg5 harg5 arg6 harg6 arg7 harg7 arg8 harg8 hc0 hc1 hc2 x0 x1).1, y ∈ pc.1.set :=
  View.cover_of_tiledL (pieces1_B c i arg3 harg3 arg4 harg4 arg5 harg5 arg6 harg6 arg7 harg7 arg8 harg8 hc0 hc1 hc2 x0 x1).1 S1x512.size (by sl_kernel_rfl) y

/-- What this way through the body leaves there: its pieces read back. -/
def sout1_B_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : ¬cond1_1 i) (hc2 : ¬cond1_2 i)
    (x0 : Vec F S1x256x512 .bf16) (x1 : Vec F S1x256x512 .bf16) : Vec F S1x512 .f32 :=
  VS1_0.read (Elt F) (VS1_0.writes (Elt F) VS1_0.junk (pieces1_B c i arg3 harg3 arg4 harg4 arg5 harg5 arg6 harg6 arg7 harg7 arg8 harg8 hc0 hc1 hc2 x0 x1).1)

/-- In this way through the body the stores into scratch 1 tile it, so every index is written. -/
theorem scover1_B_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : ¬cond1_1 i) (hc2 : ¬cond1_2 i)
    (x0 : Vec F S1x256x512 .bf16) (x1 : Vec F S1x256x512 .bf16) (y : S1x512.Idx) :
    ∃ pc ∈ (pieces1_B c i arg3 harg3 arg4 harg4 arg5 harg5 arg6 harg6 arg7 harg7 arg8 harg8 hc0 hc1 hc2 x0 x1).2.1, y ∈ pc.1.set :=
  View.cover_of_tiledL (pieces1_B c i arg3 harg3 arg4 harg4 arg5 harg5 arg6 harg6 arg7 harg7 arg8 harg8 hc0 hc1 hc2 x0 x1).2.1 S1x512.size (by sl_kernel_rfl) y

/-- What this way through the body leaves there: its pieces read back. -/
def sout1_B_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : ¬cond1_1 i) (hc2 : ¬cond1_2 i)
    (x0 : Vec F S1x256x512 .bf16) (x1 : Vec F S1x256x512 .bf16) : Vec F S1x512 .f32 :=
  VS1_1.read (Elt F) (VS1_1.writes (Elt F) VS1_1.junk (pieces1_B c i arg3 harg3 arg4 harg4 arg5 harg5 arg6 harg6 arg7 harg7 arg8 harg8 hc0 hc1 hc2 x0 x1).2.1)

set_option maxHeartbeats 4000000 in
/-- The way through the body where condition 0 fails, condition 1 holds, condition 2 fails: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces1_C (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : ¬cond1_2 i)
    (x0 : Vec F S1x256x512 .bf16) (x1 : Vec F S1x256x512 .bf16) (xs0 : Vec F S1x512 .f32) (xs1 : Vec F S1x512 .f32) :
    Σ' (LS0 : List (View.Piece (Elt F) S1x512 .f32)), { LS1 : List (View.Piece (Elt F) S1x512 .f32) //
      ∀ (xi2 : Vec F S1x1x512 .f32) (xi3 : Vec F S1x1x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__stats_kernel i arg3 harg3 arg4 harg4 arg5 harg5 arg6 harg6 arg7 harg7 arg8 harg8) K } := by
  refine ⟨?_, ?_, fun xi2 xi3 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%fS0, %hfS0, HS0⟩, ⟨%fS1, %hfS1, HS1⟩, Hk⟩
    obtain rfl := harg3.eq_unread hf0; obtain rfl := harg4.eq_unread hf1; obtain rfl := harg5.eq_unread hf2; obtain rfl := harg6.eq_unread hf3; obtain rfl := harg7.eq_unread hfS0; obtain rfl := harg8.eq_unread hfS1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

/-- In this way through the body the stores into scratch 0 tile it, so every index is written. -/
theorem scover1_C_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : ¬cond1_2 i)
    (x0 : Vec F S1x256x512 .bf16) (x1 : Vec F S1x256x512 .bf16) (xs0 : Vec F S1x512 .f32) (xs1 : Vec F S1x512 .f32) (y : S1x512.Idx) :
    ∃ pc ∈ (pieces1_C c i arg3 harg3 arg4 harg4 arg5 harg5 arg6 harg6 arg7 harg7 arg8 harg8 hc0 hc1 hc2 x0 x1 xs0 xs1).1, y ∈ pc.1.set :=
  View.cover_of_tiledL (pieces1_C c i arg3 harg3 arg4 harg4 arg5 harg5 arg6 harg6 arg7 harg7 arg8 harg8 hc0 hc1 hc2 x0 x1 xs0 xs1).1 S1x512.size (by sl_kernel_rfl) y

/-- What this way through the body leaves there: its pieces read back. -/
def sout1_C_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : ¬cond1_2 i)
    (x0 : Vec F S1x256x512 .bf16) (x1 : Vec F S1x256x512 .bf16) (xs0 : Vec F S1x512 .f32) (xs1 : Vec F S1x512 .f32) : Vec F S1x512 .f32 :=
  VS1_0.read (Elt F) (VS1_0.writes (Elt F) VS1_0.junk (pieces1_C c i arg3 harg3 arg4 harg4 arg5 harg5 arg6 harg6 arg7 harg7 arg8 harg8 hc0 hc1 hc2 x0 x1 xs0 xs1).1)

/-- In this way through the body the stores into scratch 1 tile it, so every index is written. -/
theorem scover1_C_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : ¬cond1_2 i)
    (x0 : Vec F S1x256x512 .bf16) (x1 : Vec F S1x256x512 .bf16) (xs0 : Vec F S1x512 .f32) (xs1 : Vec F S1x512 .f32) (y : S1x512.Idx) :
    ∃ pc ∈ (pieces1_C c i arg3 harg3 arg4 harg4 arg5 harg5 arg6 harg6 arg7 harg7 arg8 harg8 hc0 hc1 hc2 x0 x1 xs0 xs1).2.1, y ∈ pc.1.set :=
  View.cover_of_tiledL (pieces1_C c i arg3 harg3 arg4 harg4 arg5 harg5 arg6 harg6 arg7 harg7 arg8 harg8 hc0 hc1 hc2 x0 x1 xs0 xs1).2.1 S1x512.size (by sl_kernel_rfl) y

/-- What this way through the body leaves there: its pieces read back. -/
def sout1_C_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : ¬cond1_2 i)
    (x0 : Vec F S1x256x512 .bf16) (x1 : Vec F S1x256x512 .bf16) (xs0 : Vec F S1x512 .f32) (xs1 : Vec F S1x512 .f32) : Vec F S1x512 .f32 :=
  VS1_1.read (Elt F) (VS1_1.writes (Elt F) VS1_1.junk (pieces1_C c i arg3 harg3 arg4 harg4 arg5 harg5 arg6 harg6 arg7 harg7 arg8 harg8 hc0 hc1 hc2 x0 x1 xs0 xs1).2.1)

set_option maxHeartbeats 4000000 in
/-- The way through the body where condition 0 fails, condition 1 fails, condition 2 fails: nothing is stored at all; every buffer comes back as it was handed. -/
theorem pieces1_D (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : ¬cond1_1 i) (hc2 : ¬cond1_2 i)
    (x0 : Vec F S1x256x512 .bf16) (x1 : Vec F S1x256x512 .bf16) (xs0 : Vec F S1x512 .f32) (xs1 : Vec F S1x512 .f32) :
    ∀ (xi2 : Vec F S1x1x512 .f32) (xi3 : Vec F S1x1x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0 ∗ owns (c : Thread nD τ) arg8 fullShare xs1) -∗ K ⟨⟩))
          ⊢ wp frame (wpE (defs₀ (F := F)) Variants.none c none) E (cc1__stats_kernel i arg3 harg3 arg4 harg4 arg5 harg5 arg6 harg6 arg7 harg7 arg8 harg8) K := by
  intro xi2 xi3 E K
  simp only [cc1__stats_kernel_eq_skeleton]; unfold cc1__stats_kernel_skel
  simp only [k1_part1_eq_skeleton]
  unfold owns
  iintro ⟨⟨%f0, %hf0, H0⟩, ⟨%f1, %hf1, H1⟩, ⟨%f2, %hf2, H2⟩, ⟨%f3, %hf3, H3⟩, ⟨%fS0, %hfS0, HS0⟩, ⟨%fS1, %hfS1, HS1⟩, Hk⟩
  obtain rfl := harg3.eq_unread hf0; obtain rfl := harg4.eq_unread hf1; obtain rfl := harg5.eq_unread hf2; obtain rfl := harg6.eq_unread hf3; obtain rfl := harg7.eq_unread hfS0; obtain rfl := harg8.eq_unread hfS1
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  iexists _; isplitr; · ipureintro; exact harg8.read_unread _
  iexact HS1

set_option maxHeartbeats 4000000 in
/-- The way through the body where condition 0 fails, condition 1 holds, condition 2 holds: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces1_E (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) :
    Σ' (L2 : List (View.Piece (Elt F) S1x1x512 .f32)) (L3 : List (View.Piece (Elt F) S1x1x512 .f32)) (LS0 : List (View.Piece (Elt F) S1x512 .f32)), { LS1 : List (View.Piece (Elt F) S1x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__stats_kernel i arg3 harg3 arg4 harg4 arg5 harg5 arg6 harg6 arg7 harg7 arg8 harg8) K } := by
  refine ⟨?_, ?_, ?_, ?_, fun  E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%d2, %f2, -, H2⟩, ⟨%d3, %f3, -, H3⟩, ⟨%fS0, %hfS0, HS0⟩, ⟨%fS1, %hfS1, HS1⟩, Hk⟩
    obtain rfl := harg3.eq_unread hf0; obtain rfl := harg4.eq_unread hf1; obtain rfl := harg7.eq_unread hfS0; obtain rfl := harg8.eq_unread hfS1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [HS0]; · iexists _; iexact HS0
    iexists _; iexact HS1

/-- In this way through the body the stores into output 2 tile it, so every index is written. -/
theorem cover1_E_2 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) (y : S1x1x512.Idx) :
    ∃ pc ∈ (pieces1_E c i arg3 harg3 arg4 harg4 arg5 harg5 arg6 harg6 arg7 harg7 arg8 harg8 hc0 hc1 hc2 x0 x1 xs0 xs1).1, y ∈ pc.1.set :=
  View.cover_of_tiledL (pieces1_E c i arg3 harg3 arg4 harg4 arg5 harg5 arg6 harg6 arg7 harg7 arg8 harg8 hc0 hc1 hc2 x0 x1 xs0 xs1).1 S1x1x512.size (by sl_kernel_rfl) y

/-- What this way through the body leaves there: its pieces read back. -/
def out1_E_2 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) : Vec F S1x1x512 .f32 :=
  VO1_2.read (Elt F) (VO1_2.writes (Elt F) VO1_2.junk (pieces1_E c i arg3 harg3 arg4 harg4 arg5 harg5 arg6 harg6 arg7 harg7 arg8 harg8 hc0 hc1 hc2 x0 x1 xs0 xs1).1)

/-- In this way through the body the stores into output 3 tile it, so every index is written. -/
theorem cover1_E_3 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) (y : S1x1x512.Idx) :
    ∃ pc ∈ (pieces1_E c i arg3 harg3 arg4 harg4 arg5 harg5 arg6 harg6 arg7 harg7 arg8 harg8 hc0 hc1 hc2 x0 x1 xs0 xs1).2.1, y ∈ pc.1.set :=
  View.cover_of_tiledL (pieces1_E c i arg3 harg3 arg4 harg4 arg5 harg5 arg6 harg6 arg7 harg7 arg8 harg8 hc0 hc1 hc2 x0 x1 xs0 xs1).2.1 S1x1x512.size (by sl_kernel_rfl) y

/-- What this way through the body leaves there: its pieces read back. -/
def out1_E_3 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) : Vec F S1x1x512 .f32 :=
  VO1_3.read (Elt F) (VO1_3.writes (Elt F) VO1_3.junk (pieces1_E c i arg3 harg3 arg4 harg4 arg5 harg5 arg6 harg6 arg7 harg7 arg8 harg8 hc0 hc1 hc2 x0 x1 xs0 xs1).2.1)

/-- In this way through the body the stores into scratch 0 tile it, so every index is written. -/
theorem scover1_E_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) (y : S1x512.Idx) :
    ∃ pc ∈ (pieces1_E c i arg3 harg3 arg4 harg4 arg5 harg5 arg6 harg6 arg7 harg7 arg8 harg8 hc0 hc1 hc2 x0 x1 xs0 xs1).2.2.1, y ∈ pc.1.set :=
  View.cover_of_tiledL (pieces1_E c i arg3 harg3 arg4 harg4 arg5 harg5 arg6 harg6 arg7 harg7 arg8 harg8 hc0 hc1 hc2 x0 x1 xs0 xs1).2.2.1 S1x512.size (by sl_kernel_rfl) y

/-- What this way through the body leaves there: its pieces read back. -/
def sout1_E_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) : Vec F S1x512 .f32 :=
  VS1_0.read (Elt F) (VS1_0.writes (Elt F) VS1_0.junk (pieces1_E c i arg3 harg3 arg4 harg4 arg5 harg5 arg6 harg6 arg7 harg7 arg8 harg8 hc0 hc1 hc2 x0 x1 xs0 xs1).2.2.1)

/-- In this way through the body the stores into scratch 1 tile it, so every index is written. -/
theorem scover1_E_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) (y : S1x512.Idx) :
    ∃ pc ∈ (pieces1_E c i arg3 harg3 arg4 harg4 arg5 harg5 arg6 harg6 arg7 harg7 arg8 harg8 hc0 hc1 hc2 x0 x1 xs0 xs1).2.2.2.1, y ∈ pc.1.set :=
  View.cover_of_tiledL (pieces1_E c i arg3 harg3 arg4 harg4 arg5 harg5 arg6 harg6 arg7 harg7 arg8 harg8 hc0 hc1 hc2 x0 x1 xs0 xs1).2.2.2.1 S1x512.size (by sl_kernel_rfl) y

/-- What this way through the body leaves there: its pieces read back. -/
def sout1_E_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) : Vec F S1x512 .f32 :=
  VS1_1.read (Elt F) (VS1_1.writes (Elt F) VS1_1.junk (pieces1_E c i arg3 harg3 arg4 harg4 arg5 harg5 arg6 harg6 arg7 harg7 arg8 harg8 hc0 hc1 hc2 x0 x1 xs0 xs1).2.2.2.1)

/-! ## What the outputs and the scratch hold after each point -/

/-- One step of the accumulation: what the output buffers and the scratch hold after the body at point `t`, given what
    the scratch held before it — the way through the body that the closed forms select at `t`, run at the point's
    buffers and input blocks. A buffer the selected way does not store keeps what it had (an idle output's component is
    a placeholder nothing reads). A combination of the conditions that no point meets is no case. -/
def step1 (c : Dev nD) (t : Fin cfg1.N) (prev : Vec F S1x512 .f32 × Vec F S1x512 .f32) : Vec F S1x1x512 .f32 × Vec F S1x1x512 .f32 × Vec F S1x512 .f32 × Vec F S1x512 .f32 :=
  if h0 : t.val % 8 = 0 then
    if h1 : (t.val / 8) % 8 ≤ t.val % 8 then
      if h2 : t.val % 8 = 7 then
        False.elim (by have hN : t.val < 256 := lt_of_lt_of_eq t.isLt (show cfg1.N = 256 from N_1); omega)
      else
        (VO1_2.read (Elt F) VO1_2.junk, VO1_3.read (Elt F) VO1_3.junk, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) ((hcond1_1 t).mpr h1) (fun h => h2 ((hcond1_2 t).mp h)) (blk1 V c 0 t) (blk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) ((hcond1_1 t).mpr h1) (fun h => h2 ((hcond1_2 t).mp h)) (blk1 V c 0 t) (blk1 V c 1 t))
    else
      if h2 : t.val % 8 = 7 then
        False.elim (by have hN : t.val < 256 := lt_of_lt_of_eq t.isLt (show cfg1.N = 256 from N_1); omega)
      else
        (VO1_2.read (Elt F) VO1_2.junk, VO1_3.read (Elt F) VO1_3.junk, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (fun h => h2 ((hcond1_2 t).mp h)) (blk1 V c 0 t) (blk1 V c 1 t), sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (fun h => h2 ((hcond1_2 t).mp h)) (blk1 V c 0 t) (blk1 V c 1 t))
  else
    if h1 : (t.val / 8) % 8 ≤ t.val % 8 then
      if h2 : t.val % 8 = 7 then
        (out1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2), out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2), sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2), sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2))
      else
        (VO1_2.read (Elt F) VO1_2.junk, VO1_3.read (Elt F) VO1_3.junk, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (fun h => h2 ((hcond1_2 t).mp h)) (blk1 V c 0 t) (blk1 V c 1 t) (prev.1) (prev.2), sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (fun h => h2 ((hcond1_2 t).mp h)) (blk1 V c 0 t) (blk1 V c 1 t) (prev.1) (prev.2))
    else
      if h2 : t.val % 8 = 7 then
        False.elim (by have hN : t.val < 256 := lt_of_lt_of_eq t.isLt (show cfg1.N = 256 from N_1); omega)
      else
        (VO1_2.read (Elt F) VO1_2.junk, VO1_3.read (Elt F) VO1_3.junk, prev.1, prev.2)

/-- The step at a point where condition 0 holds, condition 1 holds, condition 2 fails. -/
theorem step1_A (c : Dev nD) (t : Fin cfg1.N) (prev : Vec F S1x512 .f32 × Vec F S1x512 .f32) (h0 : t.val % 8 = 0) (h1 : (t.val / 8) % 8 ≤ t.val % 8) (h2 : ¬t.val % 8 = 7) :
    step1 V c t prev = (VO1_2.read (Elt F) VO1_2.junk, VO1_3.read (Elt F) VO1_3.junk, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) ((hcond1_1 t).mpr h1) (fun h => h2 ((hcond1_2 t).mp h)) (blk1 V c 0 t) (blk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) ((hcond1_1 t).mpr h1) (fun h => h2 ((hcond1_2 t).mp h)) (blk1 V c 0 t) (blk1 V c 1 t)) := by
  unfold step1
  rw [dif_pos h0]; rw [dif_pos h1]; rw [dif_neg h2]

/-- The step at a point where condition 0 holds, condition 1 fails, condition 2 fails. -/
theorem step1_B (c : Dev nD) (t : Fin cfg1.N) (prev : Vec F S1x512 .f32 × Vec F S1x512 .f32) (h0 : t.val % 8 = 0) (h1 : ¬(t.val / 8) % 8 ≤ t.val % 8) (h2 : ¬t.val % 8 = 7) :
    step1 V c t prev = (VO1_2.read (Elt F) VO1_2.junk, VO1_3.read (Elt F) VO1_3.junk, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (fun h => h2 ((hcond1_2 t).mp h)) (blk1 V c 0 t) (blk1 V c 1 t), sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (fun h => h2 ((hcond1_2 t).mp h)) (blk1 V c 0 t) (blk1 V c 1 t)) := by
  unfold step1
  rw [dif_pos h0]; rw [dif_neg h1]; rw [dif_neg h2]

/-- The step at a point where condition 0 fails, condition 1 holds, condition 2 fails. -/
theorem step1_C (c : Dev nD) (t : Fin cfg1.N) (prev : Vec F S1x512 .f32 × Vec F S1x512 .f32) (h0 : ¬t.val % 8 = 0) (h1 : (t.val / 8) % 8 ≤ t.val % 8) (h2 : ¬t.val % 8 = 7) :
    step1 V c t prev = (VO1_2.read (Elt F) VO1_2.junk, VO1_3.read (Elt F) VO1_3.junk, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (fun h => h2 ((hcond1_2 t).mp h)) (blk1 V c 0 t) (blk1 V c 1 t) (prev.1) (prev.2), sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (fun h => h2 ((hcond1_2 t).mp h)) (blk1 V c 0 t) (blk1 V c 1 t) (prev.1) (prev.2)) := by
  unfold step1
  rw [dif_neg h0]; rw [dif_pos h1]; rw [dif_neg h2]

/-- The step at a point where condition 0 fails, condition 1 fails, condition 2 fails. -/
theorem step1_D (c : Dev nD) (t : Fin cfg1.N) (prev : Vec F S1x512 .f32 × Vec F S1x512 .f32) (h0 : ¬t.val % 8 = 0) (h1 : ¬(t.val / 8) % 8 ≤ t.val % 8) (h2 : ¬t.val % 8 = 7) :
    step1 V c t prev = (VO1_2.read (Elt F) VO1_2.junk, VO1_3.read (Elt F) VO1_3.junk, prev.1, prev.2) := by
  unfold step1
  rw [dif_neg h0]; rw [dif_neg h1]; rw [dif_neg h2]

/-- The step at a point where condition 0 fails, condition 1 holds, condition 2 holds. -/
theorem step1_E (c : Dev nD) (t : Fin cfg1.N) (prev : Vec F S1x512 .f32 × Vec F S1x512 .f32) (h0 : ¬t.val % 8 = 0) (h1 : (t.val / 8) % 8 ≤ t.val % 8) (h2 : t.val % 8 = 7) :
    step1 V c t prev = (out1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2), out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2), sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2), sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2)) := by
  unfold step1
  rw [dif_neg h0]; rw [dif_pos h1]; rw [dif_pos h2]

/-- The scratch before the first point: anything (the first point resets it before reading it). -/
def scratch0_1 : Vec F S1x512 .f32 × Vec F S1x512 .f32 := (VS1_0.read (Elt F) VS1_0.junk, VS1_1.read (Elt F) VS1_1.junk)

/-- THE ACCUMULATION: what the output buffers and the scratch hold after the body at position `n`, by recursion on `n`. -/
def outsAt1 (c : Dev nD) : (n : ℕ) → n < cfg1.N → Vec F S1x1x512 .f32 × Vec F S1x1x512 .f32 × Vec F S1x512 .f32 × Vec F S1x512 .f32
  | 0, hn => step1 V c ⟨0, hn⟩ (scratch0_1 (F := F))
  | n + 1, hn => step1 V c ⟨n + 1, hn⟩ (scratchOf1 (outsAt1 c n (Nat.lt_of_succ_lt hn)))
where
  /-- The scratch components of a point's tuple. -/
  scratchOf1 (p : Vec F S1x1x512 .f32 × Vec F S1x1x512 .f32 × Vec F S1x512 .f32 × Vec F S1x512 .f32) : Vec F S1x512 .f32 × Vec F S1x512 .f32 := (p.2.2.1, p.2.2.2)

/-- After a point that is not the first: one step from what the point before left. -/
theorem outsAt1_pos (c : Dev nD) (t : Fin cfg1.N) (hz : t.val ≠ 0) :
    outsAt1 V c t.val t.isLt = step1 V c t (outsAt1.scratchOf1 (outsAt1 V c (t.val - 1) (Nat.lt_of_le_of_lt (Nat.sub_le _ _) t.isLt))) := by
  obtain ⟨n, hn⟩ := t
  cases n with
  | zero => exact absurd rfl hz
  | succ n => rfl

/-- After the first point: one step from anything. -/
theorem outsAt1_zero (c : Dev nD) (t : Fin cfg1.N) (hz : t.val = 0) :
    outsAt1 V c t.val t.isLt = step1 V c t (scratch0_1 (F := F)) := by
  obtain ⟨n, hn⟩ := t
  cases n with
  | zero => rfl
  | succ n => exact absurd hz (Nat.succ_ne_zero n)

/-! ## The invariant between points -/

/-- Before position `n`: before the first point nothing is said of the scratch; afterwards each scratch buffer holds what
    the point before left in it; the other scoped buffers and the generator register ride along. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ rest1 c) ∗ (∃ r, prngReg c r)) := by
  cases n with
  | zero => exact absurd rfl hz
  | succ n => rfl

/-! ## The region's proof data -/

/-- Per core: the windows' arrays as the region finds them; after the body at point `t` each input buffer still at its block
    and each output buffer at the accumulation's component; between points the invariant above; nothing owed; whole shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d

/-! ## The obligation at a point -/

/-- What the pipeline hands the body at point `t`, -/
def handed1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it takes back. -/
def returned1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- At any point: the inputs' buffers hold their blocks; the closed forms say which way through the body the point takes;
    the invariant hands over the scratch at what the point before left (at anything before the first point, and wherever
    the body resets it before reading it) and takes it back at this point's contents; an output the body does not store
    is handed back as found; what the core owes passes through. -/
theorem point1 (c : Dev nD) (t : Fin cfg1.N) :
    handed1 V c t ⊢ wp frame (wpE (defs₀ (F := F)) Variants.none c none) Set.univ (bodyAt1 t) (fun _ => returned1 V c t) := by
  unfold handed1 returned1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 8 = 0
  · by_cases h1 : (t.val / 8) % 8 ≤ t.val % 8
    · by_cases h2 : t.val % 8 = 7
      · exfalso; omega
      · rw [show (dat1 V c).leavesExact 0 t = owns (c : Thread nD τ) (ms1_0 t) fullShare ((dat1 V c).after 0 t) from by
          unfold Dat.leavesExact; rw [live1_0 t], after1_0]
        rw [show (dat1 V c).leavesExact 1 t = owns (c : Thread nD τ) (ms1_1 t) fullShare ((dat1 V c).after 1 t) from by
          unfold Dat.leavesExact; rw [live1_1 t], after1_1]
        rw [Dat.leavesExact_idle (dat1 V c) 2 t (idle1_2 t (fun h => h2 ((hcond1_2 t).mp h))) (noFlush1_2 t (fun h => h2 ((hcond1_2 t).mp h)))]
        rw [Dat.leavesExact_idle (dat1 V c) 3 t (idle1_3 t (fun h => h2 ((hcond1_2 t).mp h))) (noFlush1_3 t (fun h => h2 ((hcond1_2 t).mp h)))]
        by_cases hz : t.val = 0
        · rw [outsAt1_zero V c t hz, step1_A V c t _ h0 h1 h2]
          unfold sout1_A_0 sout1_A_1; (try dsimp only)
          rw [PhiS1_castSucc V c t, PhiS1_zero V c _ _ hz, PhiA1_eq]
          iintro ⟨⟨⟨⟨HS0, HS1⟩, Hrest⟩, Hg⟩, Ho, ⟨%d0, H0⟩, ⟨%d1, H1⟩, ⟨%d2, H2⟩, ⟨%d3, H3⟩⟩
          iapply ((pieces1_A c (grid1.coords t) _ _ _ _ _ _ _ _ _ _ _ _ ((hcond1_0 t).mpr h0) ((hcond1_1 t).mpr h1) (fun h => h2 ((hcond1_2 t).mp h)) (blk1 V c 0 t) (blk1 V c 1 t)).2.2 _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, ⟨%eS0, HS0⟩, ⟨%eS1, HS1⟩⟩
          isplitl [HS0 HS1 Hrest Hg]
          · isplitl [HS0 HS1 Hrest]
            · isplitl [HS0 HS1]
              · isplitl [HS0]
                · unfold owns; iexists _; isplitr
                  swap
                  · iexact HS0
                  ipureintro; exact View.read_writes_of_cover _ _ _ _ _ (scover1_A_0 c _ _ _ _ _ _ _ _ _ _ _ _ _ _ _ _ _ _)
                · unfold owns; iexists _; isplitr
                  swap
                  · iexact HS1
                  ipureintro; exact View.read_writes_of_cover _ _ _ _ _ (scover1_A_1 c _ _ _ _ _ _ _ _ _ _ _ _ _ _ _ _ _ _)
              · iexact Hrest
            · iexact Hg
          isplitl [Ho]
          · iexact Ho
          isplitl [H0]
          · iexact H0
          isplitl [H1]
          · iexact H1
          isplitl [H2]
          · iexists _; iexact H2
          iexists _; iexact H3
        · rw [outsAt1_pos V c t hz, step1_A V c t _ h0 h1 h2]
          unfold sout1_A_0 sout1_A_1; (try dsimp only)
          rw [PhiS1_castSucc V c t, PhiS1_pos V c _ _ hz]
          iintro ⟨⟨⟨⟨HS0, HS1⟩, Hrest⟩, Hg⟩, Ho, ⟨%d0, H0⟩, ⟨%d1, H1⟩, ⟨%d2, H2⟩, ⟨%d3, H3⟩⟩
          iapply ((pieces1_A c (grid1.coords t) _ _ _ _ _ _ _ _ _ _ _ _ ((hcond1_0 t).mpr h0) ((hcond1_1 t).mpr h1) (fun h => h2 ((hcond1_2 t).mp h)) (blk1 V c 0 t) (blk1 V c 1 t)).2.2 _ _ Set.univ _)
          isplitl [H0]; · iexact H0
          isplitl [H1]; · iexact H1
          isplitl [H2]; · iexact H2
          isplitl [H3]; · iexact H3
          isplitl [HS0]; · iexists _; iexact HS0
          isplitl [HS1]; · iexists _; iexact HS1
          iintro ⟨H0, H1, H2, H3, ⟨%eS0, HS0⟩, ⟨%eS1, HS1⟩⟩
          isplitl [HS0 HS1 Hrest Hg]
          · isplitl [HS0 HS1 Hrest]
            · isplitl [HS0 HS1]
              · isplitl [HS0]
                · unfold owns; iexists _; isplitr
                  swap
                  · iexact HS0
                  ipureintro; exact View.read_writes_of_cover _ _ _ _ _ (scover1_A_0 c _ _ _ _ _ _ _ _ _ _ _ _ _ _ _ _ _ _)
                · unfold owns; iexists _; isplitr
                  swap
                  · iexact HS1
                  ipureintro; exact View.read_writes_of_cover _ _ _ _ _ (scover1_A_1 c _ _ _ _ _ _ _ _ _ _ _ _ _ _ _ _ _ _)
              · iexact Hrest
            · iexact Hg
          isplitl [Ho]
          · iexact Ho
          isplitl [H0]
          · iexact H0
          isplitl [H1]
          · iexact H1
          isplitl [H2]
          · iexists _; iexact H2
          iexists _; iexact H3
    · by_cases h2 : t.val % 8 = 7
      · exfalso; omega
      · rw [show (dat1 V c).leavesExact 0 t = owns (c : Thread nD τ) (ms1_0 t) fullShare ((dat1 V c).after 0 t) from by
          unfold Dat.leavesExact; rw [live1_0 t], after1_0]
        rw [show (dat1 V c).leavesExact 1 t = owns (c : Thread nD τ) (ms1_1 t) fullShare ((dat1 V c).after 1 t) from by
          unfold Dat.leavesExact; rw [live1_1 t], after1_1]
        rw [Dat.leavesExact_idle (dat1 V c) 2 t (idle1_2 t (fun h => h2 ((hcond1_2 t).mp h))) (noFlush1_2 t (fun h => h2 ((hcond1_2 t).mp h)))]
        rw [Dat.leavesExact_idle (dat1 V c) 3 t (idle1_3 t (fun h => h2 ((hcond1_2 t).mp h))) (noFlush1_3 t (fun h => h2 ((hcond1_2 t).mp h)))]
        by_cases hz : t.val = 0
        · rw [outsAt1_zero V c t hz, step1_B V c t _ h0 h1 h2]
          unfold sout1_B_0 sout1_B_1; (try dsimp only)
          rw [PhiS1_castSucc V c t, PhiS1_zero V c _ _ hz, PhiA1_eq]
          iintro ⟨⟨⟨⟨HS0, HS1⟩, Hrest⟩, Hg⟩, Ho, ⟨%d0, H0⟩, ⟨%d1, H1⟩, ⟨%d2, H2⟩, ⟨%d3, H3⟩⟩
          iapply ((pieces1_B c (grid1.coords t) _ _ _ _ _ _ _ _ _ _ _ _ ((hcond1_0 t).mpr h0) (fun h => h1 ((hcond1_1 t).mp h)) (fun h => h2 ((hcond1_2 t).mp h)) (blk1 V c 0 t) (blk1 V c 1 t)).2.2 _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, ⟨%eS0, HS0⟩, ⟨%eS1, HS1⟩⟩
          isplitl [HS0 HS1 Hrest Hg]
          · isplitl [HS0 HS1 Hrest]
            · isplitl [HS0 HS1]
              · isplitl [HS0]
                · unfold owns; iexists _; isplitr
                  swap
                  · iexact HS0
                  ipureintro; exact View.read_writes_of_cover _ _ _ _ _ (scover1_B_0 c _ _ _ _ _ _ _ _ _ _ _ _ _ _ _ _ _ _)
                · unfold owns; iexists _; isplitr
                  swap
                  · iexact HS1
                  ipureintro; exact View.read_writes_of_cover _ _ _ _ _ (scover1_B_1 c _ _ _ _ _ _ _ _ _ _ _ _ _ _ _ _ _ _)
              · iexact Hrest
            · iexact Hg
          isplitl [Ho]
          · iexact Ho
          isplitl [H0]
          · iexact H0
          isplitl [H1]
          · iexact H1
          isplitl [H2]
          · iexists _; iexact H2
          iexists _; iexact H3
        · rw [outsAt1_pos V c t hz, step1_B V c t _ h0 h1 h2]
          unfold sout1_B_0 sout1_B_1; (try dsimp only)
          rw [PhiS1_castSucc V c t, PhiS1_pos V c _ _ hz]
          iintro ⟨⟨⟨⟨HS0, HS1⟩, Hrest⟩, Hg⟩, Ho, ⟨%d0, H0⟩, ⟨%d1, H1⟩, ⟨%d2, H2⟩, ⟨%d3, H3⟩⟩
          iapply ((pieces1_B c (grid1.coords t) _ _ _ _ _ _ _ _ _ _ _ _ ((hcond1_0 t).mpr h0) (fun h => h1 ((hcond1_1 t).mp h)) (fun h => h2 ((hcond1_2 t).mp h)) (blk1 V c 0 t) (blk1 V c 1 t)).2.2 _ _ Set.univ _)
          isplitl [H0]; · iexact H0
          isplitl [H1]; · iexact H1
          isplitl [H2]; · iexact H2
          isplitl [H3]; · iexact H3
          isplitl [HS0]; · iexists _; iexact HS0
          isplitl [HS1]; · iexists _; iexact HS1
          iintro ⟨H0, H1, H2, H3, ⟨%eS0, HS0⟩, ⟨%eS1, HS1⟩⟩
          isplitl [HS0 HS1 Hrest Hg]
          · isplitl [HS0 HS1 Hrest]
            · isplitl [HS0 HS1]
              · isplitl [HS0]
                · unfold owns; iexists _; isplitr
                  swap
                  · iexact HS0
                  ipureintro; exact View.read_writes_of_cover _ _ _ _ _ (scover1_B_0 c _ _ _ _ _ _ _ _ _ _ _ _ _ _ _ _ _ _)
                · unfold owns; iexists _; isplitr
                  swap
                  · iexact HS1
                  ipureintro; exact View.read_writes_of_cover _ _ _ _ _ (scover1_B_1 c _ _ _ _ _ _ _ _ _ _ _ _ _ _ _ _ _ _)
              · iexact Hrest
            · iexact Hg
          isplitl [Ho]
          · iexact Ho
          isplitl [H0]
          · iexact H0
          isplitl [H1]
          · iexact H1
          isplitl [H2]
          · iexists _; iexact H2
          iexists _; iexact H3
  · by_cases h1 : (t.val / 8) % 8 ≤ t.val % 8
    · by_cases h2 : t.val % 8 = 7
      · rw [show (dat1 V c).leavesExact 0 t = owns (c : Thread nD τ) (ms1_0 t) fullShare ((dat1 V c).after 0 t) from by
          unfold Dat.leavesExact; rw [live1_0 t], after1_0]
        rw [show (dat1 V c).leavesExact 1 t = owns (c : Thread nD τ) (ms1_1 t) fullShare ((dat1 V c).after 1 t) from by
          unfold Dat.leavesExact; rw [live1_1 t], after1_1]
        rw [show (dat1 V c).leavesExact 2 t = owns (c : Thread nD τ) (ms1_2 t) fullShare ((dat1 V c).after 2 t) from by
          unfold Dat.leavesExact; rw [live1_2 t ((hcond1_2 t).mpr h2)], after1_2]
        rw [show (dat1 V c).leavesExact 3 t = owns (c : Thread nD τ) (ms1_3 t) fullShare ((dat1 V c).after 3 t) from by
          unfold Dat.leavesExact; rw [live1_3 t ((hcond1_2 t).mpr h2)], after1_3]
        by_cases hz : t.val = 0
        · exfalso; omega
        · rw [outsAt1_pos V c t hz, step1_E V c t _ h0 h1 h2]
          unfold out1_E_2 out1_E_3 sout1_E_0 sout1_E_1; (try dsimp only)
          rw [PhiS1_castSucc V c t, PhiS1_pos V c _ _ hz]
          iintro ⟨⟨⟨⟨HS0, HS1⟩, Hrest⟩, Hg⟩, Ho, ⟨%d0, H0⟩, ⟨%d1, H1⟩, ⟨%d2, H2⟩, ⟨%d3, H3⟩⟩
          iapply ((pieces1_E c (grid1.coords t) _ _ _ _ _ _ _ _ _ _ _ _ (fun h => h0 ((hcond1_0 t).mp h)) ((hcond1_1 t).mpr h1) ((hcond1_2 t).mpr h2) (blk1 V c 0 t) (blk1 V c 1 t) _ _).2.2.2.2 Set.univ _)
          isplitl [H0]; · iexact H0
          isplitl [H1]; · iexact H1
          isplitl [H2]; · iexists _; iexact H2
          isplitl [H3]; · iexists _; iexact H3
          isplitl [HS0]; · iexact HS0
          isplitl [HS1]; · iexact HS1
          iintro ⟨H0, H1, ⟨%e2, H2⟩, ⟨%e3, H3⟩, ⟨%eS0, HS0⟩, ⟨%eS1, HS1⟩⟩
          isplitl [HS0 HS1 Hrest Hg]
          · isplitl [HS0 HS1 Hrest]
            · isplitl [HS0 HS1]
              · isplitl [HS0]
                · unfold owns; iexists _; isplitr
                  swap
                  · iexact HS0
                  ipureintro; exact View.read_writes_of_cover _ _ _ _ _ (scover1_E_0 c _ _ _ _ _ _ _ _ _ _ _ _ _ _ _ _ _ _ _ _)
                · unfold owns; iexists _; isplitr
                  swap
                  · iexact HS1
                  ipureintro; exact View.read_writes_of_cover _ _ _ _ _ (scover1_E_1 c _ _ _ _ _ _ _ _ _ _ _ _ _ _ _ _ _ _ _ _)
              · iexact Hrest
            · iexact Hg
          isplitl [Ho]
          · iexact Ho
          isplitl [H0]
          · iexact H0
          isplitl [H1]
          · iexact H1
          isplitl [H2]
          · unfold owns; iexists _; isplitr
            swap
            · iexact H2
            ipureintro; exact View.read_writes_of_cover _ _ _ _ _ (cover1_E_2 c _ _ _ _ _ _ _ _ _ _ _ _ _ _ _ _ _ _ _ _)
          unfold owns; iexists _; isplitr
          swap
          · iexact H3
          ipureintro; exact View.read_writes_of_cover _ _ _ _ _ (cover1_E_3 c _ _ _ _ _ _ _ _ _ _ _ _ _ _ _ _ _ _ _ _)
      · rw [show (dat1 V c).leavesExact 0 t = owns (c : Thread nD τ) (ms1_0 t) fullShare ((dat1 V c).after 0 t) from by
          unfold Dat.leavesExact; rw [live1_0 t], after1_0]
        rw [show (dat1 V c).leavesExact 1 t = owns (c : Thread nD τ) (ms1_1 t) fullShare ((dat1 V c).after 1 t) from by
          unfold Dat.leavesExact; rw [live1_1 t], after1_1]
        rw [Dat.leavesExact_idle (dat1 V c) 2 t (idle1_2 t (fun h => h2 ((hcond1_2 t).mp h))) (noFlush1_2 t (fun h => h2 ((hcond1_2 t).mp h)))]
        rw [Dat.leavesExact_idle (dat1 V c) 3 t (idle1_3 t (fun h => h2 ((hcond1_2 t).mp h))) (noFlush1_3 t (fun h => h2 ((hcond1_2 t).mp h)))]
        by_cases hz : t.val = 0
        · exfalso; omega
        · rw [outsAt1_pos V c t hz, step1_C V c t _ h0 h1 h2]
          unfold sout1_C_0 sout1_C_1; (try dsimp only)
          rw [PhiS1_castSucc V c t, PhiS1_pos V c _ _ hz]
          iintro ⟨⟨⟨⟨HS0, HS1⟩, Hrest⟩, Hg⟩, Ho, ⟨%d0, H0⟩, ⟨%d1, H1⟩, ⟨%d2, H2⟩, ⟨%d3, H3⟩⟩
          iapply ((pieces1_C c (grid1.coords t) _ _ _ _ _ _ _ _ _ _ _ _ (fun h => h0 ((hcond1_0 t).mp h)) ((hcond1_1 t).mpr h1) (fun h => h2 ((hcond1_2 t).mp h)) (blk1 V c 0 t) (blk1 V c 1 t) _ _).2.2 _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, ⟨%eS0, HS0⟩, ⟨%eS1, HS1⟩⟩
          isplitl [HS0 HS1 Hrest Hg]
          · isplitl [HS0 HS1 Hrest]
            · isplitl [HS0 HS1]
              · isplitl [HS0]
                · unfold owns; iexists _; isplitr
                  swap
                  · iexact HS0
                  ipureintro; exact View.read_writes_of_cover _ _ _ _ _ (scover1_C_0 c _ _ _ _ _ _ _ _ _ _ _ _ _ _ _ _ _ _ _ _)
                · unfold owns; iexists _; isplitr
                  swap
                  · iexact HS1
                  ipureintro; exact View.read_writes_of_cover _ _ _ _ _ (scover1_C_1 c _ _ _ _ _ _ _ _ _ _ _ _ _ _ _ _ _ _ _ _)
              · iexact Hrest
            · iexact Hg
          isplitl [Ho]
          · iexact Ho
          isplitl [H0]
          · iexact H0
          isplitl [H1]
          · iexact H1
          isplitl [H2]
          · iexists _; iexact H2
          iexists _; iexact H3
    · by_cases h2 : t.val % 8 = 7
      · exfalso; omega
      · rw [show (dat1 V c).leavesExact 0 t = owns (c : Thread nD τ) (ms1_0 t) fullShare ((dat1 V c).after 0 t) from by
          unfold Dat.leavesExact; rw [live1_0 t], after1_0]
        rw [show (dat1 V c).leavesExact 1 t = owns (c : Thread nD τ) (ms1_1 t) fullShare ((dat1 V c).after 1 t) from by
          unfold Dat.leavesExact; rw [live1_1 t], after1_1]
        rw [Dat.leavesExact_idle (dat1 V c) 2 t (idle1_2 t (fun h => h2 ((hcond1_2 t).mp h))) (noFlush1_2 t (fun h => h2 ((hcond1_2 t).mp h)))]
        rw [Dat.leavesExact_idle (dat1 V c) 3 t (idle1_3 t (fun h => h2 ((hcond1_2 t).mp h))) (noFlush1_3 t (fun h => h2 ((hcond1_2 t).mp h)))]
        by_cases hz : t.val = 0
        · exfalso; omega
        · rw [outsAt1_pos V c t hz, step1_D V c t _ h0 h1 h2]
          (try dsimp only)
          rw [PhiS1_castSucc V c t, PhiS1_pos V c _ _ hz]
          iintro ⟨⟨⟨⟨HS0, HS1⟩, Hrest⟩, Hg⟩, Ho, ⟨%d0, H0⟩, ⟨%d1, H1⟩, ⟨%d2, H2⟩, ⟨%d3, H3⟩⟩
          iapply (pieces1_D c (grid1.coords t) _ _ _ _ _ _ _ _ _ _ _ _ (fun h => h0 ((hcond1_0 t).mp h)) (fun h => h1 ((hcond1_1 t).mp h)) (fun h => h2 ((hcond1_2 t).mp h)) (blk1 V c 0 t) (blk1 V c 1 t) _ _ _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, HS0, HS1⟩
          isplitl [HS0 HS1 Hrest Hg]
          · isplitl [HS0 HS1 Hrest]
            · isplitl [HS0 HS1]
              · isplitl [HS0]
                · iexact HS0
                · iexact HS1
              · iexact Hrest
            · iexact Hg
          isplitl [Ho]
          · iexact Ho
          isplitl [H0]
          · iexact H0
          isplitl [H1]
          · iexact H1
          isplitl [H2]
          · iexists _; iexact H2
          iexists _; iexact H3

set_option maxHeartbeats 8000000 in
/-- The region's obligation to the pipeline, at every point. -/
theorem obligation1 (c : Dev nD) : BodyObligation (dat1 (F := F) V c) (defs₀ (F := F)) Variants.none () Set.univ := fun t => by
  rw [bigSep_W1, bigSep_W1]
  exact point1 V c t

/-- What the region is entered with is the invariant before the first point. -/
theorem enter1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the region was entered with: the scratch's contents are forgotten. -/
theorem leave1 (c : Dev nD) : (dat1 V c).Φ (Fin.last cfg1.N) ⊢ Pipeline.ΦA spec1 c := by
  have hN : cfg1.N = 256 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end Cert.Kernel.Frames

end
-- ==== Proof.K.Region2.lean ====
/-
  The output region (the third kernel launch): its grid is 4 batches by 4 query tiles of 1024 rows by 8 key tiles of
  512 columns, the key tile running fastest. For a fixed batch and query tile t the body walks the key tiles s = 0..7
  keeping a 256 by 1024 accumulator in scratch: it clears it at s = 0; where the key tile meets the query tile's rows
  (s ≤ 2 t + 1) it computes the tile of normalised weights from the column statistics, stores it as the weights block
  and adds its product with the values tile to the accumulator; where it does not, it stores a block of zeros instead;
  and at s = 7 it copies the accumulator to the attention output, whose block the pipeline writes back only there.
  So there are five ways through the body. This module finds each way's stores by running it once symbolically, folds
  them over the grid, and packages the result as the region's per-point proof data.
-/
import proofs.«130694_j5669356831785_2_alg».proof.Proof.K.Region0

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` that grid point `t` works on, read out of the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the point's block whether or not the pipeline fetched it there: when it
    did not, the block index has not moved since the last fetch (an index map that repeats an index costs no fetch). -/
theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's current staging buffer holds the point's block whether or not the pipeline fetched it there: when it
    did not, the block index has not moved since the last fetch (an index map that repeats an index costs no fetch). -/
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2's current staging buffer holds the point's block whether or not the pipeline fetched it there: when it
    did not, the block index has not moved since the last fetch (an index map that repeats an index costs no fetch). -/
theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- Input window 3's current staging buffer holds the point's block whether or not the pipeline fetched it there: when it
    did not, the block index has not moved since the last fetch (an index map that repeats an index costs no fetch). -/
theorem found2_3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Input window 4's current staging buffer holds the point's block whether or not the pipeline fetched it there: when it
    did not, the block index has not moved since the last fetch (an index map that repeats an index costs no fetch). -/
theorem found2_4 {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-! ## The body's conditions, decided over the grid -/

/-- Condition 0 of the body (the key tile is the first), as the body computes it from the grid coordinates. -/
abbrev cond2_0 (i : grid2.Coords) : Prop := (Scalar.cmpi .ne (Scalar.extui (Scalar.cmpi .eq (BitVec.ofNat 32 (i 2).val) 0#32)) 0#32) = 1#1
/-- Where it holds, in closed form over the point's number. -/
theorem hcond2_0 : ∀ t : Fin cfg2.N, cond2_0 (grid2.coords t) ↔ t.val % 8 = 0 :=
  (by decide +kernel : ∀ t : Fin grid2.N, cond2_0 (grid2.coords t) ↔ t.val % 8 = 0)

/-- Condition 1 of the body (the key tile meets the query tile's rows), as the body computes it from the grid coordinates. -/
abbrev cond2_1 (i : grid2.Coords) : Prop := k2_cond2 i = 1#1
/-- Where it holds, in closed form over the point's number. -/
theorem hcond2_1 : ∀ t : Fin cfg2.N, cond2_1 (grid2.coords t) ↔ t.val % 8 ≤ 2 * ((t.val / 8) % 4) + 1 :=
  (by decide +kernel : ∀ t : Fin grid2.N, cond2_1 (grid2.coords t) ↔ t.val % 8 ≤ 2 * ((t.val / 8) % 4) + 1)

/-- Condition 2 of the body (the key tile lies wholly past the query tile's rows), as the body computes it from the grid coordinates. -/
abbrev cond2_2 (i : grid2.Coords) : Prop := k2_cond3 i = 1#1
/-- Where it holds, in closed form over the point's number. -/
theorem hcond2_2 : ∀ t : Fin cfg2.N, cond2_2 (grid2.coords t) ↔ 2 * ((t.val / 8) % 4) + 1 < t.val % 8 :=
  (by decide +kernel : ∀ t : Fin grid2.N, cond2_2 (grid2.coords t) ↔ 2 * ((t.val / 8) % 4) + 1 < t.val % 8)

/-- Condition 3 of the body (the key tile is the last), as the body computes it from the grid coordinates. -/
abbrev cond2_3 (i : grid2.Coords) : Prop := k2_cond4 i = 1#1
/-- Where it holds, in closed form over the point's number. -/
theorem hcond2_3 : ∀ t : Fin cfg2.N, cond2_3 (grid2.coords t) ↔ t.val % 8 = 7 :=
  (by decide +kernel : ∀ t : Fin grid2.N, cond2_3 (grid2.coords t) ↔ t.val % 8 = 7)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
/-- Output 5 is stored only where condition 3 holds; elsewhere the body leaves its buffer alone and the pipeline does not write it back. -/
theorem idle2_5 : ∀ t : Fin cfg2.N, ¬cond2_3 (grid2.coords t) → cfg2.idle 5 (grid2.coords t) = true := by decide +kernel
theorem noFlush2_5 : ∀ t : Fin cfg2.N, ¬cond2_3 (grid2.coords t) → (cfg2.win 5).flush t = false := by decide +kernel
theorem live2_5 : ∀ t : Fin cfg2.N, cond2_3 (grid2.coords t) → cfg2.idle 5 (grid2.coords t) = false := by decide +kernel
theorem live2_6 : ∀ t : Fin cfg2.N, cfg2.idle 6 (grid2.coords t) = false := by decide +kernel

/-! ## The staging memrefs at a point, and the scratch -/

abbrev ms2_0 (t : Fin cfg2.N) : Memref sig .tc .vmem S1x256x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256x1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1024x512 .f32 := win2_6.stage (cfg2.slots t 6)
abbrev hs2_6 (t : Fin cfg2.N) : (ms2_6 t).IsWhole := hstage2_6 ((cfg2.slots t 6).cast nbuf2_6)
abbrev VO2_5 : View sig .tc .vmem S1x256x1024 .f32 := (Memref.whole cc2_stg5_0 : Memref sig .tc .vmem S1x256x1024 .f32).view
abbrev VO2_6 : View sig .tc .vmem S1x1024x512 .f32 := (Memref.whole cc2_stg6_0 : Memref sig .tc .vmem S1x1024x512 .f32).view
abbrev scM2_0 : Memref sig .tc .vmem S256x1024 .f32 := Memref.whole cc2_scratch0
abbrev VS2_0 : View sig .tc .vmem S256x1024 .f32 := scM2_0.view

/-- The scoped buffers that are neither a staging buffer of this region nor its scratch: never touched here. -/
abbrev rest2 (c : Dev nD) : sProp 𝕄 :=
  Pipeline.scopedRestBut (Ix := Unit) (Name := ℕ) (U := UR sig nD τ) (Lvl := ℕ) (Val := Elt F) spec2 c [cc2_scratch0]

/-- What the pipeline hands the body between points when nothing is said about the scratch: each scratch buffer at some
    contents, the other scoped buffers, and the generator register at some state. -/
theorem PhiA2_eq (c : Dev nD) :
    (Pipeline.ΦA spec2 c : sProp 𝕄)
      = iprop(iprop(iprop((∃ d, owns (c : Thread nD τ) scM2_0 fullShare d)) ∗ rest2 c) ∗ (∃ r, prngReg c r)) := by
  unfold Pipeline.ΦA; rw [scopedRest2_split]; simp only [scM2_0, owns_whole]; try rfl

/-! ## The body, run once per way through it, on arbitrary whole buffers -/

set_option maxHeartbeats 4000000 in
/-- The way through the body where condition 0 holds, condition 1 holds, condition 2 fails, condition 3 fails: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces2_P (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) :
    Σ' (L6 : List (View.Piece (Elt F) S1x1024x512 .f32)), { LS0 : List (View.Piece (Elt F) S256x1024 .f32) //
      ∀ (xi5 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc2__out_kernel i arg3 harg3 arg4 harg4 arg5 harg5 arg6 harg6 arg7 harg7 arg8 harg8 arg9 harg9 arg10 harg10) K } := by
  refine ⟨?_, ?_, fun xi5 E K => ?run⟩
  case run =>
    simp only [cc2__out_kernel_eq_skeleton]; unfold cc2__out_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%dS0, %fS0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

/-- In this way through the body the stores into output 6 tile it, so every index is written. -/
theorem cover2_P_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (y : S1x1024x512.Idx) :
    ∃ pc ∈ (pieces2_P c i arg3 harg3 arg4 harg4 arg5 harg5 arg6 harg6 arg7 harg7 arg8 harg8 arg9 harg9 arg10 harg10 hc0 hc1 hc2 hc3 x0 x1 x2 x3 x4).1, y ∈ pc.1.set :=
  View.cover_of_tiledL (pieces2_P c i arg3 harg3 arg4 harg4 arg5 harg5 arg6 harg6 arg7 harg7 arg8 harg8 arg9 harg9 arg10 harg10 hc0 hc1 hc2 hc3 x0 x1 x2 x3 x4).1 S1x1024x512.size (by sl_kernel_rfl) y

/-- What this way through the body leaves there: its pieces read back. -/
def out2_P_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) : Vec F S1x1024x512 .f32 :=
  VO2_6.read (Elt F) (VO2_6.writes (Elt F) VO2_6.junk (pieces2_P c i arg3 harg3 arg4 harg4 arg5 harg5 arg6 harg6 arg7 harg7 arg8 harg8 arg9 harg9 arg10 harg10 hc0 hc1 hc2 hc3 x0 x1 x2 x3 x4).1)

/-- In this way through the body the stores into scratch 0 tile it, so every index is written. -/
theorem scover2_P_0 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (y : S256x1024.Idx) :
    ∃ pc ∈ (pieces2_P c i arg3 harg3 arg4 harg4 arg5 harg5 arg6 harg6 arg7 harg7 arg8 harg8 arg9 harg9 arg10 harg10 hc0 hc1 hc2 hc3 x0 x1 x2 x3 x4).2.1, y ∈ pc.1.set :=
  View.cover_of_tiledL (pieces2_P c i arg3 harg3 arg4 harg4 arg5 harg5 arg6 harg6 arg7 harg7 arg8 harg8 arg9 harg9 arg10 harg10 hc0 hc1 hc2 hc3 x0 x1 x2 x3 x4).2.1 S256x1024.size (by sl_kernel_rfl) y

/-- What this way through the body leaves there: its pieces read back. -/
def sout2_P_0 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) : Vec F S256x1024 .f32 :=
  VS2_0.read (Elt F) (VS2_0.writes (Elt F) VS2_0.junk (pieces2_P c i arg3 harg3 arg4 harg4 arg5 harg5 arg6 harg6 arg7 harg7 arg8 harg8 arg9 harg9 arg10 harg10 hc0 hc1 hc2 hc3 x0 x1 x2 x3 x4).2.1)

set_option maxHeartbeats 4000000 in
/-- The way through the body where condition 0 fails, condition 1 holds, condition 2 fails, condition 3 fails: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces2_Q (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    Σ' (L6 : List (View.Piece (Elt F) S1x1024x512 .f32)), { LS0 : List (View.Piece (Elt F) S256x1024 .f32) //
      ∀ (xi5 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc2__out_kernel i arg3 harg3 arg4 harg4 arg5 harg5 arg6 harg6 arg7 harg7 arg8 harg8 arg9 harg9 arg10 harg10) K } := by
  refine ⟨?_, ?_, fun xi5 E K => ?run⟩
  case run =>
    simp only [cc2__out_kernel_eq_skeleton]; unfold cc2__out_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fS0, %hfS0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfS0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

/-- In this way through the body the stores into output 6 tile it, so every index is written. -/
theorem cover2_Q_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S1x1024x512.Idx) :
    ∃ pc ∈ (pieces2_Q c i arg3 harg3 arg4 harg4 arg5 harg5 arg6 harg6 arg7 harg7 arg8 harg8 arg9 harg9 arg10 harg10 hc0 hc1 hc2 hc3 x0 x1 x2 x3 x4 xs0).1, y ∈ pc.1.set :=
  View.cover_of_tiledL (pieces2_Q c i arg3 harg3 arg4 harg4 arg5 harg5 arg6 harg6 arg7 harg7 arg8 harg8 arg9 harg9 arg10 harg10 hc0 hc1 hc2 hc3 x0 x1 x2 x3 x4 xs0).1 S1x1024x512.size (by sl_kernel_rfl) y

/-- What this way through the body leaves there: its pieces read back. -/
def out2_Q_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S1x1024x512 .f32 :=
  VO2_6.read (Elt F) (VO2_6.writes (Elt F) VO2_6.junk (pieces2_Q c i arg3 harg3 arg4 harg4 arg5 harg5 arg6 harg6 arg7 harg7 arg8 harg8 arg9 harg9 arg10 harg10 hc0 hc1 hc2 hc3 x0 x1 x2 x3 x4 xs0).1)

/-- In this way through the body the stores into scratch 0 tile it, so every index is written. -/
theorem scover2_Q_0 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S256x1024.Idx) :
    ∃ pc ∈ (pieces2_Q c i arg3 harg3 arg4 harg4 arg5 harg5 arg6 harg6 arg7 harg7 arg8 harg8 arg9 harg9 arg10 harg10 hc0 hc1 hc2 hc3 x0 x1 x2 x3 x4 xs0).2.1, y ∈ pc.1.set :=
  View.cover_of_tiledL (pieces2_Q c i arg3 harg3 arg4 harg4 arg5 harg5 arg6 harg6 arg7 harg7 arg8 harg8 arg9 harg9 arg10 harg10 hc0 hc1 hc2 hc3 x0 x1 x2 x3 x4 xs0).2.1 S256x1024.size (by sl_kernel_rfl) y

/-- What this way through the body leaves there: its pieces read back. -/
def sout2_Q_0 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S256x1024 .f32 :=
  VS2_0.read (Elt F) (VS2_0.writes (Elt F) VS2_0.junk (pieces2_Q c i arg3 harg3 arg4 harg4 arg5 harg5 arg6 harg6 arg7 harg7 arg8 harg8 arg9 harg9 arg10 harg10 hc0 hc1 hc2 hc3 x0 x1 x2 x3 x4 xs0).2.1)

set_option maxHeartbeats 4000000 in
/-- The way through the body where condition 0 fails, condition 1 fails, condition 2 holds, condition 3 fails: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces2_R (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    { L6 : List (View.Piece (Elt F) S1x1024x512 .f32) //
      ∀ (xi5 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f L6) ∗ owns (c : Thread nD τ) arg10 fullShare xs0) -∗ K ⟨⟩))
          ⊢ wp frame (wpE (defs₀ (F := F)) Variants.none c none) E (cc2__out_kernel i arg3 harg3 arg4 harg4 arg5 harg5 arg6 harg6 arg7 harg7 arg8 harg8 arg9 harg9 arg10 harg10) K } := by
  refine ⟨?_, fun xi5 E K => ?run⟩
  case run =>
    simp only [cc2__out_kernel_eq_skeleton]; unfold cc2__out_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fS0, %hfS0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfS0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; isplitr; · ipureintro; exact harg10.read_unread _
    iexact HS0

/-- In this way through the body the stores into output 6 tile it, so every index is written. -/
theorem cover2_R_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S1x1024x512.Idx) :
    ∃ pc ∈ (pieces2_R c i arg3 harg3 arg4 harg4 arg5 harg5 arg6 harg6 arg7 harg7 arg8 harg8 arg9 harg9 arg10 harg10 hc0 hc1 hc2 hc3 x0 x1 x2 x3 x4 xs0).1, y ∈ pc.1.set :=
  View.cover_of_tiledL (pieces2_R c i arg3 harg3 arg4 harg4 arg5 harg5 arg6 harg6 arg7 harg7 arg8 harg8 arg9 harg9 arg10 harg10 hc0 hc1 hc2 hc3 x0 x1 x2 x3 x4 xs0).1 S1x1024x512.size (by sl_kernel_rfl) y

/-- What this way through the body leaves there: its pieces read back. -/
def out2_R_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S1x1024x512 .f32 :=
  VO2_6.read (Elt F) (VO2_6.writes (Elt F) VO2_6.junk (pieces2_R c i arg3 harg3 arg4 harg4 arg5 harg5 arg6 harg6 arg7 harg7 arg8 harg8 arg9 harg9 arg10 harg10 hc0 hc1 hc2 hc3 x0 x1 x2 x3 x4 xs0).1)

set_option maxHeartbeats 4000000 in
/-- The way through the body where condition 0 fails, condition 1 holds, condition 2 fails, condition 3 holds: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces2_S (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    Σ' (L5 : List (View.Piece (Elt F) S1x256x1024 .f32)) (L6 : List (View.Piece (Elt F) S1x1024x512 .f32)), { LS0 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc2__out_kernel i arg3 harg3 arg4 harg4 arg5 harg5 arg6 harg6 arg7 harg7 arg8 harg8 arg9 harg9 arg10 harg10) K } := by
  refine ⟨?_, ?_, ?_, fun  E K => ?run⟩
  case run =>
    simp only [cc2__out_kernel_eq_skeleton]; unfold cc2__out_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fS0, %hfS0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfS0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

/-- In this way through the body the stores into output 5 tile it, so every index is written. -/
theorem cover2_S_5 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S1x256x1024.Idx) :
    ∃ pc ∈ (pieces2_S c i arg3 harg3 arg4 harg4 arg5 harg5 arg6 harg6 arg7 harg7 arg8 harg8 arg9 harg9 arg10 harg10 hc0 hc1 hc2 hc3 x0 x1 x2 x3 x4 xs0).1, y ∈ pc.1.set :=
  View.cover_of_tiledL (pieces2_S c i arg3 harg3 arg4 harg4 arg5 harg5 arg6 harg6 arg7 harg7 arg8 harg8 arg9 harg9 arg10 harg10 hc0 hc1 hc2 hc3 x0 x1 x2 x3 x4 xs0).1 S1x256x1024.size (by sl_kernel_rfl) y

/-- What this way through the body leaves there: its pieces read back. -/
def out2_S_5 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S1x256x1024 .f32 :=
  VO2_5.read (Elt F) (VO2_5.writes (Elt F) VO2_5.junk (pieces2_S c i arg3 harg3 arg4 harg4 arg5 harg5 arg6 harg6 arg7 harg7 arg8 harg8 arg9 harg9 arg10 harg10 hc0 hc1 hc2 hc3 x0 x1 x2 x3 x4 xs0).1)

/-- In this way through the body the stores into output 6 tile it, so every index is written. -/
theorem cover2_S_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S1x1024x512.Idx) :
    ∃ pc ∈ (pieces2_S c i arg3 harg3 arg4 harg4 arg5 harg5 arg6 harg6 arg7 harg7 arg8 harg8 arg9 harg9 arg10 harg10 hc0 hc1 hc2 hc3 x0 x1 x2 x3 x4 xs0).2.1, y ∈ pc.1.set :=
  View.cover_of_tiledL (pieces2_S c i arg3 harg3 arg4 harg4 arg5 harg5 arg6 harg6 arg7 harg7 arg8 harg8 arg9 harg9 arg10 harg10 hc0 hc1 hc2 hc3 x0 x1 x2 x3 x4 xs0).2.1 S1x1024x512.size (by sl_kernel_rfl) y

/-- What this way through the body leaves there: its pieces read back. -/
def out2_S_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S1x1024x512 .f32 :=
  VO2_6.read (Elt F) (VO2_6.writes (Elt F) VO2_6.junk (pieces2_S c i arg3 harg3 arg4 harg4 arg5 harg5 arg6 harg6 arg7 harg7 arg8 harg8 arg9 harg9 arg10 harg10 hc0 hc1 hc2 hc3 x0 x1 x2 x3 x4 xs0).2.1)

/-- In this way through the body the stores into scratch 0 tile it, so every index is written. -/
theorem scover2_S_0 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S256x1024.Idx) :
    ∃ pc ∈ (pieces2_S c i arg3 harg3 arg4 harg4 arg5 harg5 arg6 harg6 arg7 harg7 arg8 harg8 arg9 harg9 arg10 harg10 hc0 hc1 hc2 hc3 x0 x1 x2 x3 x4 xs0).2.2.1, y ∈ pc.1.set :=
  View.cover_of_tiledL (pieces2_S c i arg3 harg3 arg4 harg4 arg5 harg5 arg6 harg6 arg7 harg7 arg8 harg8 arg9 harg9 arg10 harg10 hc0 hc1 hc2 hc3 x0 x1 x2 x3 x4 xs0).2.2.1 S256x1024.size (by sl_kernel_rfl) y

/-- What this way through the body leaves there: its pieces read back. -/
def sout2_S_0 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S256x1024 .f32 :=
  VS2_0.read (Elt F) (VS2_0.writes (Elt F) VS2_0.junk (pieces2_S c i arg3 harg3 arg4 harg4 arg5 harg5 arg6 harg6 arg7 harg7 arg8 harg8 arg9 harg9 arg10 harg10 hc0 hc1 hc2 hc3 x0 x1 x2 x3 x4 xs0).2.2.1)

set_option maxHeartbeats 4000000 in
/-- The way through the body where condition 0 fails, condition 1 fails, condition 2 holds, condition 3 holds: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces2_T (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    Σ' (L5 : List (View.Piece (Elt F) S1x256x1024 .f32)), { L6 : List (View.Piece (Elt F) S1x1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ owns (c : Thread nD τ) arg10 fullShare xs0) -∗ K ⟨⟩))
          ⊢ wp frame (wpE (defs₀ (F := F)) Variants.none c none) E (cc2__out_kernel i arg3 harg3 arg4 harg4 arg5 harg5 arg6 harg6 arg7 harg7 arg8 harg8 arg9 harg9 arg10 harg10) K } := by
  refine ⟨?_, ?_, fun  E K => ?run⟩
  case run =>
    simp only [cc2__out_kernel_eq_skeleton]; unfold cc2__out_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fS0, %hfS0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfS0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; isplitr; · ipureintro; exact harg10.read_unread _
    iexact HS0

/-- In this way through the body the stores into output 5 tile it, so every index is written. -/
theorem cover2_T_5 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S1x256x1024.Idx) :
    ∃ pc ∈ (pieces2_T c i arg3 harg3 arg4 harg4 arg5 harg5 arg6 harg6 arg7 harg7 arg8 harg8 arg9 harg9 arg10 harg10 hc0 hc1 hc2 hc3 x0 x1 x2 x3 x4 xs0).1, y ∈ pc.1.set :=
  View.cover_of_tiledL (pieces2_T c i arg3 harg3 arg4 harg4 arg5 harg5 arg6 harg6 arg7 harg7 arg8 harg8 arg9 harg9 arg10 harg10 hc0 hc1 hc2 hc3 x0 x1 x2 x3 x4 xs0).1 S1x256x1024.size (by sl_kernel_rfl) y

/-- What this way through the body leaves there: its pieces read back. -/
def out2_T_5 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S1x256x1024 .f32 :=
  VO2_5.read (Elt F) (VO2_5.writes (Elt F) VO2_5.junk (pieces2_T c i arg3 harg3 arg4 harg4 arg5 harg5 arg6 harg6 arg7 harg7 arg8 harg8 arg9 harg9 arg10 harg10 hc0 hc1 hc2 hc3 x0 x1 x2 x3 x4 xs0).1)

/-- In this way through the body the stores into output 6 tile it, so every index is written. -/
theorem cover2_T_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S1x1024x512.Idx) :
    ∃ pc ∈ (pieces2_T c i arg3 harg3 arg4 harg4 arg5 harg5 arg6 harg6 arg7 harg7 arg8 harg8 arg9 harg9 arg10 harg10 hc0 hc1 hc2 hc3 x0 x1 x2 x3 x4 xs0).2.1, y ∈ pc.1.set :=
  View.cover_of_tiledL (pieces2_T c i arg3 harg3 arg4 harg4 arg5 harg5 arg6 harg6 arg7 harg7 arg8 harg8 arg9 harg9 arg10 harg10 hc0 hc1 hc2 hc3 x0 x1 x2 x3 x4 xs0).2.1 S1x1024x512.size (by sl_kernel_rfl) y

/-- What this way through the body leaves there: its pieces read back. -/
def out2_T_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S1x1024x512 .f32 :=
  VO2_6.read (Elt F) (VO2_6.writes (Elt F) VO2_6.junk (pieces2_T c i arg3 harg3 arg4 harg4 arg5 harg5 arg6 harg6 arg7 harg7 arg8 harg8 arg9 harg9 arg10 harg10 hc0 hc1 hc2 hc3 x0 x1 x2 x3 x4 xs0).2.1)

/-! ## What the outputs and the scratch hold after each point -/

/-- One step of the accumulation: what the output buffers and the scratch hold after the body at point `t`, given what
    the scratch held before it — the way through the body that the closed forms select at `t`, run at the point's
    buffers and input blocks. A buffer the selected way does not store keeps what it had (an idle output's component is
    a placeholder nothing reads). A combination of the conditions that no point meets is no case. -/
def step2 (c : Dev nD) (t : Fin cfg2.N) (prev : Vec F S256x1024 .f32) : Vec F S1x256x1024 .f32 × Vec F S1x1024x512 .f32 × Vec F S256x1024 .f32 :=
  if h0 : t.val % 8 = 0 then
    if h1 : t.val % 8 ≤ 2 * ((t.val / 8) % 4) + 1 then
      if h2 : 2 * ((t.val / 8) % 4) + 1 < t.val % 8 then
        if h3 : t.val % 8 = 7 then
          False.elim (by have hN : t.val < 128 := lt_of_lt_of_eq t.isLt (show cfg2.N = 128 from N_2); omega)
        else
          False.elim (by have hN : t.val < 128 := lt_of_lt_of_eq t.isLt (show cfg2.N = 128 from N_2); omega)
      else
        if h3 : t.val % 8 = 7 then
          False.elim (by have hN : t.val < 128 := lt_of_lt_of_eq t.isLt (show cfg2.N = 128 from N_2); omega)
        else
          (VO2_5.read (Elt F) VO2_5.junk, out2_P_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t), sout2_P_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t))
    else
      if h2 : 2 * ((t.val / 8) % 4) + 1 < t.val % 8 then
        if h3 : t.val % 8 = 7 then
          False.elim (by have hN : t.val < 128 := lt_of_lt_of_eq t.isLt (show cfg2.N = 128 from N_2); omega)
        else
          False.elim (by have hN : t.val < 128 := lt_of_lt_of_eq t.isLt (show cfg2.N = 128 from N_2); omega)
      else
        if h3 : t.val % 8 = 7 then
          False.elim (by have hN : t.val < 128 := lt_of_lt_of_eq t.isLt (show cfg2.N = 128 from N_2); omega)
        else
          False.elim (by have hN : t.val < 128 := lt_of_lt_of_eq t.isLt (show cfg2.N = 128 from N_2); omega)
  else
    if h1 : t.val % 8 ≤ 2 * ((t.val / 8) % 4) + 1 then
      if h2 : 2 * ((t.val / 8) % 4) + 1 < t.val % 8 then
        if h3 : t.val % 8 = 7 then
          False.elim (by have hN : t.val < 128 := lt_of_lt_of_eq t.isLt (show cfg2.N = 128 from N_2); omega)
        else
          False.elim (by have hN : t.val < 128 := lt_of_lt_of_eq t.isLt (show cfg2.N = 128 from N_2); omega)
      else
        if h3 : t.val % 8 = 7 then
          (out2_S_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) ((hcond2_3 t).mpr h3) (blk2 V c 0 t) (blk2 V c 1 t) (blk2 V c 2 t) (blk2 V c 3 t) (blk2 V c 4 t) (prev), out2_S_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) ((hcond2_3 t).mpr h3) (blk2 V c 0 t) (blk2 V c 1 t) (blk2 V c 2 t) (blk2 V c 3 t) (blk2 V c 4 t) (prev), sout2_S_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) ((hcond2_3 t).mpr h3) (blk2 V c 0 t) (blk2 V c 1 t) (blk2 V c 2 t) (blk2 V c 3 t) (blk2 V c 4 t) (prev))
        else
          (VO2_5.read (Elt F) VO2_5.junk, out2_Q_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t) (prev), sout2_Q_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t) (prev))
    else
      if h2 : 2 * ((t.val / 8) % 4) + 1 < t.val % 8 then
        if h3 : t.val % 8 = 7 then
          (out2_T_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) ((hcond2_2 t).mpr h2) ((hcond2_3 t).mpr h3) (blk2 V c 0 t) (blk2 V c 1 t) (blk2 V c 2 t) (blk2 V c 3 t) (blk2 V c 4 t) (prev), out2_T_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) ((hcond2_2 t).mpr h2) ((hcond2_3 t).mpr h3) (blk2 V c 0 t) (blk2 V c 1 t) (blk2 V c 2 t) (blk2 V c 3 t) (blk2 V c 4 t) (prev), prev)
        else
          (VO2_5.read (Elt F) VO2_5.junk, out2_R_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) ((hcond2_2 t).mpr h2) (fun h => h3 ((hcond2_3 t).mp h)) (blk2 V c 0 t) (blk2 V c 1 t) (blk2 V c 2 t) (blk2 V c 3 t) (blk2 V c 4 t) (prev), prev)
      else
        if h3 : t.val % 8 = 7 then
          False.elim (by have hN : t.val < 128 := lt_of_lt_of_eq t.isLt (show cfg2.N = 128 from N_2); omega)
        else
          False.elim (by have hN : t.val < 128 := lt_of_lt_of_eq t.isLt (show cfg2.N = 128 from N_2); omega)

/-- The step at a point where condition 0 holds, condition 1 holds, condition 2 fails, condition 3 fails. -/
theorem step2_P (c : Dev nD) (t : Fin cfg2.N) (prev : Vec F S256x1024 .f32) (h0 : t.val % 8 = 0) (h1 : t.val % 8 ≤ 2 * ((t.val / 8) % 4) + 1) (h2 : ¬2 * ((t.val / 8) % 4) + 1 < t.val % 8) (h3 : ¬t.val % 8 = 7) :
    step2 V c t prev = (VO2_5.read (Elt F) VO2_5.junk, out2_P_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t), sout2_P_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t)) := by
  unfold step2
  rw [dif_pos h0]; rw [dif_pos h1]; rw [dif_neg h2]; rw [dif_neg h3]

/-- The step at a point where condition 0 fails, condition 1 holds, condition 2 fails, condition 3 fails. -/
theorem step2_Q (c : Dev nD) (t : Fin cfg2.N) (prev : Vec F S256x1024 .f32) (h0 : ¬t.val % 8 = 0) (h1 : t.val % 8 ≤ 2 * ((t.val / 8) % 4) + 1) (h2 : ¬2 * ((t.val / 8) % 4) + 1 < t.val % 8) (h3 : ¬t.val % 8 = 7) :
    step2 V c t prev = (VO2_5.read (Elt F) VO2_5.junk, out2_Q_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t) (prev), sout2_Q_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t) (prev)) := by
  unfold step2
  rw [dif_neg h0]; rw [dif_pos h1]; rw [dif_neg h2]; rw [dif_neg h3]

/-- The step at a point where condition 0 fails, condition 1 fails, condition 2 holds, condition 3 fails. -/
theorem step2_R (c : Dev nD) (t : Fin cfg2.N) (prev : Vec F S256x1024 .f32) (h0 : ¬t.val % 8 = 0) (h1 : ¬t.val % 8 ≤ 2 * ((t.val / 8) % 4) + 1) (h2 : 2 * ((t.val / 8) % 4) + 1 < t.val % 8) (h3 : ¬t.val % 8 = 7) :
    step2 V c t prev = (VO2_5.read (Elt F) VO2_5.junk, out2_R_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) ((hcond2_2 t).mpr h2) (fun h => h3 ((hcond2_3 t).mp h)) (blk2 V c 0 t) (blk2 V c 1 t) (blk2 V c 2 t) (blk2 V c 3 t) (blk2 V c 4 t) (prev), prev) := by
  unfold step2
  rw [dif_neg h0]; rw [dif_neg h1]; rw [dif_pos h2]; rw [dif_neg h3]

/-- The step at a point where condition 0 fails, condition 1 holds, condition 2 fails, condition 3 holds. -/
theorem step2_S (c : Dev nD) (t : Fin cfg2.N) (prev : Vec F S256x1024 .f32) (h0 : ¬t.val % 8 = 0) (h1 : t.val % 8 ≤ 2 * ((t.val / 8) % 4) + 1) (h2 : ¬2 * ((t.val / 8) % 4) + 1 < t.val % 8) (h3 : t.val % 8 = 7) :
    step2 V c t prev = (out2_S_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) ((hcond2_3 t).mpr h3) (blk2 V c 0 t) (blk2 V c 1 t) (blk2 V c 2 t) (blk2 V c 3 t) (blk2 V c 4 t) (prev), out2_S_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) ((hcond2_3 t).mpr h3) (blk2 V c 0 t) (blk2 V c 1 t) (blk2 V c 2 t) (blk2 V c 3 t) (blk2 V c 4 t) (prev), sout2_S_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) ((hcond2_3 t).mpr h3) (blk2 V c 0 t) (blk2 V c 1 t) (blk2 V c 2 t) (blk2 V c 3 t) (blk2 V c 4 t) (prev)) := by
  unfold step2
  rw [dif_neg h0]; rw [dif_pos h1]; rw [dif_neg h2]; rw [dif_pos h3]

/-- The step at a point where condition 0 fails, condition 1 fails, condition 2 holds, condition 3 holds. -/
theorem step2_T (c : Dev nD) (t : Fin cfg2.N) (prev : Vec F S256x1024 .f32) (h0 : ¬t.val % 8 = 0) (h1 : ¬t.val % 8 ≤ 2 * ((t.val / 8) % 4) + 1) (h2 : 2 * ((t.val / 8) % 4) + 1 < t.val % 8) (h3 : t.val % 8 = 7) :
    step2 V c t prev = (out2_T_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) ((hcond2_2 t).mpr h2) ((hcond2_3 t).mpr h3) (blk2 V c 0 t) (blk2 V c 1 t) (blk2 V c 2 t) (blk2 V c 3 t) (blk2 V c 4 t) (prev), out2_T_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) ((hcond2_2 t).mpr h2) ((hcond2_3 t).mpr h3) (blk2 V c 0 t) (blk2 V c 1 t) (blk2 V c 2 t) (blk2 V c 3 t) (blk2 V c 4 t) (prev), prev) := by
  unfold step2
  rw [dif_neg h0]; rw [dif_neg h1]; rw [dif_pos h2]; rw [dif_pos h3]

/-- The scratch before the first point: anything (the first point resets it before reading it). -/
def scratch0_2 : Vec F S256x1024 .f32 := (VS2_0.read (Elt F) VS2_0.junk)

/-- THE ACCUMULATION: what the output buffers and the scratch hold after the body at position `n`, by recursion on `n`. -/
def outsAt2 (c : Dev nD) : (n : ℕ) → n < cfg2.N → Vec F S1x256x1024 .f32 × Vec F S1x1024x512 .f32 × Vec F S256x1024 .f32
  | 0, hn => step2 V c ⟨0, hn⟩ (scratch0_2 (F := F))
  | n + 1, hn => step2 V c ⟨n + 1, hn⟩ (scratchOf2 (outsAt2 c n (Nat.lt_of_succ_lt hn)))
where
  /-- The scratch components of a point's tuple. -/
  scratchOf2 (p : Vec F S1x256x1024 .f32 × Vec F S1x1024x512 .f32 × Vec F S256x1024 .f32) : Vec F S256x1024 .f32 := (p.2.2)

/-- After a point that is not the first: one step from what the point before left. -/
theorem outsAt2_pos (c : Dev nD) (t : Fin cfg2.N) (hz : t.val ≠ 0) :
    outsAt2 V c t.val t.isLt = step2 V c t (outsAt2.scratchOf2 (outsAt2 V c (t.val - 1) (Nat.lt_of_le_of_lt (Nat.sub_le _ _) t.isLt))) := by
  obtain ⟨n, hn⟩ := t
  cases n with
  | zero => exact absurd rfl hz
  | succ n => rfl

/-- After the first point: one step from anything. -/
theorem outsAt2_zero (c : Dev nD) (t : Fin cfg2.N) (hz : t.val = 0) :
    outsAt2 V c t.val t.isLt = step2 V c t (scratch0_2 (F := F)) := by
  obtain ⟨n, hn⟩ := t
  cases n with
  | zero => rfl
  | succ n => exact absurd hz (Nat.succ_ne_zero n)

/-! ## The invariant between points -/

/-- Before position `n`: before the first point nothing is said of the scratch; afterwards each scratch buffer holds what
    the point before left in it; the other scoped buffers and the generator register ride along. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2)) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2)) ∗ rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2)) ∗ rest2 c) ∗ (∃ r, prngReg c r)) := by
  cases n with
  | zero => exact absurd rfl hz
  | succ n => rfl

/-! ## The region's proof data -/

/-- Per core: the windows' arrays as the region finds them; after the body at point `t` each input buffer still at its block
    and each output buffer at the accumulation's component; between points the invariant above; nothing owed; whole shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => (outsAt2 V c t.val t.isLt).1
    | ⟨6, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]

theorem before2_0 (c : Dev nD) (t : Fin cfg2.N) (d) : (dat2 V c).before 0 t d = blk2 V c 0 t :=
  found2_0 V (dat2 V c) (A_eq2 V c 0) (after2_0 V c) t d
theorem before2_1 (c : Dev nD) (t : Fin cfg2.N) (d) : (dat2 V c).before 1 t d = blk2 V c 1 t :=
  found2_1 V (dat2 V c) (A_eq2 V c 1) (after2_1 V c) t d
theorem before2_2 (c : Dev nD) (t : Fin cfg2.N) (d) : (dat2 V c).before 2 t d = blk2 V c 2 t :=
  found2_2 V (dat2 V c) (A_eq2 V c 2) (after2_2 V c) t d
theorem before2_3 (c : Dev nD) (t : Fin cfg2.N) (d) : (dat2 V c).before 3 t d = blk2 V c 3 t :=
  found2_3 V (dat2 V c) (A_eq2 V c 3) (after2_3 V c) t d
theorem before2_4 (c : Dev nD) (t : Fin cfg2.N) (d) : (dat2 V c).before 4 t d = blk2 V c 4 t :=
  found2_4 V (dat2 V c) (A_eq2 V c 4) (after2_4 V c) t d

/-! ## The obligation at a point -/

/-- What the pipeline hands the body at point `t`, -/
def handed2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it takes back. -/
def returned2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- At any point: the inputs' buffers hold their blocks; the closed forms say which way through the body the point takes;
    the invariant hands over the scratch at what the point before left (at anything before the first point, and wherever
    the body resets it before reading it) and takes it back at this point's contents; an output the body does not store
    is handed back as found; what the core owes passes through. -/
theorem point2 (c : Dev nD) (t : Fin cfg2.N) :
    handed2 V c t ⊢ wp frame (wpE (defs₀ (F := F)) Variants.none c none) Set.univ (bodyAt2 t) (fun _ => returned2 V c t) := by
  unfold handed2 returned2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 8 = 0
  · by_cases h1 : t.val % 8 ≤ 2 * ((t.val / 8) % 4) + 1
    · by_cases h2 : 2 * ((t.val / 8) % 4) + 1 < t.val % 8
      · by_cases h3 : t.val % 8 = 7
        · exfalso; omega
        · exfalso; omega
      · by_cases h3 : t.val % 8 = 7
        · exfalso; omega
        · rw [show (dat2 V c).leavesExact 0 t = owns (c : Thread nD τ) (ms2_0 t) fullShare ((dat2 V c).after 0 t) from by
            unfold Dat.leavesExact; rw [live2_0 t], after2_0]
          rw [show (dat2 V c).leavesExact 1 t = owns (c : Thread nD τ) (ms2_1 t) fullShare ((dat2 V c).after 1 t) from by
            unfold Dat.leavesExact; rw [live2_1 t], after2_1]
          rw [show (dat2 V c).leavesExact 2 t = owns (c : Thread nD τ) (ms2_2 t) fullShare ((dat2 V c).after 2 t) from by
            unfold Dat.leavesExact; rw [live2_2 t], after2_2]
          rw [show (dat2 V c).leavesExact 3 t = owns (c : Thread nD τ) (ms2_3 t) fullShare ((dat2 V c).after 3 t) from by
            unfold Dat.leavesExact; rw [live2_3 t], after2_3]
          rw [show (dat2 V c).leavesExact 4 t = owns (c : Thread nD τ) (ms2_4 t) fullShare ((dat2 V c).after 4 t) from by
            unfold Dat.leavesExact; rw [live2_4 t], after2_4]
          rw [Dat.leavesExact_idle (dat2 V c) 5 t (idle2_5 t (fun h => h3 ((hcond2_3 t).mp h))) (noFlush2_5 t (fun h => h3 ((hcond2_3 t).mp h)))]
          rw [show (dat2 V c).leavesExact 6 t = owns (c : Thread nD τ) (ms2_6 t) fullShare ((dat2 V c).after 6 t) from by
            unfold Dat.leavesExact; rw [live2_6 t], after2_6]
          by_cases hz : t.val = 0
          · rw [outsAt2_zero V c t hz, step2_P V c t _ h0 h1 h2 h3]
            unfold out2_P_6 sout2_P_0; (try dsimp only)
            rw [PhiS2_castSucc V c t, PhiS2_zero V c _ _ hz, PhiA2_eq]
            iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
            iapply ((pieces2_P c (grid2.coords t) _ _ _ _ _ _ _ _ _ _ _ _ _ _ _ _ ((hcond2_0 t).mpr h0) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t)).2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            iintro ⟨H0, H1, H2, H3, H4, H5, ⟨%e6, H6⟩, ⟨%eS0, HS0⟩⟩
            isplitl [HS0 Hrest Hg]
            · isplitl [HS0 Hrest]
              · isplitl [HS0]
                · unfold owns; iexists _; isplitr
                  swap
                  · iexact HS0
                  ipureintro; exact View.read_writes_of_cover _ _ _ _ _ (scover2_P_0 c _ _ _ _ _ _ _ _ _ _ _ _ _ _ _ _ _ _ _ _ _ _ _ _ _ _)
                · iexact Hrest
              · iexact Hg
            isplitl [Ho]
            · iexact Ho
            isplitl [H0]
            · iexact H0
            isplitl [H1]
            · iexact H1
            isplitl [H2]
            · iexact H2
            isplitl [H3]
            · iexact H3
            isplitl [H4]
            · iexact H4
            isplitl [H5]
            · iexists _; iexact H5
            unfold owns; iexists _; isplitr
            swap
            · iexact H6
            ipureintro; exact View.read_writes_of_cover _ _ _ _ _ (cover2_P_6 c _ _ _ _ _ _ _ _ _ _ _ _ _ _ _ _ _ _ _ _ _ _ _ _ _ _)
          · rw [outsAt2_pos V c t hz, step2_P V c t _ h0 h1 h2 h3]
            unfold out2_P_6 sout2_P_0; (try dsimp only)
            rw [PhiS2_castSucc V c t, PhiS2_pos V c _ _ hz]
            iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
            iapply ((pieces2_P c (grid2.coords t) _ _ _ _ _ _ _ _ _ _ _ _ _ _ _ _ ((hcond2_0 t).mpr h0) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t)).2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexists _; iexact HS0
            iintro ⟨H0, H1, H2, H3, H4, H5, ⟨%e6, H6⟩, ⟨%eS0, HS0⟩⟩
            isplitl [HS0 Hrest Hg]
            · isplitl [HS0 Hrest]
              · isplitl [HS0]
                · unfold owns; iexists _; isplitr
                  swap
                  · iexact HS0
                  ipureintro; exact View.read_writes_of_cover _ _ _ _ _ (scover2_P_0 c _ _ _ _ _ _ _ _ _ _ _ _ _ _ _ _ _ _ _ _ _ _ _ _ _ _)
                · iexact Hrest
              · iexact Hg
            isplitl [Ho]
            · iexact Ho
            isplitl [H0]
            · iexact H0
            isplitl [H1]
            · iexact H1
            isplitl [H2]
            · iexact H2
            isplitl [H3]
            · iexact H3
            isplitl [H4]
            · iexact H4
            isplitl [H5]
            · iexists _; iexact H5
            unfold owns; iexists _; isplitr
            swap
            · iexact H6
            ipureintro; exact View.read_writes_of_cover _ _ _ _ _ (cover2_P_6 c _ _ _ _ _ _ _ _ _ _ _ _ _ _ _ _ _ _ _ _ _ _ _ _ _ _)
    · by_cases h2 : 2 * ((t.val / 8) % 4) + 1 < t.val % 8
      · by_cases h3 : t.val % 8 = 7
        · exfalso; omega
        · exfalso; omega
      · by_cases h3 : t.val % 8 = 7
        · exfalso; omega
        · exfalso; omega
  · by_cases h1 : t.val % 8 ≤ 2 * ((t.val / 8) % 4) + 1
    · by_cases h2 : 2 * ((t.val / 8) % 4) + 1 < t.val % 8
      · by_cases h3 : t.val % 8 = 7
        · exfalso; omega
        · exfalso; omega
      · by_cases h3 : t.val % 8 = 7
        · rw [show (dat2 V c).leavesExact 0 t = owns (c : Thread nD τ) (ms2_0 t) fullShare ((dat2 V c).after 0 t) from by
            unfold Dat.leavesExact; rw [live2_0 t], after2_0]
          rw [show (dat2 V c).leavesExact 1 t = owns (c : Thread nD τ) (ms2_1 t) fullShare ((dat2 V c).after 1 t) from by
            unfold Dat.leavesExact; rw [live2_1 t], after2_1]
          rw [show (dat2 V c).leavesExact 2 t = owns (c : Thread nD τ) (ms2_2 t) fullShare ((dat2 V c).after 2 t) from by
            unfold Dat.leavesExact; rw [live2_2 t], after2_2]
          rw [show (dat2 V c).leavesExact 3 t = owns (c : Thread nD τ) (ms2_3 t) fullShare ((dat2 V c).after 3 t) from by
            unfold Dat.leavesExact; rw [live2_3 t], after2_3]
          rw [show (dat2 V c).leavesExact 4 t = owns (c : Thread nD τ) (ms2_4 t) fullShare ((dat2 V c).after 4 t) from by
            unfold Dat.leavesExact; rw [live2_4 t], after2_4]
          rw [show (dat2 V c).leavesExact 5 t = owns (c : Thread nD τ) (ms2_5 t) fullShare ((dat2 V c).after 5 t) from by
            unfold Dat.leavesExact; rw [live2_5 t ((hcond2_3 t).mpr h3)], after2_5]
          rw [show (dat2 V c).leavesExact 6 t = owns (c : Thread nD τ) (ms2_6 t) fullShare ((dat2 V c).after 6 t) from by
            unfold Dat.leavesExact; rw [live2_6 t], after2_6]
          by_cases hz : t.val = 0
          · exfalso; omega
          · rw [outsAt2_pos V c t hz, step2_S V c t _ h0 h1 h2 h3]
            unfold out2_S_5 out2_S_6 sout2_S_0; (try dsimp only)
            rw [PhiS2_castSucc V c t, PhiS2_pos V c _ _ hz]
            iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
            iapply ((pieces2_S c (grid2.coords t) _ _ _ _ _ _ _ _ _ _ _ _ _ _ _ _ (fun h => h0 ((hcond2_0 t).mp h)) ((hcond2_1 t).mpr h1) (fun h => h2 ((hcond2_2 t).mp h)) ((hcond2_3 t).mpr h3) (blk2 V c 0 t) (blk2 V c 1 t) (blk2 V c 2 t) (blk2 V c 3 t) (blk2 V c 4 t) _).2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [H6]; · iexists _; iexact H6
            isplitl [HS0]; · iexact HS0
            iintro ⟨H0, H1, H2, H3, H4, ⟨%e5, H5⟩, ⟨%e6, H6⟩, ⟨%eS0, HS0⟩⟩
            isplitl [HS0 Hrest Hg]
            · isplitl [HS0 Hrest]
              · isplitl [HS0]
                · unfold owns; iexists _; isplitr
                  swap
                  · iexact HS0
                  ipureintro; exact View.read_writes_of_cover _ _ _ _ _ (scover2_S_0 c _ _ _ _ _ _ _ _ _ _ _ _ _ _ _ _ _ _ _ _ _ _ _ _ _ _ _)
                · iexact Hrest
              · iexact Hg
            isplitl [Ho]
            · iexact Ho
            isplitl [H0]
            · iexact H0
            isplitl [H1]
            · iexact H1
            isplitl [H2]
            · iexact H2
            isplitl [H3]
            · iexact H3
            isplitl [H4]
            · iexact H4
            isplitl [H5]
            · unfold owns; iexists _; isplitr
              swap
              · iexact H5
              ipureintro; exact View.read_writes_of_cover _ _ _ _ _ (cover2_S_5 c _ _ _ _ _ _ _ _ _ _ _ _ _ _ _ _ _ _ _ _ _ _ _ _ _ _ _)
            unfold owns; iexists _; isplitr
            swap
            · iexact H6
            ipureintro; exact View.read_writes_of_cover _ _ _ _ _ (cover2_S_6 c _ _ _ _ _ _ _ _ _ _ _ _ _ _ _ _ _ _ _ _ _ _ _ _ _ _ _)
        · rw [show (dat2 V c).leavesExact 0 t = owns (c : Thread nD τ) (ms2_0 t) fullShare ((dat2 V c).after 0 t) from by
            unfold Dat.leavesExact; rw [live2_0 t], after2_0]
          rw [show (dat2 V c).leavesExact 1 t = owns (c : Thread nD τ) (ms2_1 t) fullShare ((dat2 V c).after 1 t) from by
            unfold Dat.leavesExact; rw [live2_1 t], after2_1]
          rw [show (dat2 V c).leavesExact 2 t = owns (c : Thread nD τ) (ms2_2 t) fullShare ((dat2 V c).after 2 t) from by
            unfold Dat.leavesExact; rw [live2_2 t], after2_2]
          rw [show (dat2 V c).leavesExact 3 t = owns (c : Thread nD τ) (ms2_3 t) fullShare ((dat2 V c).after 3 t) from by
            unfold Dat.leavesExact; rw [live2_3 t], after2_3]
          rw [show (dat2 V c).leavesExact 4 t = owns (c : Thread nD τ) (ms2_4 t) fullShare ((dat2 V c).after 4 t) from by
            unfold Dat.leavesExact; rw [live2_4 t], after2_4]
          rw [Dat.leavesExact_idle (dat2 V c) 5 t (idle2_5 t (fun h => h3 ((hcond2_3 t).mp h))) (noFlush2_5 t (fun h => h3 ((hcond2_3 t).mp h)))]
          rw [show (dat2 V c).leavesExact 6 t = owns (c : Thread nD τ) (ms2_6 t) fullShare ((dat2 V c).after 6 t) from by
            unfold Dat.leavesExact; rw [live2_6 t], after2_6]
          by_cases hz : t.val = 0
          · exfalso; omega
          · rw [outsAt2_pos V c t hz, step2_Q V c t _ h0 h1 h2 h3]
            unfold out2_Q_6 sout2_Q_0; (try dsimp only)
            rw [PhiS2_castSucc V c t, PhiS2_pos V c _ _ hz]
            iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
            iapply ((pieces2_Q c (grid2.coords t) _ _ _ _ _ _ _ _ _ _ _ _ _ _ _ _ (fun h => h0 ((hcond2_0 t).mp h)) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t) _).2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            iintro ⟨H0, H1, H2, H3, H4, H5, ⟨%e6, H6⟩, ⟨%eS0, HS0⟩⟩
            isplitl [HS0 Hrest Hg]
            · isplitl [HS0 Hrest]
              · isplitl [HS0]
                · unfold owns; iexists _; isplitr
                  swap
                  · iexact HS0
                  ipureintro; exact View.read_writes_of_cover _ _ _ _ _ (scover2_Q_0 c _ _ _ _ _ _ _ _ _ _ _ _ _ _ _ _ _ _ _ _ _ _ _ _ _ _ _)
                · iexact Hrest
              · iexact Hg
            isplitl [Ho]
            · iexact Ho
            isplitl [H0]
            · iexact H0
            isplitl [H1]
            · iexact H1
            isplitl [H2]
            · iexact H2
            isplitl [H3]
            · iexact H3
            isplitl [H4]
            · iexact H4
            isplitl [H5]
            · iexists _; iexact H5
            unfold owns; iexists _; isplitr
            swap
            · iexact H6
            ipureintro; exact View.read_writes_of_cover _ _ _ _ _ (cover2_Q_6 c _ _ _ _ _ _ _ _ _ _ _ _ _ _ _ _ _ _ _ _ _ _ _ _ _ _ _)
    · by_cases h2 : 2 * ((t.val / 8) % 4) + 1 < t.val % 8
      · by_cases h3 : t.val % 8 = 7
        · rw [show (dat2 V c).leavesExact 0 t = owns (c : Thread nD τ) (ms2_0 t) fullShare ((dat2 V c).after 0 t) from by
            unfold Dat.leavesExact; rw [live2_0 t], after2_0]
          rw [show (dat2 V c).leavesExact 1 t = owns (c : Thread nD τ) (ms2_1 t) fullShare ((dat2 V c).after 1 t) from by
            unfold Dat.leavesExact; rw [live2_1 t], after2_1]
          rw [show (dat2 V c).leavesExact 2 t = owns (c : Thread nD τ) (ms2_2 t) fullShare ((dat2 V c).after 2 t) from by
            unfold Dat.leavesExact; rw [live2_2 t], after2_2]
          rw [show (dat2 V c).leavesExact 3 t = owns (c : Thread nD τ) (ms2_3 t) fullShare ((dat2 V c).after 3 t) from by
            unfold Dat.leavesExact; rw [live2_3 t], after2_3]
          rw [show (dat2 V c).leavesExact 4 t = owns (c : Thread nD τ) (ms2_4 t) fullShare ((dat2 V c).after 4 t) from by
            unfold Dat.leavesExact; rw [live2_4 t], after2_4]
          rw [show (dat2 V c).leavesExact 5 t = owns (c : Thread nD τ) (ms2_5 t) fullShare ((dat2 V c).after 5 t) from by
            unfold Dat.leavesExact; rw [live2_5 t ((hcond2_3 t).mpr h3)], after2_5]
          rw [show (dat2 V c).leavesExact 6 t = owns (c : Thread nD τ) (ms2_6 t) fullShare ((dat2 V c).after 6 t) from by
            unfold Dat.leavesExact; rw [live2_6 t], after2_6]
          by_cases hz : t.val = 0
          · exfalso; omega
          · rw [outsAt2_pos V c t hz, step2_T V c t _ h0 h1 h2 h3]
            unfold out2_T_5 out2_T_6; (try dsimp only)
            rw [PhiS2_castSucc V c t, PhiS2_pos V c _ _ hz]
            iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
            iapply ((pieces2_T c (grid2.coords t) _ _ _ _ _ _ _ _ _ _ _ _ _ _ _ _ (fun h => h0 ((hcond2_0 t).mp h)) (fun h => h1 ((hcond2_1 t).mp h)) ((hcond2_2 t).mpr h2) ((hcond2_3 t).mpr h3) (blk2 V c 0 t) (blk2 V c 1 t) (blk2 V c 2 t) (blk2 V c 3 t) (blk2 V c 4 t) _).2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [H6]; · iexists _; iexact H6
            isplitl [HS0]; · iexact HS0
            iintro ⟨H0, H1, H2, H3, H4, ⟨%e5, H5⟩, ⟨%e6, H6⟩, HS0⟩
            isplitl [HS0 Hrest Hg]
            · isplitl [HS0 Hrest]
              · isplitl [HS0]
                · iexact HS0
                · iexact Hrest
              · iexact Hg
            isplitl [Ho]
            · iexact Ho
            isplitl [H0]
            · iexact H0
            isplitl [H1]
            · iexact H1
            isplitl [H2]
            · iexact H2
            isplitl [H3]
            · iexact H3
            isplitl [H4]
            · iexact H4
            isplitl [H5]
            · unfold owns; iexists _; isplitr
              swap
              · iexact H5
              ipureintro; exact View.read_writes_of_cover _ _ _ _ _ (cover2_T_5 c _ _ _ _ _ _ _ _ _ _ _ _ _ _ _ _ _ _ _ _ _ _ _ _ _ _ _)
            unfold owns; iexists _; isplitr
            swap
            · iexact H6
            ipureintro; exact View.read_writes_of_cover _ _ _ _ _ (cover2_T_6 c _ _ _ _ _ _ _ _ _ _ _ _ _ _ _ _ _ _ _ _ _ _ _ _ _ _ _)
        · rw [show (dat2 V c).leavesExact 0 t = owns (c : Thread nD τ) (ms2_0 t) fullShare ((dat2 V c).after 0 t) from by
            unfold Dat.leavesExact; rw [live2_0 t], after2_0]
          rw [show (dat2 V c).leavesExact 1 t = owns (c : Thread nD τ) (ms2_1 t) fullShare ((dat2 V c).after 1 t) from by
            unfold Dat.leavesExact; rw [live2_1 t], after2_1]
          rw [show (dat2 V c).leavesExact 2 t = owns (c : Thread nD τ) (ms2_2 t) fullShare ((dat2 V c).after 2 t) from by
            unfold Dat.leavesExact; rw [live2_2 t], after2_2]
          rw [show (dat2 V c).leavesExact 3 t = owns (c : Thread nD τ) (ms2_3 t) fullShare ((dat2 V c).after 3 t) from by
            unfold Dat.leavesExact; rw [live2_3 t], after2_3]
          rw [show (dat2 V c).leavesExact 4 t = owns (c : Thread nD τ) (ms2_4 t) fullShare ((dat2 V c).after 4 t) from by
            unfold Dat.leavesExact; rw [live2_4 t], after2_4]
          rw [Dat.leavesExact_idle (dat2 V c) 5 t (idle2_5 t (fun h => h3 ((hcond2_3 t).mp h))) (noFlush2_5 t (fun h => h3 ((hcond2_3 t).mp h)))]
          rw [show (dat2 V c).leavesExact 6 t = owns (c : Thread nD τ) (ms2_6 t) fullShare ((dat2 V c).after 6 t) from by
            unfold Dat.leavesExact; rw [live2_6 t], after2_6]
          by_cases hz : t.val = 0
          · exfalso; omega
          · rw [outsAt2_pos V c t hz, step2_R V c t _ h0 h1 h2 h3]
            unfold out2_R_6; (try dsimp only)
            rw [PhiS2_castSucc V c t, PhiS2_pos V c _ _ hz]
            iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
            iapply ((pieces2_R c (grid2.coords t) _ _ _ _ _ _ _ _ _ _ _ _ _ _ _ _ (fun h => h0 ((hcond2_0 t).mp h)) (fun h => h1 ((hcond2_1 t).mp h)) ((hcond2_2 t).mpr h2) (fun h => h3 ((hcond2_3 t).mp h)) (blk2 V c 0 t) (blk2 V c 1 t) (blk2 V c 2 t) (blk2 V c 3 t) (blk2 V c 4 t) _).2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            iintro ⟨H0, H1, H2, H3, H4, H5, ⟨%e6, H6⟩, HS0⟩
            isplitl [HS0 Hrest Hg]
            · isplitl [HS0 Hrest]
              · isplitl [HS0]
                · iexact HS0
                · iexact Hrest
              · iexact Hg
            isplitl [Ho]
            · iexact Ho
            isplitl [H0]
            · iexact H0
            isplitl [H1]
            · iexact H1
            isplitl [H2]
            · iexact H2
            isplitl [H3]
            · iexact H3
            isplitl [H4]
            · iexact H4
            isplitl [H5]
            · iexists _; iexact H5
            unfold owns; iexists _; isplitr
            swap
            · iexact H6
            ipureintro; exact View.read_writes_of_cover _ _ _ _ _ (cover2_R_6 c _ _ _ _ _ _ _ _ _ _ _ _ _ _ _ _ _ _ _ _ _ _ _ _ _ _ _)
      · by_cases h3 : t.val % 8 = 7
        · exfalso; omega
        · exfalso; omega

set_option maxHeartbeats 8000000 in
/-- The region's obligation to the pipeline, at every point. -/
theorem obligation2 (c : Dev nD) : BodyObligation (dat2 (F := F) V c) (defs₀ (F := F)) Variants.none () Set.univ := fun t => by
  rw [bigSep_W2, bigSep_W2]
  exact point2 V c t

/-- What the region is entered with is the invariant before the first point. -/
theorem enter2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives back what the region was entered with: the scratch's contents are forgotten. -/
theorem leave2 (c : Dev nD) : (dat2 V c).Φ (Fin.last cfg2.N) ⊢ Pipeline.ΦA spec2 c := by
  have hN : cfg2.N = 128 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS0, Hrest⟩, Hg⟩
  isplitl [HS0 Hrest]
  · isplitl [HS0]
    · iexists _; iexact HS0
    iexact Hrest
  iexact Hg

end Cert.Kernel.Frames

end
-- ==== Proof.K.Run.lean ====
/-
  The whole program: three host reshapes (the bias vectors as columns), then the projection region, the column
  statistics region and the output region, each entered from what the one before left in the device's buffers.
  The contents of every buffer at each of the five boundaries is a fold through the program: the launch memory;
  after the reshapes; then after each region the arrays of its windows at what its write-backs leave (an input's
  array as entered, an output's with every point's block written back) and every other buffer as entered. Each
  region is a record of what it needs on entry and gives back on exit around that state, and the launch theorem for
  a program of several regions composes them. Its conclusion names every buffer's final contents, so both the frame
  (the seven arguments end as launched) and the two results' values are read off it.
-/
import proofs.«130694_j5669356831785_2_alg».proof.Proof.K.Region1
import proofs.«130694_j5669356831785_2_alg».proof.Proof.K.Region2
import proofs.«130694_j5669356831785_2_alg».proof.Proof.Gen.Kernel.Regions

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the three reshapes: where the projection region is entered. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After region 0: its windows' arrays at what its write-backs leave, every other buffer as it was entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem left0 (c : Dev nD) (w : Fin cfg0.W) : (dat0 (V1 m) c).arrAt w cfg0.N = V2 m c (Pipeline.arrRef spec0 w) :=
  (W2_arr m c w).symm
theorem kept0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1: its windows' arrays at what its write-backs leave, every other buffer as it was entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem left1 (c : Dev nD) (w : Fin cfg1.W) : (dat1 (V2 m) c).arrAt w cfg1.N = V3 m c (Pipeline.arrRef spec1 w) :=
  (W3_arr m c w).symm
theorem kept1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After region 2: its windows' arrays at what its write-backs leave, every other buffer as it was entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem left2 (c : Dev nD) (w : Fin cfg2.W) : (dat2 (V3 m) c).arrAt w cfg2.N = V4 m c (Pipeline.arrRef spec2 w) :=
  (W4_arr m c w).symm
theorem kept2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched -/

/-- No reshape writes an argument. -/
theorem W1_arg (c : Dev nD) (r : Ref sig .tc) (h : r ∉ hostOps0_W) : W1 m c (Proc.devRef .tc r) = m ((c : Thread nD τ).loc r) :=
  StableHlo.after_of_writes_sub hostOps0 _ hostOps0_writes h

theorem W4_main_arg0 (c : Dev nD) : W4 m c (Proc.devRef .tc main_arg0) = m ((c : Thread nD τ).loc main_arg0) :=
  calc W4 m c (Proc.devRef .tc main_arg0) = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_arg m c main_arg0 (by decide)
theorem W4_main_arg1 (c : Dev nD) : W4 m c (Proc.devRef .tc main_arg1) = m ((c : Thread nD τ).loc main_arg1) :=
  calc W4 m c (Proc.devRef .tc main_arg1) = W3 m c (Proc.devRef .tc main_arg1) := W4_of_ne m c main_arg1 (by decide)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = m ((c : Thread nD τ).loc main_arg1) := W1_arg m c main_arg1 (by decide)
theorem W4_main_arg2 (c : Dev nD) : W4 m c (Proc.devRef .tc main_arg2) = m ((c : Thread nD τ).loc main_arg2) :=
  calc W4 m c (Proc.devRef .tc main_arg2) = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_arg m c main_arg2 (by decide)
theorem W4_main_arg3 (c : Dev nD) : W4 m c (Proc.devRef .tc main_arg3) = m ((c : Thread nD τ).loc main_arg3) :=
  calc W4 m c (Proc.devRef .tc main_arg3) = W3 m c (Proc.devRef .tc main_arg3) := W4_of_ne m c main_arg3 (by decide)
    _ = W2 m c (Proc.devRef .tc main_arg3) := W3_of_ne m c main_arg3 (by decide)
    _ = W1 m c (Proc.devRef .tc main_arg3) := (W2_arr m c 3).trans (((dat0 (V1 m) c).arrAt_in 3 rfl _).trans (A_eq0 (V1 m) c 3))
    _ = m ((c : Thread nD τ).loc main_arg3) := W1_arg m c main_arg3 (by decide)
theorem W4_main_arg4 (c : Dev nD) : W4 m c (Proc.devRef .tc main_arg4) = m ((c : Thread nD τ).loc main_arg4) :=
  calc W4 m c (Proc.devRef .tc main_arg4) = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = m ((c : Thread nD τ).loc main_arg4) := W1_arg m c main_arg4 (by decide)
theorem W4_main_arg5 (c : Dev nD) : W4 m c (Proc.devRef .tc main_arg5) = m ((c : Thread nD τ).loc main_arg5) :=
  calc W4 m c (Proc.devRef .tc main_arg5) = W3 m c (Proc.devRef .tc main_arg5) := W4_of_ne m c main_arg5 (by decide)
    _ = W2 m c (Proc.devRef .tc main_arg5) := W3_of_ne m c main_arg5 (by decide)
    _ = W1 m c (Proc.devRef .tc main_arg5) := (W2_arr m c 5).trans (((dat0 (V1 m) c).arrAt_in 5 rfl _).trans (A_eq0 (V1 m) c 5))
    _ = m ((c : Thread nD τ).loc main_arg5) := W1_arg m c main_arg5 (by decide)
theorem W4_main_arg6 (c : Dev nD) : W4 m c (Proc.devRef .tc main_arg6) = m ((c : Thread nD τ).loc main_arg6) :=
  calc W4 m c (Proc.devRef .tc main_arg6) = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = m ((c : Thread nD τ).loc main_arg6) := W1_arg m c main_arg6 (by decide)

/-! ## The proof data of the three regions, and what rides along -/

/-- No region has prefetched tables. -/
abbrev tables : (p : Fin 3) → (pcfgs (F := F) p).Adm := fun p => (cfgs p).toPCfg_adm
/-- Each region's proof data at the contents it is entered with. -/
def pdats : (p : Fin 3) → (c : Dev nD) → Dat τ (Elt F) Unit ℕ (UR sig nD τ) ℕ (Pipeline.pin (pcfgs (F := F)) tables p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the generator register at some state, and nothing owed. -/
abbrev R (c : Dev nD) : sProp 𝕄 := iprop((∃ r, prngReg c r) ∗ ∃ W, owes (c : Thread nD τ) (0 : CellTallies nD τ sig Unit) W)
/-- The reshapes as a segment. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without what is owed: every unscoped buffer at the last boundary's contents, the generator register. -/
abbrev Tend (c : Dev nD) : sProp 𝕄 := iprop(StableHlo.held (c : Thread nD τ) (Pipeline.ucRefs τ sig) (W4 m c) ∗ ∃ r, prngReg c r)

/-! ## The regions as records -/

set_option backward.isDefEq.respectTransparency.types false in
/-- Region 0: entered with every unscoped buffer at `W1`, left with them at `W2`. On entry its windows' arrays are taken
    out of the unscoped buffers and on exit put back at their final contents; the generator register goes into the
    region's invariant and comes out; nothing is owed; the kernel has no semaphore of its own. -/
def reg0 : Pipeline.RegionSeg (pcfgs (F := F)) tables (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) tables (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `W2`, left with them at `W3`. On entry its windows' arrays are taken
    out of the unscoped buffers and on exit put back at their final contents; the generator register goes into the
    region's invariant and comes out; nothing is owed; the kernel has no semaphore of its own. -/
def reg1 : Pipeline.RegionSeg (pcfgs (F := F)) tables (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) tables (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := enter1 (F := F) (V2 m) c
    unfold Pipeline.ΦA at h
    rw [show (pdats m 1 c).Φ 0 = (dat1 (V2 m) c).Φ 0 from rfl]
    iintro ⟨Hp, -, Hr⟩
    iapply h
    isplitl [Hr]; · iexact Hr
    iexact Hp
  hout c := by
    have h := leave1 (F := F) (V2 m) c
    unfold Pipeline.ΦA at h
    rw [Pipeline.ownSems0_none, show (pdats m 1 c).Φ (Fin.last _) = (dat1 (V2 m) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `W3`, left with them at `W4`. On entry its windows' arrays are taken
    out of the unscoped buffers and on exit put back at their final contents; the generator register goes into the
    region's invariant and comes out; nothing is owed; the kernel has no semaphore of its own. -/
def reg2 : Pipeline.RegionSeg (pcfgs (F := F)) tables (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) tables (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := enter2 (F := F) (V3 m) c
    unfold Pipeline.ΦA at h
    rw [show (pdats m 2 c).Φ 0 = (dat2 (V3 m) c).Φ 0 from rfl]
    iintro ⟨Hp, -, Hr⟩
    iapply h
    isplitl [Hr]; · iexact Hr
    iexact Hp
  hout c := by
    have h := leave2 (F := F) (V3 m) c
    unfold Pipeline.ΦA at h
    rw [Pipeline.ownSems0_none, show (pdats m 2 c).Φ (Fin.last _) = (dat2 (V3 m) c).Φ (Fin.last cfg2.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) tables (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (left2 m c) (kept2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) tables (pdats m) () defs₀ 𝒱₀ L lv) :=
  [ .host (hseg m), .region (reg0 m), .region (reg1 m), .region (reg2 m) ]
/-- The program is the run of its segments. -/
theorem main_run (c : Dev nD) : main (F := F) c = Pipeline.Seg.run (segs m) := (main_chain c).trans (by chain_rfl)

set_option backward.isDefEq.respectTransparency.types false in
/-- From any memory with zero counters every weakly fair execution of the program terminates without a fault, and in
    every final state each unscoped buffer holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) tables (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run m ρ)

end Cert.Kernel.Frames

end
-- ==== Proof.KI.Region0.lean ====
/-
  The projection region (the first of the three kernel launches): its grid is 4 batches by 8 column tiles, and
  at a point (b, j) the body reads the tile x[b, :, 512 j .. 512 j + 511] and the three weight matrices and bias
  columns whole, and writes the same tile of each of q, k, v. No point reads what another wrote and nothing is
  kept between points, so what each output tile holds after a point is a function of that point's input blocks
  alone. This module states that function as the pieces the body's stores leave (found by running the body once,
  symbolically, on arbitrary staging buffers) and packages it as the region's per-point proof data.
-/
import proofs.«130694_j5669356831785_2_alg».proof.Proof.Gen.KernelIdeal.Launch
import proofs.«130694_j5669356831785_2_alg».proof.Proof.Gen.KernelIdeal.Skeleton
import proofs.«130694_j5669356831785_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` that grid point `t` works on, read out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the point's block whether or not the pipeline fetched it
    there: when it did not, the block index has not moved since the last fetch. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds the point's block whether or not the pipeline fetched it
    there: when it did not, the block index has not moved since the last fetch. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current staging buffer holds the point's block whether or not the pipeline fetched it
    there: when it did not, the block index has not moved since the last fetch. -/
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's current staging buffer holds the point's block whether or not the pipeline fetched it
    there: when it did not, the block index has not moved since the last fetch. -/
theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's current staging buffer holds the point's block whether or not the pipeline fetched it
    there: when it did not, the block index has not moved since the last fetch. -/
theorem found0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- Input window 5's current staging buffer holds the point's block whether or not the pipeline fetched it
    there: when it did not, the block index has not moved since the last fetch. -/
theorem found0_5 {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-- Input window 6's current staging buffer holds the point's block whether or not the pipeline fetched it
    there: when it did not, the block index has not moved since the last fetch. -/
theorem found0_6 {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)

/-! ## The staging memrefs at a point -/

abbrev ms0_0 (t : Fin cfg0.N) : Memref sig .tc .vmem S1x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x512 .bf16 := win0_9.stage (cfg0.slots t 9)
abbrev hs0_9 (t : Fin cfg0.N) : (ms0_9 t).IsWhole := hstage0_9 ((cfg0.slots t 9).cast nbuf0_9)
/-- A staging buffer of output window 7, through which its contents are read back (any of its buffers would do). -/
abbrev VO0_7 : View sig .tc .vmem S1x256x512 .bf16 := (Memref.whole cc0_stg7_0 : Memref sig .tc .vmem S1x256x512 .bf16).view
/-- A staging buffer of output window 8, through which its contents are read back (any of its buffers would do). -/
abbrev VO0_8 : View sig .tc .vmem S1x256x512 .bf16 := (Memref.whole cc0_stg8_0 : Memref sig .tc .vmem S1x256x512 .bf16).view
/-- A staging buffer of output window 9, through which its contents are read back (any of its buffers would do). -/
abbrev VO0_9 : View sig .tc .vmem S1x256x512 .bf16 := (Memref.whole cc0_stg9_0 : Memref sig .tc .vmem S1x256x512 .bf16).view

/-! ## The body, run once on arbitrary whole staging buffers -/

set_option maxHeartbeats 4000000 in
/-- The pieces the body's stores leave in the three output buffers (last store first), together with the proof that from
    the seven input buffers at contents `x·` and the output buffers at anything the body runs to its end, without a
    fault, leaving the inputs as they were and each output with exactly those pieces written. The pieces are not
    written down here: the symbolic run determines them when it hands each buffer to the continuation. -/
noncomputable def pieces0 (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) :
    Σ' (L7 : List (View.Piece (Elt F) S1x256x512 .bf16)) (L8 : List (View.Piece (Elt F) S1x256x512 .bf16)), { L9 : List (View.Piece (Elt F) S1x256x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__qkv_kernel_eq_skeleton]; unfold cc0__qkv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

/-- The stores into output 7 tile its block, so every index of the block is written. -/
theorem cover0_7 (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) (y : S1x256x512.Idx) :
    ∃ pc ∈ (pieces0 c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (pieces0 c i arg2 harg2 arg3 harg3 arg4 harg4 arg5 harg5 arg6 harg6 arg7 harg7 arg8 harg8 arg9 harg9 arg10 harg10 arg11 harg11 x0 x1 x2 x3 x4 x5 x6).1 S1x256x512.size (by sl_kernel_rfl) y

/-- What the body leaves in output 7's staging buffer: its pieces read back. -/
def out0_7 (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) : Vec F S1x256x512 .bf16 :=
  VO0_7.read (Elt F) (VO0_7.writes (Elt F) VO0_7.junk (pieces0 c i arg2 harg2 arg3 harg3 arg4 harg4 arg5 harg5 arg6 harg6 arg7 harg7 arg8 harg8 arg9 harg9 arg10 harg10 arg11 harg11 x0 x1 x2 x3 x4 x5 x6).1)

/-- The stores into output 8 tile its block, so every index of the block is written. -/
theorem cover0_8 (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) (y : S1x256x512.Idx) :
    ∃ pc ∈ (pieces0 c i arg2 harg2 arg3 harg3 arg4 harg4 arg5 harg5 arg6 harg6 arg7 harg7 arg8 harg8 arg9 harg9 arg10 harg10 arg11 harg11 x0 x1 x2 x3 x4 x5 x6).2.1, y ∈ pc.1.set :=
  View.cover_of_tiledL (pieces0 c i arg2 harg2 arg3 harg3 arg4 harg4 arg5 harg5 arg6 harg6 arg7 harg7 arg8 harg8 arg9 harg9 arg10 harg10 arg11 harg11 x0 x1 x2 x3 x4 x5 x6).2.1 S1x256x512.size (by sl_kernel_rfl) y

/-- What the body leaves in output 8's staging buffer: its pieces read back. -/
def out0_8 (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) : Vec F S1x256x512 .bf16 :=
  VO0_8.read (Elt F) (VO0_8.writes (Elt F) VO0_8.junk (pieces0 c i arg2 harg2 arg3 harg3 arg4 harg4 arg5 harg5 arg6 harg6 arg7 harg7 arg8 harg8 arg9 harg9 arg10 harg10 arg11 harg11 x0 x1 x2 x3 x4 x5 x6).2.1)

/-- The stores into output 9 tile its block, so every index of the block is written. -/
theorem cover0_9 (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) (y : S1x256x512.Idx) :
    ∃ pc ∈ (pieces0 c i arg2 harg2 arg3 harg3 arg4 harg4 arg5 harg5 arg6 harg6 arg7 harg7 arg8 harg8 arg9 harg9 arg10 harg10 arg11 harg11 x0 x1 x2 x3 x4 x5 x6).2.2.1, y ∈ pc.1.set :=
  View.cover_of_tiledL (pieces0 c i arg2 harg2 arg3 harg3 arg4 harg4 arg5 harg5 arg6 harg6 arg7 harg7 arg8 harg8 arg9 harg9 arg10 harg10 arg11 harg11 x0 x1 x2 x3 x4 x5 x6).2.2.1 S1x256x512.size (by sl_kernel_rfl) y

/-- What the body leaves in output 9's staging buffer: its pieces read back. -/
def out0_9 (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) : Vec F S1x256x512 .bf16 :=
  VO0_9.read (Elt F) (VO0_9.writes (Elt F) VO0_9.junk (pieces0 c i arg2 harg2 arg3 harg3 arg4 harg4 arg5 harg5 arg6 harg6 arg7 harg7 arg8 harg8 arg9 harg9 arg10 harg10 arg11 harg11 x0 x1 x2 x3 x4 x5 x6).2.2.1)

/-! ## The region's proof data -/

/-- Per core: the windows' arrays as the region finds them; after the body at point `t` each input buffer still at its
    block and each output buffer at what the body's stores leave of the point's input blocks; between points only the
    scoped buffers no window stages and the generator register, untouched; nothing owed; whole shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 V c 0 t) (blk0 V c 1 t) (blk0 V c 2 t) (blk0 V c 3 t) (blk0 V c 4 t) (blk0 V c 5 t) (blk0 V c 6 t)
    | ⟨8, _⟩ => out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 V c 0 t) (blk0 V c 1 t) (blk0 V c 2 t) (blk0 V c 3 t) (blk0 V c 4 t) (blk0 V c 5 t) (blk0 V c 6 t)
    | ⟨9, _⟩ => out0_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 V c 0 t) (blk0 V c 1 t) (blk0 V c 2 t) (blk0 V c 3 t) (blk0 V c 4 t) (blk0 V c 5 t) (blk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 V c 0 t) (blk0 V c 1 t) (blk0 V c 2 t) (blk0 V c 3 t) (blk0 V c 4 t) (blk0 V c 5 t) (blk0 V c 6 t) := by dsimp only [dat0]
theorem after0_8 (c : Dev nD) (t : Fin cfg0.N) : (dat0 V c).after 8 t = out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 V c 0 t) (blk0 V c 1 t) (blk0 V c 2 t) (blk0 V c 3 t) (blk0 V c 4 t) (blk0 V c 5 t) (blk0 V c 6 t) := by dsimp only [dat0]
theorem after0_9 (c : Dev nD) (t : Fin cfg0.N) : (dat0 V c).after 9 t = out0_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 V c 0 t) (blk0 V c 1 t) (blk0 V c 2 t) (blk0 V c 3 t) (blk0 V c 4 t) (blk0 V c 5 t) (blk0 V c 6 t) := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d
theorem before0_2 (c : Dev nD) (t : Fin cfg0.N) (d) : (dat0 V c).before 2 t d = blk0 V c 2 t :=
  found0_2 V (dat0 V c) (A_eq0 V c 2) (after0_2 V c) t d
theorem before0_3 (c : Dev nD) (t : Fin cfg0.N) (d) : (dat0 V c).before 3 t d = blk0 V c 3 t :=
  found0_3 V (dat0 V c) (A_eq0 V c 3) (after0_3 V c) t d
theorem before0_4 (c : Dev nD) (t : Fin cfg0.N) (d) : (dat0 V c).before 4 t d = blk0 V c 4 t :=
  found0_4 V (dat0 V c) (A_eq0 V c 4) (after0_4 V c) t d
theorem before0_5 (c : Dev nD) (t : Fin cfg0.N) (d) : (dat0 V c).before 5 t d = blk0 V c 5 t :=
  found0_5 V (dat0 V c) (A_eq0 V c 5) (after0_5 V c) t d
theorem before0_6 (c : Dev nD) (t : Fin cfg0.N) (d) : (dat0 V c).before 6 t d = blk0 V c 6 t :=
  found0_6 V (dat0 V c) (A_eq0 V c 6) (after0_6 V c) t d

/-! ## The obligation at a point -/

/-- What the pipeline hands the body at point `t`, -/
def handed0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it takes back. -/
def returned0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 4000000 in
/-- At any point the inputs' buffers hold their blocks, so the run above applies; the invariant and what the core owes
    pass through unread, and each output buffer comes back at its pieces read back (they cover the block). -/
theorem point0 (c : Dev nD) (t : Fin cfg0.N) :
    handed0 V c t ⊢ wp frame (wpE (defs₀ (F := F)) Variants.none c none) Set.univ (bodyAt0 t) (fun _ => returned0 V c t) := by
  unfold handed0 returned0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  unfold out0_7 out0_8 out0_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((pieces0 c (grid0.coords t) _ _ _ _ _ _ _ _ _ _ _ _ _ _ _ _ _ _ _ _ (blk0 V c 0 t) (blk0 V c 1 t) (blk0 V c 2 t) (blk0 V c 3 t) (blk0 V c 4 t) (blk0 V c 5 t) (blk0 V c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_7 c _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_8 c _ _ _ _ _ _ _ _ _ _ _ _ _ _ _ _ _ _ _ _ _ _ _ _ _ _ _ _)
  unfold owns; iexists _; isplitr
  swap; · iexact H9
  ipureintro; exact View.read_writes_of_cover _ _ _ _ _ (cover0_9 c _ _ _ _ _ _ _ _ _ _ _ _ _ _ _ _ _ _ _ _ _ _ _ _ _ _ _ _)

/-- The region's obligation to the pipeline, at every point. -/
theorem obligation0 (c : Dev nD) : BodyObligation (dat0 (F := F) V c) (defs₀ (F := F)) Variants.none () Set.univ := fun t => by
  rw [bigSep_W0, bigSep_W0]
  exact point0 V c t

end Cert.KernelIdeal.Frames

end
-- ==== Proof.KI.Region1.lean ====
/-
  The column-statistics region (the second kernel launch): its grid is 4 batches by 8 key tiles by 8 query tiles,
  the query tile running fastest. For a fixed batch and key tile s the body walks the query tiles t = 0..7 keeping
  two rows of 512 numbers in scratch — the running maximum and the running sum of exponentials of each key column —:
  it resets them at t = 0, updates them at every t ≥ s (tiles with t < s lie wholly above the diagonal and are
  skipped), and at t = 7 copies them to the two outputs, whose blocks the pipeline writes back only there. So there
  are five ways through the body, according to which of the three conditions hold, and what the scratch rows hold
  after a point is defined by recursion on the point. This module finds each way's stores by running it once
  symbolically, folds them over the grid, and packages the result as the region's per-point proof data.
-/
import proofs.«130694_j5669356831785_2_alg».proof.Proof.KI.Region0

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` that grid point `t` works on, read out of the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the point's block whether or not the pipeline fetched it there: when it
    did not, the block index has not moved since the last fetch (an index map that repeats an index costs no fetch). -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds the point's block whether or not the pipeline fetched it there: when it
    did not, the block index has not moved since the last fetch (an index map that repeats an index costs no fetch). -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The body's conditions, decided over the grid -/

/-- Condition 0 of the body (the query tile is the first), as the body computes it from the grid coordinates. -/
abbrev cond1_0 (i : grid1.Coords) : Prop := (Scalar.cmpi .ne (Scalar.extui (Scalar.cmpi .eq (BitVec.ofNat 32 (i 2).val) 0#32)) 0#32) = 1#1
/-- Where it holds, in closed form over the point's number. -/
theorem hcond1_0 : ∀ t : Fin cfg1.N, cond1_0 (grid1.coords t) ↔ t.val % 8 = 0 :=
  (by decide +kernel : ∀ t : Fin grid1.N, cond1_0 (grid1.coords t) ↔ t.val % 8 = 0)

/-- Condition 1 of the body (the query tile is not before the key tile), as the body computes it from the grid coordinates. -/
abbrev cond1_1 (i : grid1.Coords) : Prop := (Scalar.cmpi .ne (Scalar.extui (Scalar.cmpi .sge (BitVec.ofNat 32 (i 2).val) (BitVec.ofNat 32 (i 1).val))) 0#32) = 1#1
/-- Where it holds, in closed form over the point's number. -/
theorem hcond1_1 : ∀ t : Fin cfg1.N, cond1_1 (grid1.coords t) ↔ (t.val / 8) % 8 ≤ t.val % 8 :=
  (by decide +kernel : ∀ t : Fin grid1.N, cond1_1 (grid1.coords t) ↔ (t.val / 8) % 8 ≤ t.val % 8)

/-- Condition 2 of the body (the query tile is the last), as the body computes it from the grid coordinates. -/
abbrev cond1_2 (i : grid1.Coords) : Prop := k1_cond3 i = 1#1
/-- Where it holds, in closed form over the point's number. -/
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Output 2 is stored only where condition 2 holds; elsewhere the body leaves its buffer alone and the pipeline does not write it back. -/
theorem idle1_2 : ∀ t : Fin cfg1.N, ¬cond1_2 (grid1.coords t) → cfg1.idle 2 (grid1.coords t) = true := by decide +kernel
theorem noFlush1_2 : ∀ t : Fin cfg1.N, ¬cond1_2 (grid1.coords t) → (cfg1.win 2).flush t = false := by decide +kernel
theorem live1_2 : ∀ t : Fin cfg1.N, cond1_2 (grid1.coords t) → cfg1.idle 2 (grid1.coords t) = false := by decide +kernel
/-- Output 3 is stored only where condition 2 holds; elsewhere the body leaves its buffer alone and the pipeline does not write it back. -/
theorem idle1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
theorem live1_3 : ∀ t : Fin cfg1.N, cond1_2 (grid1.coords t) → cfg1.idle 3 (grid1.coords t) = false := by decide +kernel

/-! ## The staging memrefs at a point, and the scratch -/

abbrev ms1_0 (t : Fin cfg1.N) : Memref sig .tc .vmem S1x256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev VO1_2 : View sig .tc .vmem S1x1x512 .f32 := (Memref.whole cc1_stg2_0 : Memref sig .tc .vmem S1x1x512 .f32).view
abbrev VO1_3 : View sig .tc .vmem S1x1x512 .f32 := (Memref.whole cc1_stg3_0 : Memref sig .tc .vmem S1x1x512 .f32).view
abbrev scM1_0 : Memref sig .tc .vmem S1x512 .f32 := Memref.whole cc1_scratch0
abbrev VS1_0 : View sig .tc .vmem S1x512 .f32 := scM1_0.view
abbrev scM1_1 : Memref sig .tc .vmem S1x512 .f32 := Memref.whole cc1_scratch1
abbrev VS1_1 : View sig .tc .vmem S1x512 .f32 := scM1_1.view

/-- The scoped buffers that are neither a staging buffer of this region nor its scratch: never touched here. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- What the pipeline hands the body between points when nothing is said about the scratch: each scratch buffer at some
    contents, the other scoped buffers, and the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

/-! ## The body, run once per way through it, on arbitrary whole buffers -/

set_option maxHeartbeats 4000000 in
/-- The way through the body where condition 0 holds, condition 1 holds, condition 2 fails: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces1_A (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : cond1_1 i) (hc2 : ¬cond1_2 i)
    (x0 : Vec F S1x256x512 .bf16) (x1 : Vec F S1x256x512 .bf16) :
    Σ' (LS0 : List (View.Piece (Elt F) S1x512 .f32)), { LS1 : List (View.Piece (Elt F) S1x512 .f32) //
      ∀ (xi2 : Vec F S1x1x512 .f32) (xi3 : Vec F S1x1x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__stats_kernel i arg3 harg3 arg4 harg4 arg5 harg5 arg6 harg6 arg7 harg7 arg8 harg8) K } := by
  refine ⟨?_, ?_, fun xi2 xi3 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%dS0, %fS0, -, HS0⟩, ⟨%dS1, %fS1, -, HS1⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

/-- In this way through the body the stores into scratch 0 tile it, so every index is written. -/
theorem scover1_A_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : cond1_1 i) (hc2 : ¬cond1_2 i)
    (x0 : Vec F S1x256x512 .bf16) (x1 : Vec F S1x256x512 .bf16) (y : S1x512.Idx) :
    ∃ pc ∈ (pieces1_A c i arg3 harg3 arg4 harg4 arg5 harg5 arg6 harg6 arg7 harg7 arg8 harg8 hc0 hc1 hc2 x0 x1).1, y ∈ pc.1.set :=
  View.cover_of_tiledL (pieces1_A c i arg3 harg3 arg4 harg4 arg5 harg5 arg6 harg6 arg7 harg7 arg8 harg8 hc0 hc1 hc2 x0 x1).1 S1x512.size (by sl_kernel_rfl) y

/-- What this way through the body leaves there: its pieces read back. -/
def sout1_A_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : cond1_1 i) (hc2 : ¬cond1_2 i)
    (x0 : Vec F S1x256x512 .bf16) (x1 : Vec F S1x256x512 .bf16) : Vec F S1x512 .f32 :=
  VS1_0.read (Elt F) (VS1_0.writes (Elt F) VS1_0.junk (pieces1_A c i arg3 harg3 arg4 harg4 arg5 harg5 arg6 harg6 arg7 harg7 arg8 harg8 hc0 hc1 hc2 x0 x1).1)

/-- In this way through the body the stores into scratch 1 tile it, so every index is written. -/
theorem scover1_A_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : cond1_1 i) (hc2 : ¬cond1_2 i)
    (x0 : Vec F S1x256x512 .bf16) (x1 : Vec F S1x256x512 .bf16) (y : S1x512.Idx) :
    ∃ pc ∈ (pieces1_A c i arg3 harg3 arg4 harg4 arg5 harg5 arg6 harg6 arg7 harg7 arg8 harg8 hc0 hc1 hc2 x0 x1).2.1, y ∈ pc.1.set :=
  View.cover_of_tiledL (pieces1_A c i arg3 harg3 arg4 harg4 arg5 harg5 arg6 harg6 arg7 harg7 arg8 harg8 hc0 hc1 hc2 x0 x1).2.1 S1x512.size (by sl_kernel_rfl) y

/-- What this way through the body leaves there: its pieces read back. -/
def sout1_A_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : cond1_1 i) (hc2 : ¬cond1_2 i)
    (x0 : Vec F S1x256x512 .bf16) (x1 : Vec F S1x256x512 .bf16) : Vec F S1x512 .f32 :=
  VS1_1.read (Elt F) (VS1_1.writes (Elt F) VS1_1.junk (pieces1_A c i arg3 harg3 arg4 harg4 arg5 harg5 arg6 harg6 arg7 harg7 arg8 harg8 hc0 hc1 hc2 x0 x1).2.1)

set_option maxHeartbeats 4000000 in
/-- The way through the body where condition 0 holds, condition 1 fails, condition 2 fails: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces1_B (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : ¬cond1_1 i) (hc2 : ¬cond1_2 i)
    (x0 : Vec F S1x256x512 .bf16) (x1 : Vec F S1x256x512 .bf16) :
    Σ' (LS0 : List (View.Piece (Elt F) S1x512 .f32)), { LS1 : List (View.Piece (Elt F) S1x512 .f32) //
      ∀ (xi2 : Vec F S1x1x512 .f32) (xi3 : Vec F S1x1x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__stats_kernel i arg3 harg3 arg4 harg4 arg5 harg5 arg6 harg6 arg7 harg7 arg8 harg8) K } := by
  refine ⟨?_, ?_, fun xi2 xi3 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%dS0, %fS0, -, HS0⟩, ⟨%dS1, %fS1, -, HS1⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

/-- In this way through the body the stores into scratch 0 tile it, so every index is written. -/
theorem scover1_B_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : ¬cond1_1 i) (hc2 : ¬cond1_2 i)
    (x0 : Vec F S1x256x512 .bf16) (x1 : Vec F S1x256x512 .bf16) (y : S1x512.Idx) :
    ∃ pc ∈ (pieces1_B c i arg3 harg3 arg4 harg4 arg5 harg5 arg6 harg6 arg7 harg7 arg8 harg8 hc0 hc1 hc2 x0 x1).1, y ∈ pc.1.set :=
  View.cover_of_tiledL (pieces1_B c i arg3 harg3 arg4 harg4 arg5 harg5 arg6 harg6 arg7 harg7 arg8 harg8 hc0 hc1 hc2 x0 x1).1 S1x512.size (by sl_kernel_rfl) y

/-- What this way through the body leaves there: its pieces read back. -/
def sout1_B_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : ¬cond1_1 i) (hc2 : ¬cond1_2 i)
    (x0 : Vec F S1x256x512 .bf16) (x1 : Vec F S1x256x512 .bf16) : Vec F S1x512 .f32 :=
  VS1_0.read (Elt F) (VS1_0.writes (Elt F) VS1_0.junk (pieces1_B c i arg3 harg3 arg4 harg4 arg5 harg5 arg6 harg6 arg7 harg7 arg8 harg8 hc0 hc1 hc2 x0 x1).1)

/-- In this way through the body the stores into scratch 1 tile it, so every index is written. -/
theorem scover1_B_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : ¬cond1_1 i) (hc2 : ¬cond1_2 i)
    (x0 : Vec F S1x256x512 .bf16) (x1 : Vec F S1x256x512 .bf16) (y : S1x512.Idx) :
    ∃ pc ∈ (pieces1_B c i arg3 harg3 arg4 harg4 arg5 harg5 arg6 harg6 arg7 harg7 arg8 harg8 hc0 hc1 hc2 x0 x1).2.1, y ∈ pc.1.set :=
  View.cover_of_tiledL (pieces1_B c i arg3 harg3 arg4 harg4 arg5 harg5 arg6 harg6 arg7 harg7 arg8 harg8 hc0 hc1 hc2 x0 x1).2.1 S1x512.size (by sl_kernel_rfl) y

/-- What this way through the body leaves there: its pieces read back. -/
def sout1_B_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : ¬cond1_1 i) (hc2 : ¬cond1_2 i)
    (x0 : Vec F S1x256x512 .bf16) (x1 : Vec F S1x256x512 .bf16) : Vec F S1x512 .f32 :=
  VS1_1.read (Elt F) (VS1_1.writes (Elt F) VS1_1.junk (pieces1_B c i arg3 harg3 arg4 harg4 arg5 harg5 arg6 harg6 arg7 harg7 arg8 harg8 hc0 hc1 hc2 x0 x1).2.1)

set_option maxHeartbeats 4000000 in
/-- The way through the body where condition 0 fails, condition 1 holds, condition 2 fails: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces1_C (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : ¬cond1_2 i)
    (x0 : Vec F S1x256x512 .bf16) (x1 : Vec F S1x256x512 .bf16) (xs0 : Vec F S1x512 .f32) (xs1 : Vec F S1x512 .f32) :
    Σ' (LS0 : List (View.Piece (Elt F) S1x512 .f32)), { LS1 : List (View.Piece (Elt F) S1x512 .f32) //
      ∀ (xi2 : Vec F S1x1x512 .f32) (xi3 : Vec F S1x1x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__stats_kernel i arg3 harg3 arg4 harg4 arg5 harg5 arg6 harg6 arg7 harg7 arg8 harg8) K } := by
  refine ⟨?_, ?_, fun xi2 xi3 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%fS0, %hfS0, HS0⟩, ⟨%fS1, %hfS1, HS1⟩, Hk⟩
    obtain rfl := harg3.eq_unread hf0; obtain rfl := harg4.eq_unread hf1; obtain rfl := harg5.eq_unread hf2; obtain rfl := harg6.eq_unread hf3; obtain rfl := harg7.eq_unread hfS0; obtain rfl := harg8.eq_unread hfS1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

/-- In this way through the body the stores into scratch 0 tile it, so every index is written. -/
theorem scover1_C_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : ¬cond1_2 i)
    (x0 : Vec F S1x256x512 .bf16) (x1 : Vec F S1x256x512 .bf16) (xs0 : Vec F S1x512 .f32) (xs1 : Vec F S1x512 .f32) (y : S1x512.Idx) :
    ∃ pc ∈ (pieces1_C c i arg3 harg3 arg4 harg4 arg5 harg5 arg6 harg6 arg7 harg7 arg8 harg8 hc0 hc1 hc2 x0 x1 xs0 xs1).1, y ∈ pc.1.set :=
  View.cover_of_tiledL (pieces1_C c i arg3 harg3 arg4 harg4 arg5 harg5 arg6 harg6 arg7 harg7 arg8 harg8 hc0 hc1 hc2 x0 x1 xs0 xs1).1 S1x512.size (by sl_kernel_rfl) y

/-- What this way through the body leaves there: its pieces read back. -/
def sout1_C_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : ¬cond1_2 i)
    (x0 : Vec F S1x256x512 .bf16) (x1 : Vec F S1x256x512 .bf16) (xs0 : Vec F S1x512 .f32) (xs1 : Vec F S1x512 .f32) : Vec F S1x512 .f32 :=
  VS1_0.read (Elt F) (VS1_0.writes (Elt F) VS1_0.junk (pieces1_C c i arg3 harg3 arg4 harg4 arg5 harg5 arg6 harg6 arg7 harg7 arg8 harg8 hc0 hc1 hc2 x0 x1 xs0 xs1).1)

/-- In this way through the body the stores into scratch 1 tile it, so every index is written. -/
theorem scover1_C_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : ¬cond1_2 i)
    (x0 : Vec F S1x256x512 .bf16) (x1 : Vec F S1x256x512 .bf16) (xs0 : Vec F S1x512 .f32) (xs1 : Vec F S1x512 .f32) (y : S1x512.Idx) :
    ∃ pc ∈ (pieces1_C c i arg3 harg3 arg4 harg4 arg5 harg5 arg6 harg6 arg7 harg7 arg8 harg8 hc0 hc1 hc2 x0 x1 xs0 xs1).2.1, y ∈ pc.1.set :=
  View.cover_of_tiledL (pieces1_C c i arg3 harg3 arg4 harg4 arg5 harg5 arg6 harg6 arg7 harg7 arg8 harg8 hc0 hc1 hc2 x0 x1 xs0 xs1).2.1 S1x512.size (by sl_kernel_rfl) y

/-- What this way through the body leaves there: its pieces read back. -/
def sout1_C_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : ¬cond1_2 i)
    (x0 : Vec F S1x256x512 .bf16) (x1 : Vec F S1x256x512 .bf16) (xs0 : Vec F S1x512 .f32) (xs1 : Vec F S1x512 .f32) : Vec F S1x512 .f32 :=
  VS1_1.read (Elt F) (VS1_1.writes (Elt F) VS1_1.junk (pieces1_C c i arg3 harg3 arg4 harg4 arg5 harg5 arg6 harg6 arg7 harg7 arg8 harg8 hc0 hc1 hc2 x0 x1 xs0 xs1).2.1)

set_option maxHeartbeats 4000000 in
/-- The way through the body where condition 0 fails, condition 1 fails, condition 2 fails: nothing is stored at all; every buffer comes back as it was handed. -/
theorem pieces1_D (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : ¬cond1_1 i) (hc2 : ¬cond1_2 i)
    (x0 : Vec F S1x256x512 .bf16) (x1 : Vec F S1x256x512 .bf16) (xs0 : Vec F S1x512 .f32) (xs1 : Vec F S1x512 .f32) :
    ∀ (xi2 : Vec F S1x1x512 .f32) (xi3 : Vec F S1x1x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0 ∗ owns (c : Thread nD τ) arg8 fullShare xs1) -∗ K ⟨⟩))
          ⊢ wp frame (wpE (defs₀ (F := F)) Variants.none c none) E (cc1__stats_kernel i arg3 harg3 arg4 harg4 arg5 harg5 arg6 harg6 arg7 harg7 arg8 harg8) K := by
  intro xi2 xi3 E K
  simp only [cc1__stats_kernel_eq_skeleton]; unfold cc1__stats_kernel_skel
  simp only [k1_part1_eq_skeleton]
  unfold owns
  iintro ⟨⟨%f0, %hf0, H0⟩, ⟨%f1, %hf1, H1⟩, ⟨%f2, %hf2, H2⟩, ⟨%f3, %hf3, H3⟩, ⟨%fS0, %hfS0, HS0⟩, ⟨%fS1, %hfS1, HS1⟩, Hk⟩
  obtain rfl := harg3.eq_unread hf0; obtain rfl := harg4.eq_unread hf1; obtain rfl := harg5.eq_unread hf2; obtain rfl := harg6.eq_unread hf3; obtain rfl := harg7.eq_unread hfS0; obtain rfl := harg8.eq_unread hfS1
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  iexists _; isplitr; · ipureintro; exact harg8.read_unread _
  iexact HS1

set_option maxHeartbeats 4000000 in
/-- The way through the body where condition 0 fails, condition 1 holds, condition 2 holds: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces1_E (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) :
    Σ' (L2 : List (View.Piece (Elt F) S1x1x512 .f32)) (L3 : List (View.Piece (Elt F) S1x1x512 .f32)) (LS0 : List (View.Piece (Elt F) S1x512 .f32)), { LS1 : List (View.Piece (Elt F) S1x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__stats_kernel i arg3 harg3 arg4 harg4 arg5 harg5 arg6 harg6 arg7 harg7 arg8 harg8) K } := by
  refine ⟨?_, ?_, ?_, ?_, fun  E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%d2, %f2, -, H2⟩, ⟨%d3, %f3, -, H3⟩, ⟨%fS0, %hfS0, HS0⟩, ⟨%fS1, %hfS1, HS1⟩, Hk⟩
    obtain rfl := harg3.eq_unread hf0; obtain rfl := harg4.eq_unread hf1; obtain rfl := harg7.eq_unread hfS0; obtain rfl := harg8.eq_unread hfS1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [HS0]; · iexists _; iexact HS0
    iexists _; iexact HS1

/-- In this way through the body the stores into output 2 tile it, so every index is written. -/
theorem cover1_E_2 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) (y : S1x1x512.Idx) :
    ∃ pc ∈ (pieces1_E c i arg3 harg3 arg4 harg4 arg5 harg5 arg6 harg6 arg7 harg7 arg8 harg8 hc0 hc1 hc2 x0 x1 xs0 xs1).1, y ∈ pc.1.set :=
  View.cover_of_tiledL (pieces1_E c i arg3 harg3 arg4 harg4 arg5 harg5 arg6 harg6 arg7 harg7 arg8 harg8 hc0 hc1 hc2 x0 x1 xs0 xs1).1 S1x1x512.size (by sl_kernel_rfl) y

/-- What this way through the body leaves there: its pieces read back. -/
def out1_E_2 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) : Vec F S1x1x512 .f32 :=
  VO1_2.read (Elt F) (VO1_2.writes (Elt F) VO1_2.junk (pieces1_E c i arg3 harg3 arg4 harg4 arg5 harg5 arg6 harg6 arg7 harg7 arg8 harg8 hc0 hc1 hc2 x0 x1 xs0 xs1).1)

/-- In this way through the body the stores into output 3 tile it, so every index is written. -/
theorem cover1_E_3 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) (y : S1x1x512.Idx) :
    ∃ pc ∈ (pieces1_E c i arg3 harg3 arg4 harg4 arg5 harg5 arg6 harg6 arg7 harg7 arg8 harg8 hc0 hc1 hc2 x0 x1 xs0 xs1).2.1, y ∈ pc.1.set :=
  View.cover_of_tiledL (pieces1_E c i arg3 harg3 arg4 harg4 arg5 harg5 arg6 harg6 arg7 harg7 arg8 harg8 hc0 hc1 hc2 x0 x1 xs0 xs1).2.1 S1x1x512.size (by sl_kernel_rfl) y

/-- What this way through the body leaves there: its pieces read back. -/
def out1_E_3 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) : Vec F S1x1x512 .f32 :=
  VO1_3.read (Elt F) (VO1_3.writes (Elt F) VO1_3.junk (pieces1_E c i arg3 harg3 arg4 harg4 arg5 harg5 arg6 harg6 arg7 harg7 arg8 harg8 hc0 hc1 hc2 x0 x1 xs0 xs1).2.1)

/-- In this way through the body the stores into scratch 0 tile it, so every index is written. -/
theorem scover1_E_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) (y : S1x512.Idx) :
    ∃ pc ∈ (pieces1_E c i arg3 harg3 arg4 harg4 arg5 harg5 arg6 harg6 arg7 harg7 arg8 harg8 hc0 hc1 hc2 x0 x1 xs0 xs1).2.2.1, y ∈ pc.1.set :=
  View.cover_of_tiledL (pieces1_E c i arg3 harg3 arg4 harg4 arg5 harg5 arg6 harg6 arg7 harg7 arg8 harg8 hc0 hc1 hc2 x0 x1 xs0 xs1).2.2.1 S1x512.size (by sl_kernel_rfl) y

/-- What this way through the body leaves there: its pieces read back. -/
def sout1_E_0 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) : Vec F S1x512 .f32 :=
  VS1_0.read (Elt F) (VS1_0.writes (Elt F) VS1_0.junk (pieces1_E c i arg3 harg3 arg4 harg4 arg5 harg5 arg6 harg6 arg7 harg7 arg8 harg8 hc0 hc1 hc2 x0 x1 xs0 xs1).2.2.1)

/-- In this way through the body the stores into scratch 1 tile it, so every index is written. -/
theorem scover1_E_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) (y : S1x512.Idx) :
    ∃ pc ∈ (pieces1_E c i arg3 harg3 arg4 harg4 arg5 harg5 arg6 harg6 arg7 harg7 arg8 harg8 hc0 hc1 hc2 x0 x1 xs0 xs1).2.2.2.1, y ∈ pc.1.set :=
  View.cover_of_tiledL (pieces1_E c i arg3 harg3 arg4 harg4 arg5 harg5 arg6 harg6 arg7 harg7 arg8 harg8 hc0 hc1 hc2 x0 x1 xs0 xs1).2.2.2.1 S1x512.size (by sl_kernel_rfl) y

/-- What this way through the body leaves there: its pieces read back. -/
def sout1_E_1 (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 : Vec F S1x256x512 .bf16) (x1 : Vec F S1x256x512 .bf16) (xs0 : Vec F S1x512 .f32) (xs1 : Vec F S1x512 .f32) : Vec F S1x512 .f32 :=
  VS1_1.read (Elt F) (VS1_1.writes (Elt F) VS1_1.junk (pieces1_E c i arg3 harg3 arg4 harg4 arg5 harg5 arg6 harg6 arg7 harg7 arg8 harg8 hc0 hc1 hc2 x0 x1 xs0 xs1).2.2.2.1)

/-! ## What the outputs and the scratch hold after each point -/

/-- One step of the accumulation: what the output buffers and the scratch hold after the body at point `t`, given what
    the scratch held before it — the way through the body that the closed forms select at `t`, run at the point's
    buffers and input blocks. A buffer the selected way does not store keeps what it had (an idle output's component is
    a placeholder nothing reads). A combination of the conditions that no point meets is no case. -/
def step1 (c : Dev nD) (t : Fin cfg1.N) (prev : Vec F S1x512 .f32 × Vec F S1x512 .f32) : Vec F S1x1x512 .f32 × Vec F S1x1x512 .f32 × Vec F S1x512 .f32 × Vec F S1x512 .f32 :=
  if h0 : t.val % 8 = 0 then
    if h1 : (t.val / 8) % 8 ≤ t.val % 8 then
      if h2 : t.val % 8 = 7 then
        False.elim (by have hN : t.val < 256 := lt_of_lt_of_eq t.isLt (show cfg1.N = 256 from N_1); omega)
      else
        (VO1_2.read (Elt F) VO1_2.junk, VO1_3.read (Elt F) VO1_3.junk, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) ((hcond1_1 t).mpr h1) (fun h => h2 ((hcond1_2 t).mp h)) (blk1 V c 0 t) (blk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) ((hcond1_1 t).mpr h1) (fun h => h2 ((hcond1_2 t).mp h)) (blk1 V c 0 t) (blk1 V c 1 t))
    else
      if h2 : t.val % 8 = 7 then
        False.elim (by have hN : t.val < 256 := lt_of_lt_of_eq t.isLt (show cfg1.N = 256 from N_1); omega)
      else
        (VO1_2.read (Elt F) VO1_2.junk, VO1_3.read (Elt F) VO1_3.junk, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (fun h => h2 ((hcond1_2 t).mp h)) (blk1 V c 0 t) (blk1 V c 1 t), sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (fun h => h2 ((hcond1_2 t).mp h)) (blk1 V c 0 t) (blk1 V c 1 t))
  else
    if h1 : (t.val / 8) % 8 ≤ t.val % 8 then
      if h2 : t.val % 8 = 7 then
        (out1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2), out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2), sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2), sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2))
      else
        (VO1_2.read (Elt F) VO1_2.junk, VO1_3.read (Elt F) VO1_3.junk, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (fun h => h2 ((hcond1_2 t).mp h)) (blk1 V c 0 t) (blk1 V c 1 t) (prev.1) (prev.2), sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (fun h => h2 ((hcond1_2 t).mp h)) (blk1 V c 0 t) (blk1 V c 1 t) (prev.1) (prev.2))
    else
      if h2 : t.val % 8 = 7 then
        False.elim (by have hN : t.val < 256 := lt_of_lt_of_eq t.isLt (show cfg1.N = 256 from N_1); omega)
      else
        (VO1_2.read (Elt F) VO1_2.junk, VO1_3.read (Elt F) VO1_3.junk, prev.1, prev.2)

/-- The step at a point where condition 0 holds, condition 1 holds, condition 2 fails. -/
theorem step1_A (c : Dev nD) (t : Fin cfg1.N) (prev : Vec F S1x512 .f32 × Vec F S1x512 .f32) (h0 : t.val % 8 = 0) (h1 : (t.val / 8) % 8 ≤ t.val % 8) (h2 : ¬t.val % 8 = 7) :
    step1 V c t prev = (VO1_2.read (Elt F) VO1_2.junk, VO1_3.read (Elt F) VO1_3.junk, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) ((hcond1_1 t).mpr h1) (fun h => h2 ((hcond1_2 t).mp h)) (blk1 V c 0 t) (blk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) ((hcond1_1 t).mpr h1) (fun h => h2 ((hcond1_2 t).mp h)) (blk1 V c 0 t) (blk1 V c 1 t)) := by
  unfold step1
  rw [dif_pos h0]; rw [dif_pos h1]; rw [dif_neg h2]

/-- The step at a point where condition 0 holds, condition 1 fails, condition 2 fails. -/
theorem step1_B (c : Dev nD) (t : Fin cfg1.N) (prev : Vec F S1x512 .f32 × Vec F S1x512 .f32) (h0 : t.val % 8 = 0) (h1 : ¬(t.val / 8) % 8 ≤ t.val % 8) (h2 : ¬t.val % 8 = 7) :
    step1 V c t prev = (VO1_2.read (Elt F) VO1_2.junk, VO1_3.read (Elt F) VO1_3.junk, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (fun h => h2 ((hcond1_2 t).mp h)) (blk1 V c 0 t) (blk1 V c 1 t), sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (fun h => h2 ((hcond1_2 t).mp h)) (blk1 V c 0 t) (blk1 V c 1 t)) := by
  unfold step1
  rw [dif_pos h0]; rw [dif_neg h1]; rw [dif_neg h2]

/-- The step at a point where condition 0 fails, condition 1 holds, condition 2 fails. -/
theorem step1_C (c : Dev nD) (t : Fin cfg1.N) (prev : Vec F S1x512 .f32 × Vec F S1x512 .f32) (h0 : ¬t.val % 8 = 0) (h1 : (t.val / 8) % 8 ≤ t.val % 8) (h2 : ¬t.val % 8 = 7) :
    step1 V c t prev = (VO1_2.read (Elt F) VO1_2.junk, VO1_3.read (Elt F) VO1_3.junk, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (fun h => h2 ((hcond1_2 t).mp h)) (blk1 V c 0 t) (blk1 V c 1 t) (prev.1) (prev.2), sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (fun h => h2 ((hcond1_2 t).mp h)) (blk1 V c 0 t) (blk1 V c 1 t) (prev.1) (prev.2)) := by
  unfold step1
  rw [dif_neg h0]; rw [dif_pos h1]; rw [dif_neg h2]

/-- The step at a point where condition 0 fails, condition 1 fails, condition 2 fails. -/
theorem step1_D (c : Dev nD) (t : Fin cfg1.N) (prev : Vec F S1x512 .f32 × Vec F S1x512 .f32) (h0 : ¬t.val % 8 = 0) (h1 : ¬(t.val / 8) % 8 ≤ t.val % 8) (h2 : ¬t.val % 8 = 7) :
    step1 V c t prev = (VO1_2.read (Elt F) VO1_2.junk, VO1_3.read (Elt F) VO1_3.junk, prev.1, prev.2) := by
  unfold step1
  rw [dif_neg h0]; rw [dif_neg h1]; rw [dif_neg h2]

/-- The step at a point where condition 0 fails, condition 1 holds, condition 2 holds. -/
theorem step1_E (c : Dev nD) (t : Fin cfg1.N) (prev : Vec F S1x512 .f32 × Vec F S1x512 .f32) (h0 : ¬t.val % 8 = 0) (h1 : (t.val / 8) % 8 ≤ t.val % 8) (h2 : t.val % 8 = 7) :
    step1 V c t prev = (out1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2), out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2), sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2), sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) ((hcond1_2 t).mpr h2) (blk1 V c 0 t) (blk1 V c 1 t) (prev.1) (prev.2)) := by
  unfold step1
  rw [dif_neg h0]; rw [dif_pos h1]; rw [dif_pos h2]

/-- The scratch before the first point: anything (the first point resets it before reading it). -/
def scratch0_1 : Vec F S1x512 .f32 × Vec F S1x512 .f32 := (VS1_0.read (Elt F) VS1_0.junk, VS1_1.read (Elt F) VS1_1.junk)

/-- THE ACCUMULATION: what the output buffers and the scratch hold after the body at position `n`, by recursion on `n`. -/
def outsAt1 (c : Dev nD) : (n : ℕ) → n < cfg1.N → Vec F S1x1x512 .f32 × Vec F S1x1x512 .f32 × Vec F S1x512 .f32 × Vec F S1x512 .f32
  | 0, hn => step1 V c ⟨0, hn⟩ (scratch0_1 (F := F))
  | n + 1, hn => step1 V c ⟨n + 1, hn⟩ (scratchOf1 (outsAt1 c n (Nat.lt_of_succ_lt hn)))
where
  /-- The scratch components of a point's tuple. -/
  scratchOf1 (p : Vec F S1x1x512 .f32 × Vec F S1x1x512 .f32 × Vec F S1x512 .f32 × Vec F S1x512 .f32) : Vec F S1x512 .f32 × Vec F S1x512 .f32 := (p.2.2.1, p.2.2.2)

/-- After a point that is not the first: one step from what the point before left. -/
theorem outsAt1_pos (c : Dev nD) (t : Fin cfg1.N) (hz : t.val ≠ 0) :
    outsAt1 V c t.val t.isLt = step1 V c t (outsAt1.scratchOf1 (outsAt1 V c (t.val - 1) (Nat.lt_of_le_of_lt (Nat.sub_le _ _) t.isLt))) := by
  obtain ⟨n, hn⟩ := t
  cases n with
  | zero => exact absurd rfl hz
  | succ n => rfl

/-- After the first point: one step from anything. -/
theorem outsAt1_zero (c : Dev nD) (t : Fin cfg1.N) (hz : t.val = 0) :
    outsAt1 V c t.val t.isLt = step1 V c t (scratch0_1 (F := F)) := by
  obtain ⟨n, hn⟩ := t
  cases n with
  | zero => rfl
  | succ n => exact absurd hz (Nat.succ_ne_zero n)

/-! ## The invariant between points -/

/-- Before position `n`: before the first point nothing is said of the scratch; afterwards each scratch buffer holds what
    the point before left in it; the other scoped buffers and the generator register ride along. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ rest1 c) ∗ (∃ r, prngReg c r)) := by
  cases n with
  | zero => exact absurd rfl hz
  | succ n => rfl

/-! ## The region's proof data -/

/-- Per core: the windows' arrays as the region finds them; after the body at point `t` each input buffer still at its block
    and each output buffer at the accumulation's component; between points the invariant above; nothing owed; whole shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d

/-! ## The obligation at a point -/

/-- What the pipeline hands the body at point `t`, -/
def handed1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it takes back. -/
def returned1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- At any point: the inputs' buffers hold their blocks; the closed forms say which way through the body the point takes;
    the invariant hands over the scratch at what the point before left (at anything before the first point, and wherever
    the body resets it before reading it) and takes it back at this point's contents; an output the body does not store
    is handed back as found; what the core owes passes through. -/
theorem point1 (c : Dev nD) (t : Fin cfg1.N) :
    handed1 V c t ⊢ wp frame (wpE (defs₀ (F := F)) Variants.none c none) Set.univ (bodyAt1 t) (fun _ => returned1 V c t) := by
  unfold handed1 returned1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 8 = 0
  · by_cases h1 : (t.val / 8) % 8 ≤ t.val % 8
    · by_cases h2 : t.val % 8 = 7
      · exfalso; omega
      · rw [show (dat1 V c).leavesExact 0 t = owns (c : Thread nD τ) (ms1_0 t) fullShare ((dat1 V c).after 0 t) from by
          unfold Dat.leavesExact; rw [live1_0 t], after1_0]
        rw [show (dat1 V c).leavesExact 1 t = owns (c : Thread nD τ) (ms1_1 t) fullShare ((dat1 V c).after 1 t) from by
          unfold Dat.leavesExact; rw [live1_1 t], after1_1]
        rw [Dat.leavesExact_idle (dat1 V c) 2 t (idle1_2 t (fun h => h2 ((hcond1_2 t).mp h))) (noFlush1_2 t (fun h => h2 ((hcond1_2 t).mp h)))]
        rw [Dat.leavesExact_idle (dat1 V c) 3 t (idle1_3 t (fun h => h2 ((hcond1_2 t).mp h))) (noFlush1_3 t (fun h => h2 ((hcond1_2 t).mp h)))]
        by_cases hz : t.val = 0
        · rw [outsAt1_zero V c t hz, step1_A V c t _ h0 h1 h2]
          unfold sout1_A_0 sout1_A_1; (try dsimp only)
          rw [PhiS1_castSucc V c t, PhiS1_zero V c _ _ hz, PhiA1_eq]
          iintro ⟨⟨⟨⟨HS0, HS1⟩, Hrest⟩, Hg⟩, Ho, ⟨%d0, H0⟩, ⟨%d1, H1⟩, ⟨%d2, H2⟩, ⟨%d3, H3⟩⟩
          iapply ((pieces1_A c (grid1.coords t) _ _ _ _ _ _ _ _ _ _ _ _ ((hcond1_0 t).mpr h0) ((hcond1_1 t).mpr h1) (fun h => h2 ((hcond1_2 t).mp h)) (blk1 V c 0 t) (blk1 V c 1 t)).2.2 _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, ⟨%eS0, HS0⟩, ⟨%eS1, HS1⟩⟩
          isplitl [HS0 HS1 Hrest Hg]
          · isplitl [HS0 HS1 Hrest]
            · isplitl [HS0 HS1]
              · isplitl [HS0]
                · unfold owns; iexists _; isplitr
                  swap
                  · iexact HS0
                  ipureintro; exact View.read_writes_of_cover _ _ _ _ _ (scover1_A_0 c _ _ _ _ _ _ _ _ _ _ _ _ _ _ _ _ _ _)
                · unfold owns; iexists _; isplitr
                  swap
                  · iexact HS1
                  ipureintro; exact View.read_writes_of_cover _ _ _ _ _ (scover1_A_1 c _ _ _ _ _ _ _ _ _ _ _ _ _ _ _ _ _ _)
              · iexact Hrest
            · iexact Hg
          isplitl [Ho]
          · iexact Ho
          isplitl [H0]
          · iexact H0
          isplitl [H1]
          · iexact H1
          isplitl [H2]
          · iexists _; iexact H2
          iexists _; iexact H3
        · rw [outsAt1_pos V c t hz, step1_A V c t _ h0 h1 h2]
          unfold sout1_A_0 sout1_A_1; (try dsimp only)
          rw [PhiS1_castSucc V c t, PhiS1_pos V c _ _ hz]
          iintro ⟨⟨⟨⟨HS0, HS1⟩, Hrest⟩, Hg⟩, Ho, ⟨%d0, H0⟩, ⟨%d1, H1⟩, ⟨%d2, H2⟩, ⟨%d3, H3⟩⟩
          iapply ((pieces1_A c (grid1.coords t) _ _ _ _ _ _ _ _ _ _ _ _ ((hcond1_0 t).mpr h0) ((hcond1_1 t).mpr h1) (fun h => h2 ((hcond1_2 t).mp h)) (blk1 V c 0 t) (blk1 V c 1 t)).2.2 _ _ Set.univ _)
          isplitl [H0]; · iexact H0
          isplitl [H1]; · iexact H1
          isplitl [H2]; · iexact H2
          isplitl [H3]; · iexact H3
          isplitl [HS0]; · iexists _; iexact HS0
          isplitl [HS1]; · iexists _; iexact HS1
          iintro ⟨H0, H1, H2, H3, ⟨%eS0, HS0⟩, ⟨%eS1, HS1⟩⟩
          isplitl [HS0 HS1 Hrest Hg]
          · isplitl [HS0 HS1 Hrest]
            · isplitl [HS0 HS1]
              · isplitl [HS0]
                · unfold owns; iexists _; isplitr
                  swap
                  · iexact HS0
                  ipureintro; exact View.read_writes_of_cover _ _ _ _ _ (scover1_A_0 c _ _ _ _ _ _ _ _ _ _ _ _ _ _ _ _ _ _)
                · unfold owns; iexists _; isplitr
                  swap
                  · iexact HS1
                  ipureintro; exact View.read_writes_of_cover _ _ _ _ _ (scover1_A_1 c _ _ _ _ _ _ _ _ _ _ _ _ _ _ _ _ _ _)
              · iexact Hrest
            · iexact Hg
          isplitl [Ho]
          · iexact Ho
          isplitl [H0]
          · iexact H0
          isplitl [H1]
          · iexact H1
          isplitl [H2]
          · iexists _; iexact H2
          iexists _; iexact H3
    · by_cases h2 : t.val % 8 = 7
      · exfalso; omega
      · rw [show (dat1 V c).leavesExact 0 t = owns (c : Thread nD τ) (ms1_0 t) fullShare ((dat1 V c).after 0 t) from by
          unfold Dat.leavesExact; rw [live1_0 t], after1_0]
        rw [show (dat1 V c).leavesExact 1 t = owns (c : Thread nD τ) (ms1_1 t) fullShare ((dat1 V c).after 1 t) from by
          unfold Dat.leavesExact; rw [live1_1 t], after1_1]
        rw [Dat.leavesExact_idle (dat1 V c) 2 t (idle1_2 t (fun h => h2 ((hcond1_2 t).mp h))) (noFlush1_2 t (fun h => h2 ((hcond1_2 t).mp h)))]
        rw [Dat.leavesExact_idle (dat1 V c) 3 t (idle1_3 t (fun h => h2 ((hcond1_2 t).mp h))) (noFlush1_3 t (fun h => h2 ((hcond1_2 t).mp h)))]
        by_cases hz : t.val = 0
        · rw [outsAt1_zero V c t hz, step1_B V c t _ h0 h1 h2]
          unfold sout1_B_0 sout1_B_1; (try dsimp only)
          rw [PhiS1_castSucc V c t, PhiS1_zero V c _ _ hz, PhiA1_eq]
          iintro ⟨⟨⟨⟨HS0, HS1⟩, Hrest⟩, Hg⟩, Ho, ⟨%d0, H0⟩, ⟨%d1, H1⟩, ⟨%d2, H2⟩, ⟨%d3, H3⟩⟩
          iapply ((pieces1_B c (grid1.coords t) _ _ _ _ _ _ _ _ _ _ _ _ ((hcond1_0 t).mpr h0) (fun h => h1 ((hcond1_1 t).mp h)) (fun h => h2 ((hcond1_2 t).mp h)) (blk1 V c 0 t) (blk1 V c 1 t)).2.2 _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, ⟨%eS0, HS0⟩, ⟨%eS1, HS1⟩⟩
          isplitl [HS0 HS1 Hrest Hg]
          · isplitl [HS0 HS1 Hrest]
            · isplitl [HS0 HS1]
              · isplitl [HS0]
                · unfold owns; iexists _; isplitr
                  swap
                  · iexact HS0
                  ipureintro; exact View.read_writes_of_cover _ _ _ _ _ (scover1_B_0 c _ _ _ _ _ _ _ _ _ _ _ _ _ _ _ _ _ _)
                · unfold owns; iexists _; isplitr
                  swap
                  · iexact HS1
                  ipureintro; exact View.read_writes_of_cover _ _ _ _ _ (scover1_B_1 c _ _ _ _ _ _ _ _ _ _ _ _ _ _ _ _ _ _)
              · iexact Hrest
            · iexact Hg
          isplitl [Ho]
          · iexact Ho
          isplitl [H0]
          · iexact H0
          isplitl [H1]
          · iexact H1
          isplitl [H2]
          · iexists _; iexact H2
          iexists _; iexact H3
        · rw [outsAt1_pos V c t hz, step1_B V c t _ h0 h1 h2]
          unfold sout1_B_0 sout1_B_1; (try dsimp only)
          rw [PhiS1_castSucc V c t, PhiS1_pos V c _ _ hz]
          iintro ⟨⟨⟨⟨HS0, HS1⟩, Hrest⟩, Hg⟩, Ho, ⟨%d0, H0⟩, ⟨%d1, H1⟩, ⟨%d2, H2⟩, ⟨%d3, H3⟩⟩
          iapply ((pieces1_B c (grid1.coords t) _ _ _ _ _ _ _ _ _ _ _ _ ((hcond1_0 t).mpr h0) (fun h => h1 ((hcond1_1 t).mp h)) (fun h => h2 ((hcond1_2 t).mp h)) (blk1 V c 0 t) (blk1 V c 1 t)).2.2 _ _ Set.univ _)
          isplitl [H0]; · iexact H0
          isplitl [H1]; · iexact H1
          isplitl [H2]; · iexact H2
          isplitl [H3]; · iexact H3
          isplitl [HS0]; · iexists _; iexact HS0
          isplitl [HS1]; · iexists _; iexact HS1
          iintro ⟨H0, H1, H2, H3, ⟨%eS0, HS0⟩, ⟨%eS1, HS1⟩⟩
          isplitl [HS0 HS1 Hrest Hg]
          · isplitl [HS0 HS1 Hrest]
            · isplitl [HS0 HS1]
              · isplitl [HS0]
                · unfold owns; iexists _; isplitr
                  swap
                  · iexact HS0
                  ipureintro; exact View.read_writes_of_cover _ _ _ _ _ (scover1_B_0 c _ _ _ _ _ _ _ _ _ _ _ _ _ _ _ _ _ _)
                · unfold owns; iexists _; isplitr
                  swap
                  · iexact HS1
                  ipureintro; exact View.read_writes_of_cover _ _ _ _ _ (scover1_B_1 c _ _ _ _ _ _ _ _ _ _ _ _ _ _ _ _ _ _)
              · iexact Hrest
            · iexact Hg
          isplitl [Ho]
          · iexact Ho
          isplitl [H0]
          · iexact H0
          isplitl [H1]
          · iexact H1
          isplitl [H2]
          · iexists _; iexact H2
          iexists _; iexact H3
  · by_cases h1 : (t.val / 8) % 8 ≤ t.val % 8
    · by_cases h2 : t.val % 8 = 7
      · rw [show (dat1 V c).leavesExact 0 t = owns (c : Thread nD τ) (ms1_0 t) fullShare ((dat1 V c).after 0 t) from by
          unfold Dat.leavesExact; rw [live1_0 t], after1_0]
        rw [show (dat1 V c).leavesExact 1 t = owns (c : Thread nD τ) (ms1_1 t) fullShare ((dat1 V c).after 1 t) from by
          unfold Dat.leavesExact; rw [live1_1 t], after1_1]
        rw [show (dat1 V c).leavesExact 2 t = owns (c : Thread nD τ) (ms1_2 t) fullShare ((dat1 V c).after 2 t) from by
          unfold Dat.leavesExact; rw [live1_2 t ((hcond1_2 t).mpr h2)], after1_2]
        rw [show (dat1 V c).leavesExact 3 t = owns (c : Thread nD τ) (ms1_3 t) fullShare ((dat1 V c).after 3 t) from by
          unfold Dat.leavesExact; rw [live1_3 t ((hcond1_2 t).mpr h2)], after1_3]
        by_cases hz : t.val = 0
        · exfalso; omega
        · rw [outsAt1_pos V c t hz, step1_E V c t _ h0 h1 h2]
          unfold out1_E_2 out1_E_3 sout1_E_0 sout1_E_1; (try dsimp only)
          rw [PhiS1_castSucc V c t, PhiS1_pos V c _ _ hz]
          iintro ⟨⟨⟨⟨HS0, HS1⟩, Hrest⟩, Hg⟩, Ho, ⟨%d0, H0⟩, ⟨%d1, H1⟩, ⟨%d2, H2⟩, ⟨%d3, H3⟩⟩
          iapply ((pieces1_E c (grid1.coords t) _ _ _ _ _ _ _ _ _ _ _ _ (fun h => h0 ((hcond1_0 t).mp h)) ((hcond1_1 t).mpr h1) ((hcond1_2 t).mpr h2) (blk1 V c 0 t) (blk1 V c 1 t) _ _).2.2.2.2 Set.univ _)
          isplitl [H0]; · iexact H0
          isplitl [H1]; · iexact H1
          isplitl [H2]; · iexists _; iexact H2
          isplitl [H3]; · iexists _; iexact H3
          isplitl [HS0]; · iexact HS0
          isplitl [HS1]; · iexact HS1
          iintro ⟨H0, H1, ⟨%e2, H2⟩, ⟨%e3, H3⟩, ⟨%eS0, HS0⟩, ⟨%eS1, HS1⟩⟩
          isplitl [HS0 HS1 Hrest Hg]
          · isplitl [HS0 HS1 Hrest]
            · isplitl [HS0 HS1]
              · isplitl [HS0]
                · unfold owns; iexists _; isplitr
                  swap
                  · iexact HS0
                  ipureintro; exact View.read_writes_of_cover _ _ _ _ _ (scover1_E_0 c _ _ _ _ _ _ _ _ _ _ _ _ _ _ _ _ _ _ _ _)
                · unfold owns; iexists _; isplitr
                  swap
                  · iexact HS1
                  ipureintro; exact View.read_writes_of_cover _ _ _ _ _ (scover1_E_1 c _ _ _ _ _ _ _ _ _ _ _ _ _ _ _ _ _ _ _ _)
              · iexact Hrest
            · iexact Hg
          isplitl [Ho]
          · iexact Ho
          isplitl [H0]
          · iexact H0
          isplitl [H1]
          · iexact H1
          isplitl [H2]
          · unfold owns; iexists _; isplitr
            swap
            · iexact H2
            ipureintro; exact View.read_writes_of_cover _ _ _ _ _ (cover1_E_2 c _ _ _ _ _ _ _ _ _ _ _ _ _ _ _ _ _ _ _ _)
          unfold owns; iexists _; isplitr
          swap
          · iexact H3
          ipureintro; exact View.read_writes_of_cover _ _ _ _ _ (cover1_E_3 c _ _ _ _ _ _ _ _ _ _ _ _ _ _ _ _ _ _ _ _)
      · rw [show (dat1 V c).leavesExact 0 t = owns (c : Thread nD τ) (ms1_0 t) fullShare ((dat1 V c).after 0 t) from by
          unfold Dat.leavesExact; rw [live1_0 t], after1_0]
        rw [show (dat1 V c).leavesExact 1 t = owns (c : Thread nD τ) (ms1_1 t) fullShare ((dat1 V c).after 1 t) from by
          unfold Dat.leavesExact; rw [live1_1 t], after1_1]
        rw [Dat.leavesExact_idle (dat1 V c) 2 t (idle1_2 t (fun h => h2 ((hcond1_2 t).mp h))) (noFlush1_2 t (fun h => h2 ((hcond1_2 t).mp h)))]
        rw [Dat.leavesExact_idle (dat1 V c) 3 t (idle1_3 t (fun h => h2 ((hcond1_2 t).mp h))) (noFlush1_3 t (fun h => h2 ((hcond1_2 t).mp h)))]
        by_cases hz : t.val = 0
        · exfalso; omega
        · rw [outsAt1_pos V c t hz, step1_C V c t _ h0 h1 h2]
          unfold sout1_C_0 sout1_C_1; (try dsimp only)
          rw [PhiS1_castSucc V c t, PhiS1_pos V c _ _ hz]
          iintro ⟨⟨⟨⟨HS0, HS1⟩, Hrest⟩, Hg⟩, Ho, ⟨%d0, H0⟩, ⟨%d1, H1⟩, ⟨%d2, H2⟩, ⟨%d3, H3⟩⟩
          iapply ((pieces1_C c (grid1.coords t) _ _ _ _ _ _ _ _ _ _ _ _ (fun h => h0 ((hcond1_0 t).mp h)) ((hcond1_1 t).mpr h1) (fun h => h2 ((hcond1_2 t).mp h)) (blk1 V c 0 t) (blk1 V c 1 t) _ _).2.2 _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, ⟨%eS0, HS0⟩, ⟨%eS1, HS1⟩⟩
          isplitl [HS0 HS1 Hrest Hg]
          · isplitl [HS0 HS1 Hrest]
            · isplitl [HS0 HS1]
              · isplitl [HS0]
                · unfold owns; iexists _; isplitr
                  swap
                  · iexact HS0
                  ipureintro; exact View.read_writes_of_cover _ _ _ _ _ (scover1_C_0 c _ _ _ _ _ _ _ _ _ _ _ _ _ _ _ _ _ _ _ _)
                · unfold owns; iexists _; isplitr
                  swap
                  · iexact HS1
                  ipureintro; exact View.read_writes_of_cover _ _ _ _ _ (scover1_C_1 c _ _ _ _ _ _ _ _ _ _ _ _ _ _ _ _ _ _ _ _)
              · iexact Hrest
            · iexact Hg
          isplitl [Ho]
          · iexact Ho
          isplitl [H0]
          · iexact H0
          isplitl [H1]
          · iexact H1
          isplitl [H2]
          · iexists _; iexact H2
          iexists _; iexact H3
    · by_cases h2 : t.val % 8 = 7
      · exfalso; omega
      · rw [show (dat1 V c).leavesExact 0 t = owns (c : Thread nD τ) (ms1_0 t) fullShare ((dat1 V c).after 0 t) from by
          unfold Dat.leavesExact; rw [live1_0 t], after1_0]
        rw [show (dat1 V c).leavesExact 1 t = owns (c : Thread nD τ) (ms1_1 t) fullShare ((dat1 V c).after 1 t) from by
          unfold Dat.leavesExact; rw [live1_1 t], after1_1]
        rw [Dat.leavesExact_idle (dat1 V c) 2 t (idle1_2 t (fun h => h2 ((hcond1_2 t).mp h))) (noFlush1_2 t (fun h => h2 ((hcond1_2 t).mp h)))]
        rw [Dat.leavesExact_idle (dat1 V c) 3 t (idle1_3 t (fun h => h2 ((hcond1_2 t).mp h))) (noFlush1_3 t (fun h => h2 ((hcond1_2 t).mp h)))]
        by_cases hz : t.val = 0
        · exfalso; omega
        · rw [outsAt1_pos V c t hz, step1_D V c t _ h0 h1 h2]
          (try dsimp only)
          rw [PhiS1_castSucc V c t, PhiS1_pos V c _ _ hz]
          iintro ⟨⟨⟨⟨HS0, HS1⟩, Hrest⟩, Hg⟩, Ho, ⟨%d0, H0⟩, ⟨%d1, H1⟩, ⟨%d2, H2⟩, ⟨%d3, H3⟩⟩
          iapply (pieces1_D c (grid1.coords t) _ _ _ _ _ _ _ _ _ _ _ _ (fun h => h0 ((hcond1_0 t).mp h)) (fun h => h1 ((hcond1_1 t).mp h)) (fun h => h2 ((hcond1_2 t).mp h)) (blk1 V c 0 t) (blk1 V c 1 t) _ _ _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, HS0, HS1⟩
          isplitl [HS0 HS1 Hrest Hg]
          · isplitl [HS0 HS1 Hrest]
            · isplitl [HS0 HS1]
              · isplitl [HS0]
                · iexact HS0
                · iexact HS1
              · iexact Hrest
            · iexact Hg
          isplitl [Ho]
          · iexact Ho
          isplitl [H0]
          · iexact H0
          isplitl [H1]
          · iexact H1
          isplitl [H2]
          · iexists _; iexact H2
          iexists _; iexact H3

set_option maxHeartbeats 8000000 in
/-- The region's obligation to the pipeline, at every point. -/
theorem obligation1 (c : Dev nD) : BodyObligation (dat1 (F := F) V c) (defs₀ (F := F)) Variants.none () Set.univ := fun t => by
  rw [bigSep_W1, bigSep_W1]
  exact point1 V c t

/-- What the region is entered with is the invariant before the first point. -/
theorem enter1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the region was entered with: the scratch's contents are forgotten. -/
theorem leave1 (c : Dev nD) : (dat1 V c).Φ (Fin.last cfg1.N) ⊢ Pipeline.ΦA spec1 c := by
  have hN : cfg1.N = 256 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end Cert.KernelIdeal.Frames

end
-- ==== Proof.KI.Region2.lean ====
/-
  The output region (the third kernel launch): its grid is 4 batches by 4 query tiles of 1024 rows by 8 key tiles of
  512 columns, the key tile running fastest. For a fixed batch and query tile t the body walks the key tiles s = 0..7
  keeping a 256 by 1024 accumulator in scratch: it clears it at s = 0; where the key tile meets the query tile's rows
  (s ≤ 2 t + 1) it computes the tile of normalised weights from the column statistics, stores it as the weights block
  and adds its product with the values tile to the accumulator; where it does not, it stores a block of zeros instead;
  and at s = 7 it copies the accumulator to the attention output, whose block the pipeline writes back only there.
  So there are five ways through the body. This module finds each way's stores by running it once symbolically, folds
  them over the grid, and packages the result as the region's per-point proof data.
-/
import proofs.«130694_j5669356831785_2_alg».proof.Proof.KI.Region0

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` that grid point `t` works on, read out of the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the point's block whether or not the pipeline fetched it there: when it
    did not, the block index has not moved since the last fetch (an index map that repeats an index costs no fetch). -/
theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's current staging buffer holds the point's block whether or not the pipeline fetched it there: when it
    did not, the block index has not moved since the last fetch (an index map that repeats an index costs no fetch). -/
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2's current staging buffer holds the point's block whether or not the pipeline fetched it there: when it
    did not, the block index has not moved since the last fetch (an index map that repeats an index costs no fetch). -/
theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- Input window 3's current staging buffer holds the point's block whether or not the pipeline fetched it there: when it
    did not, the block index has not moved since the last fetch (an index map that repeats an index costs no fetch). -/
theorem found2_3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Input window 4's current staging buffer holds the point's block whether or not the pipeline fetched it there: when it
    did not, the block index has not moved since the last fetch (an index map that repeats an index costs no fetch). -/
theorem found2_4 {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-! ## The body's conditions, decided over the grid -/

/-- Condition 0 of the body (the key tile is the first), as the body computes it from the grid coordinates. -/
abbrev cond2_0 (i : grid2.Coords) : Prop := (Scalar.cmpi .ne (Scalar.extui (Scalar.cmpi .eq (BitVec.ofNat 32 (i 2).val) 0#32)) 0#32) = 1#1
/-- Where it holds, in closed form over the point's number. -/
theorem hcond2_0 : ∀ t : Fin cfg2.N, cond2_0 (grid2.coords t) ↔ t.val % 8 = 0 :=
  (by decide +kernel : ∀ t : Fin grid2.N, cond2_0 (grid2.coords t) ↔ t.val % 8 = 0)

/-- Condition 1 of the body (the key tile meets the query tile's rows), as the body computes it from the grid coordinates. -/
abbrev cond2_1 (i : grid2.Coords) : Prop := k2_cond2 i = 1#1
/-- Where it holds, in closed form over the point's number. -/
theorem hcond2_1 : ∀ t : Fin cfg2.N, cond2_1 (grid2.coords t) ↔ t.val % 8 ≤ 2 * ((t.val / 8) % 4) + 1 :=
  (by decide +kernel : ∀ t : Fin grid2.N, cond2_1 (grid2.coords t) ↔ t.val % 8 ≤ 2 * ((t.val / 8) % 4) + 1)

/-- Condition 2 of the body (the key tile lies wholly past the query tile's rows), as the body computes it from the grid coordinates. -/
abbrev cond2_2 (i : grid2.Coords) : Prop := k2_cond3 i = 1#1
/-- Where it holds, in closed form over the point's number. -/
theorem hcond2_2 : ∀ t : Fin cfg2.N, cond2_2 (grid2.coords t) ↔ 2 * ((t.val / 8) % 4) + 1 < t.val % 8 :=
  (by decide +kernel : ∀ t : Fin grid2.N, cond2_2 (grid2.coords t) ↔ 2 * ((t.val / 8) % 4) + 1 < t.val % 8)

/-- Condition 3 of the body (the key tile is the last), as the body computes it from the grid coordinates. -/
abbrev cond2_3 (i : grid2.Coords) : Prop := k2_cond4 i = 1#1
/-- Where it holds, in closed form over the point's number. -/
theorem hcond2_3 : ∀ t : Fin cfg2.N, cond2_3 (grid2.coords t) ↔ t.val % 8 = 7 :=
  (by decide +kernel : ∀ t : Fin grid2.N, cond2_3 (grid2.coords t) ↔ t.val % 8 = 7)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
/-- Output 5 is stored only where condition 3 holds; elsewhere the body leaves its buffer alone and the pipeline does not write it back. -/
theorem idle2_5 : ∀ t : Fin cfg2.N, ¬cond2_3 (grid2.coords t) → cfg2.idle 5 (grid2.coords t) = true := by decide +kernel
theorem noFlush2_5 : ∀ t : Fin cfg2.N, ¬cond2_3 (grid2.coords t) → (cfg2.win 5).flush t = false := by decide +kernel
theorem live2_5 : ∀ t : Fin cfg2.N, cond2_3 (grid2.coords t) → cfg2.idle 5 (grid2.coords t) = false := by decide +kernel
theorem live2_6 : ∀ t : Fin cfg2.N, cfg2.idle 6 (grid2.coords t) = false := by decide +kernel

/-! ## The staging memrefs at a point, and the scratch -/

abbrev ms2_0 (t : Fin cfg2.N) : Memref sig .tc .vmem S1x256x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256x1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1024x512 .f32 := win2_6.stage (cfg2.slots t 6)
abbrev hs2_6 (t : Fin cfg2.N) : (ms2_6 t).IsWhole := hstage2_6 ((cfg2.slots t 6).cast nbuf2_6)
abbrev VO2_5 : View sig .tc .vmem S1x256x1024 .f32 := (Memref.whole cc2_stg5_0 : Memref sig .tc .vmem S1x256x1024 .f32).view
abbrev VO2_6 : View sig .tc .vmem S1x1024x512 .f32 := (Memref.whole cc2_stg6_0 : Memref sig .tc .vmem S1x1024x512 .f32).view
abbrev scM2_0 : Memref sig .tc .vmem S256x1024 .f32 := Memref.whole cc2_scratch0
abbrev VS2_0 : View sig .tc .vmem S256x1024 .f32 := scM2_0.view

/-- The scoped buffers that are neither a staging buffer of this region nor its scratch: never touched here. -/
abbrev rest2 (c : Dev nD) : sProp 𝕄 :=
  Pipeline.scopedRestBut (Ix := Unit) (Name := ℕ) (U := UR sig nD τ) (Lvl := ℕ) (Val := Elt F) spec2 c [cc2_scratch0]

/-- What the pipeline hands the body between points when nothing is said about the scratch: each scratch buffer at some
    contents, the other scoped buffers, and the generator register at some state. -/
theorem PhiA2_eq (c : Dev nD) :
    (Pipeline.ΦA spec2 c : sProp 𝕄)
      = iprop(iprop(iprop((∃ d, owns (c : Thread nD τ) scM2_0 fullShare d)) ∗ rest2 c) ∗ (∃ r, prngReg c r)) := by
  unfold Pipeline.ΦA; rw [scopedRest2_split]; simp only [scM2_0, owns_whole]; try rfl

/-! ## The body, run once per way through it, on arbitrary whole buffers -/

set_option maxHeartbeats 4000000 in
/-- The way through the body where condition 0 holds, condition 1 holds, condition 2 fails, condition 3 fails: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces2_P (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) :
    Σ' (L6 : List (View.Piece (Elt F) S1x1024x512 .f32)), { LS0 : List (View.Piece (Elt F) S256x1024 .f32) //
      ∀ (xi5 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc2__out_kernel i arg3 harg3 arg4 harg4 arg5 harg5 arg6 harg6 arg7 harg7 arg8 harg8 arg9 harg9 arg10 harg10) K } := by
  refine ⟨?_, ?_, fun xi5 E K => ?run⟩
  case run =>
    simp only [cc2__out_kernel_eq_skeleton]; unfold cc2__out_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%dS0, %fS0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

/-- In this way through the body the stores into output 6 tile it, so every index is written. -/
theorem cover2_P_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (y : S1x1024x512.Idx) :
    ∃ pc ∈ (pieces2_P c i arg3 harg3 arg4 harg4 arg5 harg5 arg6 harg6 arg7 harg7 arg8 harg8 arg9 harg9 arg10 harg10 hc0 hc1 hc2 hc3 x0 x1 x2 x3 x4).1, y ∈ pc.1.set :=
  View.cover_of_tiledL (pieces2_P c i arg3 harg3 arg4 harg4 arg5 harg5 arg6 harg6 arg7 harg7 arg8 harg8 arg9 harg9 arg10 harg10 hc0 hc1 hc2 hc3 x0 x1 x2 x3 x4).1 S1x1024x512.size (by sl_kernel_rfl) y

/-- What this way through the body leaves there: its pieces read back. -/
def out2_P_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) : Vec F S1x1024x512 .f32 :=
  VO2_6.read (Elt F) (VO2_6.writes (Elt F) VO2_6.junk (pieces2_P c i arg3 harg3 arg4 harg4 arg5 harg5 arg6 harg6 arg7 harg7 arg8 harg8 arg9 harg9 arg10 harg10 hc0 hc1 hc2 hc3 x0 x1 x2 x3 x4).1)

/-- In this way through the body the stores into scratch 0 tile it, so every index is written. -/
theorem scover2_P_0 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (y : S256x1024.Idx) :
    ∃ pc ∈ (pieces2_P c i arg3 harg3 arg4 harg4 arg5 harg5 arg6 harg6 arg7 harg7 arg8 harg8 arg9 harg9 arg10 harg10 hc0 hc1 hc2 hc3 x0 x1 x2 x3 x4).2.1, y ∈ pc.1.set :=
  View.cover_of_tiledL (pieces2_P c i arg3 harg3 arg4 harg4 arg5 harg5 arg6 harg6 arg7 harg7 arg8 harg8 arg9 harg9 arg10 harg10 hc0 hc1 hc2 hc3 x0 x1 x2 x3 x4).2.1 S256x1024.size (by sl_kernel_rfl) y

/-- What this way through the body leaves there: its pieces read back. -/
def sout2_P_0 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) : Vec F S256x1024 .f32 :=
  VS2_0.read (Elt F) (VS2_0.writes (Elt F) VS2_0.junk (pieces2_P c i arg3 harg3 arg4 harg4 arg5 harg5 arg6 harg6 arg7 harg7 arg8 harg8 arg9 harg9 arg10 harg10 hc0 hc1 hc2 hc3 x0 x1 x2 x3 x4).2.1)

set_option maxHeartbeats 4000000 in
/-- The way through the body where condition 0 fails, condition 1 holds, condition 2 fails, condition 3 fails: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces2_Q (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    Σ' (L6 : List (View.Piece (Elt F) S1x1024x512 .f32)), { LS0 : List (View.Piece (Elt F) S256x1024 .f32) //
      ∀ (xi5 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc2__out_kernel i arg3 harg3 arg4 harg4 arg5 harg5 arg6 harg6 arg7 harg7 arg8 harg8 arg9 harg9 arg10 harg10) K } := by
  refine ⟨?_, ?_, fun xi5 E K => ?run⟩
  case run =>
    simp only [cc2__out_kernel_eq_skeleton]; unfold cc2__out_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fS0, %hfS0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfS0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

/-- In this way through the body the stores into output 6 tile it, so every index is written. -/
theorem cover2_Q_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S1x1024x512.Idx) :
    ∃ pc ∈ (pieces2_Q c i arg3 harg3 arg4 harg4 arg5 harg5 arg6 harg6 arg7 harg7 arg8 harg8 arg9 harg9 arg10 harg10 hc0 hc1 hc2 hc3 x0 x1 x2 x3 x4 xs0).1, y ∈ pc.1.set :=
  View.cover_of_tiledL (pieces2_Q c i arg3 harg3 arg4 harg4 arg5 harg5 arg6 harg6 arg7 harg7 arg8 harg8 arg9 harg9 arg10 harg10 hc0 hc1 hc2 hc3 x0 x1 x2 x3 x4 xs0).1 S1x1024x512.size (by sl_kernel_rfl) y

/-- What this way through the body leaves there: its pieces read back. -/
def out2_Q_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S1x1024x512 .f32 :=
  VO2_6.read (Elt F) (VO2_6.writes (Elt F) VO2_6.junk (pieces2_Q c i arg3 harg3 arg4 harg4 arg5 harg5 arg6 harg6 arg7 harg7 arg8 harg8 arg9 harg9 arg10 harg10 hc0 hc1 hc2 hc3 x0 x1 x2 x3 x4 xs0).1)

/-- In this way through the body the stores into scratch 0 tile it, so every index is written. -/
theorem scover2_Q_0 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S256x1024.Idx) :
    ∃ pc ∈ (pieces2_Q c i arg3 harg3 arg4 harg4 arg5 harg5 arg6 harg6 arg7 harg7 arg8 harg8 arg9 harg9 arg10 harg10 hc0 hc1 hc2 hc3 x0 x1 x2 x3 x4 xs0).2.1, y ∈ pc.1.set :=
  View.cover_of_tiledL (pieces2_Q c i arg3 harg3 arg4 harg4 arg5 harg5 arg6 harg6 arg7 harg7 arg8 harg8 arg9 harg9 arg10 harg10 hc0 hc1 hc2 hc3 x0 x1 x2 x3 x4 xs0).2.1 S256x1024.size (by sl_kernel_rfl) y

/-- What this way through the body leaves there: its pieces read back. -/
def sout2_Q_0 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S256x1024 .f32 :=
  VS2_0.read (Elt F) (VS2_0.writes (Elt F) VS2_0.junk (pieces2_Q c i arg3 harg3 arg4 harg4 arg5 harg5 arg6 harg6 arg7 harg7 arg8 harg8 arg9 harg9 arg10 harg10 hc0 hc1 hc2 hc3 x0 x1 x2 x3 x4 xs0).2.1)

set_option maxHeartbeats 4000000 in
/-- The way through the body where condition 0 fails, condition 1 fails, condition 2 holds, condition 3 fails: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces2_R (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    { L6 : List (View.Piece (Elt F) S1x1024x512 .f32) //
      ∀ (xi5 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f L6) ∗ owns (c : Thread nD τ) arg10 fullShare xs0) -∗ K ⟨⟩))
          ⊢ wp frame (wpE (defs₀ (F := F)) Variants.none c none) E (cc2__out_kernel i arg3 harg3 arg4 harg4 arg5 harg5 arg6 harg6 arg7 harg7 arg8 harg8 arg9 harg9 arg10 harg10) K } := by
  refine ⟨?_, fun xi5 E K => ?run⟩
  case run =>
    simp only [cc2__out_kernel_eq_skeleton]; unfold cc2__out_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fS0, %hfS0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfS0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; isplitr; · ipureintro; exact harg10.read_unread _
    iexact HS0

/-- In this way through the body the stores into output 6 tile it, so every index is written. -/
theorem cover2_R_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S1x1024x512.Idx) :
    ∃ pc ∈ (pieces2_R c i arg3 harg3 arg4 harg4 arg5 harg5 arg6 harg6 arg7 harg7 arg8 harg8 arg9 harg9 arg10 harg10 hc0 hc1 hc2 hc3 x0 x1 x2 x3 x4 xs0).1, y ∈ pc.1.set :=
  View.cover_of_tiledL (pieces2_R c i arg3 harg3 arg4 harg4 arg5 harg5 arg6 harg6 arg7 harg7 arg8 harg8 arg9 harg9 arg10 harg10 hc0 hc1 hc2 hc3 x0 x1 x2 x3 x4 xs0).1 S1x1024x512.size (by sl_kernel_rfl) y

/-- What this way through the body leaves there: its pieces read back. -/
def out2_R_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S1x1024x512 .f32 :=
  VO2_6.read (Elt F) (VO2_6.writes (Elt F) VO2_6.junk (pieces2_R c i arg3 harg3 arg4 harg4 arg5 harg5 arg6 harg6 arg7 harg7 arg8 harg8 arg9 harg9 arg10 harg10 hc0 hc1 hc2 hc3 x0 x1 x2 x3 x4 xs0).1)

set_option maxHeartbeats 4000000 in
/-- The way through the body where condition 0 fails, condition 1 holds, condition 2 fails, condition 3 holds: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces2_S (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    Σ' (L5 : List (View.Piece (Elt F) S1x256x1024 .f32)) (L6 : List (View.Piece (Elt F) S1x1024x512 .f32)), { LS0 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc2__out_kernel i arg3 harg3 arg4 harg4 arg5 harg5 arg6 harg6 arg7 harg7 arg8 harg8 arg9 harg9 arg10 harg10) K } := by
  refine ⟨?_, ?_, ?_, fun  E K => ?run⟩
  case run =>
    simp only [cc2__out_kernel_eq_skeleton]; unfold cc2__out_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fS0, %hfS0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfS0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

/-- In this way through the body the stores into output 5 tile it, so every index is written. -/
theorem cover2_S_5 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S1x256x1024.Idx) :
    ∃ pc ∈ (pieces2_S c i arg3 harg3 arg4 harg4 arg5 harg5 arg6 harg6 arg7 harg7 arg8 harg8 arg9 harg9 arg10 harg10 hc0 hc1 hc2 hc3 x0 x1 x2 x3 x4 xs0).1, y ∈ pc.1.set :=
  View.cover_of_tiledL (pieces2_S c i arg3 harg3 arg4 harg4 arg5 harg5 arg6 harg6 arg7 harg7 arg8 harg8 arg9 harg9 arg10 harg10 hc0 hc1 hc2 hc3 x0 x1 x2 x3 x4 xs0).1 S1x256x1024.size (by sl_kernel_rfl) y

/-- What this way through the body leaves there: its pieces read back. -/
def out2_S_5 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S1x256x1024 .f32 :=
  VO2_5.read (Elt F) (VO2_5.writes (Elt F) VO2_5.junk (pieces2_S c i arg3 harg3 arg4 harg4 arg5 harg5 arg6 harg6 arg7 harg7 arg8 harg8 arg9 harg9 arg10 harg10 hc0 hc1 hc2 hc3 x0 x1 x2 x3 x4 xs0).1)

/-- In this way through the body the stores into output 6 tile it, so every index is written. -/
theorem cover2_S_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S1x1024x512.Idx) :
    ∃ pc ∈ (pieces2_S c i arg3 harg3 arg4 harg4 arg5 harg5 arg6 harg6 arg7 harg7 arg8 harg8 arg9 harg9 arg10 harg10 hc0 hc1 hc2 hc3 x0 x1 x2 x3 x4 xs0).2.1, y ∈ pc.1.set :=
  View.cover_of_tiledL (pieces2_S c i arg3 harg3 arg4 harg4 arg5 harg5 arg6 harg6 arg7 harg7 arg8 harg8 arg9 harg9 arg10 harg10 hc0 hc1 hc2 hc3 x0 x1 x2 x3 x4 xs0).2.1 S1x1024x512.size (by sl_kernel_rfl) y

/-- What this way through the body leaves there: its pieces read back. -/
def out2_S_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S1x1024x512 .f32 :=
  VO2_6.read (Elt F) (VO2_6.writes (Elt F) VO2_6.junk (pieces2_S c i arg3 harg3 arg4 harg4 arg5 harg5 arg6 harg6 arg7 harg7 arg8 harg8 arg9 harg9 arg10 harg10 hc0 hc1 hc2 hc3 x0 x1 x2 x3 x4 xs0).2.1)

/-- In this way through the body the stores into scratch 0 tile it, so every index is written. -/
theorem scover2_S_0 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S256x1024.Idx) :
    ∃ pc ∈ (pieces2_S c i arg3 harg3 arg4 harg4 arg5 harg5 arg6 harg6 arg7 harg7 arg8 harg8 arg9 harg9 arg10 harg10 hc0 hc1 hc2 hc3 x0 x1 x2 x3 x4 xs0).2.2.1, y ∈ pc.1.set :=
  View.cover_of_tiledL (pieces2_S c i arg3 harg3 arg4 harg4 arg5 harg5 arg6 harg6 arg7 harg7 arg8 harg8 arg9 harg9 arg10 harg10 hc0 hc1 hc2 hc3 x0 x1 x2 x3 x4 xs0).2.2.1 S256x1024.size (by sl_kernel_rfl) y

/-- What this way through the body leaves there: its pieces read back. -/
def sout2_S_0 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S256x1024 .f32 :=
  VS2_0.read (Elt F) (VS2_0.writes (Elt F) VS2_0.junk (pieces2_S c i arg3 harg3 arg4 harg4 arg5 harg5 arg6 harg6 arg7 harg7 arg8 harg8 arg9 harg9 arg10 harg10 hc0 hc1 hc2 hc3 x0 x1 x2 x3 x4 xs0).2.2.1)

set_option maxHeartbeats 4000000 in
/-- The way through the body where condition 0 fails, condition 1 fails, condition 2 holds, condition 3 holds: the pieces its stores leave in the buffers it writes (last store first),
    with the proof that from the inputs at `x·`, a carried scratch at what the point before left (`xs·`), an untouched
    output at `xi·` and every other buffer at anything, the body runs to its end without a fault, hands the inputs and
    the untouched buffers back as they were, and leaves the written ones with exactly those pieces. The pieces are
    determined by the symbolic run when it hands each buffer to the continuation. -/
noncomputable def pieces2_T (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    Σ' (L5 : List (View.Piece (Elt F) S1x256x1024 .f32)), { L6 : List (View.Piece (Elt F) S1x1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ owns (c : Thread nD τ) arg10 fullShare xs0) -∗ K ⟨⟩))
          ⊢ wp frame (wpE (defs₀ (F := F)) Variants.none c none) E (cc2__out_kernel i arg3 harg3 arg4 harg4 arg5 harg5 arg6 harg6 arg7 harg7 arg8 harg8 arg9 harg9 arg10 harg10) K } := by
  refine ⟨?_, ?_, fun  E K => ?run⟩
  case run =>
    simp only [cc2__out_kernel_eq_skeleton]; unfold cc2__out_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fS0, %hfS0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfS0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; isplitr; · ipureintro; exact harg10.read_unread _
    iexact HS0

/-- In this way through the body the stores into output 5 tile it, so every index is written. -/
theorem cover2_T_5 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S1x256x1024.Idx) :
    ∃ pc ∈ (pieces2_T c i arg3 harg3 arg4 harg4 arg5 harg5 arg6 harg6 arg7 harg7 arg8 harg8 arg9 harg9 arg10 harg10 hc0 hc1 hc2 hc3 x0 x1 x2 x3 x4 xs0).1, y ∈ pc.1.set :=
  View.cover_of_tiledL (pieces2_T c i arg3 harg3 arg4 harg4 arg5 harg5 arg6 harg6 arg7 harg7 arg8 harg8 arg9 harg9 arg10 harg10 hc0 hc1 hc2 hc3 x0 x1 x2 x3 x4 xs0).1 S1x256x1024.size (by sl_kernel_rfl) y

/-- What this way through the body leaves there: its pieces read back. -/
def out2_T_5 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S1x256x1024 .f32 :=
  VO2_5.read (Elt F) (VO2_5.writes (Elt F) VO2_5.junk (pieces2_T c i arg3 harg3 arg4 harg4 arg5 harg5 arg6 harg6 arg7 harg7 arg8 harg8 arg9 harg9 arg10 harg10 hc0 hc1 hc2 hc3 x0 x1 x2 x3 x4 xs0).1)

/-- In this way through the body the stores into output 6 tile it, so every index is written. -/
theorem cover2_T_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) (y : S1x1024x512.Idx) :
    ∃ pc ∈ (pieces2_T c i arg3 harg3 arg4 harg4 arg5 harg5 arg6 harg6 arg7 harg7 arg8 harg8 arg9 harg9 arg10 harg10 hc0 hc1 hc2 hc3 x0 x1 x2 x3 x4 xs0).2.1, y ∈ pc.1.set :=
  View.cover_of_tiledL (pieces2_T c i arg3 harg3 arg4 harg4 arg5 harg5 arg6 harg6 arg7 harg7 arg8 harg8 arg9 harg9 arg10 harg10 hc0 hc1 hc2 hc3 x0 x1 x2 x3 x4 xs0).2.1 S1x1024x512.size (by sl_kernel_rfl) y

/-- What this way through the body leaves there: its pieces read back. -/
def out2_T_6 (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) : Vec F S1x1024x512 .f32 :=
  VO2_6.read (Elt F) (VO2_6.writes (Elt F) VO2_6.junk (pieces2_T c i arg3 harg3 arg4 harg4 arg5 harg5 arg6 harg6 arg7 harg7 arg8 harg8 arg9 harg9 arg10 harg10 hc0 hc1 hc2 hc3 x0 x1 x2 x3 x4 xs0).2.1)

/-! ## What the outputs and the scratch hold after each point -/

/-- One step of the accumulation: what the output buffers and the scratch hold after the body at point `t`, given what
    the scratch held before it — the way through the body that the closed forms select at `t`, run at the point's
    buffers and input blocks. A buffer the selected way does not store keeps what it had (an idle output's component is
    a placeholder nothing reads). A combination of the conditions that no point meets is no case. -/
def step2 (c : Dev nD) (t : Fin cfg2.N) (prev : Vec F S256x1024 .f32) : Vec F S1x256x1024 .f32 × Vec F S1x1024x512 .f32 × Vec F S256x1024 .f32 :=
  if h0 : t.val % 8 = 0 then
    if h1 : t.val % 8 ≤ 2 * ((t.val / 8) % 4) + 1 then
      if h2 : 2 * ((t.val / 8) % 4) + 1 < t.val % 8 then
        if h3 : t.val % 8 = 7 then
          False.elim (by have hN : t.val < 128 := lt_of_lt_of_eq t.isLt (show cfg2.N = 128 from N_2); omega)
        else
          False.elim (by have hN : t.val < 128 := lt_of_lt_of_eq t.isLt (show cfg2.N = 128 from N_2); omega)
      else
        if h3 : t.val % 8 = 7 then
          False.elim (by have hN : t.val < 128 := lt_of_lt_of_eq t.isLt (show cfg2.N = 128 from N_2); omega)
        else
          (VO2_5.read (Elt F) VO2_5.junk, out2_P_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t), sout2_P_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t))
    else
      if h2 : 2 * ((t.val / 8) % 4) + 1 < t.val % 8 then
        if h3 : t.val % 8 = 7 then
          False.elim (by have hN : t.val < 128 := lt_of_lt_of_eq t.isLt (show cfg2.N = 128 from N_2); omega)
        else
          False.elim (by have hN : t.val < 128 := lt_of_lt_of_eq t.isLt (show cfg2.N = 128 from N_2); omega)
      else
        if h3 : t.val % 8 = 7 then
          False.elim (by have hN : t.val < 128 := lt_of_lt_of_eq t.isLt (show cfg2.N = 128 from N_2); omega)
        else
          False.elim (by have hN : t.val < 128 := lt_of_lt_of_eq t.isLt (show cfg2.N = 128 from N_2); omega)
  else
    if h1 : t.val % 8 ≤ 2 * ((t.val / 8) % 4) + 1 then
      if h2 : 2 * ((t.val / 8) % 4) + 1 < t.val % 8 then
        if h3 : t.val % 8 = 7 then
          False.elim (by have hN : t.val < 128 := lt_of_lt_of_eq t.isLt (show cfg2.N = 128 from N_2); omega)
        else
          False.elim (by have hN : t.val < 128 := lt_of_lt_of_eq t.isLt (show cfg2.N = 128 from N_2); omega)
      else
        if h3 : t.val % 8 = 7 then
          (out2_S_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) ((hcond2_3 t).mpr h3) (blk2 V c 0 t) (blk2 V c 1 t) (blk2 V c 2 t) (blk2 V c 3 t) (blk2 V c 4 t) (prev), out2_S_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) ((hcond2_3 t).mpr h3) (blk2 V c 0 t) (blk2 V c 1 t) (blk2 V c 2 t) (blk2 V c 3 t) (blk2 V c 4 t) (prev), sout2_S_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) ((hcond2_3 t).mpr h3) (blk2 V c 0 t) (blk2 V c 1 t) (blk2 V c 2 t) (blk2 V c 3 t) (blk2 V c 4 t) (prev))
        else
          (VO2_5.read (Elt F) VO2_5.junk, out2_Q_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t) (prev), sout2_Q_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t) (prev))
    else
      if h2 : 2 * ((t.val / 8) % 4) + 1 < t.val % 8 then
        if h3 : t.val % 8 = 7 then
          (out2_T_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) ((hcond2_2 t).mpr h2) ((hcond2_3 t).mpr h3) (blk2 V c 0 t) (blk2 V c 1 t) (blk2 V c 2 t) (blk2 V c 3 t) (blk2 V c 4 t) (prev), out2_T_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) ((hcond2_2 t).mpr h2) ((hcond2_3 t).mpr h3) (blk2 V c 0 t) (blk2 V c 1 t) (blk2 V c 2 t) (blk2 V c 3 t) (blk2 V c 4 t) (prev), prev)
        else
          (VO2_5.read (Elt F) VO2_5.junk, out2_R_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) ((hcond2_2 t).mpr h2) (fun h => h3 ((hcond2_3 t).mp h)) (blk2 V c 0 t) (blk2 V c 1 t) (blk2 V c 2 t) (blk2 V c 3 t) (blk2 V c 4 t) (prev), prev)
      else
        if h3 : t.val % 8 = 7 then
          False.elim (by have hN : t.val < 128 := lt_of_lt_of_eq t.isLt (show cfg2.N = 128 from N_2); omega)
        else
          False.elim (by have hN : t.val < 128 := lt_of_lt_of_eq t.isLt (show cfg2.N = 128 from N_2); omega)

/-- The step at a point where condition 0 holds, condition 1 holds, condition 2 fails, condition 3 fails. -/
theorem step2_P (c : Dev nD) (t : Fin cfg2.N) (prev : Vec F S256x1024 .f32) (h0 : t.val % 8 = 0) (h1 : t.val % 8 ≤ 2 * ((t.val / 8) % 4) + 1) (h2 : ¬2 * ((t.val / 8) % 4) + 1 < t.val % 8) (h3 : ¬t.val % 8 = 7) :
    step2 V c t prev = (VO2_5.read (Elt F) VO2_5.junk, out2_P_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t), sout2_P_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t)) := by
  unfold step2
  rw [dif_pos h0]; rw [dif_pos h1]; rw [dif_neg h2]; rw [dif_neg h3]

/-- The step at a point where condition 0 fails, condition 1 holds, condition 2 fails, condition 3 fails. -/
theorem step2_Q (c : Dev nD) (t : Fin cfg2.N) (prev : Vec F S256x1024 .f32) (h0 : ¬t.val % 8 = 0) (h1 : t.val % 8 ≤ 2 * ((t.val / 8) % 4) + 1) (h2 : ¬2 * ((t.val / 8) % 4) + 1 < t.val % 8) (h3 : ¬t.val % 8 = 7) :
    step2 V c t prev = (VO2_5.read (Elt F) VO2_5.junk, out2_Q_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t) (prev), sout2_Q_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t) (prev)) := by
  unfold step2
  rw [dif_neg h0]; rw [dif_pos h1]; rw [dif_neg h2]; rw [dif_neg h3]

/-- The step at a point where condition 0 fails, condition 1 fails, condition 2 holds, condition 3 fails. -/
theorem step2_R (c : Dev nD) (t : Fin cfg2.N) (prev : Vec F S256x1024 .f32) (h0 : ¬t.val % 8 = 0) (h1 : ¬t.val % 8 ≤ 2 * ((t.val / 8) % 4) + 1) (h2 : 2 * ((t.val / 8) % 4) + 1 < t.val % 8) (h3 : ¬t.val % 8 = 7) :
    step2 V c t prev = (VO2_5.read (Elt F) VO2_5.junk, out2_R_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) ((hcond2_2 t).mpr h2) (fun h => h3 ((hcond2_3 t).mp h)) (blk2 V c 0 t) (blk2 V c 1 t) (blk2 V c 2 t) (blk2 V c 3 t) (blk2 V c 4 t) (prev), prev) := by
  unfold step2
  rw [dif_neg h0]; rw [dif_neg h1]; rw [dif_pos h2]; rw [dif_neg h3]

/-- The step at a point where condition 0 fails, condition 1 holds, condition 2 fails, condition 3 holds. -/
theorem step2_S (c : Dev nD) (t : Fin cfg2.N) (prev : Vec F S256x1024 .f32) (h0 : ¬t.val % 8 = 0) (h1 : t.val % 8 ≤ 2 * ((t.val / 8) % 4) + 1) (h2 : ¬2 * ((t.val / 8) % 4) + 1 < t.val % 8) (h3 : t.val % 8 = 7) :
    step2 V c t prev = (out2_S_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) ((hcond2_3 t).mpr h3) (blk2 V c 0 t) (blk2 V c 1 t) (blk2 V c 2 t) (blk2 V c 3 t) (blk2 V c 4 t) (prev), out2_S_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) ((hcond2_3 t).mpr h3) (blk2 V c 0 t) (blk2 V c 1 t) (blk2 V c 2 t) (blk2 V c 3 t) (blk2 V c 4 t) (prev), sout2_S_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (fun h => h2 ((hcond2_2 t).mp h)) ((hcond2_3 t).mpr h3) (blk2 V c 0 t) (blk2 V c 1 t) (blk2 V c 2 t) (blk2 V c 3 t) (blk2 V c 4 t) (prev)) := by
  unfold step2
  rw [dif_neg h0]; rw [dif_pos h1]; rw [dif_neg h2]; rw [dif_pos h3]

/-- The step at a point where condition 0 fails, condition 1 fails, condition 2 holds, condition 3 holds. -/
theorem step2_T (c : Dev nD) (t : Fin cfg2.N) (prev : Vec F S256x1024 .f32) (h0 : ¬t.val % 8 = 0) (h1 : ¬t.val % 8 ≤ 2 * ((t.val / 8) % 4) + 1) (h2 : 2 * ((t.val / 8) % 4) + 1 < t.val % 8) (h3 : t.val % 8 = 7) :
    step2 V c t prev = (out2_T_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) ((hcond2_2 t).mpr h2) ((hcond2_3 t).mpr h3) (blk2 V c 0 t) (blk2 V c 1 t) (blk2 V c 2 t) (blk2 V c 3 t) (blk2 V c 4 t) (prev), out2_T_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) ((hcond2_2 t).mpr h2) ((hcond2_3 t).mpr h3) (blk2 V c 0 t) (blk2 V c 1 t) (blk2 V c 2 t) (blk2 V c 3 t) (blk2 V c 4 t) (prev), prev) := by
  unfold step2
  rw [dif_neg h0]; rw [dif_neg h1]; rw [dif_pos h2]; rw [dif_pos h3]

/-- The scratch before the first point: anything (the first point resets it before reading it). -/
def scratch0_2 : Vec F S256x1024 .f32 := (VS2_0.read (Elt F) VS2_0.junk)

/-- THE ACCUMULATION: what the output buffers and the scratch hold after the body at position `n`, by recursion on `n`. -/
def outsAt2 (c : Dev nD) : (n : ℕ) → n < cfg2.N → Vec F S1x256x1024 .f32 × Vec F S1x1024x512 .f32 × Vec F S256x1024 .f32
  | 0, hn => step2 V c ⟨0, hn⟩ (scratch0_2 (F := F))
  | n + 1, hn => step2 V c ⟨n + 1, hn⟩ (scratchOf2 (outsAt2 c n (Nat.lt_of_succ_lt hn)))
where
  /-- The scratch components of a point's tuple. -/
  scratchOf2 (p : Vec F S1x256x1024 .f32 × Vec F S1x1024x512 .f32 × Vec F S256x1024 .f32) : Vec F S256x1024 .f32 := (p.2.2)

/-- After a point that is not the first: one step from what the point before left. -/
theorem outsAt2_pos (c : Dev nD) (t : Fin cfg2.N) (hz : t.val ≠ 0) :
    outsAt2 V c t.val t.isLt = step2 V c t (outsAt2.scratchOf2 (outsAt2 V c (t.val - 1) (Nat.lt_of_le_of_lt (Nat.sub_le _ _) t.isLt))) := by
  obtain ⟨n, hn⟩ := t
  cases n with
  | zero => exact absurd rfl hz
  | succ n => rfl

/-- After the first point: one step from anything. -/
theorem outsAt2_zero (c : Dev nD) (t : Fin cfg2.N) (hz : t.val = 0) :
    outsAt2 V c t.val t.isLt = step2 V c t (scratch0_2 (F := F)) := by
  obtain ⟨n, hn⟩ := t
  cases n with
  | zero => rfl
  | succ n => exact absurd hz (Nat.succ_ne_zero n)

/-! ## The invariant between points -/

/-- Before position `n`: before the first point nothing is said of the scratch; afterwards each scratch buffer holds what
    the point before left in it; the other scoped buffers and the generator register ride along. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2)) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2)) ∗ rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2)) ∗ rest2 c) ∗ (∃ r, prngReg c r)) := by
  cases n with
  | zero => exact absurd rfl hz
  | succ n => rfl

/-! ## The region's proof data -/

/-- Per core: the windows' arrays as the region finds them; after the body at point `t` each input buffer still at its block
    and each output buffer at the accumulation's component; between points the invariant above; nothing owed; whole shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => (outsAt2 V c t.val t.isLt).1
    | ⟨6, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]

theorem before2_0 (c : Dev nD) (t : Fin cfg2.N) (d) : (dat2 V c).before 0 t d = blk2 V c 0 t :=
  found2_0 V (dat2 V c) (A_eq2 V c 0) (after2_0 V c) t d
theorem before2_1 (c : Dev nD) (t : Fin cfg2.N) (d) : (dat2 V c).before 1 t d = blk2 V c 1 t :=
  found2_1 V (dat2 V c) (A_eq2 V c 1) (after2_1 V c) t d
theorem before2_2 (c : Dev nD) (t : Fin cfg2.N) (d) : (dat2 V c).before 2 t d = blk2 V c 2 t :=
  found2_2 V (dat2 V c) (A_eq2 V c 2) (after2_2 V c) t d
theorem before2_3 (c : Dev nD) (t : Fin cfg2.N) (d) : (dat2 V c).before 3 t d = blk2 V c 3 t :=
  found2_3 V (dat2 V c) (A_eq2 V c 3) (after2_3 V c) t d
theorem before2_4 (c : Dev nD) (t : Fin cfg2.N) (d) : (dat2 V c).before 4 t d = blk2 V c 4 t :=
  found2_4 V (dat2 V c) (A_eq2 V c 4) (after2_4 V c) t d

/-! ## The obligation at a point -/

/-- What the pipeline hands the body at point `t`, -/
def handed2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it takes back. -/
def returned2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- At any point: the inputs' buffers hold their blocks; the closed forms say which way through the body the point takes;
    the invariant hands over the scratch at what the point before left (at anything before the first point, and wherever
    the body resets it before reading it) and takes it back at this point's contents; an output the body does not store
    is handed back as found; what the core owes passes through. -/
theorem point2 (c : Dev nD) (t : Fin cfg2.N) :
    handed2 V c t ⊢ wp frame (wpE (defs₀ (F := F)) Variants.none c none) Set.univ (bodyAt2 t) (fun _ => returned2 V c t) := by
  unfold handed2 returned2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 8 = 0
  · by_cases h1 : t.val % 8 ≤ 2 * ((t.val / 8) % 4) + 1
    · by_cases h2 : 2 * ((t.val / 8) % 4) + 1 < t.val % 8
      · by_cases h3 : t.val % 8 = 7
        · exfalso; omega
        · exfalso; omega
      · by_cases h3 : t.val % 8 = 7
        · exfalso; omega
        · rw [show (dat2 V c).leavesExact 0 t = owns (c : Thread nD τ) (ms2_0 t) fullShare ((dat2 V c).after 0 t) from by
            unfold Dat.leavesExact; rw [live2_0 t], after2_0]
          rw [show (dat2 V c).leavesExact 1 t = owns (c : Thread nD τ) (ms2_1 t) fullShare ((dat2 V c).after 1 t) from by
            unfold Dat.leavesExact; rw [live2_1 t], after2_1]
          rw [show (dat2 V c).leavesExact 2 t = owns (c : Thread nD τ) (ms2_2 t) fullShare ((dat2 V c).after 2 t) from by
            unfold Dat.leavesExact; rw [live2_2 t], after2_2]
          rw [show (dat2 V c).leavesExact 3 t = owns (c : Thread nD τ) (ms2_3 t) fullShare ((dat2 V c).after 3 t) from by
            unfold Dat.leavesExact; rw [live2_3 t], after2_3]
          rw [show (dat2 V c).leavesExact 4 t = owns (c : Thread nD τ) (ms2_4 t) fullShare ((dat2 V c).after 4 t) from by
            unfold Dat.leavesExact; rw [live2_4 t], after2_4]
          rw [Dat.leavesExact_idle (dat2 V c) 5 t (idle2_5 t (fun h => h3 ((hcond2_3 t).mp h))) (noFlush2_5 t (fun h => h3 ((hcond2_3 t).mp h)))]
          rw [show (dat2 V c).leavesExact 6 t = owns (c : Thread nD τ) (ms2_6 t) fullShare ((dat2 V c).after 6 t) from by
            unfold Dat.leavesExact; rw [live2_6 t], after2_6]
          by_cases hz : t.val = 0
          · rw [outsAt2_zero V c t hz, step2_P V c t _ h0 h1 h2 h3]
            unfold out2_P_6 sout2_P_0; (try dsimp only)
            rw [PhiS2_castSucc V c t, PhiS2_zero V c _ _ hz, PhiA2_eq]
            iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
            iapply ((pieces2_P c (grid2.coords t) _ _ _ _ _ _ _ _ _ _ _ _ _ _ _ _ ((hcond2_0 t).mpr h0) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t)).2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            iintro ⟨H0, H1, H2, H3, H4, H5, ⟨%e6, H6⟩, ⟨%eS0, HS0⟩⟩
            isplitl [HS0 Hrest Hg]
            · isplitl [HS0 Hrest]
              · isplitl [HS0]
                · unfold owns; iexists _; isplitr
                  swap
                  · iexact HS0
                  ipureintro; exact View.read_writes_of_cover _ _ _ _ _ (scover2_P_0 c _ _ _ _ _ _ _ _ _ _ _ _ _ _ _ _ _ _ _ _ _ _ _ _ _ _)
                · iexact Hrest
              · iexact Hg
            isplitl [Ho]
            · iexact Ho
            isplitl [H0]
            · iexact H0
            isplitl [H1]
            · iexact H1
            isplitl [H2]
            · iexact H2
            isplitl [H3]
            · iexact H3
            isplitl [H4]
            · iexact H4
            isplitl [H5]
            · iexists _; iexact H5
            unfold owns; iexists _; isplitr
            swap
            · iexact H6
            ipureintro; exact View.read_writes_of_cover _ _ _ _ _ (cover2_P_6 c _ _ _ _ _ _ _ _ _ _ _ _ _ _ _ _ _ _ _ _ _ _ _ _ _ _)
          · rw [outsAt2_pos V c t hz, step2_P V c t _ h0 h1 h2 h3]
            unfold out2_P_6 sout2_P_0; (try dsimp only)
            rw [PhiS2_castSucc V c t, PhiS2_pos V c _ _ hz]
            iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
            iapply ((pieces2_P c (grid2.coords t) _ _ _ _ _ _ _ _ _ _ _ _ _ _ _ _ ((hcond2_0 t).mpr h0) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t)).2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexists _; iexact HS0
            iintro ⟨H0, H1, H2, H3, H4, H5, ⟨%e6, H6⟩, ⟨%eS0, HS0⟩⟩
            isplitl [HS0 Hrest Hg]
            · isplitl [HS0 Hrest]
              · isplitl [HS0]
                · unfold owns; iexists _; isplitr
                  swap
                  · iexact HS0
                  ipureintro; exact View.read_writes_of_cover _ _ _ _ _ (scover2_P_0 c _ _ _ _ _ _ _ _ _ _ _ _ _ _ _ _ _ _ _ _ _ _ _ _ _ _)
                · iexact Hrest
              · iexact Hg
            isplitl [Ho]
            · iexact Ho
            isplitl [H0]
            · iexact H0
            isplitl [H1]
            · iexact H1
            isplitl [H2]
            · iexact H2
            isplitl [H3]
            · iexact H3
            isplitl [H4]
            · iexact H4
            isplitl [H5]
            · iexists _; iexact H5
            unfold owns; iexists _; isplitr
            swap
            · iexact H6
            ipureintro; exact View.read_writes_of_cover _ _ _ _ _ (cover2_P_6 c _ _ _ _ _ _ _ _ _ _ _ _ _ _ _ _ _ _ _ _ _ _ _ _ _ _)
    · by_cases h2 : 2 * ((t.val / 8) % 4) + 1 < t.val % 8
      · by_cases h3 : t.val % 8 = 7
        · exfalso; omega
        · exfalso; omega
      · by_cases h3 : t.val % 8 = 7
        · exfalso; omega
        · exfalso; omega
  · by_cases h1 : t.val % 8 ≤ 2 * ((t.val / 8) % 4) + 1
    · by_cases h2 : 2 * ((t.val / 8) % 4) + 1 < t.val % 8
      · by_cases h3 : t.val % 8 = 7
        · exfalso; omega
        · exfalso; omega
      · by_cases h3 : t.val % 8 = 7
        · rw [show (dat2 V c).leavesExact 0 t = owns (c : Thread nD τ) (ms2_0 t) fullShare ((dat2 V c).after 0 t) from by
            unfold Dat.leavesExact; rw [live2_0 t], after2_0]
          rw [show (dat2 V c).leavesExact 1 t = owns (c : Thread nD τ) (ms2_1 t) fullShare ((dat2 V c).after 1 t) from by
            unfold Dat.leavesExact; rw [live2_1 t], after2_1]
          rw [show (dat2 V c).leavesExact 2 t = owns (c : Thread nD τ) (ms2_2 t) fullShare ((dat2 V c).after 2 t) from by
            unfold Dat.leavesExact; rw [live2_2 t], after2_2]
          rw [show (dat2 V c).leavesExact 3 t = owns (c : Thread nD τ) (ms2_3 t) fullShare ((dat2 V c).after 3 t) from by
            unfold Dat.leavesExact; rw [live2_3 t], after2_3]
          rw [show (dat2 V c).leavesExact 4 t = owns (c : Thread nD τ) (ms2_4 t) fullShare ((dat2 V c).after 4 t) from by
            unfold Dat.leavesExact; rw [live2_4 t], after2_4]
          rw [show (dat2 V c).leavesExact 5 t = owns (c : Thread nD τ) (ms2_5 t) fullShare ((dat2 V c).after 5 t) from by
            unfold Dat.leavesExact; rw [live2_5 t ((hcond2_3 t).mpr h3)], after2_5]
          rw [show (dat2 V c).leavesExact 6 t = owns (c : Thread nD τ) (ms2_6 t) fullShare ((dat2 V c).after 6 t) from by
            unfold Dat.leavesExact; rw [live2_6 t], after2_6]
          by_cases hz : t.val = 0
          · exfalso; omega
          · rw [outsAt2_pos V c t hz, step2_S V c t _ h0 h1 h2 h3]
            unfold out2_S_5 out2_S_6 sout2_S_0; (try dsimp only)
            rw [PhiS2_castSucc V c t, PhiS2_pos V c _ _ hz]
            iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
            iapply ((pieces2_S c (grid2.coords t) _ _ _ _ _ _ _ _ _ _ _ _ _ _ _ _ (fun h => h0 ((hcond2_0 t).mp h)) ((hcond2_1 t).mpr h1) (fun h => h2 ((hcond2_2 t).mp h)) ((hcond2_3 t).mpr h3) (blk2 V c 0 t) (blk2 V c 1 t) (blk2 V c 2 t) (blk2 V c 3 t) (blk2 V c 4 t) _).2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [H6]; · iexists _; iexact H6
            isplitl [HS0]; · iexact HS0
            iintro ⟨H0, H1, H2, H3, H4, ⟨%e5, H5⟩, ⟨%e6, H6⟩, ⟨%eS0, HS0⟩⟩
            isplitl [HS0 Hrest Hg]
            · isplitl [HS0 Hrest]
              · isplitl [HS0]
                · unfold owns; iexists _; isplitr
                  swap
                  · iexact HS0
                  ipureintro; exact View.read_writes_of_cover _ _ _ _ _ (scover2_S_0 c _ _ _ _ _ _ _ _ _ _ _ _ _ _ _ _ _ _ _ _ _ _ _ _ _ _ _)
                · iexact Hrest
              · iexact Hg
            isplitl [Ho]
            · iexact Ho
            isplitl [H0]
            · iexact H0
            isplitl [H1]
            · iexact H1
            isplitl [H2]
            · iexact H2
            isplitl [H3]
            · iexact H3
            isplitl [H4]
            · iexact H4
            isplitl [H5]
            · unfold owns; iexists _; isplitr
              swap
              · iexact H5
              ipureintro; exact View.read_writes_of_cover _ _ _ _ _ (cover2_S_5 c _ _ _ _ _ _ _ _ _ _ _ _ _ _ _ _ _ _ _ _ _ _ _ _ _ _ _)
            unfold owns; iexists _; isplitr
            swap
            · iexact H6
            ipureintro; exact View.read_writes_of_cover _ _ _ _ _ (cover2_S_6 c _ _ _ _ _ _ _ _ _ _ _ _ _ _ _ _ _ _ _ _ _ _ _ _ _ _ _)
        · rw [show (dat2 V c).leavesExact 0 t = owns (c : Thread nD τ) (ms2_0 t) fullShare ((dat2 V c).after 0 t) from by
            unfold Dat.leavesExact; rw [live2_0 t], after2_0]
          rw [show (dat2 V c).leavesExact 1 t = owns (c : Thread nD τ) (ms2_1 t) fullShare ((dat2 V c).after 1 t) from by
            unfold Dat.leavesExact; rw [live2_1 t], after2_1]
          rw [show (dat2 V c).leavesExact 2 t = owns (c : Thread nD τ) (ms2_2 t) fullShare ((dat2 V c).after 2 t) from by
            unfold Dat.leavesExact; rw [live2_2 t], after2_2]
          rw [show (dat2 V c).leavesExact 3 t = owns (c : Thread nD τ) (ms2_3 t) fullShare ((dat2 V c).after 3 t) from by
            unfold Dat.leavesExact; rw [live2_3 t], after2_3]
          rw [show (dat2 V c).leavesExact 4 t = owns (c : Thread nD τ) (ms2_4 t) fullShare ((dat2 V c).after 4 t) from by
            unfold Dat.leavesExact; rw [live2_4 t], after2_4]
          rw [Dat.leavesExact_idle (dat2 V c) 5 t (idle2_5 t (fun h => h3 ((hcond2_3 t).mp h))) (noFlush2_5 t (fun h => h3 ((hcond2_3 t).mp h)))]
          rw [show (dat2 V c).leavesExact 6 t = owns (c : Thread nD τ) (ms2_6 t) fullShare ((dat2 V c).after 6 t) from by
            unfold Dat.leavesExact; rw [live2_6 t], after2_6]
          by_cases hz : t.val = 0
          · exfalso; omega
          · rw [outsAt2_pos V c t hz, step2_Q V c t _ h0 h1 h2 h3]
            unfold out2_Q_6 sout2_Q_0; (try dsimp only)
            rw [PhiS2_castSucc V c t, PhiS2_pos V c _ _ hz]
            iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
            iapply ((pieces2_Q c (grid2.coords t) _ _ _ _ _ _ _ _ _ _ _ _ _ _ _ _ (fun h => h0 ((hcond2_0 t).mp h)) ((hcond2_1 t).mpr h1) (fun h => h2 ((hcond2_2 t).mp h)) (fun h => h3 ((hcond2_3 t).mp h)) (blk2 V c 0 t) (blk2 V c 1 t) (blk2 V c 2 t) (blk2 V c 3 t) (blk2 V c 4 t) _).2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            iintro ⟨H0, H1, H2, H3, H4, H5, ⟨%e6, H6⟩, ⟨%eS0, HS0⟩⟩
            isplitl [HS0 Hrest Hg]
            · isplitl [HS0 Hrest]
              · isplitl [HS0]
                · unfold owns; iexists _; isplitr
                  swap
                  · iexact HS0
                  ipureintro; exact View.read_writes_of_cover _ _ _ _ _ (scover2_Q_0 c _ _ _ _ _ _ _ _ _ _ _ _ _ _ _ _ _ _ _ _ _ _ _ _ _ _ _)
                · iexact Hrest
              · iexact Hg
            isplitl [Ho]
            · iexact Ho
            isplitl [H0]
            · iexact H0
            isplitl [H1]
            · iexact H1
            isplitl [H2]
            · iexact H2
            isplitl [H3]
            · iexact H3
            isplitl [H4]
            · iexact H4
            isplitl [H5]
            · iexists _; iexact H5
            unfold owns; iexists _; isplitr
            swap
            · iexact H6
            ipureintro; exact View.read_writes_of_cover _ _ _ _ _ (cover2_Q_6 c _ _ _ _ _ _ _ _ _ _ _ _ _ _ _ _ _ _ _ _ _ _ _ _ _ _ _)
    · by_cases h2 : 2 * ((t.val / 8) % 4) + 1 < t.val % 8
      · by_cases h3 : t.val % 8 = 7
        · rw [show (dat2 V c).leavesExact 0 t = owns (c : Thread nD τ) (ms2_0 t) fullShare ((dat2 V c).after 0 t) from by
            unfold Dat.leavesExact; rw [live2_0 t], after2_0]
          rw [show (dat2 V c).leavesExact 1 t = owns (c : Thread nD τ) (ms2_1 t) fullShare ((dat2 V c).after 1 t) from by
            unfold Dat.leavesExact; rw [live2_1 t], after2_1]
          rw [show (dat2 V c).leavesExact 2 t = owns (c : Thread nD τ) (ms2_2 t) fullShare ((dat2 V c).after 2 t) from by
            unfold Dat.leavesExact; rw [live2_2 t], after2_2]
          rw [show (dat2 V c).leavesExact 3 t = owns (c : Thread nD τ) (ms2_3 t) fullShare ((dat2 V c).after 3 t) from by
            unfold Dat.leavesExact; rw [live2_3 t], after2_3]
          rw [show (dat2 V c).leavesExact 4 t = owns (c : Thread nD τ) (ms2_4 t) fullShare ((dat2 V c).after 4 t) from by
            unfold Dat.leavesExact; rw [live2_4 t], after2_4]
          rw [show (dat2 V c).leavesExact 5 t = owns (c : Thread nD τ) (ms2_5 t) fullShare ((dat2 V c).after 5 t) from by
            unfold Dat.leavesExact; rw [live2_5 t ((hcond2_3 t).mpr h3)], after2_5]
          rw [show (dat2 V c).leavesExact 6 t = owns (c : Thread nD τ) (ms2_6 t) fullShare ((dat2 V c).after 6 t) from by
            unfold Dat.leavesExact; rw [live2_6 t], after2_6]
          by_cases hz : t.val = 0
          · exfalso; omega
          · rw [outsAt2_pos V c t hz, step2_T V c t _ h0 h1 h2 h3]
            unfold out2_T_5 out2_T_6; (try dsimp only)
            rw [PhiS2_castSucc V c t, PhiS2_pos V c _ _ hz]
            iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
            iapply ((pieces2_T c (grid2.coords t) _ _ _ _ _ _ _ _ _ _ _ _ _ _ _ _ (fun h => h0 ((hcond2_0 t).mp h)) (fun h => h1 ((hcond2_1 t).mp h)) ((hcond2_2 t).mpr h2) ((hcond2_3 t).mpr h3) (blk2 V c 0 t) (blk2 V c 1 t) (blk2 V c 2 t) (blk2 V c 3 t) (blk2 V c 4 t) _).2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [H6]; · iexists _; iexact H6
            isplitl [HS0]; · iexact HS0
            iintro ⟨H0, H1, H2, H3, H4, ⟨%e5, H5⟩, ⟨%e6, H6⟩, HS0⟩
            isplitl [HS0 Hrest Hg]
            · isplitl [HS0 Hrest]
              · isplitl [HS0]
                · iexact HS0
                · iexact Hrest
              · iexact Hg
            isplitl [Ho]
            · iexact Ho
            isplitl [H0]
            · iexact H0
            isplitl [H1]
            · iexact H1
            isplitl [H2]
            · iexact H2
            isplitl [H3]
            · iexact H3
            isplitl [H4]
            · iexact H4
            isplitl [H5]
            · unfold owns; iexists _; isplitr
              swap
              · iexact H5
              ipureintro; exact View.read_writes_of_cover _ _ _ _ _ (cover2_T_5 c _ _ _ _ _ _ _ _ _ _ _ _ _ _ _ _ _ _ _ _ _ _ _ _ _ _ _)
            unfold owns; iexists _; isplitr
            swap
            · iexact H6
            ipureintro; exact View.read_writes_of_cover _ _ _ _ _ (cover2_T_6 c _ _ _ _ _ _ _ _ _ _ _ _ _ _ _ _ _ _ _ _ _ _ _ _ _ _ _)
        · rw [show (dat2 V c).leavesExact 0 t = owns (c : Thread nD τ) (ms2_0 t) fullShare ((dat2 V c).after 0 t) from by
            unfold Dat.leavesExact; rw [live2_0 t], after2_0]
          rw [show (dat2 V c).leavesExact 1 t = owns (c : Thread nD τ) (ms2_1 t) fullShare ((dat2 V c).after 1 t) from by
            unfold Dat.leavesExact; rw [live2_1 t], after2_1]
          rw [show (dat2 V c).leavesExact 2 t = owns (c : Thread nD τ) (ms2_2 t) fullShare ((dat2 V c).after 2 t) from by
            unfold Dat.leavesExact; rw [live2_2 t], after2_2]
          rw [show (dat2 V c).leavesExact 3 t = owns (c : Thread nD τ) (ms2_3 t) fullShare ((dat2 V c).after 3 t) from by
            unfold Dat.leavesExact; rw [live2_3 t], after2_3]
          rw [show (dat2 V c).leavesExact 4 t = owns (c : Thread nD τ) (ms2_4 t) fullShare ((dat2 V c).after 4 t) from by
            unfold Dat.leavesExact; rw [live2_4 t], after2_4]
          rw [Dat.leavesExact_idle (dat2 V c) 5 t (idle2_5 t (fun h => h3 ((hcond2_3 t).mp h))) (noFlush2_5 t (fun h => h3 ((hcond2_3 t).mp h)))]
          rw [show (dat2 V c).leavesExact 6 t = owns (c : Thread nD τ) (ms2_6 t) fullShare ((dat2 V c).after 6 t) from by
            unfold Dat.leavesExact; rw [live2_6 t], after2_6]
          by_cases hz : t.val = 0
          · exfalso; omega
          · rw [outsAt2_pos V c t hz, step2_R V c t _ h0 h1 h2 h3]
            unfold out2_R_6; (try dsimp only)
            rw [PhiS2_castSucc V c t, PhiS2_pos V c _ _ hz]
            iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
            iapply ((pieces2_R c (grid2.coords t) _ _ _ _ _ _ _ _ _ _ _ _ _ _ _ _ (fun h => h0 ((hcond2_0 t).mp h)) (fun h => h1 ((hcond2_1 t).mp h)) ((hcond2_2 t).mpr h2) (fun h => h3 ((hcond2_3 t).mp h)) (blk2 V c 0 t) (blk2 V c 1 t) (blk2 V c 2 t) (blk2 V c 3 t) (blk2 V c 4 t) _).2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            iintro ⟨H0, H1, H2, H3, H4, H5, ⟨%e6, H6⟩, HS0⟩
            isplitl [HS0 Hrest Hg]
            · isplitl [HS0 Hrest]
              · isplitl [HS0]
                · iexact HS0
                · iexact Hrest
              · iexact Hg
            isplitl [Ho]
            · iexact Ho
            isplitl [H0]
            · iexact H0
            isplitl [H1]
            · iexact H1
            isplitl [H2]
            · iexact H2
            isplitl [H3]
            · iexact H3
            isplitl [H4]
            · iexact H4
            isplitl [H5]
            · iexists _; iexact H5
            unfold owns; iexists _; isplitr
            swap
            · iexact H6
            ipureintro; exact View.read_writes_of_cover _ _ _ _ _ (cover2_R_6 c _ _ _ _ _ _ _ _ _ _ _ _ _ _ _ _ _ _ _ _ _ _ _ _ _ _ _)
      · by_cases h3 : t.val % 8 = 7
        · exfalso; omega
        · exfalso; omega

set_option maxHeartbeats 8000000 in
/-- The region's obligation to the pipeline, at every point. -/
theorem obligation2 (c : Dev nD) : BodyObligation (dat2 (F := F) V c) (defs₀ (F := F)) Variants.none () Set.univ := fun t => by
  rw [bigSep_W2, bigSep_W2]
  exact point2 V c t

/-- What the region is entered with is the invariant before the first point. -/
theorem enter2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives back what the region was entered with: the scratch's contents are forgotten. -/
theorem leave2 (c : Dev nD) : (dat2 V c).Φ (Fin.last cfg2.N) ⊢ Pipeline.ΦA spec2 c := by
  have hN : cfg2.N = 128 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS0, Hrest⟩, Hg⟩
  isplitl [HS0 Hrest]
  · isplitl [HS0]
    · iexists _; iexact HS0
    iexact Hrest
  iexact Hg

end Cert.KernelIdeal.Frames

end
-- ==== Proof.KI.Run.lean ====
/-
  The whole program: three host reshapes (the bias vectors as columns), then the projection region, the column
  statistics region and the output region, each entered from what the one before left in the device's buffers.
  The contents of every buffer at each of the five boundaries is a fold through the program: the launch memory;
  after the reshapes; then after each region the arrays of its windows at what its write-backs leave (an input's
  array as entered, an output's with every point's block written back) and every other buffer as entered. Each
  region is a record of what it needs on entry and gives back on exit around that state, and the launch theorem for
  a program of several regions composes them. Its conclusion names every buffer's final contents, so both the frame
  (the seven arguments end as launched) and the two results' values are read off it.
-/
import proofs.«130694_j5669356831785_2_alg».proof.Proof.KI.Region1
import proofs.«130694_j5669356831785_2_alg».proof.Proof.KI.Region2
import proofs.«130694_j5669356831785_2_alg».proof.Proof.Gen.KernelIdeal.Regions

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the three reshapes: where the projection region is entered. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After region 0: its windows' arrays at what its write-backs leave, every other buffer as it was entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem left0 (c : Dev nD) (w : Fin cfg0.W) : (dat0 (V1 m) c).arrAt w cfg0.N = V2 m c (Pipeline.arrRef spec0 w) :=
  (W2_arr m c w).symm
theorem kept0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1: its windows' arrays at what its write-backs leave, every other buffer as it was entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem left1 (c : Dev nD) (w : Fin cfg1.W) : (dat1 (V2 m) c).arrAt w cfg1.N = V3 m c (Pipeline.arrRef spec1 w) :=
  (W3_arr m c w).symm
theorem kept1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After region 2: its windows' arrays at what its write-backs leave, every other buffer as it was entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem left2 (c : Dev nD) (w : Fin cfg2.W) : (dat2 (V3 m) c).arrAt w cfg2.N = V4 m c (Pipeline.arrRef spec2 w) :=
  (W4_arr m c w).symm
theorem kept2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched -/

/-- No reshape writes an argument. -/
theorem W1_arg (c : Dev nD) (r : Ref sig .tc) (h : r ∉ hostOps0_W) : W1 m c (Proc.devRef .tc r) = m ((c : Thread nD τ).loc r) :=
  StableHlo.after_of_writes_sub hostOps0 _ hostOps0_writes h

theorem W4_main_arg0 (c : Dev nD) : W4 m c (Proc.devRef .tc main_arg0) = m ((c : Thread nD τ).loc main_arg0) :=
  calc W4 m c (Proc.devRef .tc main_arg0) = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_arg m c main_arg0 (by decide)
theorem W4_main_arg1 (c : Dev nD) : W4 m c (Proc.devRef .tc main_arg1) = m ((c : Thread nD τ).loc main_arg1) :=
  calc W4 m c (Proc.devRef .tc main_arg1) = W3 m c (Proc.devRef .tc main_arg1) := W4_of_ne m c main_arg1 (by decide)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = m ((c : Thread nD τ).loc main_arg1) := W1_arg m c main_arg1 (by decide)
theorem W4_main_arg2 (c : Dev nD) : W4 m c (Proc.devRef .tc main_arg2) = m ((c : Thread nD τ).loc main_arg2) :=
  calc W4 m c (Proc.devRef .tc main_arg2) = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_arg m c main_arg2 (by decide)
theorem W4_main_arg3 (c : Dev nD) : W4 m c (Proc.devRef .tc main_arg3) = m ((c : Thread nD τ).loc main_arg3) :=
  calc W4 m c (Proc.devRef .tc main_arg3) = W3 m c (Proc.devRef .tc main_arg3) := W4_of_ne m c main_arg3 (by decide)
    _ = W2 m c (Proc.devRef .tc main_arg3) := W3_of_ne m c main_arg3 (by decide)
    _ = W1 m c (Proc.devRef .tc main_arg3) := (W2_arr m c 3).trans (((dat0 (V1 m) c).arrAt_in 3 rfl _).trans (A_eq0 (V1 m) c 3))
    _ = m ((c : Thread nD τ).loc main_arg3) := W1_arg m c main_arg3 (by decide)
theorem W4_main_arg4 (c : Dev nD) : W4 m c (Proc.devRef .tc main_arg4) = m ((c : Thread nD τ).loc main_arg4) :=
  calc W4 m c (Proc.devRef .tc main_arg4) = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = m ((c : Thread nD τ).loc main_arg4) := W1_arg m c main_arg4 (by decide)
theorem W4_main_arg5 (c : Dev nD) : W4 m c (Proc.devRef .tc main_arg5) = m ((c : Thread nD τ).loc main_arg5) :=
  calc W4 m c (Proc.devRef .tc main_arg5) = W3 m c (Proc.devRef .tc main_arg5) := W4_of_ne m c main_arg5 (by decide)
    _ = W2 m c (Proc.devRef .tc main_arg5) := W3_of_ne m c main_arg5 (by decide)
    _ = W1 m c (Proc.devRef .tc main_arg5) := (W2_arr m c 5).trans (((dat0 (V1 m) c).arrAt_in 5 rfl _).trans (A_eq0 (V1 m) c 5))
    _ = m ((c : Thread nD τ).loc main_arg5) := W1_arg m c main_arg5 (by decide)
theorem W4_main_arg6 (c : Dev nD) : W4 m c (Proc.devRef .tc main_arg6) = m ((c : Thread nD τ).loc main_arg6) :=
  calc W4 m c (Proc.devRef .tc main_arg6) = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = m ((c : Thread nD τ).loc main_arg6) := W1_arg m c main_arg6 (by decide)

/-! ## The proof data of the three regions, and what rides along -/

/-- No region has prefetched tables. -/
abbrev tables : (p : Fin 3) → (pcfgs (F := F) p).Adm := fun p => (cfgs p).toPCfg_adm
/-- Each region's proof data at the contents it is entered with. -/
def pdats : (p : Fin 3) → (c : Dev nD) → Dat τ (Elt F) Unit ℕ (UR sig nD τ) ℕ (Pipeline.pin (pcfgs (F := F)) tables p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the generator register at some state, and nothing owed. -/
abbrev R (c : Dev nD) : sProp 𝕄 := iprop((∃ r, prngReg c r) ∗ ∃ W, owes (c : Thread nD τ) (0 : CellTallies nD τ sig Unit) W)
/-- The reshapes as a segment. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without what is owed: every unscoped buffer at the last boundary's contents, the generator register. -/
abbrev Tend (c : Dev nD) : sProp 𝕄 := iprop(StableHlo.held (c : Thread nD τ) (Pipeline.ucRefs τ sig) (W4 m c) ∗ ∃ r, prngReg c r)

/-! ## The regions as records -/

set_option backward.isDefEq.respectTransparency.types false in
/-- Region 0: entered with every unscoped buffer at `W1`, left with them at `W2`. On entry its windows' arrays are taken
    out of the unscoped buffers and on exit put back at their final contents; the generator register goes into the
    region's invariant and comes out; nothing is owed; the kernel has no semaphore of its own. -/
def reg0 : Pipeline.RegionSeg (pcfgs (F := F)) tables (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) tables (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `W2`, left with them at `W3`. On entry its windows' arrays are taken
    out of the unscoped buffers and on exit put back at their final contents; the generator register goes into the
    region's invariant and comes out; nothing is owed; the kernel has no semaphore of its own. -/
def reg1 : Pipeline.RegionSeg (pcfgs (F := F)) tables (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) tables (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := enter1 (F := F) (V2 m) c
    unfold Pipeline.ΦA at h
    rw [show (pdats m 1 c).Φ 0 = (dat1 (V2 m) c).Φ 0 from rfl]
    iintro ⟨Hp, -, Hr⟩
    iapply h
    isplitl [Hr]; · iexact Hr
    iexact Hp
  hout c := by
    have h := leave1 (F := F) (V2 m) c
    unfold Pipeline.ΦA at h
    rw [Pipeline.ownSems0_none, show (pdats m 1 c).Φ (Fin.last _) = (dat1 (V2 m) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `W3`, left with them at `W4`. On entry its windows' arrays are taken
    out of the unscoped buffers and on exit put back at their final contents; the generator register goes into the
    region's invariant and comes out; nothing is owed; the kernel has no semaphore of its own. -/
def reg2 : Pipeline.RegionSeg (pcfgs (F := F)) tables (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) tables (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := enter2 (F := F) (V3 m) c
    unfold Pipeline.ΦA at h
    rw [show (pdats m 2 c).Φ 0 = (dat2 (V3 m) c).Φ 0 from rfl]
    iintro ⟨Hp, -, Hr⟩
    iapply h
    isplitl [Hr]; · iexact Hr
    iexact Hp
  hout c := by
    have h := leave2 (F := F) (V3 m) c
    unfold Pipeline.ΦA at h
    rw [Pipeline.ownSems0_none, show (pdats m 2 c).Φ (Fin.last _) = (dat2 (V3 m) c).Φ (Fin.last cfg2.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) tables (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (left2 m c) (kept2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) tables (pdats m) () defs₀ 𝒱₀ L lv) :=
  [ .host (hseg m), .region (reg0 m), .region (reg1 m), .region (reg2 m) ]
/-- The program is the run of its segments. -/
theorem main_run (c : Dev nD) : main (F := F) c = Pipeline.Seg.run (segs m) := (main_chain c).trans (by chain_rfl)

set_option backward.isDefEq.respectTransparency.types false in
/-- From any memory with zero counters every weakly fair execution of the program terminates without a fault, and in
    every final state each unscoped buffer holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) tables (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run m ρ)

end Cert.KernelIdeal.Frames

end
-- ==== Proof.Pay0.lean ====
import proofs.«130694_j5669356831785_2_alg».proof.Proof.Gen.KernelIdeal.Skeleton
import Idealize.ShloMosaic.Lib.ValueLayout
import Idealize.ShloMosaic.Lib.ValueIdx
import Idealize.ShloMosaic.PureOps.Ideal.Laws

/-!
# The projection kernel's payloads read at an index

At the ideal values each of the three projection payloads is, at output row `k` and lane `r`, the row `k` of the
weight matrix times the column `r` of the input block, plus the bias of row `k`: the roundings to bf16 are the
identity on extended reals, the shape casts only add or drop a leading unit axis, and the bias column is
broadcast along the lanes.
-/

noncomputable section

namespace Cert.KernelIdeal.Pay

open Cert.KernelIdeal Cert.KernelIdeal.Gen Idealize.ShloMosaic Idealize.ShloMosaic.ValueIdx

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl
/-- A `[256,256] × [256,512]` block product into the zero splat, contracting the left operand's columns with
    the right operand's rows: at `(k, r)` the sum over `c` of `A (k, c) * B (c, r)`. -/
theorem matmul_proj_lhs_free (j : S256x512.Idx) (q : dot_S256x256_S256x512_S256x512_1_0_0_1_n_n.contr.Idx) :
    (dot_S256x256_S256x512_S256x512_1_0_0_1_n_n.lhsIdx j q 0).val = (j 0).val := by
  unfold DotDims.lhsIdx
  rw [dif_neg (show ¬(0 : Fin S256x256.rank) ∈ dot_S256x256_S256x512_S256x512_1_0_0_1_n_n.lhsBatch by decide), dif_pos (show (0 : Fin S256x256.rank) ∈ dot_S256x256_S256x512_S256x512_1_0_0_1_n_n.lhsNonContracting by decide)]
  rfl
theorem matmul_proj_rhs_free (j : S256x512.Idx) (q : dot_S256x256_S256x512_S256x512_1_0_0_1_n_n.contr.Idx) :
    (dot_S256x256_S256x512_S256x512_1_0_0_1_n_n.rhsIdx j q 1).val = (j 1).val := by
  unfold DotDims.rhsIdx
  rw [dif_neg (show ¬(1 : Fin S256x512.rank) ∈ dot_S256x256_S256x512_S256x512_1_0_0_1_n_n.rhsBatch by decide), dif_pos (show (1 : Fin S256x512.rank) ∈ dot_S256x256_S256x512_S256x512_1_0_0_1_n_n.rhsNonContracting by decide)]
  rfl
theorem matmul_proj_apply (A : FVec Ideal S256x256 .bf16) (B : FVec Ideal S256x512 .bf16) (k : Fin 256) (r : Fin 512) :
    matmul dot_S256x256_S256x512_S256x512_1_0_0_1_n_n none A B (constant (F := Ideal) S256x512 .f32 0x00000000#32) (ix2 k r)
      = ∑ c : Fin 256, A (ix2 k c) * B (ix2 c r) := by
  refine (Ideal.matmul_constant_zero_apply dot_S256x256_S256x512_S256x512_1_0_0_1_n_n none A B (ix2 k r)).trans ?_
  rw [← Equiv.sum_comp (contrEquiv1 dot_S256x256_S256x512_S256x512_1_0_0_1_n_n 256 rfl rfl).symm]
  refine Finset.sum_congr rfl fun c _ => ?_
  have hc := contrEquiv1_symm_val dot_S256x256_S256x512_S256x512_1_0_0_1_n_n 256 rfl rfl c
  have el : dot_S256x256_S256x512_S256x512_1_0_0_1_n_n.lhsIdx (ix2 k r) ((contrEquiv1 dot_S256x256_S256x512_S256x512_1_0_0_1_n_n 256 rfl rfl).symm c) = ix2 k c :=
    funext fun a => Fin.ext (by
      match a with
      | ⟨0, _⟩ => exact matmul_proj_lhs_free _ _
      | ⟨1, _⟩ => exact (dot_S256x256_S256x512_S256x512_1_0_0_1_n_n.lhsIdx_val_of_single rfl _ _).trans hc)
  have er : dot_S256x256_S256x512_S256x512_1_0_0_1_n_n.rhsIdx (ix2 k r) ((contrEquiv1 dot_S256x256_S256x512_S256x512_1_0_0_1_n_n 256 rfl rfl).symm c) = ix2 c r :=
    funext fun a => Fin.ext (by
      match a with
      | ⟨1, _⟩ => exact matmul_proj_rhs_free _ _
      | ⟨0, _⟩ => exact (dot_S256x256_S256x512_S256x512_1_0_0_1_n_n.rhsIdx_val_of_single rfl _ _).trans hc)
  rw [el, er]

/-- The value the three projections share before the final rounding and reshaping: the block product plus the
    broadcast bias column, at `(k, r)`. -/
theorem proj_core (x : Vec Ideal S1x256x512 .f32) (W : Vec Ideal S256x256 .f32) (bcol : Vec Ideal S256x1 .f32)
    (k : Fin 256) (r : Fin 512) :
    addf (matmul dot_S256x256_S256x512_S256x512_1_0_0_1_n_n none (truncf .bf16 W bitsLt_bf16_f32)
          (truncf .bf16 (shapeCast S256x512 x shapeCasts_S1x256x512_S256x512) bitsLt_bf16_f32)
          (constant (F := Ideal) S256x512 .f32 0x00000000#32))
        (broadcastTo S256x512 (shapeCast S256x1 bcol shapeCasts_S256x1_S256x1) broadcasts_S256x1_S256x512) (ix2 k r)
      = (∑ c : Fin 256, W (ix2 k c) * x (ix3 (0 : Fin 1) c r)) + bcol (ix2 k (0 : Fin 1)) := by
  refine (addf_apply _ _ _).trans ?_
  refine congrArg₂ (· + ·) ?_ ?_
  · refine (matmul_proj_apply _ _ k r).trans ?_
    refine Finset.sum_congr rfl fun c _ => ?_
    refine congrArg₂ (· * ·) rfl ?_
    exact shapeCast_1ab_ab_apply x shapeCasts_S1x256x512_S256x512 c r
  · refine (broadcastTo_a1_ab_apply _ _ k r).trans ?_
    rw [shapeCast_self]

/-- The payload `k0_pay4` at `(0, k, r)`: the weight row times the input column, plus the row's bias. -/
theorem k0_pay4_apply (x : Vec Ideal S1x256x512 .f32) (W : Vec Ideal S256x256 .f32) (bcol : Vec Ideal S256x1 .f32)
    (k : Fin 256) (r : Fin 512) :
    k0_pay4 (F := Ideal) x W bcol (ix3 (0 : Fin 1) k r)
      = (∑ c : Fin 256, W (ix2 k c) * x (ix3 (0 : Fin 1) c r)) + bcol (ix2 k (0 : Fin 1)) := by
  unfold k0_pay4 k0_pay2
  refine (shapeCast_ab_1ab_apply _ _ (0 : Fin 1) k r).trans ?_
  exact proj_core x W bcol k r

/-- The payload `k0_pay5` at `(0, k, r)`: the weight row times the input column, plus the row's bias. -/
theorem k0_pay5_apply (x : Vec Ideal S1x256x512 .f32) (W : Vec Ideal S256x256 .f32) (bcol : Vec Ideal S256x1 .f32)
    (k : Fin 256) (r : Fin 512) :
    k0_pay5 (F := Ideal) x W bcol (ix3 (0 : Fin 1) k r)
      = (∑ c : Fin 256, W (ix2 k c) * x (ix3 (0 : Fin 1) c r)) + bcol (ix2 k (0 : Fin 1)) := by
  unfold k0_pay5 k0_pay2
  refine (shapeCast_ab_1ab_apply _ _ (0 : Fin 1) k r).trans ?_
  exact proj_core x W bcol k r

/-- The third projection, whose sum is carried to its store: `k0_pay1` of `k0_pay3` at `(0, k, r)`. -/
theorem k0_pay1_pay3_apply (x : Vec Ideal S1x256x512 .f32) (W : Vec Ideal S256x256 .f32) (bcol : Vec Ideal S256x1 .f32)
    (k : Fin 256) (r : Fin 512) :
    k0_pay1 (F := Ideal) (k0_pay3 x W bcol) (ix3 (0 : Fin 1) k r)
      = (∑ c : Fin 256, W (ix2 k c) * x (ix3 (0 : Fin 1) c r)) + bcol (ix2 k (0 : Fin 1)) := by
  unfold k0_pay1 k0_pay3 k0_pay2
  refine (shapeCast_ab_1ab_apply _ _ (0 : Fin 1) k r).trans ?_
  exact proj_core x W bcol k r

end Cert.KernelIdeal.Pay

end
-- ==== Proof.KI.Value0.lean ====
/-
  The projection region's three output arrays, read. At a grid point (batch b, column tile j) the body stores, into each
  of its three output buffers, one whole block: a projection of the point's input tile — the weight matrix's rows
  against the tile's channels, plus the bias column. The input tile and each output tile sit at the same (b, j), the
  weights and bias columns are fetched whole, the 4 × 8 tiles cover each [4, 256, 4096] array, and every point writes its
  tile back. So after the region each output array is, at every index (batch, feature, time), the weight row of that
  feature against the input's channels at that time plus the bias of that feature: the projection, laid out feature-major.
-/
import proofs.«130694_j5669356831785_2_alg».proof.Proof.KI.Region0
import proofs.«130694_j5669356831785_2_alg».proof.Proof.Pay0
import proofs.«130694_j5669356831785_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Frames

open Cert.KernelIdeal Cert.KernelIdeal.Gen Cert.KernelIdeal.Pay
open Idealize.ShloMosaic Idealize.ShloMosaic.TcCoe Idealize.ShloMosaic.Tactic
open Idealize.SL.Sem
open Idealize.ShloMosaic.Pipeline (Dat Cfg Window)
open Idealize.ShloMosaic.ValueIdx

variable {F : FTy → Type} [FloatOps F] [Named F]

/-! ## What the body leaves in each output buffer is the skeleton's payload of the point's input blocks -/

private theorem hz3 : (![0, 0, 0] : Fin 3 → Nat) = fun _ => 0 := funext fun a => by fin_cases a <;> rfl
private theorem hz2 : (![0, 0] : Fin 2 → Nat) = fun _ => 0 := funext fun a => by fin_cases a <;> rfl

set_option maxHeartbeats 4000000 in
/-- The one store into the first output buffer writes the whole block: the query projection of the loaded blocks. -/
theorem out0_7_eq (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) :
    out0_7 c i arg2 harg2 arg3 harg3 arg4 harg4 arg5 harg5 arg6 harg6 arg7 harg7 arg8 harg8 arg9 harg9 arg10 harg10 arg11 harg11 x0 x1 x2 x3 x4 x5 x6 = k0_pay4 x0 x1 x2 := by
  unfold out0_7
  rw [View.read_writes_eq_canon _ _ _ (cover0_7 c i arg2 harg2 arg3 harg3 arg4 harg4 arg5 harg5 arg6 harg6 arg7 harg7 arg8 harg8 arg9 harg9 arg10 harg10 arg11 harg11 x0 x1 x2 x3 x4 x5 x6)]
  unfold pieces0
  dsimp only
  try sl_unfold_words
  rw [View.canon_unit_zero hz3]
  simp only [View.readAt_eq_ld, harg2.read_unread, harg3.read_unread, harg4.read_unread,
    View.ld_unit_zero (S := S1x256x512) hz3, View.ld_unit_zero (S := S256x256) hz2, View.ld_unit_zero (S := S256x1) hz2]

set_option maxHeartbeats 4000000 in
/-- Likewise the second: the key projection. -/
theorem out0_8_eq (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) :
    out0_8 c i arg2 harg2 arg3 harg3 arg4 harg4 arg5 harg5 arg6 harg6 arg7 harg7 arg8 harg8 arg9 harg9 arg10 harg10 arg11 harg11 x0 x1 x2 x3 x4 x5 x6 = k0_pay5 x0 x3 x4 := by
  unfold out0_8
  rw [View.read_writes_eq_canon _ _ _ (cover0_8 c i arg2 harg2 arg3 harg3 arg4 harg4 arg5 harg5 arg6 harg6 arg7 harg7 arg8 harg8 arg9 harg9 arg10 harg10 arg11 harg11 x0 x1 x2 x3 x4 x5 x6)]
  unfold pieces0
  dsimp only
  try sl_unfold_words
  rw [View.canon_unit_zero hz3]
  simp only [View.readAt_eq_ld, harg2.read_unread, harg5.read_unread, harg6.read_unread,
    View.ld_unit_zero (S := S1x256x512) hz3, View.ld_unit_zero (S := S256x256) hz2, View.ld_unit_zero (S := S256x1) hz2]

set_option maxHeartbeats 4000000 in
/-- And the third: the value projection. -/
theorem out0_9_eq (c : Dev nD) (i : grid0.Coords) (arg2 : Memref sig .tc .vmem S1x256x512 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x1 .f32) (harg8 : arg8.IsWhole) (arg9 : Memref sig .tc .vmem S1x256x512 .bf16) (harg9 : arg9.IsWhole) (arg10 : Memref sig .tc .vmem S1x256x512 .bf16) (harg10 : arg10.IsWhole) (arg11 : Memref sig .tc .vmem S1x256x512 .bf16) (harg11 : arg11.IsWhole)
    (x0 : Vec F S1x256x512 .f32) (x1 : Vec F S256x256 .f32) (x2 : Vec F S256x1 .f32) (x3 : Vec F S256x256 .f32) (x4 : Vec F S256x1 .f32) (x5 : Vec F S256x256 .f32) (x6 : Vec F S256x1 .f32) :
    out0_9 c i arg2 harg2 arg3 harg3 arg4 harg4 arg5 harg5 arg6 harg6 arg7 harg7 arg8 harg8 arg9 harg9 arg10 harg10 arg11 harg11 x0 x1 x2 x3 x4 x5 x6 = k0_pay1 (k0_pay3 x0 x5 x6) := by
  unfold out0_9
  rw [View.read_writes_eq_canon _ _ _ (cover0_9 c i arg2 harg2 arg3 harg3 arg4 harg4 arg5 harg5 arg6 harg6 arg7 harg7 arg8 harg8 arg9 harg9 arg10 harg10 arg11 harg11 x0 x1 x2 x3 x4 x5 x6)]
  unfold pieces0
  dsimp only
  try sl_unfold_words
  rw [View.canon_unit_zero hz3]
  simp only [View.readAt_eq_ld, harg2.read_unread, harg7.read_unread, harg8.read_unread,
    View.ld_unit_zero (S := S1x256x512) hz3, View.ld_unit_zero (S := S256x256) hz2, View.ld_unit_zero (S := S256x1) hz2]

/-! ## The projection as the kernel lays it out -/

section AtIdeal
variable (V : (c : Dev nD) → (b : Ref sig .tc) → Buf (Elt Ideal) ((c : Thread nD τ).loc b))

/-- A projection as the kernel lays it out, feature-major: at (batch, feature, time), the weight row against the
    channels of the input at that time, plus the bias column's entry. -/
def projT (x : S4x256x4096.Idx → EReal) (W : S256x256.Idx → EReal) (bcol : S256x1.Idx → EReal) : S4x256x4096.Idx → EReal :=
  fun i => (∑ cc : Fin 256, W (ix2 ⟨(i 1).val, (i 1).isLt⟩ cc) * x (ix3 ⟨(i 0).val, (i 0).isLt⟩ cc ⟨(i 2).val, (i 2).isLt⟩))
    + bcol (ix2 ⟨(i 1).val, (i 1).isLt⟩ (0 : Fin 1))

/-- In the specification's terms: the array's entry at (batch, feature, time) is the specification's projection at
    (batch, time, feature), once the bias column is known to be the bias vector stood up. -/
theorem projT_eq_proj (x : S4x256x4096.Idx → EReal) (W : S256x256.Idx → EReal) (bcol : S256x1.Idx → EReal)
    (bias : S256.Idx → EReal) (hb : ∀ k : Fin 256, bcol (ix2 k (0 : Fin 1)) = bias (ix1 k)) (i : S4x256x4096.Idx) :
    projT x W bcol i
      = Cert.Spec.proj x W bias ⟨(i 0).val, (i 0).isLt⟩ ⟨(i 2).val, (i 2).isLt⟩ ⟨(i 1).val, (i 1).isLt⟩ := by
  unfold projT Cert.Spec.proj
  rw [hb]
  exact congrArg (· + _) (Finset.sum_congr rfl fun cc _ => mul_comm _ _)

/-- A vector of 256 entries stood up as a column, read at (k, 0), is entry k. -/
theorem reshape_col_apply {α : Type} (bias : S256.Idx → α) (h : S256.ShapeCasts S256x1) (k : Fin 256) :
    shapeCast S256x1 bias h (ix2 k (0 : Fin 1)) = bias (ix1 k) := by
  refine shapeCast_apply bias h _ _ ?_
  rw [Shape.rowMajor_val_one, Shape.rowMajor_val_two]
  show k.val = k.val * 1 + 0
  omega

/-! ## Output 7: the queries, feature-major -/

/-- The index maps at every grid point: the input tile and this output tile sit at the same (batch, column tile); the
    weight matrix and the bias column are fetched whole. -/
theorem idx_facts7 : ∀ t : Fin cfg0.N,
    win0_0.index t (0 : Fin 3) = win0_7.index t (0 : Fin 3) ∧ win0_0.index t (1 : Fin 3) = 0
    ∧ win0_0.index t (2 : Fin 3) = win0_7.index t (2 : Fin 3) ∧ win0_7.index t (1 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every (batch, column tile) is some grid point's. -/
theorem idx_onto7 : ∀ (q0 : Fin 4) (q2 : Fin 8), ∃ t : Fin cfg0.N, win0_7.index t = ![q0.val, 0, q2.val] :=
  (by decide +kernel : ∀ (q0 : Fin 4) (q2 : Fin 8), ∃ t : Fin grid0.N, win0_7.index t = ![q0.val, 0, q2.val])

/-- What point `t` writes back is its tile of the projection of the arrays the region finds. -/
theorem flushed7_eq (c : Dev nD) (t : Fin cfg0.N) :
    (dat0 V c).flushed 7 t
      = ((cfg0.win 7).blk t).view.read (Elt Ideal) (projT (V c main_arg0) (V c main_arg1) (V c main_v0)) := by
  show (cfg0.win 7).cut (grid0.coords t) ((dat0 V c).after 7 t) = _
  rw [after0_7, out0_7_eq]
  obtain ⟨e0, e1, e2, e3, e4, e5, e6, e7⟩ := idx_facts7 t
  funext j
  obtain ⟨k, r, rfl⟩ : ∃ (k : Fin 256) (r : Fin 512), j = ix3 (0 : Fin 1) k r :=
    ⟨⟨(j 1).val, (j 1).isLt⟩, ⟨(j 2).val, (j 2).isLt⟩, funext fun a => Fin.ext (by
      match a with
      | ⟨0, _⟩ => have h : (j 0).val < 1 := (j 0).isLt; show (j 0).val = 0; omega
      | ⟨1, _⟩ => rfl
      | ⟨2, _⟩ => rfl)⟩
  show k0_pay4 (blk0 V c 0 t) (blk0 V c 1 t) (blk0 V c 2 t) (ix3 (0 : Fin 1) k r)
    = projT (V c main_arg0) (V c main_arg1) (V c main_v0) (((cfg0.win 7).blk t).view.emb (ix3 (0 : Fin 1) k r))
  rw [k0_pay4_apply]
  unfold projT
  refine congrArg₂ (· + ·) (Finset.sum_congr rfl fun cc _ => congrArg₂ (· * ·) ?_ ?_) ?_
  · show V c main_arg1 (((cfg0.win 1).blk t).view.emb (ix2 k cc)) = _
    refine congrArg (V c main_arg1) (funext fun a => Fin.ext ?_)
    match a with
    | ⟨0, _⟩ =>
      show win0_1.index t (0 : Fin 2) * 256 + 1 * k.val = win0_7.index t (1 : Fin 3) * 256 + 1 * k.val
      omega
    | ⟨1, _⟩ =>
      show win0_1.index t (1 : Fin 2) * 256 + 1 * cc.val = cc.val
      omega
  · show V c main_arg0 (((cfg0.win 0).blk t).view.emb (ix3 (0 : Fin 1) cc r)) = _
    refine congrArg (V c main_arg0) (funext fun a => Fin.ext ?_)
    match a with
    | ⟨0, _⟩ =>
      show win0_0.index t (0 : Fin 3) * 1 + 1 * 0 = win0_7.index t (0 : Fin 3) * 1 + 1 * 0
      omega
    | ⟨1, _⟩ =>
      show win0_0.index t (1 : Fin 3) * 256 + 1 * cc.val = cc.val
      omega
    | ⟨2, _⟩ =>
      show win0_0.index t (2 : Fin 3) * 512 + 1 * r.val = win0_7.index t (2 : Fin 3) * 512 + 1 * r.val
      omega
  · show V c main_v0 (((cfg0.win 2).blk t).view.emb (ix2 k (0 : Fin 1))) = _
    refine congrArg (V c main_v0) (funext fun a => Fin.ext ?_)
    match a with
    | ⟨0, _⟩ =>
      show win0_2.index t (0 : Fin 2) * 256 + 1 * k.val = win0_7.index t (1 : Fin 3) * 256 + 1 * k.val
      omega
    | ⟨1, _⟩ =>
      show win0_2.index t (1 : Fin 2) * 1 + 1 * 0 = 0
      omega

/-- An index of the array is in point `t`'s tile iff each coordinate is in the tile's range on its axis. -/
theorem mem_blk7 (t : Fin cfg0.N) (i : S4x256x4096.Idx) :
    i ∈ ((cfg0.win 7).blk t).view.set ↔ ∀ a : Fin 3, win0_7.index t a * S1x256x512.size a ≤ (i a).val
      ∧ (i a).val < win0_7.index t a * S1x256x512.size a + S1x256x512.size a := by
  show i ∈ ((View.whole main_v3_0).slice (win0_7.rect t)).set ↔ _
  rw [View.set_slice_whole, Rect.mem_set_unit]
  exact Iff.rfl

/-- Every index of the array is in the tile of the point at (its batch, its column over 512). -/
theorem cover7 (i : S4x256x4096.Idx) :
    ∃ t : Fin cfg0.N, (cfg0.win 7).flush t = true ∧ i ∈ ((cfg0.win 7).blk t).view.set := by
  have hi0 : (i 0).val < 4 := (i 0).isLt
  have hi1 : (i 1).val < 256 := (i 1).isLt
  have hi2 : (i 2).val < 4096 := (i 2).isLt
  obtain ⟨t, ht⟩ := idx_onto7 ⟨(i 0).val, hi0⟩ ⟨(i 2).val / 512, by omega⟩
  have q0 : win0_7.index t (0 : Fin 3) = (i 0).val := congrFun ht 0
  have q1 : win0_7.index t (1 : Fin 3) = 0 := congrFun ht 1
  have q2 : win0_7.index t (2 : Fin 3) = (i 2).val / 512 := congrFun ht 2
  refine ⟨t, flush0_7 t, ?_⟩
  rw [mem_blk7]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 256 ≤ (i 1).val ∧ (i 1).val < win0_7.index t (1 : Fin 3) * 256 + 256
    omega
  | ⟨2, _⟩ =>
    show win0_7.index t (2 : Fin 3) * 512 ≤ (i 2).val ∧ (i 2).val < win0_7.index t (2 : Fin 3) * 512 + 512
    omega

/-- The array after the region: the projection, at every index. -/
theorem q_array (c : Dev nD) :
    (dat0 V c).arrAt 7 cfg0.N = projT (V c main_arg0) (V c main_arg1) (V c main_v0) :=
  (dat0 V c).arrAt_eq_of_cover 7 _ (fun t _ => flushed7_eq V c t) cover7

/-! ## Output 8: the keys, feature-major -/

/-- The index maps at every grid point: the input tile and this output tile sit at the same (batch, column tile); the
    weight matrix and the bias column are fetched whole. -/
theorem idx_facts8 : ∀ t : Fin cfg0.N,
    win0_0.index t (0 : Fin 3) = win0_8.index t (0 : Fin 3) ∧ win0_0.index t (1 : Fin 3) = 0
    ∧ win0_0.index t (2 : Fin 3) = win0_8.index t (2 : Fin 3) ∧ win0_8.index t (1 : Fin 3) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every (batch, column tile) is some grid point's. -/
theorem idx_onto8 : ∀ (q0 : Fin 4) (q2 : Fin 8), ∃ t : Fin cfg0.N, win0_8.index t = ![q0.val, 0, q2.val] :=
  (by decide +kernel : ∀ (q0 : Fin 4) (q2 : Fin 8), ∃ t : Fin grid0.N, win0_8.index t = ![q0.val, 0, q2.val])

/-- What point `t` writes back is its tile of the projection of the arrays the region finds. -/
theorem flushed8_eq (c : Dev nD) (t : Fin cfg0.N) :
    (dat0 V c).flushed 8 t
      = ((cfg0.win 8).blk t).view.read (Elt Ideal) (projT (V c main_arg0) (V c main_arg3) (V c main_v1)) := by
  show (cfg0.win 8).cut (grid0.coords t) ((dat0 V c).after 8 t) = _
  rw [after0_8, out0_8_eq]
  obtain ⟨e0, e1, e2, e3, e4, e5, e6, e7⟩ := idx_facts8 t
  funext j
  obtain ⟨k, r, rfl⟩ : ∃ (k : Fin 256) (r : Fin 512), j = ix3 (0 : Fin 1) k r :=
    ⟨⟨(j 1).val, (j 1).isLt⟩, ⟨(j 2).val, (j 2).isLt⟩, funext fun a => Fin.ext (by
      match a with
      | ⟨0, _⟩ => have h : (j 0).val < 1 := (j 0).isLt; show (j 0).val = 0; omega
      | ⟨1, _⟩ => rfl
      | ⟨2, _⟩ => rfl)⟩
  show k0_pay5 (blk0 V c 0 t) (blk0 V c 3 t) (blk0 V c 4 t) (ix3 (0 : Fin 1) k r)
    = projT (V c main_arg0) (V c main_arg3) (V c main_v1) (((cfg0.win 8).blk t).view.emb (ix3 (0 : Fin 1) k r))
  rw [k0_pay5_apply]
  unfold projT
  refine congrArg₂ (· + ·) (Finset.sum_congr rfl fun cc _ => congrArg₂ (· * ·) ?_ ?_) ?_
  · show V c main_arg3 (((cfg0.win 3).blk t).view.emb (ix2 k cc)) = _
    refine congrArg (V c main_arg3) (funext fun a => Fin.ext ?_)
    match a with
    | ⟨0, _⟩ =>
      show win0_3.index t (0 : Fin 2) * 256 + 1 * k.val = win0_8.index t (1 : Fin 3) * 256 + 1 * k.val
      omega
    | ⟨1, _⟩ =>
      show win0_3.index t (1 : Fin 2) * 256 + 1 * cc.val = cc.val
      omega
  · show V c main_arg0 (((cfg0.win 0).blk t).view.emb (ix3 (0 : Fin 1) cc r)) = _
    refine congrArg (V c main_arg0) (funext fun a => Fin.ext ?_)
    match a with
    | ⟨0, _⟩ =>
      show win0_0.index t (0 : Fin 3) * 1 + 1 * 0 = win0_8.index t (0 : Fin 3) * 1 + 1 * 0
      omega
    | ⟨1, _⟩ =>
      show win0_0.index t (1 : Fin 3) * 256 + 1 * cc.val = cc.val
      omega
    | ⟨2, _⟩ =>
      show win0_0.index t (2 : Fin 3) * 512 + 1 * r.val = win0_8.index t (2 : Fin 3) * 512 + 1 * r.val
      omega
  · show V c main_v1 (((cfg0.win 4).blk t).view.emb (ix2 k (0 : Fin 1))) = _
    refine congrArg (V c main_v1) (funext fun a => Fin.ext ?_)
    match a with
    | ⟨0, _⟩ =>
      show win0_4.index t (0 : Fin 2) * 256 + 1 * k.val = win0_8.index t (1 : Fin 3) * 256 + 1 * k.val
      omega
    | ⟨1, _⟩ =>
      show win0_4.index t (1 : Fin 2) * 1 + 1 * 0 = 0
      omega

/-- An index of the array is in point `t`'s tile iff each coordinate is in the tile's range on its axis. -/
theorem mem_blk8 (t : Fin cfg0.N) (i : S4x256x4096.Idx) :
    i ∈ ((cfg0.win 8).blk t).view.set ↔ ∀ a : Fin 3, win0_8.index t a * S1x256x512.size a ≤ (i a).val
      ∧ (i a).val < win0_8.index t a * S1x256x512.size a + S1x256x512.size a := by
  show i ∈ ((View.whole main_v3_1).slice (win0_8.rect t)).set ↔ _
  rw [View.set_slice_whole, Rect.mem_set_unit]
  exact Iff.rfl

/-- Every index of the array is in the tile of the point at (its batch, its column over 512). -/
theorem cover8 (i : S4x256x4096.Idx) :
    ∃ t : Fin cfg0.N, (cfg0.win 8).flush t = true ∧ i ∈ ((cfg0.win 8).blk t).view.set := by
  have hi0 : (i 0).val < 4 := (i 0).isLt
  have hi1 : (i 1).val < 256 := (i 1).isLt
  have hi2 : (i 2).val < 4096 := (i 2).isLt
  obtain ⟨t, ht⟩ := idx_onto8 ⟨(i 0).val, hi0⟩ ⟨(i 2).val / 512, by omega⟩
  have q0 : win0_8.index t (0 : Fin 3) = (i 0).val := congrFun ht 0
  have q1 : win0_8.index t (1 : Fin 3) = 0 := congrFun ht 1
  have q2 : win0_8.index t (2 : Fin 3) = (i 2).val / 512 := congrFun ht 2
  refine ⟨t, flush0_8 t, ?_⟩
  rw [mem_blk8]
  intro a
  match a with
  | ⟨0, _⟩ =>
    show win0_8.index t (0 : Fin 3) * 1 ≤ (i 0).val ∧ (i 0).val < win0_8.index t (0 : Fin 3) * 1 + 1
    omega
  | ⟨1, _⟩ =>
    show win0_8.index t (1 : Fin 3) * 256 ≤ (i 1).val ∧ (i 1).val < win0_8.index t (1 : Fin 3) * 256 + 256
    omega
  | ⟨2, _⟩ =>
    show win0_8.index t (2 : Fin 3) * 512 ≤ (i 2).val ∧ (i 2).val < win0_8.index t (2 : Fin 3) * 512 + 512
    omega

/-- The array after the region: the projection, at every index. -/
theorem k_array (c : Dev nD) :
    (dat0 V c).arrAt 8 cfg0.N = projT (V c main_arg0) (V c main_arg3) (V c main_v1) :=
  (dat0 V c).arrAt_eq_of_cover 8 _ (fun t _ => flushed8_eq V c t) cover8

/-! ## Output 9: the values, feature-major -/

/-- The index maps at every grid point: the input tile and this output tile sit at the same (batch, column tile); the
    weight matrix and the bias column are fetched whole. -/
theorem idx_facts9 : ∀ t : Fin cfg0.N,
    win0_0.index t (0 : Fin 3) = win0_9.index t (0 : Fin 3) ∧ win0_0.index t (1 : Fin 3) = 0
    ∧ win0_0.index t (2 : Fin 3) = win0_9.index t (2 : Fin 3) ∧ win0_9.index t (1 : Fin 3) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every (batch, column tile) is some grid point's. -/
theorem idx_onto9 : ∀ (q0 : Fin 4) (q2 : Fin 8), ∃ t : Fin cfg0.N, win0_9.index t = ![q0.val, 0, q2.val] :=
  (by decide +kernel : ∀ (q0 : Fin 4) (q2 : Fin 8), ∃ t : Fin grid0.N, win0_9.index t = ![q0.val, 0, q2.val])

/-- What point `t` writes back is its tile of the projection of the arrays the region finds. -/
theorem flushed9_eq (c : Dev nD) (t : Fin cfg0.N) :
    (dat0 V c).flushed 9 t
      = ((cfg0.win 9).blk t).view.read (Elt Ideal) (projT (V c main_arg0) (V c main_arg5) (V c main_v2)) := by
  show (cfg0.win 9).cut (grid0.coords t) ((dat0 V c).after 9 t) = _
  rw [after0_9, out0_9_eq]
  obtain ⟨e0, e1, e2, e3, e4, e5, e6, e7⟩ := idx_facts9 t
  funext j
  obtain ⟨k, r, rfl⟩ : ∃ (k : Fin 256) (r : Fin 512), j = ix3 (0 : Fin 1) k r :=
    ⟨⟨(j 1).val, (j 1).isLt⟩, ⟨(j 2).val, (j 2).isLt⟩, funext fun a => Fin.ext (by
      match a with
      | ⟨0, _⟩ => have h : (j 0).val < 1 := (j 0).isLt; show (j 0).val = 0; omega
      | ⟨1, _⟩ => rfl
      | ⟨2, _⟩ => rfl)⟩
  show k0_pay1 (k0_pay3 (blk0 V c 0 t) (blk0 V c 5 t) (blk0 V c 6 t)) (ix3 (0 : Fin 1) k r)
    = projT (V c main_arg0) (V c main_arg5) (V c main_v2) (((cfg0.win 9).blk t).view.emb (ix3 (0 : Fin 1) k r))
  rw [k0_pay1_pay3_apply]
  unfold projT
  refine congrArg₂ (· + ·) (Finset.sum_congr rfl fun cc _ => congrArg₂ (· * ·) ?_ ?_) ?_
  · show V c main_arg5 (((cfg0.win 5).blk t).view.emb (ix2 k cc)) = _
    refine congrArg (V c main_arg5) (funext fun a => Fin.ext ?_)
    match a with
    | ⟨0, _⟩ =>
      show win0_5.index t (0 : Fin 2) * 256 + 1 * k.val = win0_9.index t (1 : Fin 3) * 256 + 1 * k.val
      omega
    | ⟨1, _⟩ =>
      show win0_5.index t (1 : Fin 2) * 256 + 1 * cc.val = cc.val
      omega
  · show V c main_arg0 (((cfg0.win 0).blk t).view.emb (ix3 (0 : Fin 1) cc r)) = _
    refine congrArg (V c main_arg0) (funext fun a => Fin.ext ?_)
    match a with
    | ⟨0, _⟩ =>
      show win0_0.index t (0 : Fin 3) * 1 + 1 * 0 = win0_9.index t (0 : Fin 3) * 1 + 1 * 0
      omega
    | ⟨1, _⟩ =>
      show win0_0.index t (1 : Fin 3) * 256 + 1 * cc.val = cc.val
      omega
    | ⟨2, _⟩ =>
      show win0_0.index t (2 : Fin 3) * 512 + 1 * r.val = win0_9.index t (2 : Fin 3) * 512 + 1 * r.val
      omega
  · show V c main_v2 (((cfg0.win 6).blk t).view.emb (ix2 k (0 : Fin 1))) = _
    refine congrArg (V c main_v2) (funext fun a => Fin.ext ?_)
    match a with
    | ⟨0, _⟩ =>
      show win0_6.index t (0 : Fin 2) * 256 + 1 * k.val = win0_9.index t (1 : Fin 3) * 256 + 1 * k.val
      omega
    | ⟨1, _⟩ =>
      show win0_6.index t (1 : Fin 2) * 1 + 1 * 0 = 0
      omega

/-- An index of the array is in point `t`'s tile iff each coordinate is in the tile's range on its axis. -/
theorem mem_blk9 (t : Fin cfg0.N) (i : S4x256x4096.Idx) :
    i ∈ ((cfg0.win 9).blk t).view.set ↔ ∀ a : Fin 3, win0_9.index t a * S1x256x512.size a ≤ (i a).val
      ∧ (i a).val < win0_9.index t a * S1x256x512.size a + S1x256x512.size a := by
  show i ∈ ((View.whole main_v3_2).slice (win0_9.rect t)).set ↔ _
  rw [View.set_slice_whole, Rect.mem_set_unit]
  exact Iff.rfl

/-- Every index of the array is in the tile of the point at (its batch, its column over 512). -/
theorem cover9 (i : S4x256x4096.Idx) :
    ∃ t : Fin cfg0.N, (cfg0.win 9).flush t = true ∧ i ∈ ((cfg0.win 9).blk t).view.set := by
  have hi0 : (i 0).val < 4 := (i 0).isLt
  have hi1 : (i 1).val < 256 := (i 1).isLt
  have hi2 : (i 2).val < 4096 := (i 2).isLt
  obtain ⟨t, ht⟩ := idx_onto9 ⟨(i 0).val, hi0⟩ ⟨(i 2).val / 512, by omega⟩
  have q0 : win0_9.index t (0 : Fin 3) = (i 0).val := congrFun ht 0
  have q1 : win0_9.index t (1 : Fin 3) = 0 := congrFun ht 1
  have q2 : win0_9.index t (2 : Fin 3) = (i 2).val / 512 := congrFun ht 2
  refine ⟨t, flush0_9 t, ?_⟩
  rw [mem_blk9]
  intro a
  match a with
  | ⟨0, _⟩ =>
    show win0_9.index t (0 : Fin 3) * 1 ≤ (i 0).val ∧ (i 0).val < win0_9.index t (0 : Fin 3) * 1 + 1
    omega
  | ⟨1, _⟩ =>
    show win0_9.index t (1 : Fin 3) * 256 ≤ (i 1).val ∧ (i 1).val < win0_9.index t (1 : Fin 3) * 256 + 256
    omega
  | ⟨2, _⟩ =>
    show win0_9.index t (2 : Fin 3) * 512 ≤ (i 2).val ∧ (i 2).val < win0_9.index t (2 : Fin 3) * 512 + 512
    omega

/-- The array after the region: the projection, at every index. -/
theorem v_array (c : Dev nD) :
    (dat0 V c).arrAt 9 cfg0.N = projT (V c main_arg0) (V c main_arg5) (V c main_v2) :=
  (dat0 V c).arrAt_eq_of_cover 9 _ (fun t _ => flushed9_eq V c t) cover9

end AtIdeal

end Cert.KernelIdeal.Frames

end
-- ==== Proof.KI.Value1a.lean ====
/-
  What each way through the column-statistics body leaves, read back as the body's own arithmetic.

  The symbolic runs of the region's module found, for every way through the body, the pieces its stores leave in
  the two scratch rows (running maximum, running sum) and, at the last query tile, in the two output rows. Each
  buffer is written by one whole-row store last, so what it ends holding is that store's value: the row of new
  maxima, max(old maximum, column maximum of the masked scaled score tile); the row of new sums,
  exp(old maximum − new maximum) · old sum + the column sums of exp(score − new maximum); at a reset, minus infinity
  and zero; and the outputs are the two rows copied out. Loads of a row the same point stored earlier read that store.
-/
import proofs.«130694_j5669356831785_2_alg».proof.Proof.KI.Region1
import Idealize.ShloMosaic.Lib.Pipeline.Value

set_option maxRecDepth 16384
noncomputable section
namespace Cert.KernelIdeal.Frames
open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## First query tile, on the diagonal: reset, then update -/

theorem max_A (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : cond1_1 i) (hc2 : ¬cond1_2 i)
    (x0 x1 : Vec F S1x256x512 .bf16) :
    sout1_A_0 c i arg3 harg3 arg4 harg4 arg5 harg5 arg6 harg6 arg7 harg7 arg8 harg8 hc0 hc1 hc2 x0 x1 = k1_pay3 (k1_pay7 (BitVec.ofNat 32 (i 1).val) (BitVec.ofNat 32 (i 2).val) x0 x1 k1_pay1) := by
  unfold sout1_A_0
  rw [View.read_writes_eq_canon _ _ _ (scover1_A_0 c i arg3 harg3 arg4 harg4 arg5 harg5 arg6 harg6 arg7 harg7 arg8 harg8 hc0 hc1 hc2 x0 x1)]
  unfold pieces1_A
  dsimp only
  sl_unfold_words
  rw [View.canon_cons_unit_zero (S := S1x512) hz2]
  simp only [View.readCov_unit_zero (S := S1x512) _ hz2, View.readAt_eq_ld, harg3.read_unread, harg4.read_unread, harg7.read_unread, harg8.read_unread, View.ld_unit_zero (S := S1x256x512) hz3, View.ld_unit_zero (S := S1x512) hz2]

theorem sum_A (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : cond1_1 i) (hc2 : ¬cond1_2 i)
    (x0 x1 : Vec F S1x256x512 .bf16) :
    sout1_A_1 c i arg3 harg3 arg4 harg4 arg5 harg5 arg6 harg6 arg7 harg7 arg8 harg8 hc0 hc1 hc2 x0 x1 = k1_pay8 (BitVec.ofNat 32 (i 1).val) (BitVec.ofNat 32 (i 2).val) x0 x1 k1_pay1 k1_pay1 k1_pay2 := by
  unfold sout1_A_1
  rw [View.read_writes_eq_canon _ _ _ (scover1_A_1 c i arg3 harg3 arg4 harg4 arg5 harg5 arg6 harg6 arg7 harg7 arg8 harg8 hc0 hc1 hc2 x0 x1)]
  unfold pieces1_A
  dsimp only
  sl_unfold_words
  rw [View.canon_cons_unit_zero (S := S1x512) hz2]
  simp only [View.readCov_unit_zero (S := S1x512) _ hz2, View.readAt_eq_ld, harg3.read_unread, harg4.read_unread, harg7.read_unread, harg8.read_unread, View.ld_unit_zero (S := S1x256x512) hz3, View.ld_unit_zero (S := S1x512) hz2]

/-! ## First query tile, above the diagonal: reset only -/

theorem max_B (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : ¬cond1_1 i) (hc2 : ¬cond1_2 i)
    (x0 x1 : Vec F S1x256x512 .bf16) :
    sout1_B_0 c i arg3 harg3 arg4 harg4 arg5 harg5 arg6 harg6 arg7 harg7 arg8 harg8 hc0 hc1 hc2 x0 x1 = k1_pay1 := by
  unfold sout1_B_0
  rw [View.read_writes_eq_canon _ _ _ (scover1_B_0 c i arg3 harg3 arg4 harg4 arg5 harg5 arg6 harg6 arg7 harg7 arg8 harg8 hc0 hc1 hc2 x0 x1)]
  unfold pieces1_B
  dsimp only
  sl_unfold_words
  rw [View.canon_unit_zero hz2]

theorem sum_B (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : cond1_0 i) (hc1 : ¬cond1_1 i) (hc2 : ¬cond1_2 i)
    (x0 x1 : Vec F S1x256x512 .bf16) :
    sout1_B_1 c i arg3 harg3 arg4 harg4 arg5 harg5 arg6 harg6 arg7 harg7 arg8 harg8 hc0 hc1 hc2 x0 x1 = k1_pay2 := by
  unfold sout1_B_1
  rw [View.read_writes_eq_canon _ _ _ (scover1_B_1 c i arg3 harg3 arg4 harg4 arg5 harg5 arg6 harg6 arg7 harg7 arg8 harg8 hc0 hc1 hc2 x0 x1)]
  unfold pieces1_B
  dsimp only
  sl_unfold_words
  rw [View.canon_unit_zero hz2]

/-! ## A later query tile on or below the diagonal: update -/

theorem max_C (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : ¬cond1_2 i)
    (x0 x1 : Vec F S1x256x512 .bf16) (xs0 xs1 : Vec F S1x512 .f32) :
    sout1_C_0 c i arg3 harg3 arg4 harg4 arg5 harg5 arg6 harg6 arg7 harg7 arg8 harg8 hc0 hc1 hc2 x0 x1 xs0 xs1 = k1_pay3 (k1_pay7 (BitVec.ofNat 32 (i 1).val) (BitVec.ofNat 32 (i 2).val) x0 x1 xs0) := by
  unfold sout1_C_0
  rw [View.read_writes_eq_canon _ _ _ (scover1_C_0 c i arg3 harg3 arg4 harg4 arg5 harg5 arg6 harg6 arg7 harg7 arg8 harg8 hc0 hc1 hc2 x0 x1 xs0 xs1)]
  unfold pieces1_C
  dsimp only
  sl_unfold_words
  rw [View.canon_unit_zero hz2]
  simp only [View.readCov_unit_zero (S := S1x512) _ hz2, View.readAt_eq_ld, harg3.read_unread, harg4.read_unread, harg7.read_unread, harg8.read_unread, View.ld_unit_zero (S := S1x256x512) hz3, View.ld_unit_zero (S := S1x512) hz2]

theorem sum_C (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : ¬cond1_2 i)
    (x0 x1 : Vec F S1x256x512 .bf16) (xs0 xs1 : Vec F S1x512 .f32) :
    sout1_C_1 c i arg3 harg3 arg4 harg4 arg5 harg5 arg6 harg6 arg7 harg7 arg8 harg8 hc0 hc1 hc2 x0 x1 xs0 xs1 = k1_pay8 (BitVec.ofNat 32 (i 1).val) (BitVec.ofNat 32 (i 2).val) x0 x1 xs0 xs0 xs1 := by
  unfold sout1_C_1
  rw [View.read_writes_eq_canon _ _ _ (scover1_C_1 c i arg3 harg3 arg4 harg4 arg5 harg5 arg6 harg6 arg7 harg7 arg8 harg8 hc0 hc1 hc2 x0 x1 xs0 xs1)]
  unfold pieces1_C
  dsimp only
  sl_unfold_words
  rw [View.canon_unit_zero hz2]
  simp only [View.readCov_unit_zero (S := S1x512) _ hz2, View.readAt_eq_ld, harg3.read_unread, harg4.read_unread, harg7.read_unread, harg8.read_unread, View.ld_unit_zero (S := S1x256x512) hz3, View.ld_unit_zero (S := S1x512) hz2]

/-! ## The last query tile: update, then copy both rows out -/

theorem max_E (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 x1 : Vec F S1x256x512 .bf16) (xs0 xs1 : Vec F S1x512 .f32) :
    sout1_E_0 c i arg3 harg3 arg4 harg4 arg5 harg5 arg6 harg6 arg7 harg7 arg8 harg8 hc0 hc1 hc2 x0 x1 xs0 xs1 = k1_pay3 (k1_pay7 (BitVec.ofNat 32 (i 1).val) (BitVec.ofNat 32 (i 2).val) x0 x1 xs0) := by
  unfold sout1_E_0
  rw [View.read_writes_eq_canon _ _ _ (scover1_E_0 c i arg3 harg3 arg4 harg4 arg5 harg5 arg6 harg6 arg7 harg7 arg8 harg8 hc0 hc1 hc2 x0 x1 xs0 xs1)]
  unfold pieces1_E
  dsimp only
  sl_unfold_words
  rw [View.canon_unit_zero hz2]
  simp only [View.readCov_unit_zero (S := S1x512) _ hz2, View.readAt_eq_ld, harg3.read_unread, harg4.read_unread, harg7.read_unread, harg8.read_unread, View.ld_unit_zero (S := S1x256x512) hz3, View.ld_unit_zero (S := S1x512) hz2]

theorem sum_E (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 x1 : Vec F S1x256x512 .bf16) (xs0 xs1 : Vec F S1x512 .f32) :
    sout1_E_1 c i arg3 harg3 arg4 harg4 arg5 harg5 arg6 harg6 arg7 harg7 arg8 harg8 hc0 hc1 hc2 x0 x1 xs0 xs1 = k1_pay8 (BitVec.ofNat 32 (i 1).val) (BitVec.ofNat 32 (i 2).val) x0 x1 xs0 xs0 xs1 := by
  unfold sout1_E_1
  rw [View.read_writes_eq_canon _ _ _ (scover1_E_1 c i arg3 harg3 arg4 harg4 arg5 harg5 arg6 harg6 arg7 harg7 arg8 harg8 hc0 hc1 hc2 x0 x1 xs0 xs1)]
  unfold pieces1_E
  dsimp only
  sl_unfold_words
  rw [View.canon_unit_zero hz2]
  simp only [View.readCov_unit_zero (S := S1x512) _ hz2, View.readAt_eq_ld, harg3.read_unread, harg4.read_unread, harg7.read_unread, harg8.read_unread, View.ld_unit_zero (S := S1x256x512) hz3, View.ld_unit_zero (S := S1x512) hz2]

theorem cmax_E (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 x1 : Vec F S1x256x512 .bf16) (xs0 xs1 : Vec F S1x512 .f32) :
    out1_E_2 c i arg3 harg3 arg4 harg4 arg5 harg5 arg6 harg6 arg7 harg7 arg8 harg8 hc0 hc1 hc2 x0 x1 xs0 xs1 = k1_pay4 (k1_pay3 (k1_pay7 (BitVec.ofNat 32 (i 1).val) (BitVec.ofNat 32 (i 2).val) x0 x1 xs0)) := by
  unfold out1_E_2
  rw [View.read_writes_eq_canon _ _ _ (cover1_E_2 c i arg3 harg3 arg4 harg4 arg5 harg5 arg6 harg6 arg7 harg7 arg8 harg8 hc0 hc1 hc2 x0 x1 xs0 xs1)]
  unfold pieces1_E
  dsimp only
  sl_unfold_words
  rw [View.canon_unit_zero hz3]
  simp only [View.readCov_unit_zero (S := S1x512) _ hz2, View.readAt_eq_ld, harg3.read_unread, harg4.read_unread, harg7.read_unread, harg8.read_unread, View.ld_unit_zero (S := S1x256x512) hz3, View.ld_unit_zero (S := S1x512) hz2]

theorem csum_E (c : Dev nD) (i : grid1.Coords) (arg3 : Memref sig .tc .vmem S1x256x512 .bf16) (harg3 : arg3.IsWhole) (arg4 : Memref sig .tc .vmem S1x256x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i) (hc1 : cond1_1 i) (hc2 : cond1_2 i)
    (x0 x1 : Vec F S1x256x512 .bf16) (xs0 xs1 : Vec F S1x512 .f32) :
    out1_E_3 c i arg3 harg3 arg4 harg4 arg5 harg5 arg6 harg6 arg7 harg7 arg8 harg8 hc0 hc1 hc2 x0 x1 xs0 xs1 = k1_pay5 (k1_pay8 (BitVec.ofNat 32 (i 1).val) (BitVec.ofNat 32 (i 2).val) x0 x1 xs0 xs0 xs1) := by
  unfold out1_E_3
  rw [View.read_writes_eq_canon _ _ _ (cover1_E_3 c i arg3 harg3 arg4 harg4 arg5 harg5 arg6 harg6 arg7 harg7 arg8 harg8 hc0 hc1 hc2 x0 x1 xs0 xs1)]
  unfold pieces1_E
  dsimp only
  sl_unfold_words
  rw [View.canon_unit_zero hz3]
  simp only [View.readCov_unit_zero (S := S1x512) _ hz2, View.readAt_eq_ld, harg3.read_unread, harg4.read_unread, harg7.read_unread, harg8.read_unread, View.ld_unit_zero (S := S1x256x512) hz3, View.ld_unit_zero (S := S1x512) hz2]

end Cert.KernelIdeal.Frames
end
-- ==== Proof.ColumnSoftmax.lean ====
/-
  One column of a softmax, computed in one pass over tiles of rows. The plain form of a column with entries
  `f a` is the pair

      M = the greatest entry,      Z = ∑ a, exp (f a - M).

  The streaming form keeps a running pair (M, Z), starting from (-∞, 0), and absorbs a tile B of new entries by

      M' = max M (the greatest entry of B),      Z' = exp (M - M') · Z + ∑ b ∈ B, exp (f b - M').

  On the extended reals, with exp (-∞) = 0 and -∞ - x = -∞, the two agree as soon as no entry is +∞: a masked entry
  (-∞) contributes 0 to every sum, and for real entries exp (M - M') · exp (x - M) = exp (x - M'). The product
  distributes over the sum because every term is nonnegative. Nothing else is needed for the identity; that M is a
  real number and Z a real number ≥ 1 follows when at least one entry is real (the greatest entry contributes exp 0).
  Also here: a fold of `max` from -∞ is the supremum; a product with a reciprocal is the ideal quotient; the product
  with 1/16 is the quotient by 16 on every extended real.
-/
import Idealize.ShloMosaic.PureOps.Ideal

noncomputable section

open scoped BigOperators

namespace Cert.ColumnSoftmax

open Idealize.ShloMosaic

/-! ## The exponential on the extended reals -/

/-- The exponential is nonnegative everywhere (0 at -∞, +∞ at +∞). -/
theorem exp_nonneg (x : EReal) : 0 ≤ Ideal.exp x := by
  induction x using EReal.rec with
  | bot => rw [Ideal.exp_bot]
  | top => rw [Ideal.exp_top]; exact le_top
  | coe r => rw [Ideal.exp_coe]; exact EReal.coe_nonneg.mpr (Real.exp_pos r).le

/-- A masked entry contributes nothing, whatever is subtracted from it. -/
theorem exp_bot_sub (M : EReal) : Ideal.exp (⊥ - M) = 0 := by rw [EReal.bot_sub, Ideal.exp_bot]

/-- Changing the reference point of an exponential: for an entry `x` that is not +∞, below `M`, with `M ≤ M'` and
    `M'` not +∞. -/
theorem exp_shift {x M M' : EReal} (hx : x ≠ ⊤) (hxM : x ≤ M) (hMM' : M ≤ M') (hM' : M' ≠ ⊤) :
    Ideal.exp (M - M') * Ideal.exp (x - M) = Ideal.exp (x - M') := by
  induction x using EReal.rec with
  | bot => rw [exp_bot_sub, exp_bot_sub, mul_zero]
  | top => exact absurd rfl hx
  | coe r =>
    have hMbot : M ≠ ⊥ := fun h => by rw [h] at hxM; exact absurd (le_bot_iff.mp hxM) (EReal.coe_ne_bot r)
    have hMtop : M ≠ ⊤ := fun h => by rw [h] at hMM'; exact hM' (top_le_iff.mp hMM')
    have hM'bot : M' ≠ ⊥ := fun h => by rw [h] at hMM'; exact hMbot (le_bot_iff.mp hMM')
    lift M to ℝ using ⟨hMtop, hMbot⟩
    lift M' to ℝ using ⟨hM', hM'bot⟩
    rw [← EReal.coe_sub, ← EReal.coe_sub, ← EReal.coe_sub, Ideal.exp_coe, Ideal.exp_coe, Ideal.exp_coe, ← EReal.coe_mul,
      ← Real.exp_add]
    congr 2
    ring

/-! ## Finite sums and suprema of extended reals -/

/-- The coercion of a finite sum of reals. -/
theorem coe_sum {α : Type*} (s : Finset α) (g : α → ℝ) : ((∑ a ∈ s, g a : ℝ) : EReal) = ∑ a ∈ s, (g a : EReal) := by
  classical
  induction s using Finset.induction_on with
  | empty => simp
  | insert a s ha ih => rw [Finset.sum_insert ha, Finset.sum_insert ha, EReal.coe_add, ih]

/-- A factor distributes over a finite sum of nonnegative terms. -/
theorem mul_sum_of_nonneg {α : Type*} (c : EReal) (s : Finset α) (g : α → EReal) (hg : ∀ a ∈ s, 0 ≤ g a) :
    c * ∑ a ∈ s, g a = ∑ a ∈ s, c * g a := by
  classical
  induction s using Finset.induction_on with
  | empty => simp
  | insert a s ha ih =>
    rw [Finset.sum_insert ha, Finset.sum_insert ha,
      EReal.left_distrib_of_nonneg (hg a (Finset.mem_insert_self a s))
        (Finset.sum_nonneg fun b hb => hg b (Finset.mem_insert_of_mem hb)),
      ih fun b hb => hg b (Finset.mem_insert_of_mem hb)]

/-- A fold of `max` from -∞ is the supremum. -/
theorem fold_max_bot {α : Type*} (s : Finset α) (f : α → EReal) : s.fold max ⊥ f = s.sup f := by
  classical
  induction s using Finset.induction_on with
  | empty => simp
  | insert a s ha ih => rw [Finset.fold_insert ha, Finset.sup_insert, ih]

/-- The supremum of finitely many entries, none of them +∞, is not +∞. -/
theorem sup_ne_top {α : Type*} (s : Finset α) (f : α → EReal) (hf : ∀ a ∈ s, f a ≠ ⊤) : s.sup f ≠ ⊤ :=
  ne_of_lt ((Finset.sup_lt_iff (bot_lt_top : (⊥ : EReal) < ⊤)).mpr fun a ha => lt_top_iff_ne_top.mpr (hf a ha))

/-- Entries that are -∞ do not change a supremum. -/
theorem sup_univ_eq_of_bot_outside {α : Type*} [Fintype α] (A : Finset α) (f : α → EReal) (h : ∀ a, a ∉ A → f a = ⊥) :
    Finset.univ.sup f = A.sup f := by
  refine le_antisymm (Finset.sup_le fun a _ => ?_) (Finset.sup_mono (Finset.subset_univ A))
  by_cases ha : a ∈ A
  · exact Finset.le_sup ha
  · rw [h a ha]; exact bot_le

/-- Entries that are -∞ do not change a sum of exponentials. -/
theorem sum_univ_eq_of_bot_outside {α : Type*} [Fintype α] (A : Finset α) (f : α → EReal) (M : EReal)
    (h : ∀ a, a ∉ A → f a = ⊥) : ∑ a, Ideal.exp (f a - M) = ∑ a ∈ A, Ideal.exp (f a - M) := by
  refine (Finset.sum_subset (Finset.subset_univ A) fun a _ ha => ?_).symm
  rw [h a ha, exp_bot_sub]

/-! ## One step of the stream -/

/-- Absorbing a tile `B` into the running pair of the entries `A` seen so far gives the pair of `A ∪ B`. The start
    `(⊥, 0)` is the pair of `A = ∅`. -/
theorem stream_step {α : Type*} [DecidableEq α] (f : α → EReal) (hf : ∀ a, f a ≠ ⊤) (A B : Finset α) (hAB : Disjoint A B)
    (M Z : EReal) (hM : M = A.sup f) (hZ : Z = ∑ a ∈ A, Ideal.exp (f a - M)) :
    max M (B.sup f) = (A ∪ B).sup f
      ∧ Ideal.exp (M - max M (B.sup f)) * Z + ∑ b ∈ B, Ideal.exp (f b - max M (B.sup f))
          = ∑ a ∈ A ∪ B, Ideal.exp (f a - (A ∪ B).sup f) := by
  subst hM hZ
  have hsup : max (A.sup f) (B.sup f) = (A ∪ B).sup f := (Finset.sup_union).symm
  refine ⟨hsup, ?_⟩
  rw [hsup, Finset.sum_union hAB, mul_sum_of_nonneg _ _ _ fun a _ => exp_nonneg _]
  refine congrArg (· + _) (Finset.sum_congr rfl fun a ha => ?_)
  exact exp_shift (hf a) (Finset.le_sup ha) (Finset.sup_mono Finset.subset_union_left)
    (sup_ne_top _ _ fun b _ => hf b)

/-! ## The column is real -/

/-- With no entry +∞ and at least one entry real, the greatest entry is a real number. -/
theorem sup_real {α : Type*} (A : Finset α) (f : α → EReal) (hf : ∀ a ∈ A, f a ≠ ⊤) (a0 : α) (ha0 : a0 ∈ A) (h0 : f a0 ≠ ⊥) :
    ∃ m : ℝ, A.sup f = (m : EReal) := by
  have htop := sup_ne_top A f hf
  have hbot : A.sup f ≠ ⊥ := fun h => h0 (le_bot_iff.mp (h ▸ Finset.le_sup ha0))
  lift A.sup f to ℝ using ⟨htop, hbot⟩ with m hm
  exact ⟨m, rfl⟩

/-- With no entry +∞ and the greatest entry a real number `m`, the sum of the exponentials below `m` is a real
    number, at least 1. -/
theorem sum_real_ge_one {α : Type*} (A : Finset α) (f : α → EReal) (hf : ∀ a ∈ A, f a ≠ ⊤) (m : ℝ) (hm : A.sup f = (m : EReal)) :
    ∃ z : ℝ, 1 ≤ z ∧ ∑ a ∈ A, Ideal.exp (f a - (m : EReal)) = (z : EReal) := by
  classical
  have hne : A.Nonempty := by
    rcases A.eq_empty_or_nonempty with h | h
    · rw [h, Finset.sup_empty] at hm; exact absurd hm.symm (EReal.coe_ne_bot m)
    · exact h
  -- each term is a nonnegative real
  have hterm : ∀ a ∈ A, ∃ r : ℝ, 0 ≤ r ∧ Ideal.exp (f a - (m : EReal)) = (r : EReal) := by
    intro a ha
    induction hx : f a using EReal.rec with
    | bot => exact ⟨0, le_refl 0, by rw [exp_bot_sub]; rfl⟩
    | top => exact absurd hx (hf a ha)
    | coe r => exact ⟨Real.exp (r - m), (Real.exp_pos _).le, by rw [← EReal.coe_sub, Ideal.exp_coe]⟩
  choose! g hg0 hg using hterm
  obtain ⟨a1, ha1, hsup⟩ := Finset.exists_mem_eq_sup A hne f
  have h1 : g a1 = 1 := by
    have : Ideal.exp (f a1 - (m : EReal)) = ((1 : ℝ) : EReal) := by
      rw [← hsup, hm, ← EReal.coe_sub, sub_self, Ideal.exp_coe, Real.exp_zero]
    exact EReal.coe_injective ((hg a1 ha1).symm.trans this)
  refine ⟨∑ a ∈ A, g a, ?_, ?_⟩
  · rw [← h1]; exact Finset.single_le_sum (fun a ha => hg0 a ha) ha1
  · rw [coe_sum]; exact Finset.sum_congr rfl fun a ha => hg a ha

/-! ## Quotients -/

/-- A product with the reciprocal of a nonzero real is the ideal quotient by it, for every extended real. -/
theorem mul_one_div {Z : ℝ} (hZ : Z ≠ 0) (x : EReal) : x * Ideal.div 1 (Z : EReal) = Ideal.div x (Z : EReal) := by
  rw [Ideal.div_coe hZ, Ideal.div_coe hZ, one_mul]

/-- The words of 16, of 1/16 and of 1. -/
theorem ofBits_sixteen : Ideal.ofBits .f32 0x41800000#32 = ((16 : ℝ) : EReal) := by
  simp [Ideal.ofBits, Ideal.ieee]
  rw [← EReal.coe_mul]
  norm_num
theorem ofBits_sixteenth : Ideal.ofBits .f32 0x3D800000#32 = ((1 / 16 : ℝ) : EReal) := by
  simp [Ideal.ofBits, Ideal.ieee]
  rw [← EReal.coe_mul]
  norm_num
theorem ofBits_one : Ideal.ofBits .f32 0x3F800000#32 = 1 := by
  simp [Ideal.ofBits, Ideal.ieee]
  rw [← EReal.coe_mul, ← EReal.coe_one]
  norm_num

/-- The product with the word of 1/16 is the quotient by the word of 16, for every extended real. -/
theorem mul_sixteenth (x : EReal) :
    x * Ideal.ofBits .f32 0x3D800000#32 = Ideal.div x (Ideal.ofBits .f32 0x41800000#32) := by
  rw [ofBits_sixteenth, ofBits_sixteen, Ideal.div_coe (by norm_num : (16 : ℝ) ≠ 0)]

/-- A masked entry stays masked under the scale. -/
theorem bot_div_sixteen : Ideal.div ⊥ (Ideal.ofBits .f32 0x41800000#32) = ⊥ := by
  rw [ofBits_sixteen, Ideal.div_coe (by norm_num : (16 : ℝ) ≠ 0)]
  exact EReal.bot_mul_coe_of_pos (by norm_num)

/-- A real score stays real under the scale. -/
theorem coe_div_sixteen (r : ℝ) : Ideal.div (r : EReal) (Ideal.ofBits .f32 0x41800000#32) = ((r * (1 / 16) : ℝ) : EReal) := by
  rw [ofBits_sixteen, Ideal.div_coe (by norm_num : (16 : ℝ) ≠ 0), EReal.coe_mul]

end Cert.ColumnSoftmax

end
-- ==== Proof.ColumnTiles.lean ====
/-
  The 4096 rows of a column as 8 tiles of 512 rows, and the column's running pair over the tiles. Row `i` of tile `j`
  is row `512·j + i`. A sum over the rows is the sum over the tiles of the sums over their rows. A tile whose weights
  all vanish contributes nothing to a weighted sum. The running pair of a column, started at (-∞, 0) and fed the tiles
  `j0, j0+1, …, 7` in order (the tiles before `j0` are skipped), ends at the column's plain pair (greatest entry, sum
  of exponentials below it) provided no entry is +∞ and the rows of the skipped tiles are -∞.
-/
import proofs.«130694_j5669356831785_2_alg».proof.Proof.ColumnSoftmax

noncomputable section

open scoped BigOperators

namespace Cert.ColumnSoftmax

open Idealize.ShloMosaic

/-! ## Rows by tile -/

/-- Row `i` of tile `j`. -/
abbrev row (j : Fin 8) (i : Fin 512) : Fin 4096 := ⟨512 * j.val + i.val, by have := j.isLt; have := i.isLt; omega⟩

theorem row_val (j : Fin 8) (i : Fin 512) : (row j i).val = 512 * j.val + i.val := rfl

theorem row_injective (j : Fin 8) : Function.Injective (row j) := fun i i' h => by
  have := congrArg Fin.val h
  simp only [row_val] at this
  exact Fin.ext (by omega)

/-- The rows are the pairs (tile, row in the tile). -/
def rowEquiv : Fin 8 × Fin 512 ≃ Fin 4096 where
  toFun p := row p.1 p.2
  invFun t := (⟨t.val / 512, by have := t.isLt; omega⟩, ⟨t.val % 512, Nat.mod_lt _ (by norm_num)⟩)
  left_inv p := by
    obtain ⟨j, i⟩ := p
    have hj := j.isLt; have hi := i.isLt
    refine Prod.ext (Fin.ext ?_) (Fin.ext ?_)
    · show (512 * j.val + i.val) / 512 = j.val
      omega
    · show (512 * j.val + i.val) % 512 = i.val
      omega
  right_inv t := Fin.ext (by
    show 512 * (t.val / 512) + t.val % 512 = t.val
    omega)

/-- A sum over the rows, tile by tile. -/
theorem sum_tiles {M : Type*} [AddCommMonoid M] (g : Fin 4096 → M) :
    ∑ s : Fin 4096, g s = ∑ j : Fin 8, ∑ i : Fin 512, g (row j i) := by
  rw [← Equiv.sum_comp rowEquiv g, Fintype.sum_prod_type]
  rfl

/-- The rows of tile `j` are those from `512·j` up to `512·j + 511`. -/
theorem mem_tile (j : Fin 8) (t : Fin 4096) :
    t ∈ Finset.univ.image (row j) ↔ 512 * j.val ≤ t.val ∧ t.val < 512 * j.val + 512 := by
  constructor
  · intro h
    obtain ⟨i, _, rfl⟩ := Finset.mem_image.mp h
    have := i.isLt
    rw [row_val]
    omega
  · rintro ⟨h1, h2⟩
    exact Finset.mem_image.mpr ⟨⟨t.val - 512 * j.val, by omega⟩, Finset.mem_univ _, Fin.ext (by
      show 512 * j.val + (t.val - 512 * j.val) = t.val
      omega)⟩

/-- A tile whose weights are all zero contributes nothing to a weighted sum (on the extended reals `0 · y = 0` for
    every `y`). -/
theorem tile_sum_eq_zero (w v : Fin 4096 → EReal) (j : Fin 8) (hw : ∀ i : Fin 512, w (row j i) = 0) :
    ∑ i : Fin 512, w (row j i) * v (row j i) = 0 :=
  Finset.sum_eq_zero fun i _ => by rw [hw i, zero_mul]

/-- So a weighted sum over the rows is the sum over any set of tiles outside of which the weights vanish. -/
theorem sum_tiles_of_zero_outside (w v : Fin 4096 → EReal) (J : Finset (Fin 8))
    (hw : ∀ j, j ∉ J → ∀ i : Fin 512, w (row j i) = 0) :
    ∑ s : Fin 4096, w s * v s = ∑ j ∈ J, ∑ i : Fin 512, w (row j i) * v (row j i) := by
  rw [sum_tiles fun s => w s * v s]
  exact (Finset.sum_subset (Finset.subset_univ J) fun j _ hj => tile_sum_eq_zero w v j (hw j hj)).symm

/-! ## Masked weights vanish -/

/-- The exponential of a masked score, below any reference point, times anything, is zero. -/
theorem exp_bot_sub_mul (M x : EReal) : Ideal.exp (⊥ - M) * x = 0 := by rw [exp_bot_sub, zero_mul]

/-- Zero divided by a nonzero real is zero. -/
theorem zero_div_coe {Z : ℝ} (hZ : Z ≠ 0) : Ideal.div 0 (Z : EReal) = 0 := by rw [Ideal.div_coe hZ, zero_mul]

/-- So a masked score has weight zero, by either spelling of the quotient. -/
theorem masked_weight_div {Z : ℝ} (hZ : Z ≠ 0) (M : EReal) : Ideal.div (Ideal.exp (⊥ - M)) (Z : EReal) = 0 := by
  rw [exp_bot_sub, zero_div_coe hZ]

/-! ## The running pair over the tiles -/

/-- One step: the running pair (greatest entry so far, sum of exponentials below it) absorbs a tile. -/
def step (st : EReal × EReal) (tile : Fin 512 → EReal) : EReal × EReal :=
  (max st.1 (Finset.univ.sup tile),
   Ideal.exp (st.1 - max st.1 (Finset.univ.sup tile)) * st.2
     + ∑ i : Fin 512, Ideal.exp (tile i - max st.1 (Finset.univ.sup tile)))

/-- The running pair after the first `n` tiles when the tiles before `j0` are skipped. -/
def stream (col : Fin 4096 → EReal) (j0 : ℕ) : ℕ → EReal × EReal
  | 0 => (⊥, 0)
  | n + 1 =>
    if h : n < 8 then
      (if j0 ≤ n then step (stream col j0 n) (fun i => col (row ⟨n, h⟩ i)) else stream col j0 n)
    else stream col j0 n

theorem stream_zero (col : Fin 4096 → EReal) (j0 : ℕ) : stream col j0 0 = (⊥, 0) := rfl

theorem stream_succ_of_le (col : Fin 4096 → EReal) (j0 n : ℕ) (h : n < 8) (hj : j0 ≤ n) :
    stream col j0 (n + 1) = step (stream col j0 n) (fun i => col (row ⟨n, h⟩ i)) := by
  rw [stream, dif_pos h, if_pos hj]

theorem stream_succ_of_lt (col : Fin 4096 → EReal) (j0 n : ℕ) (hj : n < j0) :
    stream col j0 (n + 1) = stream col j0 n := by
  rw [stream]
  split
  · rw [if_neg (by omega)]
  · rfl

/-- The rows seen after the first `n` tiles when the tiles before `j0` are skipped. -/
def seen (j0 n : ℕ) : Finset (Fin 4096) := Finset.univ.filter fun t => 512 * j0 ≤ t.val ∧ t.val < 512 * n

theorem mem_seen (j0 n : ℕ) (t : Fin 4096) : t ∈ seen j0 n ↔ 512 * j0 ≤ t.val ∧ t.val < 512 * n := by
  simp [seen]

/-- The running pair is the plain pair of the rows seen. -/
theorem stream_eq (col : Fin 4096 → EReal) (hcol : ∀ t, col t ≠ ⊤) (j0 : ℕ) :
    ∀ n, n ≤ 8 → stream col j0 n
      = ((seen j0 n).sup col, ∑ t ∈ seen j0 n, Ideal.exp (col t - (seen j0 n).sup col))
  | 0, _ => by
    have h0 : seen j0 0 = ∅ := Finset.eq_empty_of_forall_notMem fun t ht => by
      have := (mem_seen j0 0 t).mp ht; omega
    rw [stream_zero, h0, Finset.sup_empty, Finset.sum_empty]
  | n + 1, hn => by
    have hn8 : n < 8 := by omega
    have ih := stream_eq col hcol j0 n (by omega)
    by_cases hj : j0 ≤ n
    · have hunion : seen j0 (n + 1) = seen j0 n ∪ Finset.univ.image (row ⟨n, hn8⟩) := by
        ext t
        rw [Finset.mem_union, mem_seen, mem_seen, mem_tile]
        show _ ↔ _ ∨ (512 * n ≤ t.val ∧ t.val < 512 * n + 512)
        constructor
        · rintro ⟨h1, h2⟩
          by_cases h3 : t.val < 512 * n
          · exact Or.inl ⟨h1, h3⟩
          · exact Or.inr ⟨by omega, by omega⟩
        · rintro (⟨h1, h2⟩ | ⟨h1, h2⟩)
          · exact ⟨h1, by omega⟩
          · exact ⟨by omega, by omega⟩
      have hdisj : Disjoint (seen j0 n) (Finset.univ.image (row ⟨n, hn8⟩)) := by
        rw [Finset.disjoint_left]
        intro t h1 h2
        have a := (mem_seen j0 n t).mp h1
        have b := (mem_tile ⟨n, hn8⟩ t).mp h2
        have b1 : 512 * n ≤ t.val := b.1
        omega
      have hs := stream_step col hcol (seen j0 n) (Finset.univ.image (row ⟨n, hn8⟩)) hdisj
        ((seen j0 n).sup col) (∑ t ∈ seen j0 n, Ideal.exp (col t - (seen j0 n).sup col)) rfl rfl
      rw [Finset.sup_image, Finset.sum_image fun i _ i' _ h => row_injective _ h] at hs
      rw [stream_succ_of_le col j0 n hn8 hj, ih, hunion]
      exact Prod.ext hs.1 (by
        show Ideal.exp (_ - max _ _) * _ + ∑ i : Fin 512, Ideal.exp (col (row ⟨n, hn8⟩ i) - max _ _) = _
        exact hs.2)
    · have hsame : seen j0 (n + 1) = seen j0 n := by
        ext t
        rw [mem_seen, mem_seen]
        constructor <;> rintro ⟨h1, h2⟩ <;> exact ⟨h1, by omega⟩
      rw [stream_succ_of_lt col j0 n (by omega), ih, hsame]

/-- After all eight tiles the running pair is the column's plain pair, when the rows of the skipped tiles are -∞. -/
theorem stream_final (col : Fin 4096 → EReal) (hcol : ∀ t, col t ≠ ⊤) (j0 : ℕ)
    (hskip : ∀ t : Fin 4096, t.val < 512 * j0 → col t = ⊥) :
    stream col j0 8 = (Finset.univ.sup col, ∑ t, Ideal.exp (col t - Finset.univ.sup col)) := by
  have hout : ∀ t, t ∉ seen j0 8 → col t = ⊥ := fun t ht => hskip t (by
    by_contra h
    exact ht ((mem_seen j0 8 t).mpr ⟨by omega, by have := t.isLt; omega⟩))
  rw [stream_eq col hcol j0 8 (le_refl 8), sup_univ_eq_of_bot_outside (seen j0 8) col hout,
    sum_univ_eq_of_bot_outside (seen j0 8) col _ hout]

end Cert.ColumnSoftmax

end
-- ==== Proof.PayCommon.lean ====
import proofs.«130694_j5669356831785_2_alg».proof.Proof.Gen.KernelIdeal.Skeleton
import Idealize.ShloMosaic.Lib.ValueLayout
import Idealize.ShloMosaic.Lib.ValueIdx
import Idealize.ShloMosaic.Lib.WordArith
import Idealize.ShloMosaic.PureOps.Ideal.Laws

/-!
# What the statistics and output payloads share

The causal mask of a score tile is a signed comparison of two 32-bit words, each a tile number times the tile's
extent plus a coordinate inside the tile. Below `2³¹` nothing wraps, so the comparison is the comparison of the
natural numbers; a select on that bit is an `if`; the fill constant denotes `⊥`; a fold of `max` from `⊥` is
a supremum.
-/

noncomputable section

namespace Cert.KernelIdeal.Pay

open Cert.KernelIdeal Cert.KernelIdeal.Gen Idealize.ShloMosaic Idealize.ShloMosaic.ValueIdx

/-- A tile number times the extent plus a coordinate, computed on 32-bit words, is the word of that number. -/
theorem tile_word (a E x : ℕ) :
    IntOp.addi (Scalar.muli (BitVec.ofNat 32 a) (BitVec.ofNat 32 E)) (BitVec.ofNat 32 x) = BitVec.ofNat 32 (a * E + x) := by
  show BitVec.ofNat 32 a * BitVec.ofNat 32 E + BitVec.ofNat 32 x = BitVec.ofNat 32 (a * E + x)
  rw [BitVec.ofNat_add, BitVec.ofNat_mul]

/-- The signed comparison `A ≥ B` of the words of two natural numbers below `2³¹` is the comparison of the numbers. -/
theorem cmpi_sge_ofNat (A B : ℕ) (hA : A < 2 ^ 31) (hB : B < 2 ^ 31) :
    IntOp.cmpi .sge (BitVec.ofNat 32 A) (BitVec.ofNat 32 B) = BitVec.ofBool (decide (B ≤ A)) := by
  show BitVec.ofBool ((BitVec.ofNat 32 B).sle (BitVec.ofNat 32 A)) = BitVec.ofBool (decide (B ≤ A))
  refine congrArg BitVec.ofBool ?_
  rw [BitVec.sle_eq_decide, WordArith.toInt_ofNat_small B hB, WordArith.toInt_ofNat_small A hA]
  exact decide_eq_decide.mpr Int.ofNat_le

/-- The causal mask of a tile at `(r, q)`: row word `a · E₁ + r` against column word `b · E₂ + q`, both below
    `2³¹`, compared signed, is the bit of `b · E₂ + q ≤ a · E₁ + r`. -/
theorem causal_mask_apply {n0 n1 : ℕ} (h0 : (⟨2, ![n0, n1]⟩ : Shape).Iotas .tc 32 [0])
    (h1 : (⟨2, ![n0, n1]⟩ : Shape).Iotas .tc 32 [1]) (a E1 b E2 : ℕ) (r : Fin n0) (q : Fin n1)
    (hr : a * E1 + r.val < 2 ^ 31) (hq : b * E2 + q.val < 2 ^ 31) :
    cmpi .sge
        (addi (broadcast ⟨2, ![n0, n1]⟩ (Scalar.muli (BitVec.ofNat 32 a) (BitVec.ofNat 32 E1))) (iota .tc ⟨2, ![n0, n1]⟩ 32 [0] h0))
        (addi (broadcast ⟨2, ![n0, n1]⟩ (Scalar.muli (BitVec.ofNat 32 b) (BitVec.ofNat 32 E2))) (iota .tc ⟨2, ![n0, n1]⟩ 32 [1] h1))
        (ix2 r q)
      = BitVec.ofBool (decide (b * E2 + q.val ≤ a * E1 + r.val)) := by
  have e0 : iota .tc ⟨2, ![n0, n1]⟩ 32 [0] h0 (ix2 r q) = BitVec.ofNat 32 r.val :=
    iota_single_apply .tc ⟨2, ![n0, n1]⟩ 32 0 h0 (ix2 r q)
  have e1 : iota .tc ⟨2, ![n0, n1]⟩ 32 [1] h1 (ix2 r q) = BitVec.ofNat 32 q.val :=
    iota_single_apply .tc ⟨2, ![n0, n1]⟩ 32 1 h1 (ix2 r q)
  show IntOp.cmpi .sge
      (IntOp.addi (Scalar.muli (BitVec.ofNat 32 a) (BitVec.ofNat 32 E1)) (iota .tc ⟨2, ![n0, n1]⟩ 32 [0] h0 (ix2 r q)))
      (IntOp.addi (Scalar.muli (BitVec.ofNat 32 b) (BitVec.ofNat 32 E2)) (iota .tc ⟨2, ![n0, n1]⟩ 32 [1] h1 (ix2 r q))) = _
  rw [e0, e1, tile_word, tile_word]
  exact cmpi_sge_ofNat _ _ hr hq

/-- A select on the bit of a decidable proposition is the `if` on the proposition. -/
theorem select_ofBool_decide {α : Type} (P : Prop) [Decidable P] (x y : α) :
    Scalar.select (BitVec.ofBool (decide P)) x y = if P then x else y := by
  by_cases h : P
  · rw [if_pos h, decide_eq_true h]; exact select_one x y
  · rw [if_neg h, decide_eq_false h]; exact select_zero x y

/-- The f32 pattern of `-∞` denotes `⊥`. -/
theorem ofBits_neg_inf_f32 : Ideal.ofBits .f32 0xFF800000#32 = ⊥ := by simp [Ideal.ofBits, Ideal.ieee]

/-- The masked entries' fill, the constant the certificate names `neg_big`, denotes `⊥`. -/
theorem named_neg_big : Named.named (F := Ideal) κ "neg_big" (φ := .f32) 0xFF333332#32 = ⊥ :=
  IdealRules.named_const.ideal_named_scalar _ _ _ _ rfl

/-- A fold of `max` from `⊥` over a finite set is the supremum over the set. -/
theorem fold_max_bot_eq_sup {ι : Type} (s : Finset ι) (f : ι → EReal) : s.fold max ⊥ f = s.sup f := rfl

end Cert.KernelIdeal.Pay

end
-- ==== Proof.Pay1.lean ====
import proofs.«130694_j5669356831785_2_alg».proof.Proof.PayCommon

/-!
# The statistics kernel's payloads read at an index

At the ideal values a score tile entry is the scaled dot product where the key position is not after the query
position and `⊥` elsewhere; the running maximum of a key column becomes the larger of its old value and the
supremum of the tile's column; the running sum is rescaled by `exp (old maximum − new maximum)` and gains the sum
over the tile's column of `exp (score − new maximum)`; the remaining payloads are splats and reshapes by a unit
axis.
-/

noncomputable section

namespace Cert.KernelIdeal.Pay

open Cert.KernelIdeal Cert.KernelIdeal.Gen Idealize.ShloMosaic Idealize.ShloMosaic.ValueIdx
/-- The score tile's block product, `[256,512]ᵀ × [256,512]` into the zero splat, contracting the feature axis of
    both operands: at `(r, q)` the sum over `c` of `A (c, r) * B (c, q)`. -/
theorem matmul_score1_lhs_free (j : S512x512.Idx) (q : dot_S256x512_S256x512_S512x512_0_0_1_1_n_n.contr.Idx) :
    (dot_S256x512_S256x512_S512x512_0_0_1_1_n_n.lhsIdx j q 1).val = (j 0).val := by
  unfold DotDims.lhsIdx
  rw [dif_neg (show ¬(1 : Fin S256x512.rank) ∈ dot_S256x512_S256x512_S512x512_0_0_1_1_n_n.lhsBatch by decide), dif_pos (show (1 : Fin S256x512.rank) ∈ dot_S256x512_S256x512_S512x512_0_0_1_1_n_n.lhsNonContracting by decide)]
  rfl
theorem matmul_score1_rhs_free (j : S512x512.Idx) (q : dot_S256x512_S256x512_S512x512_0_0_1_1_n_n.contr.Idx) :
    (dot_S256x512_S256x512_S512x512_0_0_1_1_n_n.rhsIdx j q 1).val = (j 1).val := by
  unfold DotDims.rhsIdx
  rw [dif_neg (show ¬(1 : Fin S256x512.rank) ∈ dot_S256x512_S256x512_S512x512_0_0_1_1_n_n.rhsBatch by decide), dif_pos (show (1 : Fin S256x512.rank) ∈ dot_S256x512_S256x512_S512x512_0_0_1_1_n_n.rhsNonContracting by decide)]
  rfl
theorem matmul_score1_apply (A : FVec Ideal S256x512 .bf16) (B : FVec Ideal S256x512 .bf16) (r : Fin 512) (q : Fin 512) :
    matmul dot_S256x512_S256x512_S512x512_0_0_1_1_n_n none A B (constant (F := Ideal) S512x512 .f32 0x00000000#32) (ix2 r q)
      = ∑ c : Fin 256, A (ix2 c r) * B (ix2 c q) := by
  refine (Ideal.matmul_constant_zero_apply dot_S256x512_S256x512_S512x512_0_0_1_1_n_n none A B (ix2 r q)).trans ?_
  rw [← Equiv.sum_comp (contrEquiv1 dot_S256x512_S256x512_S512x512_0_0_1_1_n_n 256 rfl rfl).symm]
  refine Finset.sum_congr rfl fun c _ => ?_
  have hc := contrEquiv1_symm_val dot_S256x512_S256x512_S512x512_0_0_1_1_n_n 256 rfl rfl c
  have el : dot_S256x512_S256x512_S512x512_0_0_1_1_n_n.lhsIdx (ix2 r q) ((contrEquiv1 dot_S256x512_S256x512_S512x512_0_0_1_1_n_n 256 rfl rfl).symm c) = ix2 c r :=
    funext fun a => Fin.ext (by
      match a with
      | ⟨1, _⟩ => exact matmul_score1_lhs_free _ _
      | ⟨0, _⟩ => exact (dot_S256x512_S256x512_S512x512_0_0_1_1_n_n.lhsIdx_val_of_single rfl _ _).trans hc)
  have er : dot_S256x512_S256x512_S512x512_0_0_1_1_n_n.rhsIdx (ix2 r q) ((contrEquiv1 dot_S256x512_S256x512_S512x512_0_0_1_1_n_n 256 rfl rfl).symm c) = ix2 c q :=
    funext fun a => Fin.ext (by
      match a with
      | ⟨1, _⟩ => exact matmul_score1_rhs_free _ _
      | ⟨0, _⟩ => exact (dot_S256x512_S256x512_S512x512_0_0_1_1_n_n.rhsIdx_val_of_single rfl _ _).trans hc)
  rw [el, er]

/-- The masked, scaled score of query row `r` of query tile `t` against key column `q` of key tile `s` (tiles of
    512): the dot product over the 256 features times `2⁻⁴` (the pattern `0x3D800000`) where the key position is not
    after the query position, `⊥` elsewhere. -/
def tile1 (s t : ℕ) (qb kb : Vec Ideal S1x256x512 .bf16) (r q : Fin 512) : EReal :=
  if 512 * s + q.val ≤ 512 * t + r.val then
    (∑ k : Fin 256, qb (ix3 (0 : Fin 1) k r) * kb (ix3 (0 : Fin 1) k q)) * Ideal.ofBits .f32 0x3D800000#32
  else ⊥

/-- The index a reduction over the rows of a `512 × 512` tile reads at column `q` and row `r` is `(r, q)`. -/
theorem lift_rows_512 (q : Fin 512) (r : Fin 512) :
    reduces_S512x512_S512.lift (ix1 q) r = ix2 r q :=
  funext fun a => Fin.ext (by
    match a with
    | ⟨0, _⟩ => rfl
    | ⟨1, _⟩ => rfl)

/-- The running maximum starts at `⊥`. -/
theorem k1_pay1_apply (q : Fin 512) : k1_pay1 (F := Ideal) (ix2 (0 : Fin 1) q) = ⊥ := by
  unfold k1_pay1
  refine (congrFun (shapeCast_self _ _) (ix2 (0 : Fin 1) q)).trans ?_
  exact ofBits_neg_inf_f32

/-- The running sum starts at zero. -/
theorem k1_pay2_apply (q : Fin 512) : k1_pay2 (F := Ideal) (ix2 (0 : Fin 1) q) = 0 := by
  unfold k1_pay2
  refine (congrFun (shapeCast_self _ _) (ix2 (0 : Fin 1) q)).trans ?_
  exact Ideal.ofBits_zero_f32

/-- The stored running maximum is the value handed to it. -/
theorem k1_pay3_eq (v : FVec Ideal S1x512 .f32) : k1_pay3 (F := Ideal) v = v := by
  unfold k1_pay3
  exact shapeCast_self _ _

/-- The same, at an index. -/
theorem k1_pay3_apply (v : FVec Ideal S1x512 .f32) (q : Fin 512) :
    k1_pay3 (F := Ideal) v (ix2 (0 : Fin 1) q) = v (ix2 (0 : Fin 1) q) :=
  congrFun (k1_pay3_eq v) _

/-- The flushed column maxima are the running maxima under a leading unit axis. -/
theorem k1_pay4_apply (v : Vec Ideal S1x512 .f32) (q : Fin 512) :
    k1_pay4 (F := Ideal) v (ix3 (0 : Fin 1) (0 : Fin 1) q) = v (ix2 (0 : Fin 1) q) := by
  unfold k1_pay4
  exact shapeCast_ab_1ab_apply v _ (0 : Fin 1) (0 : Fin 1) q

/-- The flushed column sums are the running sums under a leading unit axis. -/
theorem k1_pay5_apply (v : Vec Ideal S1x512 .f32) (q : Fin 512) :
    k1_pay5 (F := Ideal) v (ix3 (0 : Fin 1) (0 : Fin 1) q) = v (ix2 (0 : Fin 1) q) := by
  unfold k1_pay5
  exact shapeCast_ab_1ab_apply v _ (0 : Fin 1) (0 : Fin 1) q

/-- The score tile at `(r, q)` (`arg1` is the key tile `s`, `arg2` the query tile `t`). -/
theorem k1_pay6_apply (s t : ℕ) (hs : s < 8) (ht : t < 8) (qb kb : Vec Ideal S1x256x512 .bf16) (r q : Fin 512) :
    k1_pay6 (F := Ideal) (BitVec.ofNat 32 s) (BitVec.ofNat 32 t) qb kb (ix2 r q) = tile1 s t qb kb r q := by
  unfold k1_pay6
  refine (select_apply _ _ _ _).trans ?_
  rw [causal_mask_apply iota_S512x512_d0_w32 iota_S512x512_d1_w32 t 512 s 512 r q
    (by have := r.isLt; omega) (by have := q.isLt; omega), select_ofBool_decide]
  unfold tile1
  by_cases hm : 512 * s + q.val ≤ 512 * t + r.val
  · rw [if_pos hm, if_pos (by omega)]
    refine (mulf_apply _ _ _).trans ?_
    refine congrArg₂ (· * ·) ?_ rfl
    refine (matmul_score1_apply _ _ r q).trans ?_
    refine Finset.sum_congr rfl fun c _ => ?_
    exact congrArg₂ (· * ·) (shapeCast_1ab_ab_apply qb _ c r) (shapeCast_1ab_ab_apply kb _ c q)
  · rw [if_neg hm, if_neg (by omega)]
    exact named_neg_big

/-- The tile's column maximum as the reduction gives it: the fold of `max` from the pattern of `-∞`. -/
theorem colmax_fold (s t : ℕ) (hs : s < 8) (ht : t < 8) (qb kb : Vec Ideal S1x256x512 .bf16) (q : Fin 512) :
    multiReduction .maximumf [0] S512 (k1_pay6 (F := Ideal) (BitVec.ofNat 32 s) (BitVec.ofNat 32 t) qb kb) 0xFF800000#32
        reduces_S512x512_S512 (.inl rfl) rfl (ix1 q)
      = (Finset.univ : Finset (Fin 512)).fold max (Ideal.ofBits .f32 0xFF800000#32) (fun r => tile1 s t qb kb r q) := by
  refine (Ideal.multiReduction_maximumf_single (k1_pay6 (F := Ideal) (BitVec.ofNat 32 s) (BitVec.ofNat 32 t) qb kb)
    0xFF800000#32 reduces_S512x512_S512 (.inl rfl) rfl (ix1 q)).trans ?_
  show (Finset.univ : Finset (Fin 512)).fold max (Ideal.ofBits .f32 0xFF800000#32) _ = _
  refine congrArg (fun f => Finset.fold max (Ideal.ofBits .f32 0xFF800000#32) f (Finset.univ : Finset (Fin 512))) (funext fun (r : Fin 512) => ?_)
  refine (congrArg (k1_pay6 (F := Ideal) (BitVec.ofNat 32 s) (BitVec.ofNat 32 t) qb kb) (lift_rows_512 q r)).trans ?_
  exact k1_pay6_apply s t hs ht qb kb r q

/-- The new running maximum at column `q`, in the fold form. -/
theorem k1_pay7_apply_fold (s t : ℕ) (hs : s < 8) (ht : t < 8) (qb kb : Vec Ideal S1x256x512 .bf16) (v29 : Vec Ideal S1x512 .f32)
    (q : Fin 512) :
    k1_pay7 (F := Ideal) (BitVec.ofNat 32 s) (BitVec.ofNat 32 t) qb kb v29 (ix2 (0 : Fin 1) q)
      = max (v29 (ix2 (0 : Fin 1) q))
          ((Finset.univ : Finset (Fin 512)).fold max (Ideal.ofBits .f32 0xFF800000#32) (fun r => tile1 s t qb kb r q)) := by
  unfold k1_pay7
  refine (maximumf_apply _ _ _).trans ?_
  refine congrArg (max (v29 (ix2 (0 : Fin 1) q))) ?_
  refine (shapeCast_a_1a_apply _ _ (0 : Fin 1) q).trans ?_
  exact colmax_fold s t hs ht qb kb q

/-- The new running maximum at column `q`: the old one or the supremum of the tile's column. -/
theorem k1_pay7_apply (s t : ℕ) (hs : s < 8) (ht : t < 8) (qb kb : Vec Ideal S1x256x512 .bf16) (v29 : Vec Ideal S1x512 .f32)
    (q : Fin 512) :
    k1_pay7 (F := Ideal) (BitVec.ofNat 32 s) (BitVec.ofNat 32 t) qb kb v29 (ix2 (0 : Fin 1) q) = max (v29 (ix2 (0 : Fin 1) q)) (Finset.univ.sup fun r : Fin 512 => tile1 s t qb kb r q) := by
  rw [k1_pay7_apply_fold s t hs ht, ofBits_neg_inf_f32, fold_max_bot_eq_sup]

/-- The new running sum at column `q`: the old sum rescaled to the new maximum, plus the tile's column of
    `exp (score − new maximum)`. -/
theorem k1_pay8_apply (s t : ℕ) (hs : s < 8) (ht : t < 8) (qb kb : Vec Ideal S1x256x512 .bf16) (v29 v31 v37 : Vec Ideal S1x512 .f32)
    (q : Fin 512) :
    k1_pay8 (F := Ideal) (BitVec.ofNat 32 s) (BitVec.ofNat 32 t) qb kb v29 v31 v37 (ix2 (0 : Fin 1) q)
      = Ideal.exp (v31 (ix2 (0 : Fin 1) q) - max (v29 (ix2 (0 : Fin 1) q)) (Finset.univ.sup fun r : Fin 512 => tile1 s t qb kb r q)) * v37 (ix2 (0 : Fin 1) q)
          + ∑ r : Fin 512, Ideal.exp (tile1 s t qb kb r q - max (v29 (ix2 (0 : Fin 1) q)) (Finset.univ.sup fun r : Fin 512 => tile1 s t qb kb r q)) := by
  unfold k1_pay8
  refine (congrFun (shapeCast_self _ _) (ix2 (0 : Fin 1) q)).trans ?_
  refine (addf_apply _ _ _).trans ?_
  refine congrArg₂ (· + ·) ?_ ?_
  · refine (mulf_apply _ _ _).trans ?_
    refine congrArg₂ (· * ·) ?_ rfl
    show Ideal.exp (v31 (ix2 (0 : Fin 1) q)
      - k1_pay7 (F := Ideal) (BitVec.ofNat 32 s) (BitVec.ofNat 32 t) qb kb v29 (ix2 (0 : Fin 1) q)) = _
    rw [k1_pay7_apply s t hs ht]
  · refine (shapeCast_a_1a_apply _ _ (0 : Fin 1) q).trans ?_
    refine (Ideal.multiReduction_add_single _ 0x00000000#32 reduces_S512x512_S512 (.inl rfl) rfl (ix1 q)).trans ?_
    show ∑ r : Fin 512, _ = _
    refine Finset.sum_congr rfl fun (r : Fin 512) _ => ?_
    refine (congrArg (exp (subf (k1_pay6 (F := Ideal) (BitVec.ofNat 32 s) (BitVec.ofNat 32 t) qb kb)
      (broadcastTo S512x512 (k1_pay7 (F := Ideal) (BitVec.ofNat 32 s) (BitVec.ofNat 32 t) qb kb v29) broadcasts_S1x512_S512x512)))
      (lift_rows_512 q r)).trans ?_
    show Ideal.exp (k1_pay6 (F := Ideal) (BitVec.ofNat 32 s) (BitVec.ofNat 32 t) qb kb (ix2 r q)
      - broadcastTo S512x512 (k1_pay7 (F := Ideal) (BitVec.ofNat 32 s) (BitVec.ofNat 32 t) qb kb v29) broadcasts_S1x512_S512x512 (ix2 r q)) = _
    rw [k1_pay6_apply s t hs ht, broadcastTo_1b_ab_apply, k1_pay7_apply s t hs ht]

end Cert.KernelIdeal.Pay

end
-- ==== Proof.KI.Value1.lean ====
/-
  The column statistics region computes, for every batch and key column, the maximum over all query rows of the
  masked scaled score and the sum of exp(score − maximum).

  For batch b and key column S = 512 s + q the scores down the column, as a function of the query row T, are
  (Σ_k Q[b,k,T] · K[b,k,S]) / 16 for S ≤ T and minus infinity above the diagonal. The region walks the column in 8
  tiles of 512 rows, skipping the tiles wholly above the diagonal, carrying (running maximum, running sum). What the
  two scratch rows hold after grid point n = 64 b + 8 s + t is therefore the state of that streaming computation after
  tile t — by induction on the point, each way through the body being one step (or no step) of the stream — and after the
  last tile it is the column's plain maximum and plain sum of exponentials, which the last point copies out.
-/
import proofs.«130694_j5669356831785_2_alg».proof.Proof.KI.Value1a
import proofs.«130694_j5669356831785_2_alg».proof.Proof.ColumnTiles
import proofs.«130694_j5669356831785_2_alg».proof.Proof.Pay1
import Idealize.ShloMosaic.Lib.Pipeline.Value
import Idealize.ShloMosaic.Lib.ValueIdx

set_option maxRecDepth 16384
noncomputable section
namespace Cert.KernelIdeal.Frames
open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx Cert.ColumnSoftmax Cert.KernelIdeal.Pay

variable (V : (c : Dev nD) → (b : Ref sig .tc) → Buf (Elt Ideal) ((c : Thread nD τ).loc b))

/-! ## The column of scores -/

/-- Entry (b, k, T) of a [4, 256, 4096] array, the coordinates given as numbers (read modulo the extents). -/
def at3 (b : ℕ) (k : Fin 256) (T : ℕ) : S4x256x4096.Idx :=
  ix3 (⟨b % 4, Nat.mod_lt _ (by decide)⟩ : Fin 4) k (⟨T % 4096, Nat.mod_lt _ (by decide)⟩ : Fin 4096)

/-- The masked scaled scores down key column S of batch b, as a function of the query row. -/
def colN (Q K : S4x256x4096.Idx → EReal) (b S : ℕ) : Fin 4096 → EReal := fun T =>
  if S ≤ T.val then
    (∑ k : Fin 256, Q (at3 b k T.val) * K (at3 b k S)) * Ideal.ofBits .f32 0x3D800000#32
  else ⊥

/-! ## The point's blocks, entry by entry -/

/-- Where the two input windows' blocks sit, decided over the grid: the query tile's block index is the larger of
    the query tile and the key tile (the index map repeats the diagonal tile while the body is skipped). -/
theorem where1 : ∀ t : Fin cfg1.N,
    win1_0.index t (0 : Fin 3) = t.val / 64 ∧ win1_0.index t (1 : Fin 3) = 0 ∧ win1_0.index t (2 : Fin 3) = max (t.val % 8) ((t.val / 8) % 8)
    ∧ win1_1.index t (0 : Fin 3) = t.val / 64 ∧ win1_1.index t (1 : Fin 3) = 0 ∧ win1_1.index t (2 : Fin 3) = (t.val / 8) % 8 :=
  (by decide +kernel : ∀ t : Fin grid1.N,
    win1_0.index t (0 : Fin 3) = t.val / 64 ∧ win1_0.index t (1 : Fin 3) = 0 ∧ win1_0.index t (2 : Fin 3) = max (t.val % 8) ((t.val / 8) % 8)
    ∧ win1_1.index t (0 : Fin 3) = t.val / 64 ∧ win1_1.index t (1 : Fin 3) = 0 ∧ win1_1.index t (2 : Fin 3) = (t.val / 8) % 8)

/-- An entry of the query block at a point on or below the diagonal tile. -/
theorem qblock_apply (c : Dev nD) (t : Fin cfg1.N) (hle : (t.val / 8) % 8 ≤ t.val % 8) (k : Fin 256) (r : Fin 512) :
    blk1 V c 0 t (ix3 (0 : Fin 1) k r) = V c main_v3_0 (at3 (t.val / 64) k (512 * (t.val % 8) + r.val)) := by
  have hN : t.val < 256 := lt_of_lt_of_eq t.isLt (show cfg1.N = 256 from N_1)
  obtain ⟨e0, e1, e2, -, -, -⟩ := where1 t
  show V c main_v3_0 (((cfg1.win 0).blk t).view.emb (ix3 (0 : Fin 1) k r)) = _
  refine congrArg (V c main_v3_0) (funext fun a => Fin.ext ?_)
  match a with
  | ⟨0, _⟩ =>
    show win1_0.index t (0 : Fin 3) * 1 + 1 * 0 = (t.val / 64) % 4
    omega
  | ⟨1, _⟩ =>
    show win1_0.index t (1 : Fin 3) * 256 + 1 * k.val = k.val
    omega
  | ⟨2, _⟩ =>
    show win1_0.index t (2 : Fin 3) * 512 + 1 * r.val = (512 * (t.val % 8) + r.val) % 4096
    have := r.isLt
    rw [e2, max_eq_left hle]; omega

/-- An entry of the key block. -/
theorem kblock_apply (c : Dev nD) (t : Fin cfg1.N) (k : Fin 256) (q : Fin 512) :
    blk1 V c 1 t (ix3 (0 : Fin 1) k q) = V c main_v3_1 (at3 (t.val / 64) k (512 * ((t.val / 8) % 8) + q.val)) := by
  have hN : t.val < 256 := lt_of_lt_of_eq t.isLt (show cfg1.N = 256 from N_1)
  obtain ⟨-, -, -, e0, e1, e2⟩ := where1 t
  show V c main_v3_1 (((cfg1.win 1).blk t).view.emb (ix3 (0 : Fin 1) k q)) = _
  refine congrArg (V c main_v3_1) (funext fun a => Fin.ext ?_)
  match a with
  | ⟨0, _⟩ =>
    show win1_1.index t (0 : Fin 3) * 1 + 1 * 0 = (t.val / 64) % 4
    omega
  | ⟨1, _⟩ =>
    show win1_1.index t (1 : Fin 3) * 256 + 1 * k.val = k.val
    omega
  | ⟨2, _⟩ =>
    show win1_1.index t (2 : Fin 3) * 512 + 1 * q.val = (512 * ((t.val / 8) % 8) + q.val) % 4096
    have := q.isLt
    omega

/-- The grid coordinates of a point: key tile and query tile. -/
theorem coords1 : ∀ t : Fin cfg1.N, ((grid1.coords t) 1).val = (t.val / 8) % 8 ∧ ((grid1.coords t) 2).val = t.val % 8 :=
  (by decide +kernel : ∀ t : Fin grid1.N, ((grid1.coords t) 1).val = (t.val / 8) % 8 ∧ ((grid1.coords t) 2).val = t.val % 8)

/-- The tile of scores the body computes at a point on or below the diagonal tile is the column's scores on the rows
    of the point's query tile. -/
theorem tile_eq (c : Dev nD) (t : Fin cfg1.N) (hle : (t.val / 8) % 8 ≤ t.val % 8) (ht : t.val % 8 < 8) (r q : Fin 512) :
    tile1 ((t.val / 8) % 8) (t.val % 8) (blk1 V c 0 t) (blk1 V c 1 t) r q
      = colN (V c main_v3_0) (V c main_v3_1) (t.val / 64) (512 * ((t.val / 8) % 8) + q.val) (row ⟨t.val % 8, ht⟩ r) := by
  unfold tile1 colN
  show (if 512 * ((t.val / 8) % 8) + q.val ≤ 512 * (t.val % 8) + r.val then _ else _)
    = (if 512 * ((t.val / 8) % 8) + q.val ≤ 512 * (t.val % 8) + r.val then _ else _)
  by_cases hm : 512 * ((t.val / 8) % 8) + q.val ≤ 512 * (t.val % 8) + r.val
  · rw [if_pos hm, if_pos hm]
    refine congrArg (· * _) (Finset.sum_congr rfl fun k _ => ?_)
    rw [qblock_apply V c t hle, kblock_apply]
  · rw [if_neg hm, if_neg hm]

/-- The two scratch rows at column q of a point's tuple, as a pair. -/
def rowsAt (p : Vec Ideal S1x1x512 .f32 × Vec Ideal S1x1x512 .f32 × Vec Ideal S1x512 .f32 × Vec Ideal S1x512 .f32) (q : Fin 512) : EReal × EReal :=
  (p.2.2.1 (ix2 (0 : Fin 1) q), p.2.2.2 (ix2 (0 : Fin 1) q))

/-- ONE POINT, at one key column: a reset puts the pair back to (−∞, 0); a point on or below the diagonal tile makes one
    streaming step with the tile's rows of the column; a point above it changes nothing. -/
theorem point_rows (c : Dev nD) (t : Fin cfg1.N) (ht : t.val % 8 < 8) (prev : Vec Ideal S1x512 .f32 × Vec Ideal S1x512 .f32) (q : Fin 512) :
    rowsAt (step1 V c t prev) q
      = let tile : Fin 512 → EReal := fun r => colN (V c main_v3_0) (V c main_v3_1) (t.val / 64) (512 * ((t.val / 8) % 8) + q.val) (row ⟨t.val % 8, ht⟩ r)
        let before : EReal × EReal := if t.val % 8 = 0 then (⊥, 0) else (prev.1 (ix2 (0 : Fin 1) q), prev.2 (ix2 (0 : Fin 1) q))
        if (t.val / 8) % 8 ≤ t.val % 8 then step before tile else before := by
  have hN : t.val < 256 := lt_of_lt_of_eq t.isLt (show cfg1.N = 256 from N_1)
  have hs : (t.val / 8) % 8 < 8 := Nat.mod_lt _ (by decide)
  obtain ⟨ec1, ec2⟩ := coords1 t
  dsimp only
  by_cases h0 : t.val % 8 = 0
  · by_cases h1 : (t.val / 8) % 8 ≤ t.val % 8
    · have h2 : ¬t.val % 8 = 7 := by omega
      rw [step1_A V c t prev h0 h1 h2, if_pos h1, if_pos h0]
      unfold rowsAt step
      dsimp only
      rw [max_A, sum_A, ec1, ec2, k1_pay3_apply, k1_pay7_apply _ _ hs ht, k1_pay8_apply _ _ hs ht, k1_pay1_apply, k1_pay2_apply]
      simp only [tile_eq V c t h1 ht]
    · have h2 : ¬t.val % 8 = 7 := by omega
      rw [step1_B V c t prev h0 h1 h2, if_neg h1, if_pos h0]
      unfold rowsAt
      dsimp only
      rw [max_B, sum_B, k1_pay1_apply, k1_pay2_apply]
  · by_cases h1 : (t.val / 8) % 8 ≤ t.val % 8
    · by_cases h2 : t.val % 8 = 7
      · rw [step1_E V c t prev h0 h1 h2, if_pos h1, if_neg h0]
        unfold rowsAt step
        dsimp only
        rw [max_E, sum_E, ec1, ec2, k1_pay3_apply, k1_pay7_apply _ _ hs ht, k1_pay8_apply _ _ hs ht]
        simp only [tile_eq V c t h1 ht]
      · rw [step1_C V c t prev h0 h1 h2, if_pos h1, if_neg h0]
        unfold rowsAt step
        dsimp only
        rw [max_C, sum_C, ec1, ec2, k1_pay3_apply, k1_pay7_apply _ _ hs ht, k1_pay8_apply _ _ hs ht]
        simp only [tile_eq V c t h1 ht]
    · have h2 : ¬t.val % 8 = 7 := by omega
      rw [step1_D V c t prev h0 h1 h2, if_neg h1, if_neg h0]
      rfl

/-- One point advances the stream by one tile, or leaves it, according to the diagonal. -/
theorem advance (col : Fin 4096 → EReal) (s m : ℕ) (hm : m < 8) (B : EReal × EReal) (hB : B = stream col s m) :
    (if s ≤ m then step B (fun r => col (row ⟨m, hm⟩ r)) else B) = stream col s (m + 1) := by
  by_cases h1 : s ≤ m
  · rw [if_pos h1, hB, stream_succ_of_le col s m hm h1]
  · rw [if_neg h1, hB, stream_succ_of_lt col s m (by omega)]

/-- THE FOLD: after grid point n = 64 b + 8 s + t the two scratch rows hold, at key column q of the tile, the state of
    the column's stream after query tile t. By induction on the point. -/
theorem rows_stream (c : Dev nD) : ∀ (n : ℕ) (h : n < cfg1.N) (q : Fin 512),
    rowsAt (outsAt1 V c n h) q
      = stream (colN (V c main_v3_0) (V c main_v3_1) (n / 64) (512 * ((n / 8) % 8) + q.val)) ((n / 8) % 8) (n % 8 + 1) := by
  intro n
  induction n with
  | zero =>
    intro h q
    have e : outsAt1 V c 0 h = step1 V c ⟨0, h⟩ (scratch0_1 (F := Ideal)) := rfl
    rw [e, point_rows V c ⟨0, h⟩ (Nat.mod_lt _ (by decide)) _ q]
    dsimp only
    refine advance _ _ _ _ _ ?_
    rw [if_pos (show (0 : ℕ) % 8 = 0 from rfl)]
    rfl
  | succ n ih =>
    intro h q
    have hN : n + 1 < 256 := lt_of_lt_of_eq h (show cfg1.N = 256 from N_1)
    have e : outsAt1 V c (n + 1) h = step1 V c ⟨n + 1, h⟩ (outsAt1.scratchOf1 (outsAt1 V c n (Nat.lt_of_succ_lt h))) := rfl
    rw [e, point_rows V c ⟨n + 1, h⟩ (Nat.mod_lt _ (by decide)) _ q]
    dsimp only
    refine advance _ _ _ _ _ ?_
    by_cases h0 : (n + 1) % 8 = 0
    · rw [if_pos h0]
      exact ((congrArg (stream _ _) h0).trans (stream_zero _ _)).symm
    · rw [if_neg h0]
      have e64 : (n + 1) / 64 = n / 64 := by omega
      have e8 : ((n + 1) / 8) % 8 = (n / 8) % 8 := by omega
      have et : (n + 1) % 8 = n % 8 + 1 := by omega
      refine (show _ = rowsAt (outsAt1 V c n (Nat.lt_of_succ_lt h)) q from rfl).trans ((ih (Nat.lt_of_succ_lt h) q).trans ?_)
      rw [e64, e8, et]

/-- At the last query tile the two output rows are copies of the two scratch rows as the point leaves them. -/
theorem outs_rows (c : Dev nD) (t : Fin cfg1.N) (h7 : t.val % 8 = 7) (q : Fin 512) :
    ((outsAt1 V c t.val t.isLt).1 (ix3 (0 : Fin 1) (0 : Fin 1) q), (outsAt1 V c t.val t.isLt).2.1 (ix3 (0 : Fin 1) (0 : Fin 1) q))
      = rowsAt (outsAt1 V c t.val t.isLt) q := by
  have hN : t.val < 256 := lt_of_lt_of_eq t.isLt (show cfg1.N = 256 from N_1)
  have hz : t.val ≠ 0 := by omega
  have h0 : ¬t.val % 8 = 0 := by omega
  have h1 : (t.val / 8) % 8 ≤ t.val % 8 := by omega
  rw [outsAt1_pos V c t hz, step1_E V c t _ h0 h1 h7]
  unfold rowsAt
  dsimp only
  rw [cmax_E, csum_E, max_E, sum_E, k1_pay4_apply, k1_pay5_apply, k1_pay3_apply]

/-! ## The two statistics arrays -/

/-- The column maximum, as the first component of the column's stream run to the end; -/
def statMax (Q K : S4x256x4096.Idx → EReal) : S4x1x4096.Idx → EReal := fun i =>
  (stream (colN Q K (i 0).val (i 2).val) ((i 2).val / 512) 8).1
/-- and the column's sum of exponentials, as the second. -/
def statSum (Q K : S4x256x4096.Idx → EReal) : S4x1x4096.Idx → EReal := fun i =>
  (stream (colN Q K (i 0).val (i 2).val) ((i 2).val / 512) 8).2

/-- Where the two output windows' blocks sit. -/
theorem where1_out : ∀ t : Fin cfg1.N,
    win1_2.index t (0 : Fin 3) = t.val / 64 ∧ win1_2.index t (1 : Fin 3) = 0 ∧ win1_2.index t (2 : Fin 3) = (t.val / 8) % 8
    ∧ win1_3.index t (0 : Fin 3) = t.val / 64 ∧ win1_3.index t (1 : Fin 3) = 0 ∧ win1_3.index t (2 : Fin 3) = (t.val / 8) % 8 :=
  (by decide +kernel : ∀ t : Fin grid1.N,
    win1_2.index t (0 : Fin 3) = t.val / 64 ∧ win1_2.index t (1 : Fin 3) = 0 ∧ win1_2.index t (2 : Fin 3) = (t.val / 8) % 8
    ∧ win1_3.index t (0 : Fin 3) = t.val / 64 ∧ win1_3.index t (1 : Fin 3) = 0 ∧ win1_3.index t (2 : Fin 3) = (t.val / 8) % 8)

/-- Both final rows at a flushing point, entry by entry. -/
theorem final_rows (c : Dev nD) (t : Fin cfg1.N) (h7 : t.val % 8 = 7) (q : Fin 512) :
    ((outsAt1 V c t.val t.isLt).1 (ix3 (0 : Fin 1) (0 : Fin 1) q), (outsAt1 V c t.val t.isLt).2.1 (ix3 (0 : Fin 1) (0 : Fin 1) q))
      = stream (colN (V c main_v3_0) (V c main_v3_1) (t.val / 64) (512 * ((t.val / 8) % 8) + q.val)) ((t.val / 8) % 8) 8 := by
  rw [outs_rows V c t h7 q, rows_stream V c t.val t.isLt q, h7]

/-- What a flushing point writes back through window 2 is the block of the maxima array. -/
theorem flushed1_2 (c : Dev nD) (t : Fin cfg1.N) (hf : (cfg1.win 2).flush t = true) :
    (dat1 V c).flushed 2 t = ((cfg1.win 2).blk t).view.read (Elt Ideal) (statMax (V c main_v3_0) (V c main_v3_1)) := by
  have hN : t.val < 256 := lt_of_lt_of_eq t.isLt (show cfg1.N = 256 from N_1)
  have h7 : t.val % 8 = 7 := (flush1_2 t).mp hf
  obtain ⟨a0, a1, a2, b0, b1, b2⟩ := where1_out t
  show (cfg1.win 2).cut (grid1.coords t) ((dat1 V c).after 2 t) = _
  rw [after1_2]
  funext j
  obtain ⟨q, rfl⟩ : ∃ q : Fin 512, j = ix3 (0 : Fin 1) (0 : Fin 1) q :=
    ⟨⟨(j 2).val, (j 2).isLt⟩, funext fun a => Fin.ext (by
      match a with
      | ⟨0, _⟩ => have h : (j 0).val < 1 := (j 0).isLt; show (j 0).val = 0; omega
      | ⟨1, _⟩ => have h : (j 1).val < 1 := (j 1).isLt; show (j 1).val = 0; omega
      | ⟨2, _⟩ => rfl)⟩
  have hfin := final_rows V c t h7 q
  show (outsAt1 V c t.val t.isLt).1 (ix3 (0 : Fin 1) (0 : Fin 1) q)
    = statMax (V c main_v3_0) (V c main_v3_1) (((cfg1.win 2).blk t).view.emb (ix3 (0 : Fin 1) (0 : Fin 1) q))
  have e0 : ((((cfg1.win 2).blk t).view.emb (ix3 (0 : Fin 1) (0 : Fin 1) q)) 0).val = t.val / 64 := by
    show win1_2.index t (0 : Fin 3) * 1 + 1 * 0 = t.val / 64
    omega
  have e2 : ((((cfg1.win 2).blk t).view.emb (ix3 (0 : Fin 1) (0 : Fin 1) q)) 2).val = 512 * ((t.val / 8) % 8) + q.val := by
    show win1_2.index t (2 : Fin 3) * 512 + 1 * q.val = 512 * ((t.val / 8) % 8) + q.val
    omega
  unfold statMax
  rw [e0, e2, show (512 * ((t.val / 8) % 8) + q.val) / 512 = (t.val / 8) % 8 from by have := q.isLt; omega]
  exact congrArg Prod.fst hfin

/-- Every entry of the array lies in the block some flushing point writes back. -/
theorem cover1_2 (i : S4x1x4096.Idx) :
    ∃ t : Fin cfg1.N, (cfg1.win 2).flush t = true ∧ i ∈ ((cfg1.win 2).blk t).view.set := by
  have h0 : (i 0).val < 4 := (i 0).isLt
  have h1 : (i 1).val < 1 := (i 1).isLt
  have h2 : (i 2).val < 4096 := (i 2).isLt
  have hN : cfg1.N = 256 := N_1
  let t : Fin cfg1.N := ⟨64 * (i 0).val + 8 * ((i 2).val / 512) + 7, by omega⟩
  have hv : t.val = 64 * (i 0).val + 8 * ((i 2).val / 512) + 7 := rfl
  obtain ⟨a0, a1, a2, b0, b1, b2⟩ := where1_out t
  refine ⟨t, (flush1_2 t).mpr (by omega), ?_⟩
  show i ∈ ((View.whole main_v4_0).slice (win1_2.rect t)).set
  rw [View.set_slice_whole, Rect.mem_set_unit]
  intro a
  match a with
  | ⟨0, _⟩ =>
    show win1_2.index t (0 : Fin 3) * win1_2.size 0 ≤ (i 0 : Nat) ∧ (i 0 : Nat) < win1_2.index t (0 : Fin 3) * win1_2.size 0 + win1_2.xsize (grid1.coords t) 0
    rw [show win1_2.size 0 = 1 from rfl, show win1_2.xsize (grid1.coords t) 0 = 1 from rfl]; omega
  | ⟨1, _⟩ =>
    show win1_2.index t (1 : Fin 3) * win1_2.size 1 ≤ (i 1 : Nat) ∧ (i 1 : Nat) < win1_2.index t (1 : Fin 3) * win1_2.size 1 + win1_2.xsize (grid1.coords t) 1
    rw [show win1_2.size 1 = 1 from rfl, show win1_2.xsize (grid1.coords t) 1 = 1 from rfl]; omega
  | ⟨2, _⟩ =>
    show win1_2.index t (2 : Fin 3) * win1_2.size 2 ≤ (i 2 : Nat) ∧ (i 2 : Nat) < win1_2.index t (2 : Fin 3) * win1_2.size 2 + win1_2.xsize (grid1.coords t) 2
    rw [show win1_2.size 2 = 512 from rfl, show win1_2.xsize (grid1.coords t) 2 = 512 from rfl]; omega

/-- So the array ends holding the column maxima. -/
theorem max_array (c : Dev nD) : (dat1 V c).arrAt 2 cfg1.N = statMax (V c main_v3_0) (V c main_v3_1) :=
  (dat1 V c).arrAt_eq_of_cover 2 (statMax (V c main_v3_0) (V c main_v3_1)) (flushed1_2 V c) cover1_2

/-- What a flushing point writes back through window 3 is the block of the sums array. -/
theorem flushed1_3 (c : Dev nD) (t : Fin cfg1.N) (hf : (cfg1.win 3).flush t = true) :
    (dat1 V c).flushed 3 t = ((cfg1.win 3).blk t).view.read (Elt Ideal) (statSum (V c main_v3_0) (V c main_v3_1)) := by
  have hN : t.val < 256 := lt_of_lt_of_eq t.isLt (show cfg1.N = 256 from N_1)
  have h7 : t.val % 8 = 7 := (flush1_3 t).mp hf
  obtain ⟨a0, a1, a2, b0, b1, b2⟩ := where1_out t
  show (cfg1.win 3).cut (grid1.coords t) ((dat1 V c).after 3 t) = _
  rw [after1_3]
  funext j
  obtain ⟨q, rfl⟩ : ∃ q : Fin 512, j = ix3 (0 : Fin 1) (0 : Fin 1) q :=
    ⟨⟨(j 2).val, (j 2).isLt⟩, funext fun a => Fin.ext (by
      match a with
      | ⟨0, _⟩ => have h : (j 0).val < 1 := (j 0).isLt; show (j 0).val = 0; omega
      | ⟨1, _⟩ => have h : (j 1).val < 1 := (j 1).isLt; show (j 1).val = 0; omega
      | ⟨2, _⟩ => rfl)⟩
  have hfin := final_rows V c t h7 q
  show (outsAt1 V c t.val t.isLt).2.1 (ix3 (0 : Fin 1) (0 : Fin 1) q)
    = statSum (V c main_v3_0) (V c main_v3_1) (((cfg1.win 3).blk t).view.emb (ix3 (0 : Fin 1) (0 : Fin 1) q))
  have e0 : ((((cfg1.win 3).blk t).view.emb (ix3 (0 : Fin 1) (0 : Fin 1) q)) 0).val = t.val / 64 := by
    show win1_3.index t (0 : Fin 3) * 1 + 1 * 0 = t.val / 64
    omega
  have e2 : ((((cfg1.win 3).blk t).view.emb (ix3 (0 : Fin 1) (0 : Fin 1) q)) 2).val = 512 * ((t.val / 8) % 8) + q.val := by
    show win1_3.index t (2 : Fin 3) * 512 + 1 * q.val = 512 * ((t.val / 8) % 8) + q.val
    omega
  unfold statSum
  rw [e0, e2, show (512 * ((t.val / 8) % 8) + q.val) / 512 = (t.val / 8) % 8 from by have := q.isLt; omega]
  exact congrArg Prod.snd hfin

/-- Every entry of the array lies in the block some flushing point writes back. -/
theorem cover1_3 (i : S4x1x4096.Idx) :
    ∃ t : Fin cfg1.N, (cfg1.win 3).flush t = true ∧ i ∈ ((cfg1.win 3).blk t).view.set := by
  have h0 : (i 0).val < 4 := (i 0).isLt
  have h1 : (i 1).val < 1 := (i 1).isLt
  have h2 : (i 2).val < 4096 := (i 2).isLt
  have hN : cfg1.N = 256 := N_1
  let t : Fin cfg1.N := ⟨64 * (i 0).val + 8 * ((i 2).val / 512) + 7, by omega⟩
  have hv : t.val = 64 * (i 0).val + 8 * ((i 2).val / 512) + 7 := rfl
  obtain ⟨a0, a1, a2, b0, b1, b2⟩ := where1_out t
  refine ⟨t, (flush1_3 t).mpr (by omega), ?_⟩
  show i ∈ ((View.whole main_v4_1).slice (win1_3.rect t)).set
  rw [View.set_slice_whole, Rect.mem_set_unit]
  intro a
  match a with
  | ⟨0, _⟩ =>
    show win1_3.index t (0 : Fin 3) * win1_3.size 0 ≤ (i 0 : Nat) ∧ (i 0 : Nat) < win1_3.index t (0 : Fin 3) * win1_3.size 0 + win1_3.xsize (grid1.coords t) 0
    rw [show win1_3.size 0 = 1 from rfl, show win1_3.xsize (grid1.coords t) 0 = 1 from rfl]; omega
  | ⟨1, _⟩ =>
    show win1_3.index t (1 : Fin 3) * win1_3.size 1 ≤ (i 1 : Nat) ∧ (i 1 : Nat) < win1_3.index t (1 : Fin 3) * win1_3.size 1 + win1_3.xsize (grid1.coords t) 1
    rw [show win1_3.size 1 = 1 from rfl, show win1_3.xsize (grid1.coords t) 1 = 1 from rfl]; omega
  | ⟨2, _⟩ =>
    show win1_3.index t (2 : Fin 3) * win1_3.size 2 ≤ (i 2 : Nat) ∧ (i 2 : Nat) < win1_3.index t (2 : Fin 3) * win1_3.size 2 + win1_3.xsize (grid1.coords t) 2
    rw [show win1_3.size 2 = 512 from rfl, show win1_3.xsize (grid1.coords t) 2 = 512 from rfl]; omega

/-- So the array ends holding the column sums. -/
theorem sum_array (c : Dev nD) : (dat1 V c).arrAt 3 cfg1.N = statSum (V c main_v3_0) (V c main_v3_1) :=
  (dat1 V c).arrAt_eq_of_cover 3 (statSum (V c main_v3_0) (V c main_v3_1)) (flushed1_3 V c) cover1_3

end Cert.KernelIdeal.Frames
end
-- ==== Proof.SpecColumn.lean ====
/-
  What the specification's intermediates are when the inputs are real numbers. The projections and the raw scores are
  real (finite sums of products of reals). A score on or below the diagonal (key not later than query) is real: the
  raw score times 1/16; a score above the diagonal is -∞. So every column has a real entry (its diagonal one) and no
  +∞ entry: its maximum is real, its sum of exponentials a real number ≥ 1, every weight real, and the weights above
  the diagonal are 0. The division by the column sum is the product with its reciprocal. The running pair over the
  eight tiles of queries, skipping the tiles that lie wholly above the diagonal, ends at (column maximum, column sum).
-/
import proofs.«130694_j5669356831785_2_alg».proof.Proof.Spec
import proofs.«130694_j5669356831785_2_alg».proof.Proof.ColumnTiles

noncomputable section

open scoped BigOperators

namespace Cert.Spec

open Idealize.ShloMosaic Idealize.ShloMosaic.ValueIdx Cert.ColumnSoftmax

/-- A projection of real inputs is real. -/
theorem proj_real (x : SX.Idx → EReal) (W : SW.Idx → EReal) (bias : SB.Idx → EReal)
    (hx : ∀ i, ∃ r : ℝ, x i = (r : EReal)) (hW : ∀ i, ∃ r : ℝ, W i = (r : EReal)) (hb : ∀ i, ∃ r : ℝ, bias i = (r : EReal))
    (b : Fin 4) (t : Fin 4096) (k : Fin 256) : ∃ r : ℝ, proj x W bias b t k = (r : EReal) := by
  choose xr hxr using hx
  choose Wr hWr using hW
  choose br hbr using hb
  refine ⟨(∑ c : Fin 256, xr (ix3 b c t) * Wr (ix2 k c)) + br (ix1 k), ?_⟩
  unfold proj
  rw [EReal.coe_add, coe_sum, hbr]
  refine congrArg (· + _) (Finset.sum_congr rfl fun c _ => ?_)
  rw [hxr, hWr, EReal.coe_mul]

section
variable (x : SX.Idx → EReal) (Wq : SW.Idx → EReal) (bq : SB.Idx → EReal) (Wk : SW.Idx → EReal) (bk : SB.Idx → EReal)
  (Wv : SW.Idx → EReal) (bv : SB.Idx → EReal)

/-! ## Without any hypothesis: the two cases of the mask -/

/-- On or below the diagonal the score is the raw score over 16 … -/
theorem sc_of_le (b : Fin 4) {t s : Fin 4096} (h : s ≤ t) :
    sc x Wq bq Wk bk b t s = Ideal.div (dot x Wq bq Wk bk b t s) sixteen := by
  unfold sc; rw [if_pos h]

/-- … which is the raw score times the word of 1/16 … -/
theorem sc_of_le_mul (b : Fin 4) {t s : Fin 4096} (h : s ≤ t) :
    sc x Wq bq Wk bk b t s = dot x Wq bq Wk bk b t s * Ideal.ofBits .f32 0x3D800000#32 := by
  rw [sc_of_le x Wq bq Wk bk b h]; exact (mul_sixteenth _).symm

/-- … and above the diagonal it is -∞. -/
theorem sc_of_lt (b : Fin 4) {t s : Fin 4096} (h : t < s) : sc x Wq bq Wk bk b t s = ⊥ := by
  unfold sc; rw [if_neg (not_le.mpr h), negInf_eq]; exact bot_div_sixteen

/-! ## Under real inputs -/

variable (hx : ∀ i, ∃ r : ℝ, x i = (r : EReal)) (hWq : ∀ i, ∃ r : ℝ, Wq i = (r : EReal)) (hbq : ∀ i, ∃ r : ℝ, bq i = (r : EReal))
  (hWk : ∀ i, ∃ r : ℝ, Wk i = (r : EReal)) (hbk : ∀ i, ∃ r : ℝ, bk i = (r : EReal))
  (hWv : ∀ i, ∃ r : ℝ, Wv i = (r : EReal)) (hbv : ∀ i, ∃ r : ℝ, bv i = (r : EReal))

include hx hWq hbq in
theorem q_real (b : Fin 4) (t : Fin 4096) (k : Fin 256) : ∃ r : ℝ, q x Wq bq b t k = (r : EReal) :=
  proj_real x Wq bq hx hWq hbq b t k

include hx hWk hbk in
theorem kk_real (b : Fin 4) (s : Fin 4096) (k : Fin 256) : ∃ r : ℝ, kk x Wk bk b s k = (r : EReal) :=
  proj_real x Wk bk hx hWk hbk b s k

include hx hWv hbv in
theorem v_real (b : Fin 4) (s : Fin 4096) (j : Fin 256) : ∃ r : ℝ, v x Wv bv b s j = (r : EReal) :=
  proj_real x Wv bv hx hWv hbv b s j

include hx hWq hbq hWk hbk

/-- The raw scores are real. -/
theorem dot_real (b : Fin 4) (t s : Fin 4096) : ∃ r : ℝ, dot x Wq bq Wk bk b t s = (r : EReal) := by
  choose qr hq using fun k => q_real x Wq bq hx hWq hbq b t k
  choose kr hk using fun k => kk_real x Wk bk hx hWk hbk b s k
  refine ⟨∑ k : Fin 256, qr k * kr k, ?_⟩
  unfold dot
  rw [coe_sum]
  refine Finset.sum_congr rfl fun k _ => ?_
  rw [hq, hk, EReal.coe_mul]

/-- A score on or below the diagonal is real. -/
theorem sc_real_of_le (b : Fin 4) {t s : Fin 4096} (h : s ≤ t) : ∃ r : ℝ, sc x Wq bq Wk bk b t s = (r : EReal) := by
  obtain ⟨d, hd⟩ := dot_real x Wq bq Wk bk hx hWq hbq hWk hbk b t s
  exact ⟨d * (1 / 16), by rw [sc_of_le x Wq bq Wk bk b h, hd]; exact coe_div_sixteen d⟩

/-- No score is +∞. -/
theorem sc_ne_top (b : Fin 4) (t s : Fin 4096) : sc x Wq bq Wk bk b t s ≠ ⊤ := by
  by_cases h : s ≤ t
  · obtain ⟨r, hr⟩ := sc_real_of_le x Wq bq Wk bk hx hWq hbq hWk hbk b h
    rw [hr]; exact EReal.coe_ne_top r
  · rw [sc_of_lt x Wq bq Wk bk b (not_le.mp h)]; exact bot_ne_top

/-- A column's maximum is real: its diagonal entry is. -/
theorem colMax_real (b : Fin 4) (s : Fin 4096) : ∃ m : ℝ, colMax x Wq bq Wk bk b s = (m : EReal) := by
  obtain ⟨r, hr⟩ := sc_real_of_le x Wq bq Wk bk hx hWq hbq hWk hbk b (le_refl s)
  exact sup_real Finset.univ (fun t => sc x Wq bq Wk bk b t s)
    (fun t _ => sc_ne_top x Wq bq Wk bk hx hWq hbq hWk hbk b t s) s (Finset.mem_univ s)
    (by show sc x Wq bq Wk bk b s s ≠ ⊥; rw [hr]; exact EReal.coe_ne_bot r)

/-- A column's sum is a real number, at least 1. -/
theorem colSum_real (b : Fin 4) (s : Fin 4096) : ∃ z : ℝ, 1 ≤ z ∧ colSum x Wq bq Wk bk b s = (z : EReal) := by
  obtain ⟨m, hm⟩ := colMax_real x Wq bq Wk bk hx hWq hbq hWk hbk b s
  obtain ⟨z, hz1, hz⟩ := sum_real_ge_one Finset.univ (fun t => sc x Wq bq Wk bk b t s)
    (fun t _ => sc_ne_top x Wq bq Wk bk hx hWq hbq hWk hbk b t s) m hm
  refine ⟨z, hz1, ?_⟩
  unfold colSum e
  rw [hm]
  exact hz

/-- An exponential below the column maximum is a nonnegative real. -/
theorem e_real (b : Fin 4) (t s : Fin 4096) : ∃ r : ℝ, 0 ≤ r ∧ e x Wq bq Wk bk b t s = (r : EReal) := by
  obtain ⟨m, hm⟩ := colMax_real x Wq bq Wk bk hx hWq hbq hWk hbk b s
  unfold e
  rw [hm]
  by_cases h : s ≤ t
  · obtain ⟨r, hr⟩ := sc_real_of_le x Wq bq Wk bk hx hWq hbq hWk hbk b h
    exact ⟨Real.exp (r - m), (Real.exp_pos _).le, by rw [hr, ← EReal.coe_sub, Ideal.exp_coe]⟩
  · exact ⟨0, le_refl 0, by rw [sc_of_lt x Wq bq Wk bk b (not_le.mp h), exp_bot_sub]; rfl⟩

/-- The quotient by the column sum is the product with its reciprocal. -/
theorem weightsAt_eq_mul (b : Fin 4) (t s : Fin 4096) :
    weightsAt x Wq bq Wk bk b t s = e x Wq bq Wk bk b t s * Ideal.div 1 (colSum x Wq bq Wk bk b s) := by
  obtain ⟨z, hz1, hz⟩ := colSum_real x Wq bq Wk bk hx hWq hbq hWk hbk b s
  unfold weightsAt
  rw [hz]
  exact (mul_one_div (by linarith) _).symm

/-- Every weight is a real number. -/
theorem weightsAt_real (b : Fin 4) (t s : Fin 4096) : ∃ r : ℝ, weightsAt x Wq bq Wk bk b t s = (r : EReal) := by
  obtain ⟨z, hz1, hz⟩ := colSum_real x Wq bq Wk bk hx hWq hbq hWk hbk b s
  obtain ⟨r, _, hr⟩ := e_real x Wq bq Wk bk hx hWq hbq hWk hbk b t s
  refine ⟨r * (1 / z), ?_⟩
  unfold weightsAt
  rw [hz, hr, Ideal.div_coe (by linarith), EReal.coe_mul]

/-- Above the diagonal the weight is 0. -/
theorem weightsAt_of_lt (b : Fin 4) {t s : Fin 4096} (h : t < s) : weightsAt x Wq bq Wk bk b t s = 0 := by
  obtain ⟨z, hz1, hz⟩ := colSum_real x Wq bq Wk bk hx hWq hbq hWk hbk b s
  unfold weightsAt e
  rw [hz, sc_of_lt x Wq bq Wk bk b h]
  exact masked_weight_div (by linarith) _

/-- The running pair over the eight tiles of queries for key `s`, skipping the tiles before the key's own, ends at the
    column's maximum and sum. -/
theorem stream_spec (b : Fin 4) (s : Fin 4096) :
    stream (fun t => sc x Wq bq Wk bk b t s) (s.val / 512) 8 = (colMax x Wq bq Wk bk b s, colSum x Wq bq Wk bk b s) := by
  rw [stream_final _ (fun t => sc_ne_top x Wq bq Wk bk hx hWq hbq hWk hbk b t s) _ (fun t ht =>
    sc_of_lt x Wq bq Wk bk b (Fin.lt_def.mpr (by omega)))]
  rfl

end

end Cert.Spec

end
-- ==== Proof.KI.Bridge.lean ====
/-
  From the regions' values to the specification.

  The boundary contents of the run chain the three regions: the projection region's three result arrays are the
  inputs of the statistics region, whose two result arrays join them as inputs of the output region. Read at the
  launch memory's seven arguments x, Wq, bq, Wk, bk, Wv, bv, each array is the corresponding quantity of the
  specification: q, k, v (feature-major); the column maxima and column sums of the masked scaled scores; and finally
  the attention weights and the attention output.
-/
import proofs.«130694_j5669356831785_2_alg».proof.Proof.KI.Run
import proofs.«130694_j5669356831785_2_alg».proof.Proof.KI.Value0
import proofs.«130694_j5669356831785_2_alg».proof.Proof.KI.Value1
import proofs.«130694_j5669356831785_2_alg».proof.Proof.SpecColumn
import Idealize.ShloMosaic.Lib.StableHlo.Run

set_option maxRecDepth 16384
noncomputable section
namespace Cert.KernelIdeal.Frames
open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx Cert.ColumnSoftmax Cert.KernelIdeal.Pay

variable (m : (ℓ : Loc nD τ sig) → Buf (Elt Ideal) ℓ)

/-! ## The seven arguments, on a device -/

abbrev aX (c : Dev nD) : S4x256x4096.Idx → EReal := m ((c : Thread nD τ).loc main_arg0)
abbrev aWq (c : Dev nD) : S256x256.Idx → EReal := m ((c : Thread nD τ).loc main_arg1)
abbrev aBq (c : Dev nD) : S256.Idx → EReal := m ((c : Thread nD τ).loc main_arg2)
abbrev aWk (c : Dev nD) : S256x256.Idx → EReal := m ((c : Thread nD τ).loc main_arg3)
abbrev aBk (c : Dev nD) : S256.Idx → EReal := m ((c : Thread nD τ).loc main_arg4)
abbrev aWv (c : Dev nD) : S256x256.Idx → EReal := m ((c : Thread nD τ).loc main_arg5)
abbrev aBv (c : Dev nD) : S256.Idx → EReal := m ((c : Thread nD τ).loc main_arg6)

/-! ## Before the first region: the bias vectors as columns -/

theorem col_bq (c : Dev nD) : (V1 m c main_v0 : S256x1.Idx → EReal) = shapeCast S256x1 (aBq m c) shapeCasts_S256_S256x1 := by
  show StableHlo.after hostOps0 (fun b => m (c, b)) (Proc.devRef .tc main_v0) = _
  after_results
  rfl
theorem col_bk (c : Dev nD) : (V1 m c main_v1 : S256x1.Idx → EReal) = shapeCast S256x1 (aBk m c) shapeCasts_S256_S256x1 := by
  show StableHlo.after hostOps0 (fun b => m (c, b)) (Proc.devRef .tc main_v1) = _
  after_results
  rfl
theorem col_bv (c : Dev nD) : (V1 m c main_v2 : S256x1.Idx → EReal) = shapeCast S256x1 (aBv m c) shapeCasts_S256_S256x1 := by
  show StableHlo.after hostOps0 (fun b => m (c, b)) (Proc.devRef .tc main_v2) = _
  after_results
  rfl

/-! ## After the projection region: q, k, v -/

theorem q_is (c : Dev nD) (i : S4x256x4096.Idx) :
    V2 m c main_v3_0 i = Cert.Spec.q (aX m c) (aWq m c) (aBq m c) ⟨(i 0).val, (i 0).isLt⟩ ⟨(i 2).val, (i 2).isLt⟩ ⟨(i 1).val, (i 1).isLt⟩ := by
  have h : V2 m c main_v3_0 = (dat0 (V1 m) c).arrAt 7 cfg0.N := W2_arr m c 7
  rw [h, q_array]
  rw [show V1 m c main_arg0 = aX m c from W1_arg m c main_arg0 (by decide), show V1 m c main_arg1 = aWq m c from W1_arg m c main_arg1 (by decide), col_bq]
  exact projT_eq_proj _ _ _ (aBq m c) (fun k => reshape_col_apply _ _ k) i
theorem k_is (c : Dev nD) (i : S4x256x4096.Idx) :
    V2 m c main_v3_1 i = Cert.Spec.kk (aX m c) (aWk m c) (aBk m c) ⟨(i 0).val, (i 0).isLt⟩ ⟨(i 2).val, (i 2).isLt⟩ ⟨(i 1).val, (i 1).isLt⟩ := by
  have h : V2 m c main_v3_1 = (dat0 (V1 m) c).arrAt 8 cfg0.N := W2_arr m c 8
  rw [h, k_array]
  rw [show V1 m c main_arg0 = aX m c from W1_arg m c main_arg0 (by decide), show V1 m c main_arg3 = aWk m c from W1_arg m c main_arg3 (by decide), col_bk]
  exact projT_eq_proj _ _ _ (aBk m c) (fun k => reshape_col_apply _ _ k) i
theorem v_is (c : Dev nD) (i : S4x256x4096.Idx) :
    V2 m c main_v3_2 i = Cert.Spec.v (aX m c) (aWv m c) (aBv m c) ⟨(i 0).val, (i 0).isLt⟩ ⟨(i 2).val, (i 2).isLt⟩ ⟨(i 1).val, (i 1).isLt⟩ := by
  have h : V2 m c main_v3_2 = (dat0 (V1 m) c).arrAt 9 cfg0.N := W2_arr m c 9
  rw [h, v_array]
  rw [show V1 m c main_arg0 = aX m c from W1_arg m c main_arg0 (by decide), show V1 m c main_arg5 = aWv m c from W1_arg m c main_arg5 (by decide), col_bv]
  exact projT_eq_proj _ _ _ (aBv m c) (fun k => reshape_col_apply _ _ k) i

/-! ## The same, at a named entry -/

theorem q_at (c : Dev nD) (b : Fin 4) (k : Fin 256) (T : Fin 4096) :
    V2 m c main_v3_0 (at3 b.val k T.val) = Cert.Spec.q (aX m c) (aWq m c) (aBq m c) b T k := by
  rw [q_is]
  have e0 : (⟨(at3 b.val k T.val 0).val, (at3 b.val k T.val 0).isLt⟩ : Fin 4) = b := Fin.ext (Nat.mod_eq_of_lt b.isLt)
  have e2 : (⟨(at3 b.val k T.val 2).val, (at3 b.val k T.val 2).isLt⟩ : Fin 4096) = T := Fin.ext (Nat.mod_eq_of_lt T.isLt)
  have e1 : (⟨(at3 b.val k T.val 1).val, (at3 b.val k T.val 1).isLt⟩ : Fin 256) = k := Fin.ext rfl
  rw [e0, e1, e2]
theorem k_at (c : Dev nD) (b : Fin 4) (k : Fin 256) (T : Fin 4096) :
    V2 m c main_v3_1 (at3 b.val k T.val) = Cert.Spec.kk (aX m c) (aWk m c) (aBk m c) b T k := by
  rw [k_is]
  have e0 : (⟨(at3 b.val k T.val 0).val, (at3 b.val k T.val 0).isLt⟩ : Fin 4) = b := Fin.ext (Nat.mod_eq_of_lt b.isLt)
  have e2 : (⟨(at3 b.val k T.val 2).val, (at3 b.val k T.val 2).isLt⟩ : Fin 4096) = T := Fin.ext (Nat.mod_eq_of_lt T.isLt)
  have e1 : (⟨(at3 b.val k T.val 1).val, (at3 b.val k T.val 1).isLt⟩ : Fin 256) = k := Fin.ext rfl
  rw [e0, e1, e2]

/-! ## After the statistics region: column maxima and sums -/

/-- With q and k the specification's, the scores down a key column are the specification's masked scaled scores. -/
theorem colN_is (c : Dev nD) (b : Fin 4) (S : Fin 4096) :
    colN (V2 m c main_v3_0) (V2 m c main_v3_1) b.val S.val
      = fun T => Cert.Spec.sc (aX m c) (aWq m c) (aBq m c) (aWk m c) (aBk m c) b T S := by
  funext T
  unfold colN
  by_cases h : S.val ≤ T.val
  · rw [if_pos h, Cert.Spec.sc_of_le_mul _ _ _ _ _ b (Fin.le_def.mpr h)]
    unfold Cert.Spec.dot
    refine congrArg (· * _) (Finset.sum_congr rfl fun k _ => ?_)
    rw [q_at, k_at]
  · rw [if_neg h, Cert.Spec.sc_of_lt _ _ _ _ _ b (Fin.lt_def.mpr (by omega))]

section
variable (c : Dev nD)
  (hx : ∀ i, ∃ r : ℝ, aX m c i = (r : EReal)) (hWq : ∀ i, ∃ r : ℝ, aWq m c i = (r : EReal)) (hbq : ∀ i, ∃ r : ℝ, aBq m c i = (r : EReal))
  (hWk : ∀ i, ∃ r : ℝ, aWk m c i = (r : EReal)) (hbk : ∀ i, ∃ r : ℝ, aBk m c i = (r : EReal))
include hx hWq hbq hWk hbk

theorem stats_is (i : S4x1x4096.Idx) :
    (V3 m c main_v4_0 i, V3 m c main_v4_1 i)
      = (Cert.Spec.colMax (aX m c) (aWq m c) (aBq m c) (aWk m c) (aBk m c) ⟨(i 0).val, (i 0).isLt⟩ ⟨(i 2).val, (i 2).isLt⟩,
         Cert.Spec.colSum (aX m c) (aWq m c) (aBq m c) (aWk m c) (aBk m c) ⟨(i 0).val, (i 0).isLt⟩ ⟨(i 2).val, (i 2).isLt⟩) := by
  have h2 : V3 m c main_v4_0 = (dat1 (V2 m) c).arrAt 2 cfg1.N := W3_arr m c 2
  have h3 : V3 m c main_v4_1 = (dat1 (V2 m) c).arrAt 3 cfg1.N := W3_arr m c 3
  rw [h2, h3, max_array, sum_array]
  unfold statMax statSum
  have hc := colN_is m c ⟨(i 0).val, (i 0).isLt⟩ ⟨(i 2).val, (i 2).isLt⟩
  have hs := Cert.Spec.stream_spec (aX m c) (aWq m c) (aBq m c) (aWk m c) (aBk m c) hx hWq hbq hWk hbk ⟨(i 0).val, (i 0).isLt⟩ ⟨(i 2).val, (i 2).isLt⟩
  rw [← hc] at hs
  exact Prod.mk.eta.trans hs

end

end Cert.KernelIdeal.Frames
end
-- ==== Proof.KI.Value2a.lean ====
/-
  What each way through the output body leaves, read back as the body's own arithmetic. Every buffer the body writes
  is written last by one store of a whole block, so it ends holding that store's value: the weights block is the tile of
  normalised weights where the key tile meets the query tile's rows and a block of zeros where it does not; the
  accumulator is (zero at the first key tile, else what it held) plus the values tile times the weight tile; and at the
  last key tile the output block is the accumulator under a leading unit axis. A load of the accumulator after a store of
  the same point reads that store.
-/
import proofs.«130694_j5669356831785_2_alg».proof.Proof.KI.Region2
import Idealize.ShloMosaic.Lib.Pipeline.Value

set_option maxRecDepth 16384
noncomputable section
namespace Cert.KernelIdeal.Frames
open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F] [Named F]

private theorem hz2 : (![0, 0] : Fin 2 → Nat) = fun _ => 0 := funext fun a => by fin_cases a <;> rfl
private theorem hz3 : (![0, 0, 0] : Fin 3 → Nat) = fun _ => 0 := funext fun a => by fin_cases a <;> rfl

set_option maxHeartbeats 4000000 in
/-- First key tile: the weights block stored is the weight tile of the point's blocks. -/
theorem w_P (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) :
    out2_P_6 c i arg3 harg3 arg4 harg4 arg5 harg5 arg6 harg6 arg7 harg7 arg8 harg8 arg9 harg9 arg10 harg10 hc0 hc1 hc2 hc3 x0 x1 x2 x3 x4 = k2_pay7 (BitVec.ofNat 32 (i 1).val) (BitVec.ofNat 32 (i 2).val) x0 x1 x3 x4 := by
  unfold out2_P_6
  rw [View.read_writes_eq_canon _ _ _ (cover2_P_6 c i arg3 harg3 arg4 harg4 arg5 harg5 arg6 harg6 arg7 harg7 arg8 harg8 arg9 harg9 arg10 harg10 hc0 hc1 hc2 hc3 x0 x1 x2 x3 x4)]
  unfold pieces2_P
  dsimp only
  sl_unfold_words
  rw [View.canon_unit_zero hz3]
  try simp only [View.readCov_unit_zero (S := S256x1024) _ hz2, View.readAt_eq_ld, harg3.read_unread, harg4.read_unread,
    harg5.read_unread, harg6.read_unread, harg7.read_unread, harg10.read_unread, View.ld_unit_zero (S := S1x256x1024) hz3,
    View.ld_unit_zero (S := S1x256x512) hz3, View.ld_unit_zero (S := S1x1x512) hz3, View.ld_unit_zero (S := S256x1024) hz2]

set_option maxHeartbeats 4000000 in
/-- First key tile: the accumulator is cleared and then takes the values tile times the weight tile. -/
theorem acc_P (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) :
    sout2_P_0 c i arg3 harg3 arg4 harg4 arg5 harg5 arg6 harg6 arg7 harg7 arg8 harg8 arg9 harg9 arg10 harg10 hc0 hc1 hc2 hc3 x0 x1 x2 x3 x4 = k2_pay2 (k2_pay5 x2) (k2_pay8 (BitVec.ofNat 32 (i 1).val) (BitVec.ofNat 32 (i 2).val) x0 x1 x3 x4) k2_pay1 := by
  unfold sout2_P_0
  rw [View.read_writes_eq_canon _ _ _ (scover2_P_0 c i arg3 harg3 arg4 harg4 arg5 harg5 arg6 harg6 arg7 harg7 arg8 harg8 arg9 harg9 arg10 harg10 hc0 hc1 hc2 hc3 x0 x1 x2 x3 x4)]
  unfold pieces2_P
  dsimp only
  sl_unfold_words
  rw [View.canon_cons_unit_zero (S := S256x1024) hz2]
  try simp only [View.readCov_unit_zero (S := S256x1024) _ hz2, View.readAt_eq_ld, harg3.read_unread, harg4.read_unread,
    harg5.read_unread, harg6.read_unread, harg7.read_unread, harg10.read_unread, View.ld_unit_zero (S := S1x256x1024) hz3,
    View.ld_unit_zero (S := S1x256x512) hz3, View.ld_unit_zero (S := S1x1x512) hz3, View.ld_unit_zero (S := S256x1024) hz2]

set_option maxHeartbeats 4000000 in
/-- A later key tile that meets the query tile: the weights block stored is the weight tile. -/
theorem w_Q (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    out2_Q_6 c i arg3 harg3 arg4 harg4 arg5 harg5 arg6 harg6 arg7 harg7 arg8 harg8 arg9 harg9 arg10 harg10 hc0 hc1 hc2 hc3 x0 x1 x2 x3 x4 xs0 = k2_pay7 (BitVec.ofNat 32 (i 1).val) (BitVec.ofNat 32 (i 2).val) x0 x1 x3 x4 := by
  unfold out2_Q_6
  rw [View.read_writes_eq_canon _ _ _ (cover2_Q_6 c i arg3 harg3 arg4 harg4 arg5 harg5 arg6 harg6 arg7 harg7 arg8 harg8 arg9 harg9 arg10 harg10 hc0 hc1 hc2 hc3 x0 x1 x2 x3 x4 xs0)]
  unfold pieces2_Q
  dsimp only
  sl_unfold_words
  rw [View.canon_unit_zero hz3]
  try simp only [View.readCov_unit_zero (S := S256x1024) _ hz2, View.readAt_eq_ld, harg3.read_unread, harg4.read_unread,
    harg5.read_unread, harg6.read_unread, harg7.read_unread, harg10.read_unread, View.ld_unit_zero (S := S1x256x1024) hz3,
    View.ld_unit_zero (S := S1x256x512) hz3, View.ld_unit_zero (S := S1x1x512) hz3, View.ld_unit_zero (S := S256x1024) hz2]

set_option maxHeartbeats 4000000 in
/-- … and the accumulator adds the values tile times the weight tile to what it held. -/
theorem acc_Q (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    sout2_Q_0 c i arg3 harg3 arg4 harg4 arg5 harg5 arg6 harg6 arg7 harg7 arg8 harg8 arg9 harg9 arg10 harg10 hc0 hc1 hc2 hc3 x0 x1 x2 x3 x4 xs0 = k2_pay2 (k2_pay5 x2) (k2_pay8 (BitVec.ofNat 32 (i 1).val) (BitVec.ofNat 32 (i 2).val) x0 x1 x3 x4) xs0 := by
  unfold sout2_Q_0
  rw [View.read_writes_eq_canon _ _ _ (scover2_Q_0 c i arg3 harg3 arg4 harg4 arg5 harg5 arg6 harg6 arg7 harg7 arg8 harg8 arg9 harg9 arg10 harg10 hc0 hc1 hc2 hc3 x0 x1 x2 x3 x4 xs0)]
  unfold pieces2_Q
  dsimp only
  sl_unfold_words
  rw [View.canon_unit_zero hz2]
  try simp only [View.readCov_unit_zero (S := S256x1024) _ hz2, View.readAt_eq_ld, harg3.read_unread, harg4.read_unread,
    harg5.read_unread, harg6.read_unread, harg7.read_unread, harg10.read_unread, View.ld_unit_zero (S := S1x256x1024) hz3,
    View.ld_unit_zero (S := S1x256x512) hz3, View.ld_unit_zero (S := S1x1x512) hz3, View.ld_unit_zero (S := S256x1024) hz2]

set_option maxHeartbeats 4000000 in
/-- A key tile wholly above the query tile's rows: the weights block stored is zero. -/
theorem w_R (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : ¬cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    out2_R_6 c i arg3 harg3 arg4 harg4 arg5 harg5 arg6 harg6 arg7 harg7 arg8 harg8 arg9 harg9 arg10 harg10 hc0 hc1 hc2 hc3 x0 x1 x2 x3 x4 xs0 = k2_pay3 := by
  unfold out2_R_6
  rw [View.read_writes_eq_canon _ _ _ (cover2_R_6 c i arg3 harg3 arg4 harg4 arg5 harg5 arg6 harg6 arg7 harg7 arg8 harg8 arg9 harg9 arg10 harg10 hc0 hc1 hc2 hc3 x0 x1 x2 x3 x4 xs0)]
  unfold pieces2_R
  dsimp only
  sl_unfold_words
  rw [View.canon_unit_zero hz3]
  try simp only [View.readCov_unit_zero (S := S256x1024) _ hz2, View.readAt_eq_ld, harg3.read_unread, harg4.read_unread,
    harg5.read_unread, harg6.read_unread, harg7.read_unread, harg10.read_unread, View.ld_unit_zero (S := S1x256x1024) hz3,
    View.ld_unit_zero (S := S1x256x512) hz3, View.ld_unit_zero (S := S1x1x512) hz3, View.ld_unit_zero (S := S256x1024) hz2]

set_option maxHeartbeats 4000000 in
/-- The last key tile, meeting the query tile: the weights block stored is the weight tile, -/
theorem w_S (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    out2_S_6 c i arg3 harg3 arg4 harg4 arg5 harg5 arg6 harg6 arg7 harg7 arg8 harg8 arg9 harg9 arg10 harg10 hc0 hc1 hc2 hc3 x0 x1 x2 x3 x4 xs0 = k2_pay7 (BitVec.ofNat 32 (i 1).val) (BitVec.ofNat 32 (i 2).val) x0 x1 x3 x4 := by
  unfold out2_S_6
  rw [View.read_writes_eq_canon _ _ _ (cover2_S_6 c i arg3 harg3 arg4 harg4 arg5 harg5 arg6 harg6 arg7 harg7 arg8 harg8 arg9 harg9 arg10 harg10 hc0 hc1 hc2 hc3 x0 x1 x2 x3 x4 xs0)]
  unfold pieces2_S
  dsimp only
  sl_unfold_words
  rw [View.canon_unit_zero hz3]
  try simp only [View.readCov_unit_zero (S := S256x1024) _ hz2, View.readAt_eq_ld, harg3.read_unread, harg4.read_unread,
    harg5.read_unread, harg6.read_unread, harg7.read_unread, harg10.read_unread, View.ld_unit_zero (S := S1x256x1024) hz3,
    View.ld_unit_zero (S := S1x256x512) hz3, View.ld_unit_zero (S := S1x1x512) hz3, View.ld_unit_zero (S := S256x1024) hz2]

set_option maxHeartbeats 4000000 in
/-- the accumulator adds the values tile times the weight tile, -/
theorem acc_S (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    sout2_S_0 c i arg3 harg3 arg4 harg4 arg5 harg5 arg6 harg6 arg7 harg7 arg8 harg8 arg9 harg9 arg10 harg10 hc0 hc1 hc2 hc3 x0 x1 x2 x3 x4 xs0 = k2_pay2 (k2_pay5 x2) (k2_pay8 (BitVec.ofNat 32 (i 1).val) (BitVec.ofNat 32 (i 2).val) x0 x1 x3 x4) xs0 := by
  unfold sout2_S_0
  rw [View.read_writes_eq_canon _ _ _ (scover2_S_0 c i arg3 harg3 arg4 harg4 arg5 harg5 arg6 harg6 arg7 harg7 arg8 harg8 arg9 harg9 arg10 harg10 hc0 hc1 hc2 hc3 x0 x1 x2 x3 x4 xs0)]
  unfold pieces2_S
  dsimp only
  sl_unfold_words
  rw [View.canon_unit_zero hz2]
  try simp only [View.readCov_unit_zero (S := S256x1024) _ hz2, View.readAt_eq_ld, harg3.read_unread, harg4.read_unread,
    harg5.read_unread, harg6.read_unread, harg7.read_unread, harg10.read_unread, View.ld_unit_zero (S := S1x256x1024) hz3,
    View.ld_unit_zero (S := S1x256x512) hz3, View.ld_unit_zero (S := S1x1x512) hz3, View.ld_unit_zero (S := S256x1024) hz2]

set_option maxHeartbeats 4000000 in
/-- and the output block is the accumulator so updated, under a leading unit axis. -/
theorem out_S (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : cond2_1 i) (hc2 : ¬cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    out2_S_5 c i arg3 harg3 arg4 harg4 arg5 harg5 arg6 harg6 arg7 harg7 arg8 harg8 arg9 harg9 arg10 harg10 hc0 hc1 hc2 hc3 x0 x1 x2 x3 x4 xs0 = k2_pay4 (k2_pay2 (k2_pay5 x2) (k2_pay8 (BitVec.ofNat 32 (i 1).val) (BitVec.ofNat 32 (i 2).val) x0 x1 x3 x4) xs0) := by
  unfold out2_S_5
  rw [View.read_writes_eq_canon _ _ _ (cover2_S_5 c i arg3 harg3 arg4 harg4 arg5 harg5 arg6 harg6 arg7 harg7 arg8 harg8 arg9 harg9 arg10 harg10 hc0 hc1 hc2 hc3 x0 x1 x2 x3 x4 xs0)]
  unfold pieces2_S
  dsimp only
  sl_unfold_words
  rw [View.canon_unit_zero hz3]
  try simp only [View.readCov_unit_zero (S := S256x1024) _ hz2, View.readAt_eq_ld, harg3.read_unread, harg4.read_unread,
    harg5.read_unread, harg6.read_unread, harg7.read_unread, harg10.read_unread, View.ld_unit_zero (S := S1x256x1024) hz3,
    View.ld_unit_zero (S := S1x256x512) hz3, View.ld_unit_zero (S := S1x1x512) hz3, View.ld_unit_zero (S := S256x1024) hz2]

set_option maxHeartbeats 4000000 in
/-- The last key tile, wholly above the query tile's rows: the weights block stored is zero, -/
theorem w_T (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    out2_T_6 c i arg3 harg3 arg4 harg4 arg5 harg5 arg6 harg6 arg7 harg7 arg8 harg8 arg9 harg9 arg10 harg10 hc0 hc1 hc2 hc3 x0 x1 x2 x3 x4 xs0 = k2_pay3 := by
  unfold out2_T_6
  rw [View.read_writes_eq_canon _ _ _ (cover2_T_6 c i arg3 harg3 arg4 harg4 arg5 harg5 arg6 harg6 arg7 harg7 arg8 harg8 arg9 harg9 arg10 harg10 hc0 hc1 hc2 hc3 x0 x1 x2 x3 x4 xs0)]
  unfold pieces2_T
  dsimp only
  sl_unfold_words
  rw [View.canon_unit_zero hz3]
  try simp only [View.readCov_unit_zero (S := S256x1024) _ hz2, View.readAt_eq_ld, harg3.read_unread, harg4.read_unread,
    harg5.read_unread, harg6.read_unread, harg7.read_unread, harg10.read_unread, View.ld_unit_zero (S := S1x256x1024) hz3,
    View.ld_unit_zero (S := S1x256x512) hz3, View.ld_unit_zero (S := S1x1x512) hz3, View.ld_unit_zero (S := S256x1024) hz2]

set_option maxHeartbeats 4000000 in
/-- and the output block is the accumulator as the point found it, under a leading unit axis. -/
theorem out_T (c : Dev nD) (i : grid2.Coords) (arg3 : Memref sig .tc .vmem S1x256x1024 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x256x1024 .f32) (harg8 : arg8.IsWhole) (arg9 : Memref sig .tc .vmem S1x1024x512 .f32) (harg9 : arg9.IsWhole) (arg10 : Memref sig .tc .vmem S256x1024 .f32) (harg10 : arg10.IsWhole) (hc0 : ¬cond2_0 i) (hc1 : ¬cond2_1 i) (hc2 : cond2_2 i) (hc3 : cond2_3 i)
    (x0 : Vec F S1x256x1024 .bf16) (x1 : Vec F S1x256x512 .bf16) (x2 : Vec F S1x256x512 .bf16) (x3 : Vec F S1x1x512 .f32) (x4 : Vec F S1x1x512 .f32) (xs0 : Vec F S256x1024 .f32) :
    out2_T_5 c i arg3 harg3 arg4 harg4 arg5 harg5 arg6 harg6 arg7 harg7 arg8 harg8 arg9 harg9 arg10 harg10 hc0 hc1 hc2 hc3 x0 x1 x2 x3 x4 xs0 = k2_pay4 xs0 := by
  unfold out2_T_5
  rw [View.read_writes_eq_canon _ _ _ (cover2_T_5 c i arg3 harg3 arg4 harg4 arg5 harg5 arg6 harg6 arg7 harg7 arg8 harg8 arg9 harg9 arg10 harg10 hc0 hc1 hc2 hc3 x0 x1 x2 x3 x4 xs0)]
  unfold pieces2_T
  dsimp only
  sl_unfold_words
  rw [View.canon_unit_zero hz3]
  try simp only [View.readCov_unit_zero (S := S256x1024) _ hz2, View.readAt_eq_ld, harg3.read_unread, harg4.read_unread,
    harg5.read_unread, harg6.read_unread, harg7.read_unread, harg10.read_unread, View.ld_unit_zero (S := S1x256x1024) hz3,
    View.ld_unit_zero (S := S1x256x512) hz3, View.ld_unit_zero (S := S1x1x512) hz3, View.ld_unit_zero (S := S256x1024) hz2]

end Cert.KernelIdeal.Frames
end
-- ==== Proof.Pay2.lean ====
import proofs.«130694_j5669356831785_2_alg».proof.Proof.PayCommon

/-!
# The output kernel's payloads read at an index

At the ideal values a weight tile entry is `exp (score − column maximum)` times the reciprocal of the column sum,
the score being the scaled dot product where the key position is not after the query position and `⊥` elsewhere;
the accumulator update adds the value block times the weight tile; the remaining payloads are zero splats and
reshapes by a leading unit axis.
-/

noncomputable section

namespace Cert.KernelIdeal.Pay

open Cert.KernelIdeal Cert.KernelIdeal.Gen Idealize.ShloMosaic Idealize.ShloMosaic.ValueIdx
/-- The score tile's block product, `[256,1024]ᵀ × [256,512]` into the zero splat, contracting the feature axis of
    both operands: at `(r, q)` the sum over `c` of `A (c, r) * B (c, q)`. -/
theorem matmul_score2_lhs_free (j : S1024x512.Idx) (q : dot_S256x1024_S256x512_S1024x512_0_0_1_1_n_n.contr.Idx) :
    (dot_S256x1024_S256x512_S1024x512_0_0_1_1_n_n.lhsIdx j q 1).val = (j 0).val := by
  unfold DotDims.lhsIdx
  rw [dif_neg (show ¬(1 : Fin S256x1024.rank) ∈ dot_S256x1024_S256x512_S1024x512_0_0_1_1_n_n.lhsBatch by decide), dif_pos (show (1 : Fin S256x1024.rank) ∈ dot_S256x1024_S256x512_S1024x512_0_0_1_1_n_n.lhsNonContracting by decide)]
  rfl
theorem matmul_score2_rhs_free (j : S1024x512.Idx) (q : dot_S256x1024_S256x512_S1024x512_0_0_1_1_n_n.contr.Idx) :
    (dot_S256x1024_S256x512_S1024x512_0_0_1_1_n_n.rhsIdx j q 1).val = (j 1).val := by
  unfold DotDims.rhsIdx
  rw [dif_neg (show ¬(1 : Fin S256x512.rank) ∈ dot_S256x1024_S256x512_S1024x512_0_0_1_1_n_n.rhsBatch by decide), dif_pos (show (1 : Fin S256x512.rank) ∈ dot_S256x1024_S256x512_S1024x512_0_0_1_1_n_n.rhsNonContracting by decide)]
  rfl
theorem matmul_score2_apply (A : FVec Ideal S256x1024 .bf16) (B : FVec Ideal S256x512 .bf16) (r : Fin 1024) (q : Fin 512) :
    matmul dot_S256x1024_S256x512_S1024x512_0_0_1_1_n_n none A B (constant (F := Ideal) S1024x512 .f32 0x00000000#32) (ix2 r q)
      = ∑ c : Fin 256, A (ix2 c r) * B (ix2 c q) := by
  refine (Ideal.matmul_constant_zero_apply dot_S256x1024_S256x512_S1024x512_0_0_1_1_n_n none A B (ix2 r q)).trans ?_
  rw [← Equiv.sum_comp (contrEquiv1 dot_S256x1024_S256x512_S1024x512_0_0_1_1_n_n 256 rfl rfl).symm]
  refine Finset.sum_congr rfl fun c _ => ?_
  have hc := contrEquiv1_symm_val dot_S256x1024_S256x512_S1024x512_0_0_1_1_n_n 256 rfl rfl c
  have el : dot_S256x1024_S256x512_S1024x512_0_0_1_1_n_n.lhsIdx (ix2 r q) ((contrEquiv1 dot_S256x1024_S256x512_S1024x512_0_0_1_1_n_n 256 rfl rfl).symm c) = ix2 c r :=
    funext fun a => Fin.ext (by
      match a with
      | ⟨1, _⟩ => exact matmul_score2_lhs_free _ _
      | ⟨0, _⟩ => exact (dot_S256x1024_S256x512_S1024x512_0_0_1_1_n_n.lhsIdx_val_of_single rfl _ _).trans hc)
  have er : dot_S256x1024_S256x512_S1024x512_0_0_1_1_n_n.rhsIdx (ix2 r q) ((contrEquiv1 dot_S256x1024_S256x512_S1024x512_0_0_1_1_n_n 256 rfl rfl).symm c) = ix2 c q :=
    funext fun a => Fin.ext (by
      match a with
      | ⟨1, _⟩ => exact matmul_score2_rhs_free _ _
      | ⟨0, _⟩ => exact (dot_S256x1024_S256x512_S1024x512_0_0_1_1_n_n.rhsIdx_val_of_single rfl _ _).trans hc)
  rw [el, er]

/-- The output's block product, `[256,512] × [1024,512]ᵀ` into the zero splat, contracting the key axis of both
    operands: at `(j, r)` the sum over `c` of `A (j, c) * B (r, c)`. -/
theorem matmul_out2_lhs_free (j : S256x1024.Idx) (q : dot_S256x512_S1024x512_S256x1024_1_1_0_0_n_n.contr.Idx) :
    (dot_S256x512_S1024x512_S256x1024_1_1_0_0_n_n.lhsIdx j q 0).val = (j 0).val := by
  unfold DotDims.lhsIdx
  rw [dif_neg (show ¬(0 : Fin S256x512.rank) ∈ dot_S256x512_S1024x512_S256x1024_1_1_0_0_n_n.lhsBatch by decide), dif_pos (show (0 : Fin S256x512.rank) ∈ dot_S256x512_S1024x512_S256x1024_1_1_0_0_n_n.lhsNonContracting by decide)]
  rfl
theorem matmul_out2_rhs_free (j : S256x1024.Idx) (q : dot_S256x512_S1024x512_S256x1024_1_1_0_0_n_n.contr.Idx) :
    (dot_S256x512_S1024x512_S256x1024_1_1_0_0_n_n.rhsIdx j q 0).val = (j 1).val := by
  unfold DotDims.rhsIdx
  rw [dif_neg (show ¬(0 : Fin S1024x512.rank) ∈ dot_S256x512_S1024x512_S256x1024_1_1_0_0_n_n.rhsBatch by decide), dif_pos (show (0 : Fin S1024x512.rank) ∈ dot_S256x512_S1024x512_S256x1024_1_1_0_0_n_n.rhsNonContracting by decide)]
  rfl
theorem matmul_out2_apply (A : FVec Ideal S256x512 .bf16) (B : FVec Ideal S1024x512 .bf16) (j : Fin 256) (r : Fin 1024) :
    matmul dot_S256x512_S1024x512_S256x1024_1_1_0_0_n_n none A B (constant (F := Ideal) S256x1024 .f32 0x00000000#32) (ix2 j r)
      = ∑ c : Fin 512, A (ix2 j c) * B (ix2 r c) := by
  refine (Ideal.matmul_constant_zero_apply dot_S256x512_S1024x512_S256x1024_1_1_0_0_n_n none A B (ix2 j r)).trans ?_
  rw [← Equiv.sum_comp (contrEquiv1 dot_S256x512_S1024x512_S256x1024_1_1_0_0_n_n 512 rfl rfl).symm]
  refine Finset.sum_congr rfl fun c _ => ?_
  have hc := contrEquiv1_symm_val dot_S256x512_S1024x512_S256x1024_1_1_0_0_n_n 512 rfl rfl c
  have el : dot_S256x512_S1024x512_S256x1024_1_1_0_0_n_n.lhsIdx (ix2 j r) ((contrEquiv1 dot_S256x512_S1024x512_S256x1024_1_1_0_0_n_n 512 rfl rfl).symm c) = ix2 j c :=
    funext fun a => Fin.ext (by
      match a with
      | ⟨0, _⟩ => exact matmul_out2_lhs_free _ _
      | ⟨1, _⟩ => exact (dot_S256x512_S1024x512_S256x1024_1_1_0_0_n_n.lhsIdx_val_of_single rfl _ _).trans hc)
  have er : dot_S256x512_S1024x512_S256x1024_1_1_0_0_n_n.rhsIdx (ix2 j r) ((contrEquiv1 dot_S256x512_S1024x512_S256x1024_1_1_0_0_n_n 512 rfl rfl).symm c) = ix2 r c :=
    funext fun a => Fin.ext (by
      match a with
      | ⟨0, _⟩ => exact matmul_out2_rhs_free _ _
      | ⟨1, _⟩ => exact (dot_S256x512_S1024x512_S256x1024_1_1_0_0_n_n.rhsIdx_val_of_single rfl _ _).trans hc)
  rw [el, er]

/-- The masked, scaled score of query row `r` of query tile `t` (1024 rows) against key column `q` of key tile
    `s` (512 columns): the dot product over the 256 features times `2⁻⁴` (the pattern `0x3D800000`) where the key
    position is not after the query position, `⊥` elsewhere. -/
def tile2 (t s : ℕ) (qb : Vec Ideal S1x256x1024 .bf16) (kb : Vec Ideal S1x256x512 .bf16) (r : Fin 1024) (q : Fin 512) : EReal :=
  if 512 * s + q.val ≤ 1024 * t + r.val then
    (∑ k : Fin 256, qb (ix3 (0 : Fin 1) k r) * kb (ix3 (0 : Fin 1) k q)) * Ideal.ofBits .f32 0x3D800000#32
  else ⊥

/-- The accumulator's initial value is zero everywhere. -/
theorem k2_pay1_apply (j : Fin 256) (r : Fin 1024) : k2_pay1 (F := Ideal) (ix2 j r) = 0 := by
  unfold k2_pay1
  refine (congrFun (shapeCast_self _ _) (ix2 j r)).trans ?_
  exact Ideal.ofBits_zero_f32

/-- The accumulator update at `(j, r)`: the accumulator there plus the value row `j` times the weight row `r`,
    summed over the 512 key columns. -/
theorem k2_pay2_apply (v21 : FVec Ideal S256x512 .bf16) (v50 : FVec Ideal S1024x512 .bf16) (acc : Vec Ideal S256x1024 .f32)
    (j : Fin 256) (r : Fin 1024) :
    k2_pay2 (F := Ideal) v21 v50 acc (ix2 j r) = acc (ix2 j r) + ∑ q : Fin 512, v21 (ix2 j q) * v50 (ix2 r q) := by
  unfold k2_pay2
  refine (congrFun (shapeCast_self _ _) (ix2 j r)).trans ?_
  refine (addf_apply _ _ _).trans ?_
  exact congrArg (acc (ix2 j r) + ·) (matmul_out2_apply v21 v50 j r)

/-- The weight block of a skipped tile is zero everywhere. -/
theorem k2_pay3_apply (r : Fin 1024) (q : Fin 512) : k2_pay3 (F := Ideal) (ix3 (0 : Fin 1) r q) = 0 := by
  unfold k2_pay3
  refine (shapeCast_ab_1ab_apply _ _ (0 : Fin 1) r q).trans ?_
  exact Ideal.ofBits_zero_f32

/-- The flushed output block is the accumulator under a leading unit axis. -/
theorem k2_pay4_apply (acc : Vec Ideal S256x1024 .f32) (j : Fin 256) (r : Fin 1024) :
    k2_pay4 (F := Ideal) acc (ix3 (0 : Fin 1) j r) = acc (ix2 j r) := by
  unfold k2_pay4
  exact shapeCast_ab_1ab_apply acc _ (0 : Fin 1) j r

/-- The value block with its leading unit axis dropped. -/
theorem k2_pay5_apply (vb : Vec Ideal S1x256x512 .bf16) (j : Fin 256) (q : Fin 512) :
    k2_pay5 (F := Ideal) vb (ix2 j q) = vb (ix3 (0 : Fin 1) j q) := by
  unfold k2_pay5
  exact shapeCast_1ab_ab_apply vb _ j q

/-- The weight tile at `(r, q)`: `exp` of the masked score minus the column's maximum, times one over the column's
    sum (`arg1` is the query tile `t`, `arg2` the key tile `s`). -/
theorem k2_pay6_apply (t s : ℕ) (ht : t < 4) (hs : s < 8) (qb : Vec Ideal S1x256x1024 .bf16) (kb : Vec Ideal S1x256x512 .bf16)
    (cmax csum : Vec Ideal S1x1x512 .f32) (r : Fin 1024) (q : Fin 512) :
    k2_pay6 (F := Ideal) (BitVec.ofNat 32 t) (BitVec.ofNat 32 s) qb kb cmax csum (ix2 r q)
      = Ideal.exp (tile2 t s qb kb r q - cmax (ix3 (0 : Fin 1) (0 : Fin 1) q))
          * Ideal.div (Ideal.ofBits .f32 0x3F800000#32) (csum (ix3 (0 : Fin 1) (0 : Fin 1) q)) := by
  unfold k2_pay6
  refine (mulf_apply _ _ _).trans ?_
  refine congrArg₂ (· * ·) ?_ ?_
  · -- exp (select mask score fill − broadcast cmax)
    show Ideal.exp (_ - _) = Ideal.exp (_ - _)
    refine congrArg Ideal.exp (congrArg₂ (· - ·) ?_ ?_)
    · -- the masked score
      refine (select_apply _ _ _ _).trans ?_
      rw [causal_mask_apply iota_S1024x512_d0_w32 iota_S1024x512_d1_w32 t 1024 s 512 r q
        (by have := r.isLt; omega) (by have := q.isLt; omega), select_ofBool_decide]
      unfold tile2
      by_cases hm : 512 * s + q.val ≤ 1024 * t + r.val
      · rw [if_pos hm, if_pos (by omega)]
        refine (mulf_apply _ _ _).trans ?_
        refine congrArg₂ (· * ·) ?_ rfl
        refine (matmul_score2_apply _ _ r q).trans ?_
        refine Finset.sum_congr rfl fun c _ => ?_
        exact congrArg₂ (· * ·) (shapeCast_1ab_ab_apply qb _ c r) (shapeCast_1ab_ab_apply kb _ c q)
      · rw [if_neg hm, if_neg (by omega)]
        exact named_neg_big
    · -- the column maximum broadcast down the rows
      refine (broadcastTo_1b_ab_apply _ _ r q).trans ?_
      exact shapeCast_1ab_ab_apply cmax _ (0 : Fin 1) q
  · -- the reciprocal of the column sum broadcast down the rows
    refine (broadcastTo_1b_ab_apply _ _ r q).trans ?_
    refine (divf_apply _ _ _).trans ?_
    exact congrArg (Ideal.div (Ideal.ofBits .f32 0x3F800000#32)) (shapeCast_1ab_ab_apply csum _ (0 : Fin 1) q)

/-- The stored weight block is the weight tile under a leading unit axis. -/
theorem k2_pay7_apply (arg1 arg2 : BitVec 32) (qb : Vec Ideal S1x256x1024 .bf16) (kb : Vec Ideal S1x256x512 .bf16)
    (cmax csum : Vec Ideal S1x1x512 .f32) (r : Fin 1024) (q : Fin 512) :
    k2_pay7 (F := Ideal) arg1 arg2 qb kb cmax csum (ix3 (0 : Fin 1) r q) = k2_pay6 (F := Ideal) arg1 arg2 qb kb cmax csum (ix2 r q) := by
  unfold k2_pay7
  exact shapeCast_ab_1ab_apply _ _ (0 : Fin 1) r q

/-- The weight tile rounded to bf16 is, at the ideal values, the weight tile. -/
theorem k2_pay8_apply (arg1 arg2 : BitVec 32) (qb : Vec Ideal S1x256x1024 .bf16) (kb : Vec Ideal S1x256x512 .bf16)
    (cmax csum : Vec Ideal S1x1x512 .f32) (r : Fin 1024) (q : Fin 512) :
    k2_pay8 (F := Ideal) arg1 arg2 qb kb cmax csum (ix2 r q) = k2_pay6 (F := Ideal) arg1 arg2 qb kb cmax csum (ix2 r q) := rfl

end Cert.KernelIdeal.Pay

end
-- ==== Proof.KI.Value2w.lean ====
/-
  The weight tile of the output region is the specification's weights. At a grid point (batch b, query tile t of 1024
  rows, key tile s of 512 columns) whose key tile meets the query tile's rows (s ≤ 2 t + 1) the body computes, from the
  point's blocks of the queries, the keys and the two column statistics, the tile
      exp (score − column maximum) · (1 / column sum),
  the score being the scaled dot product of a query and a key where the key is not later than the query and -∞ where
  it is. With the blocks read off arrays that hold the specification's queries, keys, column maxima and column sums,
  the tile's entry at (row r, column q) is the specification's weight of query 1024 t + r on key 512 s + q: the masked
  score is the specification's score, and multiplying by the reciprocal of a real nonzero sum is dividing by it.
-/
import proofs.«130694_j5669356831785_2_alg».proof.Proof.KI.Region2
import proofs.«130694_j5669356831785_2_alg».proof.Proof.Pay2
import proofs.«130694_j5669356831785_2_alg».proof.Proof.SpecColumn
import Idealize.ShloMosaic.Lib.Pipeline.Value
import Idealize.ShloMosaic.Lib.ValueIdx

set_option maxRecDepth 16384
noncomputable section
namespace Cert.KernelIdeal.Frames
open Cert.KernelIdeal Cert.KernelIdeal.Gen Cert.KernelIdeal.Pay
open Idealize.ShloMosaic Idealize.ShloMosaic.TcCoe Idealize.ShloMosaic.Tactic Idealize.SL.Sem
open Idealize.ShloMosaic.Pipeline (Dat)
open Idealize.ShloMosaic.ValueIdx

/-! ## The grid's coordinates and the windows' block indices, decided once -/

/-- At point `n` of the 4 × 4 × 8 grid (batch, query tile, key tile; the key tile fastest): the two inner coordinates,
    and each window's block index. The keys' and values' windows stop at the last key tile that meets the query tile. -/
theorem where2 : ∀ n : Fin cfg2.N,
    (grid2.coords n 1).val = (n.val / 8) % 4 ∧ (grid2.coords n 2).val = n.val % 8
    ∧ win2_0.index n (0 : Fin 3) = n.val / 32 ∧ win2_0.index n (1 : Fin 3) = 0 ∧ win2_0.index n (2 : Fin 3) = (n.val / 8) % 4
    ∧ win2_1.index n (0 : Fin 3) = n.val / 32 ∧ win2_1.index n (1 : Fin 3) = 0
    ∧ win2_1.index n (2 : Fin 3) = min (n.val % 8) (2 * ((n.val / 8) % 4) + 1)
    ∧ win2_3.index n (0 : Fin 3) = n.val / 32 ∧ win2_3.index n (1 : Fin 3) = 0 ∧ win2_3.index n (2 : Fin 3) = n.val % 8
    ∧ win2_4.index n (0 : Fin 3) = n.val / 32 ∧ win2_4.index n (1 : Fin 3) = 0 ∧ win2_4.index n (2 : Fin 3) = n.val % 8
    ∧ win2_6.index n (0 : Fin 3) = n.val / 32 ∧ win2_6.index n (1 : Fin 3) = (n.val / 8) % 4 ∧ win2_6.index n (2 : Fin 3) = n.val % 8 :=
  (by decide +kernel : ∀ n : Fin grid2.N, _)

/-- Every (batch, query tile, key tile) is some grid point's. -/
theorem onto6 : ∀ (q0 : Fin 4) (q1 : Fin 4) (q2 : Fin 8), ∃ n : Fin cfg2.N, win2_6.index n = ![q0.val, q1.val, q2.val] :=
  (by decide +kernel : ∀ (q0 : Fin 4) (q1 : Fin 4) (q2 : Fin 8), ∃ n : Fin grid2.N, win2_6.index n = ![q0.val, q1.val, q2.val])

theorem lt128 (n : Fin cfg2.N) : n.val < 128 := lt_of_lt_of_eq n.isLt (show cfg2.N = 128 from N_2)

/-- The batch of point `n`, -/
def pb (n : Fin cfg2.N) : Fin 4 := ⟨n.val / 32, by have := lt128 n; omega⟩
/-- row `r` of its query tile as a query position, -/
def qrow (n : Fin cfg2.N) (r : Fin 1024) : Fin 4096 := ⟨1024 * ((n.val / 8) % 4) + r.val, by have := r.isLt; omega⟩
/-- and column `q` of its key tile as a key position. -/
def kcol (n : Fin cfg2.N) (q : Fin 512) : Fin 4096 := ⟨512 * (n.val % 8) + q.val, by have := q.isLt; omega⟩

section AtIdeal
variable (V : (c : Dev nD) → (b : Ref sig .tc) → Buf (Elt Ideal) ((c : Thread nD τ).loc b))
variable (x : S4x256x4096.Idx → EReal) (Wq : S256x256.Idx → EReal) (bq : S256.Idx → EReal)
  (Wk : S256x256.Idx → EReal) (bk : S256.Idx → EReal)

/-! ## The point's blocks, read off the arrays the region finds -/

/-- The queries' block: feature `k`, row `r` of the query tile. -/
theorem qb_apply (c : Dev nD)
    (hq : (V c main_v3_0 : S4x256x4096.Idx → EReal)
      = fun i => Cert.Spec.q x Wq bq ⟨(i 0).val, (i 0).isLt⟩ ⟨(i 2).val, (i 2).isLt⟩ ⟨(i 1).val, (i 1).isLt⟩)
    (n : Fin cfg2.N) (k : Fin 256) (r : Fin 1024) :
    blk2 V c 0 n (ix3 (0 : Fin 1) k r) = Cert.Spec.q x Wq bq (pb n) (qrow n r) k := by
  obtain ⟨_, _, e0, e1, e2, _⟩ := where2 n
  have hemb : ((cfg2.win 0).blk n).view.emb (ix3 (0 : Fin 1) k r) = ix3 (pb n) k (qrow n r) :=
    funext fun a => Fin.ext (by
      match a with
      | ⟨0, _⟩ => show win2_0.index n (0 : Fin 3) * 1 + 1 * 0 = n.val / 32; omega
      | ⟨1, _⟩ => show win2_0.index n (1 : Fin 3) * 256 + 1 * k.val = k.val; omega
      | ⟨2, _⟩ => show win2_0.index n (2 : Fin 3) * 1024 + 1 * r.val = 1024 * ((n.val / 8) % 4) + r.val; omega)
  show V c main_v3_0 (((cfg2.win 0).blk n).view.emb (ix3 (0 : Fin 1) k r)) = _
  rw [hemb, hq]
  rfl

/-- The keys' block at a point whose key tile meets the query tile: feature `k`, column `q` of the key tile. -/
theorem kb_apply (c : Dev nD)
    (hk : (V c main_v3_1 : S4x256x4096.Idx → EReal)
      = fun i => Cert.Spec.kk x Wk bk ⟨(i 0).val, (i 0).isLt⟩ ⟨(i 2).val, (i 2).isLt⟩ ⟨(i 1).val, (i 1).isLt⟩)
    (n : Fin cfg2.N) (h1 : n.val % 8 ≤ 2 * ((n.val / 8) % 4) + 1) (k : Fin 256) (q : Fin 512) :
    blk2 V c 1 n (ix3 (0 : Fin 1) k q) = Cert.Spec.kk x Wk bk (pb n) (kcol n q) k := by
  obtain ⟨_, _, _, _, _, e0, e1, e2, _⟩ := where2 n
  rw [Nat.min_eq_left h1] at e2
  have hemb : ((cfg2.win 1).blk n).view.emb (ix3 (0 : Fin 1) k q) = ix3 (pb n) k (kcol n q) :=
    funext fun a => Fin.ext (by
      match a with
      | ⟨0, _⟩ => show win2_1.index n (0 : Fin 3) * 1 + 1 * 0 = n.val / 32; omega
      | ⟨1, _⟩ => show win2_1.index n (1 : Fin 3) * 256 + 1 * k.val = k.val; omega
      | ⟨2, _⟩ => show win2_1.index n (2 : Fin 3) * 512 + 1 * q.val = 512 * (n.val % 8) + q.val; omega)
  show V c main_v3_1 (((cfg2.win 1).blk n).view.emb (ix3 (0 : Fin 1) k q)) = _
  rw [hemb, hk]
  rfl

/-- The column maxima's block: column `q` of the key tile. -/
theorem cmax_apply (c : Dev nD)
    (hmax : (V c main_v4_0 : S4x1x4096.Idx → EReal)
      = fun i => Cert.Spec.colMax x Wq bq Wk bk ⟨(i 0).val, (i 0).isLt⟩ ⟨(i 2).val, (i 2).isLt⟩)
    (n : Fin cfg2.N) (q : Fin 512) :
    blk2 V c 3 n (ix3 (0 : Fin 1) (0 : Fin 1) q) = Cert.Spec.colMax x Wq bq Wk bk (pb n) (kcol n q) := by
  obtain ⟨_, _, _, _, _, _, _, _, e0, e1, e2, _⟩ := where2 n
  have hemb : ((cfg2.win 3).blk n).view.emb (ix3 (0 : Fin 1) (0 : Fin 1) q) = ix3 (pb n) (0 : Fin 1) (kcol n q) :=
    funext fun a => Fin.ext (by
      match a with
      | ⟨0, _⟩ => show win2_3.index n (0 : Fin 3) * 1 + 1 * 0 = n.val / 32; omega
      | ⟨1, _⟩ => show win2_3.index n (1 : Fin 3) * 1 + 1 * 0 = 0; omega
      | ⟨2, _⟩ => show win2_3.index n (2 : Fin 3) * 512 + 1 * q.val = 512 * (n.val % 8) + q.val; omega)
  show V c main_v4_0 (((cfg2.win 3).blk n).view.emb (ix3 (0 : Fin 1) (0 : Fin 1) q)) = _
  rw [hemb, hmax]
  rfl

/-- The column sums' block: column `q` of the key tile. -/
theorem csum_apply (c : Dev nD)
    (hsum : (V c main_v4_1 : S4x1x4096.Idx → EReal)
      = fun i => Cert.Spec.colSum x Wq bq Wk bk ⟨(i 0).val, (i 0).isLt⟩ ⟨(i 2).val, (i 2).isLt⟩)
    (n : Fin cfg2.N) (q : Fin 512) :
    blk2 V c 4 n (ix3 (0 : Fin 1) (0 : Fin 1) q) = Cert.Spec.colSum x Wq bq Wk bk (pb n) (kcol n q) := by
  obtain ⟨_, _, _, _, _, _, _, _, _, _, _, e0, e1, e2, _⟩ := where2 n
  have hemb : ((cfg2.win 4).blk n).view.emb (ix3 (0 : Fin 1) (0 : Fin 1) q) = ix3 (pb n) (0 : Fin 1) (kcol n q) :=
    funext fun a => Fin.ext (by
      match a with
      | ⟨0, _⟩ => show win2_4.index n (0 : Fin 3) * 1 + 1 * 0 = n.val / 32; omega
      | ⟨1, _⟩ => show win2_4.index n (1 : Fin 3) * 1 + 1 * 0 = 0; omega
      | ⟨2, _⟩ => show win2_4.index n (2 : Fin 3) * 512 + 1 * q.val = 512 * (n.val % 8) + q.val; omega)
  show V c main_v4_1 (((cfg2.win 4).blk n).view.emb (ix3 (0 : Fin 1) (0 : Fin 1) q)) = _
  rw [hemb, hsum]
  rfl

/-! ## The weight tile is the specification's weights -/

/-- At a point whose key tile meets the query tile, the weight tile computed from the point's blocks is, entry by
    entry, the specification's weight of that query position on that key position: the masked scaled score is the
    specification's score (real on or below the diagonal, -∞ above it), and the product with the reciprocal of the
    column sum is the quotient by it. -/
theorem w_entry (c : Dev nD)
    (hq : (V c main_v3_0 : S4x256x4096.Idx → EReal)
      = fun i => Cert.Spec.q x Wq bq ⟨(i 0).val, (i 0).isLt⟩ ⟨(i 2).val, (i 2).isLt⟩ ⟨(i 1).val, (i 1).isLt⟩)
    (hk : (V c main_v3_1 : S4x256x4096.Idx → EReal)
      = fun i => Cert.Spec.kk x Wk bk ⟨(i 0).val, (i 0).isLt⟩ ⟨(i 2).val, (i 2).isLt⟩ ⟨(i 1).val, (i 1).isLt⟩)
    (hmax : (V c main_v4_0 : S4x1x4096.Idx → EReal)
      = fun i => Cert.Spec.colMax x Wq bq Wk bk ⟨(i 0).val, (i 0).isLt⟩ ⟨(i 2).val, (i 2).isLt⟩)
    (hsum : (V c main_v4_1 : S4x1x4096.Idx → EReal)
      = fun i => Cert.Spec.colSum x Wq bq Wk bk ⟨(i 0).val, (i 0).isLt⟩ ⟨(i 2).val, (i 2).isLt⟩)
    (hx : ∀ i, ∃ r : ℝ, x i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (n : Fin cfg2.N) (h1 : n.val % 8 ≤ 2 * ((n.val / 8) % 4) + 1) (r : Fin 1024) (q : Fin 512) :
    k2_pay6 (F := Ideal) (BitVec.ofNat 32 ((n.val / 8) % 4)) (BitVec.ofNat 32 (n.val % 8))
        (blk2 V c 0 n) (blk2 V c 1 n) (blk2 V c 3 n) (blk2 V c 4 n) (ix2 r q)
      = Cert.Spec.weightsAt x Wq bq Wk bk (pb n) (qrow n r) (kcol n q) := by
  have htile : tile2 ((n.val / 8) % 4) (n.val % 8) (blk2 V c 0 n) (blk2 V c 1 n) r q
      = Cert.Spec.sc x Wq bq Wk bk (pb n) (qrow n r) (kcol n q) := by
    unfold tile2
    by_cases hm : 512 * (n.val % 8) + q.val ≤ 1024 * ((n.val / 8) % 4) + r.val
    · rw [if_pos hm, Cert.Spec.sc_of_le_mul x Wq bq Wk bk (pb n) (show kcol n q ≤ qrow n r from hm)]
      unfold Cert.Spec.dot
      refine congrArg (· * _) (Finset.sum_congr rfl fun k _ => ?_)
      rw [qb_apply V x Wq bq c hq, kb_apply V x Wk bk c hk n h1]
    · rw [if_neg hm, Cert.Spec.sc_of_lt x Wq bq Wk bk (pb n) (show qrow n r < kcol n q from not_le.mp hm)]
  rw [k2_pay6_apply _ _ (by omega) (by omega), htile, cmax_apply V x Wq bq Wk bk c hmax, csum_apply V x Wq bq Wk bk c hsum,
    Cert.ColumnSoftmax.ofBits_one]
  exact (Cert.Spec.weightsAt_eq_mul x Wq bq Wk bk hx hWq hbq hWk hbk (pb n) (qrow n r) (kcol n q)).symm

end AtIdeal
end Cert.KernelIdeal.Frames
end
-- ==== Proof.KI.Value2wa.lean ====
/-
  The weights array after the output region is the specification's weights. Every grid point writes its
  1024 × 512 block of the weights back. Where the key tile meets the query tile's rows the block is the weight tile,
  which is the specification's weights entry by entry; where the key tile lies wholly above the query tile's rows the
  block is zero, and so are the specification's weights there, every such key being later than every such query. The
  4 × 4 × 8 blocks cover the [4, 4096, 4096] array.
-/
import proofs.«130694_j5669356831785_2_alg».proof.Proof.KI.Region2
import proofs.«130694_j5669356831785_2_alg».proof.Proof.KI.Value2a
import proofs.«130694_j5669356831785_2_alg».proof.Proof.KI.Value2w
import proofs.«130694_j5669356831785_2_alg».proof.Proof.Pay2
import proofs.«130694_j5669356831785_2_alg».proof.Proof.SpecColumn
import Idealize.ShloMosaic.Lib.Pipeline.Value
import Idealize.ShloMosaic.Lib.ValueIdx

set_option maxRecDepth 16384
noncomputable section
namespace Cert.KernelIdeal.Frames
open Cert.KernelIdeal Cert.KernelIdeal.Gen Cert.KernelIdeal.Pay
open Idealize.ShloMosaic Idealize.ShloMosaic.TcCoe Idealize.ShloMosaic.Tactic Idealize.SL.Sem
open Idealize.ShloMosaic.Pipeline (Dat)
open Idealize.ShloMosaic.ValueIdx

section AtIdeal
variable (V : (c : Dev nD) → (b : Ref sig .tc) → Buf (Elt Ideal) ((c : Thread nD τ).loc b))
variable (x : S4x256x4096.Idx → EReal) (Wq : S256x256.Idx → EReal) (bq : S256.Idx → EReal)
  (Wk : S256x256.Idx → EReal) (bk : S256.Idx → EReal)

/-! ## The weights array -/

/-- The weights block after point `n`: the weight tile where the key tile meets the query tile's rows, zeros where it
    does not — whichever of the five ways through the body the point takes. -/
theorem weights_block (c : Dev nD) (n : Fin cfg2.N) :
    (outsAt2 V c n.val n.isLt).2.1
      = if n.val % 8 ≤ 2 * ((n.val / 8) % 4) + 1
        then k2_pay7 (BitVec.ofNat 32 (grid2.coords n 1).val) (BitVec.ofNat 32 (grid2.coords n 2).val)
          (blk2 V c 0 n) (blk2 V c 1 n) (blk2 V c 3 n) (blk2 V c 4 n)
        else k2_pay3 := by
  have hN := lt128 n
  obtain ⟨prev, hprev⟩ : ∃ prev, outsAt2 V c n.val n.isLt = step2 V c n prev := by
    by_cases hz : n.val = 0
    · exact ⟨_, outsAt2_zero V c n hz⟩
    · exact ⟨_, outsAt2_pos V c n hz⟩
  rw [hprev]
  by_cases h0 : n.val % 8 = 0
  · have h1 : n.val % 8 ≤ 2 * ((n.val / 8) % 4) + 1 := by omega
    have h2 : ¬2 * ((n.val / 8) % 4) + 1 < n.val % 8 := by omega
    have h3 : ¬n.val % 8 = 7 := by omega
    rw [if_pos h1, step2_P V c n prev h0 h1 h2 h3]
    dsimp only
    rw [w_P]
  · by_cases h1 : n.val % 8 ≤ 2 * ((n.val / 8) % 4) + 1
    · have h2 : ¬2 * ((n.val / 8) % 4) + 1 < n.val % 8 := by omega
      rw [if_pos h1]
      by_cases h3 : n.val % 8 = 7
      · rw [step2_S V c n prev h0 h1 h2 h3]
        dsimp only
        rw [w_S]
      · rw [step2_Q V c n prev h0 h1 h2 h3]
        dsimp only
        rw [w_Q]
    · have h2 : 2 * ((n.val / 8) % 4) + 1 < n.val % 8 := by omega
      rw [if_neg h1]
      by_cases h3 : n.val % 8 = 7
      · rw [step2_T V c n prev h0 h1 h2 h3]
        dsimp only
        rw [w_T]
      · rw [step2_R V c n prev h0 h1 h2 h3]
        dsimp only
        rw [w_R]

/-- What point `n` writes back of the weights is its block of the specification's weights. -/
theorem flushed6_eq (c : Dev nD)
    (hq : (V c main_v3_0 : S4x256x4096.Idx → EReal)
      = fun i => Cert.Spec.q x Wq bq ⟨(i 0).val, (i 0).isLt⟩ ⟨(i 2).val, (i 2).isLt⟩ ⟨(i 1).val, (i 1).isLt⟩)
    (hk : (V c main_v3_1 : S4x256x4096.Idx → EReal)
      = fun i => Cert.Spec.kk x Wk bk ⟨(i 0).val, (i 0).isLt⟩ ⟨(i 2).val, (i 2).isLt⟩ ⟨(i 1).val, (i 1).isLt⟩)
    (hmax : (V c main_v4_0 : S4x1x4096.Idx → EReal)
      = fun i => Cert.Spec.colMax x Wq bq Wk bk ⟨(i 0).val, (i 0).isLt⟩ ⟨(i 2).val, (i 2).isLt⟩)
    (hsum : (V c main_v4_1 : S4x1x4096.Idx → EReal)
      = fun i => Cert.Spec.colSum x Wq bq Wk bk ⟨(i 0).val, (i 0).isLt⟩ ⟨(i 2).val, (i 2).isLt⟩)
    (hx : ∀ i, ∃ r : ℝ, x i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (n : Fin cfg2.N) :
    (dat2 V c).flushed 6 n = ((cfg2.win 6).blk n).view.read (Elt Ideal) (Cert.Spec.weights x Wq bq Wk bk) := by
  show (cfg2.win 6).cut (grid2.coords n) ((dat2 V c).after 6 n) = _
  rw [after2_6, weights_block]
  obtain ⟨g1, g2, _, _, _, _, _, _, _, _, _, _, _, _, e0, e1, e2⟩ := where2 n
  funext j
  obtain ⟨r, q, rfl⟩ : ∃ (r : Fin 1024) (q : Fin 512), j = ix3 (0 : Fin 1) r q :=
    ⟨⟨(j 1).val, (j 1).isLt⟩, ⟨(j 2).val, (j 2).isLt⟩, funext fun a => Fin.ext (by
      match a with
      | ⟨0, _⟩ => have h : (j 0).val < 1 := (j 0).isLt; show (j 0).val = 0; omega
      | ⟨1, _⟩ => rfl
      | ⟨2, _⟩ => rfl)⟩
  have hemb : ((cfg2.win 6).blk n).view.emb (ix3 (0 : Fin 1) r q) = ix3 (pb n) (qrow n r) (kcol n q) :=
    funext fun a => Fin.ext (by
      match a with
      | ⟨0, _⟩ => show win2_6.index n (0 : Fin 3) * 1 + 1 * 0 = n.val / 32; omega
      | ⟨1, _⟩ => show win2_6.index n (1 : Fin 3) * 1024 + 1 * r.val = 1024 * ((n.val / 8) % 4) + r.val; omega
      | ⟨2, _⟩ => show win2_6.index n (2 : Fin 3) * 512 + 1 * q.val = 512 * (n.val % 8) + q.val; omega)
  show (if n.val % 8 ≤ 2 * ((n.val / 8) % 4) + 1
        then k2_pay7 (BitVec.ofNat 32 (grid2.coords n 1).val) (BitVec.ofNat 32 (grid2.coords n 2).val)
          (blk2 V c 0 n) (blk2 V c 1 n) (blk2 V c 3 n) (blk2 V c 4 n)
        else k2_pay3) (ix3 (0 : Fin 1) r q)
      = Cert.Spec.weights x Wq bq Wk bk (((cfg2.win 6).blk n).view.emb (ix3 (0 : Fin 1) r q))
  rw [hemb, Cert.Spec.weights_ix3]
  by_cases h1 : n.val % 8 ≤ 2 * ((n.val / 8) % 4) + 1
  · rw [if_pos h1, k2_pay7_apply, g1, g2]
    exact w_entry V x Wq bq Wk bk c hq hk hmax hsum hx hWq hbq hWk hbk n h1 r q
  · rw [if_neg h1, k2_pay3_apply]
    have hr := r.isLt
    exact (Cert.Spec.weightsAt_of_lt x Wq bq Wk bk hx hWq hbq hWk hbk (pb n)
      (show qrow n r < kcol n q from (by show 1024 * ((n.val / 8) % 4) + r.val < 512 * (n.val % 8) + q.val; omega))).symm

/-- An index of the weights array is in point `n`'s block iff each coordinate is in the block's range on its axis. -/
theorem mem_blk6 (n : Fin cfg2.N) (i : S4x4096x4096.Idx) :
    i ∈ ((cfg2.win 6).blk n).view.set ↔ ∀ a : Fin 3, win2_6.index n a * S1x1024x512.size a ≤ (i a).val
      ∧ (i a).val < win2_6.index n a * S1x1024x512.size a + S1x1024x512.size a := by
  show i ∈ ((View.whole main_v5_1).slice (win2_6.rect n)).set ↔ _
  rw [View.set_slice_whole, Rect.mem_set_unit]
  exact Iff.rfl

/-- Every index of the weights array is in the block of the point at (its batch, its query tile, its key tile), and
    every point writes its block back. -/
theorem cover6 (i : S4x4096x4096.Idx) :
    ∃ n : Fin cfg2.N, (cfg2.win 6).flush n = true ∧ i ∈ ((cfg2.win 6).blk n).view.set := by
  have hi0 : (i 0).val < 4 := (i 0).isLt
  have hi1 : (i 1).val < 4096 := (i 1).isLt
  have hi2 : (i 2).val < 4096 := (i 2).isLt
  obtain ⟨n, hn⟩ := onto6 ⟨(i 0).val, hi0⟩ ⟨(i 1).val / 1024, by omega⟩ ⟨(i 2).val / 512, by omega⟩
  have q0 : win2_6.index n (0 : Fin 3) = (i 0).val := congrFun hn 0
  have q1 : win2_6.index n (1 : Fin 3) = (i 1).val / 1024 := congrFun hn 1
  have q2 : win2_6.index n (2 : Fin 3) = (i 2).val / 512 := congrFun hn 2
  refine ⟨n, flush2_6 n, ?_⟩
  rw [mem_blk6]
  intro a
  match a with
  | ⟨0, _⟩ =>
    show win2_6.index n (0 : Fin 3) * 1 ≤ (i 0).val ∧ (i 0).val < win2_6.index n (0 : Fin 3) * 1 + 1
    omega
  | ⟨1, _⟩ =>
    show win2_6.index n (1 : Fin 3) * 1024 ≤ (i 1).val ∧ (i 1).val < win2_6.index n (1 : Fin 3) * 1024 + 1024
    omega
  | ⟨2, _⟩ =>
    show win2_6.index n (2 : Fin 3) * 512 ≤ (i 2).val ∧ (i 2).val < win2_6.index n (2 : Fin 3) * 512 + 512
    omega

/-- The weights array after the region is the specification's weights. -/
theorem weights_array (c : Dev nD)
    (hq : (V c main_v3_0 : S4x256x4096.Idx → EReal)
      = fun i => Cert.Spec.q x Wq bq ⟨(i 0).val, (i 0).isLt⟩ ⟨(i 2).val, (i 2).isLt⟩ ⟨(i 1).val, (i 1).isLt⟩)
    (hk : (V c main_v3_1 : S4x256x4096.Idx → EReal)
      = fun i => Cert.Spec.kk x Wk bk ⟨(i 0).val, (i 0).isLt⟩ ⟨(i 2).val, (i 2).isLt⟩ ⟨(i 1).val, (i 1).isLt⟩)
    (hmax : (V c main_v4_0 : S4x1x4096.Idx → EReal)
      = fun i => Cert.Spec.colMax x Wq bq Wk bk ⟨(i 0).val, (i 0).isLt⟩ ⟨(i 2).val, (i 2).isLt⟩)
    (hsum : (V c main_v4_1 : S4x1x4096.Idx → EReal)
      = fun i => Cert.Spec.colSum x Wq bq Wk bk ⟨(i 0).val, (i 0).isLt⟩ ⟨(i 2).val, (i 2).isLt⟩)
    (hx : ∀ i, ∃ r : ℝ, x i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal)) :
    (dat2 V c).arrAt 6 cfg2.N = Cert.Spec.weights x Wq bq Wk bk :=
  (dat2 V c).arrAt_eq_of_cover 6 _
    (fun n _ => flushed6_eq V x Wq bq Wk bk c hq hk hmax hsum hx hWq hbq hWk hbk n) cover6

end AtIdeal
end Cert.KernelIdeal.Frames
end
-- ==== Proof.KI.Value2out.lean ====
/-
  The attention output array, read. For a fixed batch and query tile the output region walks the eight key tiles
  keeping a 256 by 1024 accumulator: it starts from zero at the first key tile, adds the values tile times the tile of
  normalised weights where the key tile meets the query tile's rows, and leaves the accumulator alone where it does
  not — there every weight is zero, so nothing is lost. After key tile s the accumulator at (feature j, row r) is
  therefore the sum over the key positions of the tiles 0..s of weight(query 1024 t + r, key) · value(key, j), by
  induction on the grid point; after the last tile that is the whole sum over the keys, which is the specification's
  output, and the last point of each (batch, query tile) copies it to the output block. Those blocks tile the array.
-/
import proofs.«130694_j5669356831785_2_alg».proof.Proof.KI.Value2a
import proofs.«130694_j5669356831785_2_alg».proof.Proof.KI.Value2w
import proofs.«130694_j5669356831785_2_alg».proof.Proof.Pay2
import proofs.«130694_j5669356831785_2_alg».proof.Proof.SpecColumn
import Idealize.ShloMosaic.Lib.Pipeline.Value
import Idealize.ShloMosaic.Lib.ValueIdx

set_option maxRecDepth 16384
noncomputable section
namespace Cert.KernelIdeal.Frames
open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx Cert.ColumnSoftmax Cert.KernelIdeal.Pay

/-! ## Sums over the keys, tile by tile -/

/-- The contribution of key tile `m` to a weighted sum over the 4096 keys (nothing past the eighth tile). -/
def tileSumN (W Vv : Fin 4096 → EReal) (m : ℕ) : EReal :=
  if h : m < 8 then ∑ i : Fin 512, W (row ⟨m, h⟩ i) * Vv (row ⟨m, h⟩ i) else 0

/-- The weighted sum over the keys of the first `m` tiles. -/
def partialSum (W Vv : Fin 4096 → EReal) (m : ℕ) : EReal := ∑ s ∈ Finset.range m, tileSumN W Vv s

theorem partialSum_succ (W Vv : Fin 4096 → EReal) (m : ℕ) :
    partialSum W Vv (m + 1) = partialSum W Vv m + tileSumN W Vv m := Finset.sum_range_succ _ _

theorem partialSum_one (W Vv : Fin 4096 → EReal) : partialSum W Vv 1 = tileSumN W Vv 0 := by
  rw [partialSum_succ, show partialSum W Vv 0 = 0 from Finset.sum_range_zero _, zero_add]

/-- All eight tiles: the sum over every key. -/
theorem partialSum_eight (W Vv : Fin 4096 → EReal) : partialSum W Vv 8 = ∑ s : Fin 4096, W s * Vv s := by
  rw [sum_tiles fun s => W s * Vv s]
  unfold partialSum
  rw [Finset.sum_range]
  refine Finset.sum_congr rfl fun j _ => ?_
  unfold tileSumN
  rw [dif_pos j.isLt]

/-- A tile on which every weight vanishes contributes nothing. -/
theorem tileSumN_eq_zero (W Vv : Fin 4096 → EReal) (m : ℕ) (hW : ∀ (h : m < 8) (i : Fin 512), W (row ⟨m, h⟩ i) = 0) :
    tileSumN W Vv m = 0 := by
  unfold tileSumN
  split
  · rename_i h; exact tile_sum_eq_zero W Vv ⟨m, h⟩ (hW h)
  · rfl

/-! ## The point's batch and query row, as numbers -/

/-- The batch of grid point `n`. -/
def bN (n : ℕ) : Fin 4 := ⟨(n / 32) % 4, Nat.mod_lt _ (by decide)⟩
/-- The query position of row `r` of grid point `n`'s query tile. -/
def TN (n : ℕ) (r : Fin 1024) : Fin 4096 := ⟨(1024 * ((n / 8) % 4) + r.val) % 4096, Nat.mod_lt _ (by decide)⟩

theorem pb_eq (t : Fin cfg2.N) : pb t = bN t.val := by
  have hN : t.val < 128 := lt_of_lt_of_eq t.isLt (show cfg2.N = 128 from N_2)
  refine Fin.ext ?_
  show t.val / 32 = (t.val / 32) % 4
  omega
theorem qrow_eq (t : Fin cfg2.N) (r : Fin 1024) : qrow t r = TN t.val r := by
  have := r.isLt
  refine Fin.ext ?_
  show 1024 * ((t.val / 8) % 4) + r.val = (1024 * ((t.val / 8) % 4) + r.val) % 4096
  omega
theorem bN_succ (n : ℕ) (h : (n + 1) % 8 ≠ 0) : bN (n + 1) = bN n := Fin.ext (by
  show ((n + 1) / 32) % 4 = (n / 32) % 4
  have : (n + 1) / 32 = n / 32 := by omega
  rw [this])
theorem TN_succ (n : ℕ) (h : (n + 1) % 8 ≠ 0) (r : Fin 1024) : TN (n + 1) r = TN n r := Fin.ext (by
  show (1024 * (((n + 1) / 8) % 4) + r.val) % 4096 = (1024 * ((n / 8) % 4) + r.val) % 4096
  have : (n + 1) / 8 = n / 8 := by omega
  rw [this])

section
variable (V : (c : Dev nD) → (b : Ref sig .tc) → Buf (Elt Ideal) ((c : Thread nD τ).loc b))
variable (x : Cert.Spec.SX.Idx → EReal) (Wq : Cert.Spec.SW.Idx → EReal) (bq : Cert.Spec.SB.Idx → EReal)
  (Wk : Cert.Spec.SW.Idx → EReal) (bk : Cert.Spec.SB.Idx → EReal) (Wv : Cert.Spec.SW.Idx → EReal) (bv : Cert.Spec.SB.Idx → EReal)

/-- The weights of query row `r` of point `n`'s query tile, as a function of the key. -/
def WN (n : ℕ) (r : Fin 1024) : Fin 4096 → EReal := fun S => Cert.Spec.weightsAt x Wq bq Wk bk (bN n) (TN n r) S
/-- Feature `j` of the values of point `n`'s batch, as a function of the key. -/
def VN (n : ℕ) (j : Fin 256) : Fin 4096 → EReal := fun S => Cert.Spec.v x Wv bv (bN n) S j

theorem outAt_congr {b b' : Fin 4} {j j' : Fin 256} {T T' : Fin 4096} (hb : b.val = b'.val) (hj : j.val = j'.val)
    (hT : T.val = T'.val) :
    Cert.Spec.outAt x Wq bq Wk bk Wv bv b j T = Cert.Spec.outAt x Wq bq Wk bk Wv bv b' j' T' := by
  obtain rfl := Fin.ext hb; obtain rfl := Fin.ext hj; obtain rfl := Fin.ext hT; rfl

theorem v_congr {b b' : Fin 4} {j j' : Fin 256} {S S' : Fin 4096} (hb : b.val = b'.val) (hS : S.val = S'.val)
    (hj : j.val = j'.val) : Cert.Spec.v x Wv bv b S j = Cert.Spec.v x Wv bv b' S' j' := by
  obtain rfl := Fin.ext hb; obtain rfl := Fin.ext hj; obtain rfl := Fin.ext hS; rfl

/-! ## The point's coordinates and blocks -/

/-- The grid coordinates of a point: query tile and key tile. -/
theorem coords2 : ∀ t : Fin cfg2.N, ((grid2.coords t) 1).val = (t.val / 8) % 4 ∧ ((grid2.coords t) 2).val = t.val % 8 :=
  (by decide +kernel : ∀ t : Fin grid2.N, ((grid2.coords t) 1).val = (t.val / 8) % 4 ∧ ((grid2.coords t) 2).val = t.val % 8)

/-- Where the values window's and the output window's blocks sit, decided over the grid: the values block index is the
    smaller of the key tile and the last key tile that meets the query tile (the index map repeats it while the body
    skips). -/
theorem where2_vo : ∀ t : Fin cfg2.N,
    win2_2.index t (0 : Fin 3) = t.val / 32 ∧ win2_2.index t (1 : Fin 3) = 0 ∧ win2_2.index t (2 : Fin 3) = min (t.val % 8) (2 * ((t.val / 8) % 4) + 1)
    ∧ win2_5.index t (0 : Fin 3) = t.val / 32 ∧ win2_5.index t (1 : Fin 3) = 0 ∧ win2_5.index t (2 : Fin 3) = (t.val / 8) % 4 :=
  (by decide +kernel : ∀ t : Fin grid2.N,
    win2_2.index t (0 : Fin 3) = t.val / 32 ∧ win2_2.index t (1 : Fin 3) = 0 ∧ win2_2.index t (2 : Fin 3) = min (t.val % 8) (2 * ((t.val / 8) % 4) + 1)
    ∧ win2_5.index t (0 : Fin 3) = t.val / 32 ∧ win2_5.index t (1 : Fin 3) = 0 ∧ win2_5.index t (2 : Fin 3) = (t.val / 8) % 4)

variable (c : Dev nD)
variable (hv : (V c main_v3_2 : S4x256x4096.Idx → EReal) = fun i => Cert.Spec.v x Wv bv ⟨(i 0).val, (i 0).isLt⟩ ⟨(i 2).val, (i 2).isLt⟩ ⟨(i 1).val, (i 1).isLt⟩)

include hv in
/-- An entry of the values block at a point whose key tile meets the query tile. -/
theorem vblock_apply (t : Fin cfg2.N) (hle : t.val % 8 ≤ 2 * ((t.val / 8) % 4) + 1) (j : Fin 256) (q : Fin 512) :
    blk2 V c 2 t (ix3 (0 : Fin 1) j q) = Cert.Spec.v x Wv bv (pb t) (kcol t q) j := by
  have hN : t.val < 128 := lt_of_lt_of_eq t.isLt (show cfg2.N = 128 from N_2)
  obtain ⟨e0, e1, e2, -, -, -⟩ := where2_vo t
  show (V c main_v3_2 : S4x256x4096.Idx → EReal) (((cfg2.win 2).blk t).view.emb (ix3 (0 : Fin 1) j q)) = _
  rw [hv]
  refine v_congr x Wv bv ?_ ?_ ?_
  · show win2_2.index t (0 : Fin 3) * 1 + 1 * 0 = t.val / 32
    omega
  · show win2_2.index t (2 : Fin 3) * 512 + 1 * q.val = 512 * (t.val % 8) + q.val
    rw [e2, min_eq_left hle]; omega
  · show win2_2.index t (1 : Fin 3) * 256 + 1 * j.val = j.val
    omega

variable (hq : (V c main_v3_0 : S4x256x4096.Idx → EReal) = fun i => Cert.Spec.q x Wq bq ⟨(i 0).val, (i 0).isLt⟩ ⟨(i 2).val, (i 2).isLt⟩ ⟨(i 1).val, (i 1).isLt⟩)
  (hk : (V c main_v3_1 : S4x256x4096.Idx → EReal) = fun i => Cert.Spec.kk x Wk bk ⟨(i 0).val, (i 0).isLt⟩ ⟨(i 2).val, (i 2).isLt⟩ ⟨(i 1).val, (i 1).isLt⟩)
  (hmax : (V c main_v4_0 : S4x1x4096.Idx → EReal) = fun i => Cert.Spec.colMax x Wq bq Wk bk ⟨(i 0).val, (i 0).isLt⟩ ⟨(i 2).val, (i 2).isLt⟩)
  (hsum : (V c main_v4_1 : S4x1x4096.Idx → EReal) = fun i => Cert.Spec.colSum x Wq bq Wk bk ⟨(i 0).val, (i 0).isLt⟩ ⟨(i 2).val, (i 2).isLt⟩)
  (hx : ∀ i, ∃ r : ℝ, x i = (r : EReal)) (hWq : ∀ i, ∃ r : ℝ, Wq i = (r : EReal)) (hbq : ∀ i, ∃ r : ℝ, bq i = (r : EReal))
  (hWk : ∀ i, ∃ r : ℝ, Wk i = (r : EReal)) (hbk : ∀ i, ∃ r : ℝ, bk i = (r : EReal))

include hv hq hk hmax hsum hx hWq hbq hWk hbk

/-! ## One point -/

/-- The product of the values tile with the weight tile at a point whose key tile meets the query tile, at
    (feature `j`, row `r`): the key tile's contribution to the weighted sum over the keys. -/
theorem tile_product (t : Fin cfg2.N) (h1 : t.val % 8 ≤ 2 * ((t.val / 8) % 4) + 1) (j : Fin 256) (r : Fin 1024) :
    (∑ q : Fin 512, k2_pay5 (F := Ideal) (blk2 V c 2 t) (ix2 j q)
        * k2_pay8 (F := Ideal) (BitVec.ofNat 32 ((t.val / 8) % 4)) (BitVec.ofNat 32 (t.val % 8)) (blk2 V c 0 t) (blk2 V c 1 t) (blk2 V c 3 t) (blk2 V c 4 t) (ix2 r q))
      = tileSumN (WN x Wq bq Wk bk t.val r) (VN x Wv bv t.val j) (t.val % 8) := by
  have h8 : t.val % 8 < 8 := Nat.mod_lt _ (by decide)
  unfold tileSumN
  rw [dif_pos h8]
  refine Finset.sum_congr rfl fun q _ => ?_
  rw [k2_pay5_apply, k2_pay8_apply, w_entry V x Wq bq Wk bk c hq hk hmax hsum hx hWq hbq hWk hbk t h1 r q,
    vblock_apply V x Wv bv c hv t h1 j q, mul_comm, pb_eq, qrow_eq]
  rfl

/-- ONE POINT, at one entry of the accumulator: the first key tile starts from zero, the others from what the point
    before left; the key tile's contribution is added (it is zero where the key tile does not meet the query tile). -/
theorem point_acc (t : Fin cfg2.N) (prev : Vec Ideal S256x1024 .f32) (j : Fin 256) (r : Fin 1024) :
    (step2 V c t prev).2.2 (ix2 j r)
      = (if t.val % 8 = 0 then 0 else prev (ix2 j r))
        + tileSumN (WN x Wq bq Wk bk t.val r) (VN x Wv bv t.val j) (t.val % 8) := by
  have hN : t.val < 128 := lt_of_lt_of_eq t.isLt (show cfg2.N = 128 from N_2)
  obtain ⟨ec1, ec2⟩ := coords2 t
  by_cases h1 : t.val % 8 ≤ 2 * ((t.val / 8) % 4) + 1
  · have h2 : ¬2 * ((t.val / 8) % 4) + 1 < t.val % 8 := by omega
    have hprod := tile_product V x Wq bq Wk bk Wv bv c hv hq hk hmax hsum hx hWq hbq hWk hbk t h1 j r
    by_cases h0 : t.val % 8 = 0
    · have h3 : ¬t.val % 8 = 7 := by omega
      rw [step2_P V c t prev h0 h1 h2 h3, if_pos h0]
      dsimp only
      rw [acc_P, ec1, ec2, k2_pay2_apply, k2_pay1_apply, hprod]
    · by_cases h3 : t.val % 8 = 7
      · rw [step2_S V c t prev h0 h1 h2 h3, if_neg h0]
        dsimp only
        rw [acc_S, ec1, ec2, k2_pay2_apply, hprod]
      · rw [step2_Q V c t prev h0 h1 h2 h3, if_neg h0]
        dsimp only
        rw [acc_Q, ec1, ec2, k2_pay2_apply, hprod]
  · have h0 : ¬t.val % 8 = 0 := by omega
    have h2 : 2 * ((t.val / 8) % 4) + 1 < t.val % 8 := by omega
    have hzero : tileSumN (WN x Wq bq Wk bk t.val r) (VN x Wv bv t.val j) (t.val % 8) = 0 :=
      tileSumN_eq_zero _ _ _ fun h i =>
        Cert.Spec.weightsAt_of_lt x Wq bq Wk bk hx hWq hbq hWk hbk (bN t.val) (Fin.lt_def.mpr (by
          show (1024 * ((t.val / 8) % 4) + r.val) % 4096 < 512 * (t.val % 8) + i.val
          have := r.isLt
          omega))
    rw [hzero, add_zero, if_neg h0]
    by_cases h3 : t.val % 8 = 7
    · rw [step2_T V c t prev h0 h1 h2 h3]
    · rw [step2_R V c t prev h0 h1 h2 h3]

/-! ## The fold over the grid -/

/-- THE FOLD: after grid point n = 32 b + 8 t + s the accumulator holds, at (feature j, row r), the weighted sum of the
    values over the keys of the tiles 0..s. By induction on the point. -/
theorem acc_inv : ∀ (n : ℕ) (h : n < cfg2.N) (j : Fin 256) (r : Fin 1024),
    (outsAt2 V c n h).2.2 (ix2 j r) = partialSum (WN x Wq bq Wk bk n r) (VN x Wv bv n j) (n % 8 + 1) := by
  intro n
  induction n with
  | zero =>
    intro h j r
    have e : outsAt2 V c 0 h = step2 V c ⟨0, h⟩ (scratch0_2 (F := Ideal)) := rfl
    rw [e, point_acc V x Wq bq Wk bk Wv bv c hv hq hk hmax hsum hx hWq hbq hWk hbk ⟨0, h⟩ _ j r]
    show (if (0 : ℕ) % 8 = 0 then 0 else _) + tileSumN _ _ (0 % 8) = partialSum _ _ (0 % 8 + 1)
    rw [if_pos rfl, zero_add]
    exact (partialSum_one _ _).symm
  | succ n ih =>
    intro h j r
    have hN : n + 1 < 128 := lt_of_lt_of_eq h (show cfg2.N = 128 from N_2)
    have e : outsAt2 V c (n + 1) h = step2 V c ⟨n + 1, h⟩ (outsAt2.scratchOf2 (outsAt2 V c n (Nat.lt_of_succ_lt h))) := rfl
    rw [e, point_acc V x Wq bq Wk bk Wv bv c hv hq hk hmax hsum hx hWq hbq hWk hbk ⟨n + 1, h⟩ _ j r]
    show (if (n + 1) % 8 = 0 then 0 else (outsAt2 V c n (Nat.lt_of_succ_lt h)).2.2 (ix2 j r))
      + tileSumN (WN x Wq bq Wk bk (n + 1) r) (VN x Wv bv (n + 1) j) ((n + 1) % 8) = _
    by_cases h0 : (n + 1) % 8 = 0
    · rw [if_pos h0, zero_add, h0]
      exact (partialSum_one _ _).symm
    · rw [if_neg h0, ih (Nat.lt_of_succ_lt h) j r]
      have eW : WN x Wq bq Wk bk (n + 1) r = WN x Wq bq Wk bk n r := by
        unfold WN; rw [bN_succ n h0, TN_succ n h0 r]
      have eV : VN x Wv bv (n + 1) j = VN x Wv bv n j := by
        unfold VN; rw [bN_succ n h0]
      have et : (n + 1) % 8 = n % 8 + 1 := by omega
      rw [eW, eV, et]
      exact (partialSum_succ _ _ _).symm

/-- At the last key tile the output block is the accumulator, as the point leaves it, under a leading unit axis. -/
theorem out5_eq (t : Fin cfg2.N) (h7 : t.val % 8 = 7) :
    (outsAt2 V c t.val t.isLt).1 = k2_pay4 (F := Ideal) (outsAt2 V c t.val t.isLt).2.2 := by
  have hN : t.val < 128 := lt_of_lt_of_eq t.isLt (show cfg2.N = 128 from N_2)
  have hz : t.val ≠ 0 := by omega
  have h0 : ¬t.val % 8 = 0 := by omega
  rw [outsAt2_pos V c t hz]
  by_cases h1 : t.val % 8 ≤ 2 * ((t.val / 8) % 4) + 1
  · have h2 : ¬2 * ((t.val / 8) % 4) + 1 < t.val % 8 := by omega
    rw [step2_S V c t _ h0 h1 h2 h7]
    dsimp only
    rw [out_S, acc_S]
  · have h2 : 2 * ((t.val / 8) % 4) + 1 < t.val % 8 := by omega
    rw [step2_T V c t _ h0 h1 h2 h7]
    dsimp only
    rw [out_T]

/-! ## The output array -/

/-- What a flushing point writes back through window 5 is its block of the specification's output. -/
theorem flushed2_5 (t : Fin cfg2.N) (hf : (cfg2.win 5).flush t = true) :
    (dat2 V c).flushed 5 t = ((cfg2.win 5).blk t).view.read (Elt Ideal) (Cert.Spec.out x Wq bq Wk bk Wv bv) := by
  have hN : t.val < 128 := lt_of_lt_of_eq t.isLt (show cfg2.N = 128 from N_2)
  have h7 : t.val % 8 = 7 := (flush2_5 t).mp hf
  obtain ⟨-, -, -, b0, b1, b2⟩ := where2_vo t
  show (cfg2.win 5).cut (grid2.coords t) ((dat2 V c).after 5 t) = _
  rw [after2_5]
  funext j'
  obtain ⟨j, r, rfl⟩ : ∃ (j : Fin 256) (r : Fin 1024), j' = ix3 (0 : Fin 1) j r :=
    ⟨⟨(j' 1).val, (j' 1).isLt⟩, ⟨(j' 2).val, (j' 2).isLt⟩, funext fun a => Fin.ext (by
      match a with
      | ⟨0, _⟩ => have h : (j' 0).val < 1 := (j' 0).isLt; show (j' 0).val = 0; omega
      | ⟨1, _⟩ => rfl
      | ⟨2, _⟩ => rfl)⟩
  show (outsAt2 V c t.val t.isLt).1 (ix3 (0 : Fin 1) j r)
    = Cert.Spec.out x Wq bq Wk bk Wv bv (((cfg2.win 5).blk t).view.emb (ix3 (0 : Fin 1) j r))
  rw [out5_eq V x Wq bq Wk bk Wv bv c hv hq hk hmax hsum hx hWq hbq hWk hbk t h7, k2_pay4_apply,
    acc_inv V x Wq bq Wk bk Wv bv c hv hq hk hmax hsum hx hWq hbq hWk hbk t.val t.isLt j r, h7, partialSum_eight]
  refine (show _ = Cert.Spec.outAt x Wq bq Wk bk Wv bv (bN t.val) j (TN t.val r) from rfl).trans ?_
  unfold Cert.Spec.out
  refine outAt_congr x Wq bq Wk bk Wv bv ?_ ?_ ?_
  · show (t.val / 32) % 4 = win2_5.index t (0 : Fin 3) * 1 + 1 * 0
    omega
  · show j.val = win2_5.index t (1 : Fin 3) * 256 + 1 * j.val
    omega
  · show (1024 * ((t.val / 8) % 4) + r.val) % 4096 = win2_5.index t (2 : Fin 3) * 1024 + 1 * r.val
    have := r.isLt
    omega

omit hv hq hk hmax hsum hx hWq hbq hWk hbk in
/-- Every entry of the array lies in the block some flushing point writes back. -/
theorem cover2_5 (i : S4x256x4096.Idx) :
    ∃ t : Fin cfg2.N, (cfg2.win 5).flush t = true ∧ i ∈ ((cfg2.win 5).blk t).view.set := by
  have h0 : (i 0).val < 4 := (i 0).isLt
  have h1 : (i 1).val < 256 := (i 1).isLt
  have h2 : (i 2).val < 4096 := (i 2).isLt
  have hN : cfg2.N = 128 := N_2
  let t : Fin cfg2.N := ⟨32 * (i 0).val + 8 * ((i 2).val / 1024) + 7, by omega⟩
  have hv' : t.val = 32 * (i 0).val + 8 * ((i 2).val / 1024) + 7 := rfl
  obtain ⟨-, -, -, b0, b1, b2⟩ := where2_vo t
  refine ⟨t, (flush2_5 t).mpr (by omega), ?_⟩
  show i ∈ ((View.whole main_v5_0).slice (win2_5.rect t)).set
  rw [View.set_slice_whole, Rect.mem_set_unit]
  intro a
  match a with
  | ⟨0, _⟩ =>
    show win2_5.index t (0 : Fin 3) * win2_5.size 0 ≤ (i 0 : Nat) ∧ (i 0 : Nat) < win2_5.index t (0 : Fin 3) * win2_5.size 0 + win2_5.xsize (grid2.coords t) 0
    rw [show win2_5.size 0 = 1 from rfl, show win2_5.xsize (grid2.coords t) 0 = 1 from rfl]; omega
  | ⟨1, _⟩ =>
    show win2_5.index t (1 : Fin 3) * win2_5.size 1 ≤ (i 1 : Nat) ∧ (i 1 : Nat) < win2_5.index t (1 : Fin 3) * win2_5.size 1 + win2_5.xsize (grid2.coords t) 1
    rw [show win2_5.size 1 = 256 from rfl, show win2_5.xsize (grid2.coords t) 1 = 256 from rfl]; omega
  | ⟨2, _⟩ =>
    show win2_5.index t (2 : Fin 3) * win2_5.size 2 ≤ (i 2 : Nat) ∧ (i 2 : Nat) < win2_5.index t (2 : Fin 3) * win2_5.size 2 + win2_5.xsize (grid2.coords t) 2
    rw [show win2_5.size 2 = 1024 from rfl, show win2_5.xsize (grid2.coords t) 2 = 1024 from rfl]; omega

/-- So the array ends holding the specification's output. -/
theorem out_array : (dat2 V c).arrAt 5 cfg2.N = Cert.Spec.out x Wq bq Wk bk Wv bv :=
  (dat2 V c).arrAt_eq_of_cover 5 (Cert.Spec.out x Wq bq Wk bk Wv bv)
    (flushed2_5 V x Wq bq Wk bk Wv bv c hv hq hk hmax hsum hx hWq hbq hWk hbk) cover2_5

end
end Cert.KernelIdeal.Frames
end
-- ==== Proof.FiniteInputs.lean ====
/-
  Finite inputs are real. The precondition says, of each of the seven argument arrays, that every entry's absolute
  value is below +∞, all seven conjoined into one bit. On the extended reals `|x| = max x (-x)`, which is +∞ at both
  infinities, so an entry whose absolute value is below +∞ is neither: it is a real number.
-/
import proofs.«130694_j5669356831785_2_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic Cert.Pre_finite_inputs

/-- An extended real whose absolute value compares below the word of +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have hinf : Ideal.ofBits .f32 0x7F800000#32 = ⊤ := by simp [Ideal.ofBits, Ideal.ieee]
  change Ideal.cmp .olt (max x (-x)) (Ideal.ofBits .f32 0x7F800000#32) = 1#1 at h
  rw [hinf] at h
  induction x using EReal.rec with
  | bot => simp [Ideal.cmp] at h
  | top => simp [Ideal.cmp] at h
  | coe r => exact ⟨r, rfl⟩

/-- The scalar shape has one index. -/
instance : Subsingleton S_.Idx := ⟨fun _ _ => funext fun d => d.elim0⟩

/-- One array: if the conjunction over all entries of "the absolute value is below +∞" is 1, every entry is real. -/
theorem all_real {S : Shape} {axes : List (Fin S.rank)} (dims : Fin S_.rank → Fin S.rank) (hb : S_.BroadcastsInDim S dims)
    (hr : S.ReducesTo axes S_) (hu : 0 < S_.numel) (a : FVec Ideal S .f32)
    (h : Host.reduce IntOp.andi (cmpf .olt (Host.absf a) (broadcastInDim S dims hb (constant S_ .f32 0x7F800000#32)))
      (constantI S_ 1 1#1) hr hu ValueIdx.ix0 = 1#1) (i : S.Idx) : ∃ r : ℝ, a i = (r : EReal) :=
  real_of_abs_lt_inf (a i) (Host.reduce_andi_all _ _ hr hu _ h i)

/-- The precondition's bit is 1 only if every entry of every argument array is a real number. -/
theorem entries_real [Cert.Pre_finite_inputs.Facts]
    (a0 : FVec Ideal S4x256x4096 .f32) (a1 : FVec Ideal S256x256 .f32) (a2 : FVec Ideal S256 .f32)
    (a3 : FVec Ideal S256x256 .f32) (a4 : FVec Ideal S256 .f32) (a5 : FVec Ideal S256x256 .f32) (a6 : FVec Ideal S256 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ValueIdx.ix0
  dsimp only [Cert.Pre_finite_inputs.fn, Cert.Pre_finite_inputs.fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨all_real _ _ _ _ a0 h0, all_real _ _ _ _ a1 h1, all_real _ _ _ _ a2 h2, all_real _ _ _ _ a3 h3,
    all_real _ _ _ _ a4 h4, all_real _ _ _ _ a5 h5, all_real _ _ _ _ a6 h6⟩

end Cert.FiniteInputs

end
-- ==== Proof.PreReal.lean ====
/-
  The precondition of the idealized kernel, read back: on every device, every entry of each of the seven argument
  buffers is a real number.
-/
import proofs.«130694_j5669356831785_2_alg».proof.Defs
import proofs.«130694_j5669356831785_2_alg».proof.Proof.FiniteInputs

noncomputable section

namespace Cert.FiniteInputs

open Idealize.ShloMosaic Idealize.SL.Sem

/-- Under the idealized kernel's precondition the argument buffers hold real numbers. -/
theorem kernelIdeal_args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal)) :=
  entries_real _ _ _ _ _ _ _ (h c)

end Cert.FiniteInputs

end
-- ==== Proof.KI.Results.lean ====
/-
  What the output region is entered with, and the kernel's two results.

  The statistics region only reads q and k, so they reach the output region as the projection region left them,
  beside v and the two statistics arrays; with these five the output region's two result arrays are the
  specification's attention output and attention weights, and they are what the two result buffers hold at the end.
-/
import proofs.«130694_j5669356831785_2_alg».proof.Proof.KI.Bridge
import proofs.«130694_j5669356831785_2_alg».proof.Proof.KI.Value2wa
import proofs.«130694_j5669356831785_2_alg».proof.Proof.KI.Value2out
import proofs.«130694_j5669356831785_2_alg».proof.Proof.PreReal

set_option maxRecDepth 16384
noncomputable section
namespace Cert.KernelIdeal.Frames
open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

variable (m : (ℓ : Loc nD τ sig) → Buf (Elt Ideal) ℓ)

/-- The statistics region leaves its two inputs as it found them, and does not touch v. -/
theorem keep_q (c : Dev nD) : V3 m c main_v3_0 = V2 m c main_v3_0 :=
  (W3_arr m c 0).trans (((dat1 (V2 m) c).arrAt_in 0 rfl _).trans (A_eq1 (V2 m) c 0))
theorem keep_k (c : Dev nD) : V3 m c main_v3_1 = V2 m c main_v3_1 :=
  (W3_arr m c 1).trans (((dat1 (V2 m) c).arrAt_in 1 rfl _).trans (A_eq1 (V2 m) c 1))
theorem keep_v (c : Dev nD) : V3 m c main_v3_2 = V2 m c main_v3_2 := W3_of_ne m c main_v3_2 (by decide)

theorem q3 (c : Dev nD) : V3 m c main_v3_0 = fun i => Cert.Spec.q (aX m c) (aWq m c) (aBq m c) ⟨(i 0).val, (i 0).isLt⟩ ⟨(i 2).val, (i 2).isLt⟩ ⟨(i 1).val, (i 1).isLt⟩ :=
  funext fun i => (congrFun (keep_q m c) i).trans (q_is m c i)
theorem k3 (c : Dev nD) : V3 m c main_v3_1 = fun i => Cert.Spec.kk (aX m c) (aWk m c) (aBk m c) ⟨(i 0).val, (i 0).isLt⟩ ⟨(i 2).val, (i 2).isLt⟩ ⟨(i 1).val, (i 1).isLt⟩ :=
  funext fun i => (congrFun (keep_k m c) i).trans (k_is m c i)
theorem v3 (c : Dev nD) : V3 m c main_v3_2 = fun i => Cert.Spec.v (aX m c) (aWv m c) (aBv m c) ⟨(i 0).val, (i 0).isLt⟩ ⟨(i 2).val, (i 2).isLt⟩ ⟨(i 1).val, (i 1).isLt⟩ :=
  funext fun i => (congrFun (keep_v m c) i).trans (v_is m c i)

section
variable (c : Dev nD)
  (hx : ∀ i, ∃ r : ℝ, aX m c i = (r : EReal)) (hWq : ∀ i, ∃ r : ℝ, aWq m c i = (r : EReal)) (hbq : ∀ i, ∃ r : ℝ, aBq m c i = (r : EReal))
  (hWk : ∀ i, ∃ r : ℝ, aWk m c i = (r : EReal)) (hbk : ∀ i, ∃ r : ℝ, aBk m c i = (r : EReal))
include hx hWq hbq hWk hbk

theorem max3 : (V3 m c main_v4_0 : S4x1x4096.Idx → EReal)
    = fun i => Cert.Spec.colMax (aX m c) (aWq m c) (aBq m c) (aWk m c) (aBk m c) ⟨(i 0).val, (i 0).isLt⟩ ⟨(i 2).val, (i 2).isLt⟩ :=
  funext fun i => congrArg Prod.fst (stats_is m c hx hWq hbq hWk hbk i)
theorem sum3 : (V3 m c main_v4_1 : S4x1x4096.Idx → EReal)
    = fun i => Cert.Spec.colSum (aX m c) (aWq m c) (aBq m c) (aWk m c) (aBk m c) ⟨(i 0).val, (i 0).isLt⟩ ⟨(i 2).val, (i 2).isLt⟩ :=
  funext fun i => congrArg Prod.snd (stats_is m c hx hWq hbq hWk hbk i)

/-- The weights result is the specification's attention weights. -/
theorem weights_is : V4 m c main_v5_1 = Cert.Spec.weights (aX m c) (aWq m c) (aBq m c) (aWk m c) (aBk m c) :=
  (W4_arr m c 6).trans (weights_array (V3 m) (aX m c) (aWq m c) (aBq m c) (aWk m c) (aBk m c) c (q3 m c) (k3 m c)
    (max3 m c hx hWq hbq hWk hbk) (sum3 m c hx hWq hbq hWk hbk) hx hWq hbq hWk hbk)

/-- The output result is the specification's attention output. -/
theorem out_is : V4 m c main_v5_0 = Cert.Spec.out (aX m c) (aWq m c) (aBq m c) (aWk m c) (aBk m c) (aWv m c) (aBv m c) :=
  (W4_arr m c 5).trans (out_array (V3 m) (aX m c) (aWq m c) (aBq m c) (aWk m c) (aBk m c) (aWv m c) (aBv m c) c (v3 m c) (q3 m c) (k3 m c)
    (max3 m c hx hWq hbq hWk hbk) (sum3 m c hx hWq hbq hWk hbk) hx hWq hbq hWk hbk)

end

/-- THE KERNEL'S VALUES: under the precondition every weakly fair execution of the idealized kernel terminates without a
    fault, with the two results at the specification's attention output and attention weights of the launch arguments,
    and the arguments as launched. -/
theorem values [Cert.Pre_finite_inputs.Facts] (ρ : Dev nD → PrngReg) (hpre : Cert.Pre_KernelIdeal m) :
    θ_run defs (onTc (τ := τ) (main (F := Ideal))) ⟨m, fun _ => 0, ρ⟩ (fun r => ∀ c : Dev nD,
      r.2.mem ((c.tc : Thread nD τ).loc main_v5_0) = Cert.Spec.out (aX m c) (aWq m c) (aBq m c) (aWk m c) (aBk m c) (aWv m c) (aBv m c)
      ∧ r.2.mem ((c.tc : Thread nD τ).loc main_v5_1) = Cert.Spec.weights (aX m c) (aWq m c) (aBq m c) (aWk m c) (aBk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    obtain ⟨hx, hWq, hbq, hWk, hbk, hWv, hbv⟩ := Cert.FiniteInputs.kernelIdeal_args_real m hpre c
    exact ⟨(h c _ (mem_uc main_v5_0 (by decide))).trans (out_is m c hx hWq hbq hWk hbk),
      (h c _ (mem_uc main_v5_1 (by decide))).trans (weights_is m c hx hWq hbq hWk hbk),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩) (run m ρ)

end Cert.KernelIdeal.Frames
end
-- ==== Proof.lean ====
/-
  The certificate's claim, assembled.

  Three frames: the word-level kernel and its idealization are the same program of three kernel launches, and each
  launch's frame is proved in the modules under K/ and KI/ (one region record per launch, composed by the launch
  theorem for a program of several regions); the reference is a straight line of host operations whose run is read
  back whole. The idealization changes one scalar at two sites, the causal mask's fill, read as minus infinity.
  The value claim: at the ideal instance both programs compute, for every batch, the softmax over the QUERY axis of
  the causally masked scaled scores — for key column s, the weights exp(score(t, s) − max_t score) / Σ_t exp(…) —
  and its product with the values. The reference does so in one pass over whole arrays; the kernel tile by tile, with
  a running maximum and a rescaled running sum per column, which agree with the plain maximum and sum because every
  unmasked score is a real number (the inputs are finite) and a masked one contributes exp(−∞) = 0.
-/
import proofs.«130694_j5669356831785_2_alg».proof.Defs
import proofs.«130694_j5669356831785_2_alg».proof.Proof.Gen.Kernel
import proofs.«130694_j5669356831785_2_alg».proof.Proof.Gen.KernelIdeal
import proofs.«130694_j5669356831785_2_alg».proof.Proof.Gen.ReferenceIdeal
import proofs.«130694_j5669356831785_2_alg».proof.Proof.Gen.Pre_finite_inputs
import proofs.«130694_j5669356831785_2_alg».proof.Proof.HostSide
import proofs.«130694_j5669356831785_2_alg».proof.Proof.RefIsSpec
import proofs.«130694_j5669356831785_2_alg».proof.Proof.K.Run
import proofs.«130694_j5669356831785_2_alg».proof.Proof.KI.Results
import Idealize.ShloMosaic.Adequacy
import Idealize.ShloMosaic.Init

noncomputable section

namespace Cert.Proof

open Idealize.ShloMosaic Idealize.SL.Sem

/-- The word-level kernel runs to the end without a fault and leaves its arguments as launched. -/
theorem frame_kernel : Cert.frame_Kernel := fun m ρ _ => Cert.Kernel.Frames.frame (F := Bits) m ρ

/-- So does its idealization. -/
theorem frame_kernel_ideal : Cert.frame_KernelIdeal := fun m ρ _ => Cert.KernelIdeal.Frames.frame (F := Ideal) m ρ

/-- From memories agreeing on the seven arguments, the idealized kernel and the idealized reference both end with the
    specification's attention output and attention weights of those arguments. -/
theorem same_values [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.weights (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Frames.values m ρ hpre, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.RefValue.res_out0_eq m' c).trans ?_
    rw [(hagree c).1, (hagree c).2.1, (hagree c).2.2.1, (hagree c).2.2.2.1, (hagree c).2.2.2.2.1, (hagree c).2.2.2.2.2.1, (hagree c).2.2.2.2.2.2]
  · refine (Cert.ReferenceIdeal.RefValue.res_out1_eq m' c).trans ?_
    rw [(hagree c).1, (hagree c).2.1, (hagree c).2.2.1, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_kernel, frame_kernel_ideal, Cert.Proof.HostSide.frame_reference, Cert.Proof.HostSide.fill_is_bot, same_values⟩

end Cert.Proof

end
